-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S3x10 : Shape := ⟨2, ![3, 10]⟩
abbrev S3 : Shape := ⟨1, ![3]⟩
abbrev S3x2 : Shape := ⟨2, ![3, 2]⟩
abbrev S8 : Shape := ⟨1, ![8]⟩
abbrev S10x8 : Shape := ⟨2, ![10, 8]⟩
abbrev S10 : Shape := ⟨1, ![10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S3x10 : S_.BroadcastsInDim S3x10 (![] : Fin 0 → Fin S3x10.rank)
  reducesTo_S3x10_S_d0_1 : S3x10.ReducesTo [0, 1] S_
  bcast_S_S3 : S_.BroadcastsInDim S3 (![] : Fin 0 → Fin S3.rank)
  reducesTo_S3_S_d0 : S3.ReducesTo [0] S_
  bcast_S_S3x2 : S_.BroadcastsInDim S3x2 (![] : Fin 0 → Fin S3x2.rank)
  reducesTo_S3x2_S_d0_1 : S3x2.ReducesTo [0, 1] S_
  bcast_S_S8 : S_.BroadcastsInDim S8 (![] : Fin 0 → Fin S8.rank)
  reducesTo_S8_S_d0 : S8.ReducesTo [0] S_
  bcast_S_S10x8 : S_.BroadcastsInDim S10x8 (![] : Fin 0 → Fin S10x8.rank)
  reducesTo_S10x8_S_d0_1 : S10x8.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S8 .f32) (main_arg8 : FVec F S8 .f32) (main_arg9 : FVec F S10x8 .f32) (main_arg10 : FVec F S10 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S10x8 .f32 := Host.absf main_arg9
  let main_cst_16 : FVec F S_ .f32 := constant S_ .f32 0x7F800000#32
  let main_v45 : FVec F S10x8 .f32 := broadcastInDim S10x8 ![] bcast_S_S10x8 main_cst_16
  let main_v46 : IVec S10x8 1 := cmpf .olt main_v44 main_v45
  let main_c_17 : IVec S_ 1 := constantI S_ 1 1#1
  let main_v47 : IVec S_ 1 := (fun x v => Host.reduce IntOp.andi x v reducesTo_S10x8_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S3 .f32) (main_arg5 : FVec F S3x2 .f32) (main_arg6 : FVec F S3x2 .f32) (main_arg7 : FVec F S8 .f32) (main_arg8 : FVec F S8 .f32) (main_arg9 : FVec F S10x8 .f32) (main_arg10 : FVec F S10 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x2 .f32 := Host.absf main_arg5
  let main_cst_8 : FVec F S_ .f32 := constant S_ .f32 0x7F800000#32
  let main_v25 : FVec F S3x2 .f32 := broadcastInDim S3x2 ![] bcast_S_S3x2 main_cst_8
  let main_v26 : IVec S3x2 1 := cmpf .olt main_v24 main_v25
  let main_c_9 : IVec S_ 1 := constantI S_ 1 1#1
  let main_v27 : IVec S_ 1 := (fun x v => Host.reduce IntOp.andi x v reducesTo_S3x2_S_d0_1 h_S_) main_v26 main_c_9
  let main_v28 : IVec S_ 1 := andi main_v23 main_v27
  let main_v29 : FVec F S3x2 .f32 := Host.absf main_arg6
  let main_cst_10 : FVec F S_ .f32 := constant S_ .f32 0x7F800000#32
  let main_v30 : FVec F S3x2 .f32 := broadcastInDim S3x2 ![] bcast_S_S3x2 main_cst_10
  let main_v31 : IVec S3x2 1 := cmpf .olt main_v29 main_v30
  let main_c_11 : IVec S_ 1 := constantI S_ 1 1#1
  let main_v32 : IVec S_ 1 := (fun x v => Host.reduce IntOp.andi x v reducesTo_S3x2_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1048576x10 .f32) (main_arg1 : FVec F S3x10 .f32) (main_arg2 : FVec F S3 .f32) (main_arg3 : FVec F S3 .f32) (main_arg4 : FVec F S3 .f32) (main_arg5 : FVec F S3x2 .f32) (main_arg6 : FVec F S3x2 .f32) (main_arg7 : FVec F S8 .f32) (main_arg8 : FVec F S8 .f32) (main_arg9 : FVec F S10x8 .f32) (main_arg10 : FVec F S10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S3x10 .f32 := Host.absf main_arg1
  let main_cst_0 : FVec F S_ .f32 := constant S_ .f32 0x7F800000#32
  let main_v5 : FVec F S3x10 .f32 := broadcastInDim S3x10 ![] bcast_S_S3x10 main_cst_0
  let main_v6 : IVec S3x10 1 := cmpf .olt main_v4 main_v5
  let main_c_1 : IVec S_ 1 := constantI S_ 1 1#1
  let main_v7 : IVec S_ 1 := (fun x v => Host.reduce IntOp.andi x v reducesTo_S3x10_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_v13 main_v16
-- ==== Kernel.lean ====
abbrev S1048576x10 : Shape := ⟨2, ![1048576, 10]⟩
abbrev S3x10 : Shape := ⟨2, ![3, 10]⟩
abbrev S3 : Shape := ⟨1, ![3]⟩
abbrev S3x2 : Shape := ⟨2, ![3, 2]⟩
abbrev S8 : Shape := ⟨1, ![8]⟩
abbrev S10x8 : Shape := ⟨2, ![10, 8]⟩
abbrev S10 : Shape := ⟨1, ![10]⟩
abbrev S10x3 : Shape := ⟨2, ![10, 3]⟩
abbrev S3x1 : Shape := ⟨2, ![3, 1]⟩
abbrev S3x8 : Shape := ⟨2, ![3, 8]⟩
abbrev S8x3 : Shape := ⟨2, ![8, 3]⟩
abbrev S2048x10 : Shape := ⟨2, ![2048, 10]⟩
abbrev S2048x3 : Shape := ⟨2, ![2048, 3]⟩
abbrev S1x3 : Shape := ⟨2, ![1, 3]⟩
abbrev S2048 : Shape := ⟨1, ![2048]⟩
abbrev S2048x1 : Shape := ⟨2, ![2048, 1]⟩
abbrev S2048x8 : Shape := ⟨2, ![2048, 8]⟩
abbrev S1048576x3 : Shape := ⟨2, ![1048576, 3]⟩
abbrev S1x8 : Shape := ⟨2, ![1, 8]⟩

abbrev nBuf : Space → Nat
  | .hbm => 26
  | .vmem => 32
  | .smem => 0
  | _ => 0

abbrev bufTy : (tb : Table) → Fin (tcTables nBuf tb) → BufTy
  | .hbm, ⟨0, _⟩ => ⟨S1048576x10, .f32⟩
  | .hbm, ⟨1, _⟩ => ⟨S3x10, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S3x2, .f32⟩
  | .hbm, ⟨6, _⟩ => ⟨S3x2, .f32⟩
  | .hbm, ⟨7, _⟩ => ⟨S8, .f32⟩
  | .hbm, ⟨8, _⟩ => ⟨S8, .f32⟩
  | .hbm, ⟨9, _⟩ => ⟨S10x8, .f32⟩
  | .hbm, ⟨10, _⟩ => ⟨S10, .f32⟩
  | .hbm, ⟨11, _⟩ => ⟨S10x3, .f32⟩
  | .hbm, ⟨12, _⟩ => ⟨S3x1, .f32⟩
  | .hbm, ⟨13, _⟩ => ⟨S3, .f32⟩
  | .hbm, ⟨14, _⟩ => ⟨S3x1, .f32⟩
  | .hbm, ⟨15, _⟩ => ⟨S3, .f32⟩
  | .hbm, ⟨16, _⟩ => ⟨S3x1, .f32⟩
  | .hbm, ⟨17, _⟩ => ⟨S3, .f32⟩
  | .hbm, ⟨18, _⟩ => ⟨S3x1, .f32⟩
  | .hbm, ⟨19, _⟩ => ⟨S3, .f32⟩
  | .hbm, ⟨20, _⟩ => ⟨S3x8, .f32⟩
  | .hbm, ⟨21, _⟩ => ⟨S8x3, .f32⟩
  | .hbm, ⟨22, _⟩ => ⟨S3, .f32⟩
  | .hbm, ⟨23, _⟩ => ⟨S8, .f32⟩
  | .hbm, ⟨24, _⟩ => ⟨S8, .f32⟩
  | .hbm, ⟨25, _⟩ => ⟨S1048576x3, .f32⟩
  | .local _ .vmem, ⟨0, _⟩ => ⟨S2048x10, .f32⟩
  | .local _ .vmem, ⟨1, _⟩ => ⟨S2048x10, .f32⟩
  | .local _ .vmem, ⟨2, _⟩ => ⟨S10x3, .f32⟩
  | .local _ .vmem, ⟨3, _⟩ => ⟨S3, .f32⟩
  | .local _ .vmem, ⟨4, _⟩ => ⟨S3, .f32⟩
  | .local _ .vmem, ⟨5, _⟩ => ⟨S3, .f32⟩
  | .local _ .vmem, ⟨6, _⟩ => ⟨S3, .f32⟩
  | .local _ .vmem, ⟨7, _⟩ => ⟨S3, .f32⟩
  | .local _ .vmem, ⟨8, _⟩ => ⟨S3, .f32⟩
  | .local _ .vmem, ⟨9, _⟩ => ⟨S3, .f32⟩
  | .local _ .vmem, ⟨10, _⟩ => ⟨S8, .f32⟩
  | .local _ .vmem, ⟨11, _⟩ => ⟨S8, .f32⟩
  | .local _ .vmem, ⟨12, _⟩ => ⟨S8, .f32⟩
  | .local _ .vmem, ⟨13, _⟩ => ⟨S8, .f32⟩
  | .local _ .vmem, ⟨14, _⟩ => ⟨S2048x10, .f32⟩
  | .local _ .vmem, ⟨15, _⟩ => ⟨S2048x10, .f32⟩
  | .local _ .vmem, ⟨16, _⟩ => ⟨S10x3, .f32⟩
  | .local _ .vmem, ⟨17, _⟩ => ⟨S3, .f32⟩
  | .local _ .vmem, ⟨18, _⟩ => ⟨S3, .f32⟩
  | .local _ .vmem, ⟨19, _⟩ => ⟨S3, .f32⟩
  | .local _ .vmem, ⟨20, _⟩ => ⟨S3, .f32⟩
  | .local _ .vmem, ⟨21, _⟩ => ⟨S3, .f32⟩
  | .local _ .vmem, ⟨22, _⟩ => ⟨S3, .f32⟩
  | .local _ .vmem, ⟨23, _⟩ => ⟨S3, .f32⟩
  | .local _ .vmem, ⟨24, _⟩ => ⟨S8, .f32⟩
  | .local _ .vmem, ⟨25, _⟩ => ⟨S8, .f32⟩
  | .local _ .vmem, ⟨26, _⟩ => ⟨S8, .f32⟩
  | .local _ .vmem, ⟨27, _⟩ => ⟨S8, .f32⟩
  | .local _ .vmem, ⟨28, _⟩ => ⟨S8x3, .f32⟩
  | .local _ .vmem, ⟨29, _⟩ => ⟨S3, .f32⟩
  | .local _ .vmem, ⟨30, _⟩ => ⟨S2048x3, .f32⟩
  | .local _ .vmem, ⟨31, _⟩ => ⟨S2048x3, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg15_0 : Ref sig .tc := ⟨.vmem, 30, rfl⟩
abbrev cc1_stg15_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v317 : BitVec 1 := Scalar.cmpi .eq arg0 c511_i32
  let v318 : BitVec 32 := Scalar.extui v317
  let c0_i32_58 : BitVec 32 := 0#32
  let v319 : BitVec 1 := Scalar.cmpi .ne v318 c0_i32_58
  v319

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x3 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S3 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2048x3 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  transposes_S3x10_S10x3_1_0 : S3x10.Transposes [1, 0] S10x3
  slices_S3x2_S3x1_0_0 : S3x2.Slices ![0, 0] S3x1
  shapeCasts_S3x1_S3 : S3x1.ShapeCasts S3
  slices_S3x2_S3x1_0_1 : S3x2.Slices ![0, 1] S3x1
  slices_S10x8_S3x8_0_0 : S10x8.Slices ![0, 0] S3x8
  transposes_S3x8_S8x3_1_0 : S3x8.Transposes [1, 0] S8x3
  slices_S10_S3_0 : S10.Slices ![0] S3
  inb_S8_S8_0 : ∀ a, (![0] : Fin 1 → Nat) a + S8.size a ≤ S8.size a
  h_S8 : 0 < S8.numel
  shapeCasts_S8_S8 : S8.ShapeCasts S8
  inb_S2048x10_S2048x10_0_0 : ∀ a, (![0, 0] : Fin 2 → Nat) a + S2048x10.size a ≤ S2048x10.size a
  h_S2048x10 : 0 < S2048x10.numel
  inb_S10x3_S10x3_0_0 : ∀ a, (![0, 0] : Fin 2 → Nat) a + S10x3.size a ≤ S10x3.size a
  h_S10x3 : 0 < S10x3.numel
  shapeCasts_S10x3_S10x3 : S10x3.ShapeCasts S10x3
  inb_S3_S3_0 : ∀ a, (![0] : Fin 1 → Nat) a + S3.size a ≤ S3.size a
  h_S3 : 0 < S3.numel
  shapeCasts_S3_S3 : S3.ShapeCasts S3
  shapeCasts_S3_S1x3 : S3.ShapeCasts S1x3
  broadcasts_S1x3_S2048x3 : S1x3.Broadcasts S2048x3
  reduces_S2048x3_S2048 : S2048x3.Reduces [1] S2048
  shapeCasts_S2048_S2048x1 : S2048.ShapeCasts S2048x1
  broadcasts_S2048x1_S2048x3 : S2048x1.Broadcasts S2048x3
  slices_S2048x3_o0_0_S2048x1 : S2048x3.Slices ![0, 0] S2048x1
  shapeCasts_S2048x1_S2048 : S2048x1.ShapeCasts S2048
  slices_S2048x3_o0_1_S2048x1 : S2048x3.Slices ![0, 1] S2048x1
  slices_S2048x3_o0_2_S2048x1 : S2048x3.Slices ![0, 2] S2048x1
  concatenates_S2048x1_S2048x1_S2048x1_S2048x3_d1 : Shape.Concatenates [S2048x1, S2048x1, S2048x1] S2048x3 1
  concatenates_S2048x1_S2048x1_S2048x1_S2048x1_S2048x1_S2048x1_S2048x1_S2048x1_S2048x8_d1 : Shape.Concatenates [S2048x1, S2048x1, S2048x1, S2048x1, S2048x1, S2048x1, S2048x1, S2048x1] S2048x8 1
  reduces_S2048x8_S8 : S2048x8.Reduces [0] S8
  shapeCasts_S8_S1x8 : S8.ShapeCasts S1x8
  broadcasts_S1x8_S2048x8 : S1x8.Broadcasts S2048x8
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S2048x3_S2048x3_0_0 : ∀ a, (![0, 0] : Fin 2 → Nat) a + S2048x3.size a ≤ S2048x3.size a
  h_S2048x3 : 0 < S2048x3.numel
  dot_S2048x10_S10x3_S2048x3_1_0_0_1_n_n_wf : DotDims.WF S2048x10 S10x3 S2048x3 [1] [0] [0] [1] [] []
  dot_S2048x8_S8x3_S2048x3_1_0_0_1_n_n_wf : DotDims.WF S2048x8 S8x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S1048576x10.size a
  hwx0_0 : ∀ i : grid0.Coords, EltTy.bits .f32 = 32 ∨ (Rect.block (s := S1048576x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x3.size a ≤ S10x3.size a
  hwx0_1 : ∀ i : grid0.Coords, EltTy.bits .f32 = 32 ∨ (Rect.block (s := S10x3) S10x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3.size a ≤ S3.size a
  hwx0_5 : ∀ i : grid0.Coords, EltTy.bits .f32 = 32 ∨ (Rect.block (s := S3) S3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3.size a ≤ S3.size a
  hwx0_6 : ∀ i : grid0.Coords, EltTy.bits .f32 = 32 ∨ (Rect.block (s := S3) S3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x10.size a ≤ S1048576x10.size a
  hwx1_0 : ∀ i : grid1.Coords, EltTy.bits .f32 = 32 ∨ (Rect.block (s := S1048576x10) S2048x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x3.size a ≤ S10x3.size a
  hwx1_1 : ∀ i : grid1.Coords, EltTy.bits .f32 = 32 ∨ (Rect.block (s := S10x3) S10x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3.size a ≤ S3.size a
  hwx1_2 : ∀ i : grid1.Coords, EltTy.bits .f32 = 32 ∨ (Rect.block (s := S3) S3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3.size a ≤ S3.size a
  hwx1_3 : ∀ i : grid1.Coords, EltTy.bits .f32 = 32 ∨ (Rect.block (s := S3) S3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3.size a ≤ S3.size a
  hwx1_4 : ∀ i : grid1.Coords, EltTy.bits .f32 = 32 ∨ (Rect.block (s := S3) S3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3.size a ≤ S3.size a
  hwx1_5 : ∀ i : grid1.Coords, EltTy.bits .f32 = 32 ∨ (Rect.block (s := S3) S3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3.size a ≤ S3.size a
  hwx1_7 : ∀ i : grid1.Coords, EltTy.bits .f32 = 32 ∨ (Rect.block (s := S3) S3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3.size a ≤ S3.size a
  hwx1_8 : ∀ i : grid1.Coords, EltTy.bits .f32 = 32 ∨ (Rect.block (s := S3) S3.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S8.size a ≤ S8.size a
  hwx1_9 : ∀ i : grid1.Coords, EltTy.bits .f32 = 32 ∨ (Rect.block (s := S8) S8.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S8.size a ≤ S8.size a
  hwx1_10 : ∀ i : grid1.Coords, EltTy.bits .f32 = 32 ∨ (Rect.block (s := S8) S8.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S8.size a ≤ S8.size a
  hwx1_11 : ∀ i : grid1.Coords, EltTy.bits .f32 = 32 ∨ (Rect.block (s := S8) S8.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S8.size a ≤ S8.size a
  hwx1_12 : ∀ i : grid1.Coords, EltTy.bits .f32 = 32 ∨ (Rect.block (s := S8) S8.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S8x3.size a ≤ S8x3.size a
  hwx1_13 : ∀ i : grid1.Coords, EltTy.bits .f32 = 32 ∨ (Rect.block (s := S8x3) S8x3.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S3.size a ≤ S3.size a
  hwx1_14 : ∀ i : grid1.Coords, EltTy.bits .f32 = 32 ∨ (Rect.block (s := S3) S3.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2048x3.size a ≤ S1048576x3.size a
  hwx1_15 : ∀ i : grid1.Coords, EltTy.bits .f32 = 32 ∨ (Rect.block (s := S1048576x3) S2048x3.size (cc1_transform_15 i) (hinb1_15 i)).WholeWords (EltTy.packing .f32)

variable [Facts₀]

def dot_S2048x10_S10x3_S2048x3_1_0_0_1_n_n : DotDims S2048x10 S10x3 S2048x3 where
  lhsContracting := [1]
  rhsContracting := [0]
  lhsNonContracting := [0]
  rhsNonContracting := [1]
  lhsBatch := []
  rhsBatch := []
  wf := dot_S2048x10_S10x3_S2048x3_1_0_0_1_n_n_wf
def dot_S2048x8_S8x3_S2048x3_1_0_0_1_n_n : DotDims S2048x8 S8x3 S2048x3 where
  lhsContracting := [1]
  rhsContracting := [0]
  lhsNonContracting := [0]
  rhsNonContracting := [1]
  lhsBatch := []
  rhsBatch := []
  wf := dot_S2048x8_S8x3_S2048x3_1_0_0_1_n_n_wf

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S8.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S8.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg0) S2048x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_0) S8.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12_1) S8.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg7) S8.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg8) S8.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v10) S8x3.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v11) S3.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v13) S2048x3.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S1048576x10 : Shape := ⟨2, ![1048576, 10]⟩
abbrev S3x10 : Shape := ⟨2, ![3, 10]⟩
abbrev S3 : Shape := ⟨1, ![3]⟩
abbrev S3x2 : Shape := ⟨2, ![3, 2]⟩
abbrev S8 : Shape := ⟨1, ![8]⟩
abbrev S10x8 : Shape := ⟨2, ![10, 8]⟩
abbrev S10 : Shape := ⟨1, ![10]⟩
abbrev S8x3 : Shape := ⟨2, ![8, 3]⟩
abbrev S10x3 : Shape := ⟨2, ![10, 3]⟩
abbrev S1048576x3 : Shape := ⟨2, ![1048576, 3]⟩
abbrev S1x3 : Shape := ⟨2, ![1, 3]⟩
abbrev S_ : Shape := ⟨0, ![]⟩
abbrev S1048576 : Shape := ⟨1, ![1048576]⟩
abbrev S1048576x1 : Shape := ⟨2, ![1048576, 1]⟩
abbrev S2x3 : Shape := ⟨2, ![2, 3]⟩
abbrev S1x2x3 : Shape := ⟨3, ![1, 2, 3]⟩
abbrev S1048576x1x3 : Shape := ⟨3, ![1048576, 1, 3]⟩
abbrev S1048576x2x3 : Shape := ⟨3, ![1048576, 2, 3]⟩
abbrev S8x3x1 : Shape := ⟨3, ![8, 3, 1]⟩
abbrev S8x3x2 : Shape := ⟨3, ![8, 3, 2]⟩
abbrev S1048576x8x3 : Shape := ⟨3, ![1048576, 8, 3]⟩
abbrev S1048576x8x1 : Shape := ⟨3, ![1048576, 8, 1]⟩
abbrev S1048576x8 : Shape := ⟨2, ![1048576, 8]⟩
abbrev S1x8 : Shape := ⟨2, ![1, 8]⟩
abbrev S8x10 : Shape := ⟨2, ![8, 10]⟩
abbrev S1x10 : Shape := ⟨2, ![1, 10]⟩

abbrev nBuf : Space → Nat
  | .hbm => 178
  | .vmem => 0
  | .smem => 0
  | _ => 0

abbrev hbmTy0_0 (i : Nat) : BufTy := match i % 128 with
  | 0 => ⟨S1048576x10, .f32⟩
  | 1 => ⟨S3x10, .f32⟩
  | 2 => ⟨S3, .f32⟩
  | 3 => ⟨S3, .f32⟩
  | 4 => ⟨S3, .f32⟩
  | 5 => ⟨S3x2, .f32⟩
  | 6 => ⟨S3x2, .f32⟩
  | 7 => ⟨S8, .f32⟩
  | 8 => ⟨S8, .f32⟩
  | 9 => ⟨S10x8, .f32⟩
  | 10 => ⟨S10, .f32⟩
  | 11 => ⟨S8x3, .i32⟩
  | 12 => ⟨S10x3, .f32⟩
  | 13 => ⟨S1048576x3, .f32⟩
  | 14 => ⟨S1x3, .f32⟩
  | 15 => ⟨S1048576x3, .f32⟩
  | 16 => ⟨S1048576x3, .f32⟩
  | 17 => ⟨S_, .f32⟩
  | 18 => ⟨S1048576, .f32⟩
  | 19 => ⟨S1048576x1, .f32⟩
  | 20 => ⟨S_, .f32⟩
  | 21 => ⟨S1048576x1, .f32⟩
  | 22 => ⟨S1048576x1, .f32⟩
  | 23 => ⟨S1048576x3, .f32⟩
  | 24 => ⟨S1048576x3, .f32⟩
  | 25 => ⟨S1048576x3, .f32⟩
  | 26 => ⟨S_, .f32⟩
  | 27 => ⟨S1048576, .f32⟩
  | 28 => ⟨S1048576x1, .f32⟩
  | 29 => ⟨S_, .f32⟩
  | 30 => ⟨S1048576x1, .f32⟩
  | 31 => ⟨S1048576x1, .f32⟩
  | 32 => ⟨S1048576x3, .f32⟩
  | 33 => ⟨S1048576x3, .f32⟩
  | 34 => ⟨S_, .f32⟩
  | 35 => ⟨S1048576x1, .f32⟩
  | 36 => ⟨S1048576x1, .f32⟩
  | 37 => ⟨S1048576x1, .f32⟩
  | 38 => ⟨S1048576x3, .f32⟩
  | 39 => ⟨S1048576x3, .f32⟩
  | 40 => ⟨S1x3, .f32⟩
  | 41 => ⟨S1048576x3, .f32⟩
  | 42 => ⟨S1048576x3, .f32⟩
  | 43 => ⟨S1x3, .f32⟩
  | 44 => ⟨S1048576x3, .f32⟩
  | 45 => ⟨S1048576x3, .f32⟩
  | 46 => ⟨S2x3, .f32⟩
  | 47 => ⟨S1x2x3, .f32⟩
  | 48 => ⟨S2x3, .f32⟩
  | 49 => ⟨S1x2x3, .f32⟩
  | 50 => ⟨S1048576x1x3, .f32⟩
  | 51 => ⟨S1048576x2x3, .f32⟩
  | 52 => ⟨S1048576x2x3, .f32⟩
  | 53 => ⟨S1048576x2x3, .f32⟩
  | 54 => ⟨S1048576x2x3, .f32⟩
  | 55 => ⟨S1048576x2x3, .f32⟩
  | 56 => ⟨S1x2x3, .f32⟩
  | 57 => ⟨S_, .f32⟩
  | 58 => ⟨S1x2x3, .f32⟩
  | 59 => ⟨S1x2x3, .f32⟩
  | 60 => ⟨S1048576x2x3, .f32⟩
  | 61 => ⟨S1048576x2x3, .f32⟩
  | 62 => ⟨S1048576x2x3, .f32⟩
  | 63 => ⟨S3, .i32⟩
  | 64 => ⟨S_, .i32⟩
  | 65 => ⟨S8x3, .i32⟩
  | 66 => ⟨S8x3, .i1⟩
  | 67 => ⟨S_, .i32⟩
  | 68 => ⟨S8x3, .i32⟩
  | 69 => ⟨S8x3, .i32⟩
  | 70 => ⟨S8x3, .i32⟩
  | 71 => ⟨S_, .i32⟩
  | 72 => ⟨S3, .i32⟩
  | 73 => ⟨S3, .i1⟩
  | 74 => ⟨S_, .i32⟩
  | 75 => ⟨S3, .i32⟩
  | 76 => ⟨S3, .i32⟩
  | 77 => ⟨S3, .i32⟩
  | 78 => ⟨S8x3, .i32⟩
  | 79 => ⟨S8x3x1, .i32⟩
  | 80 => ⟨S8x3x1, .i32⟩
  | 81 => ⟨S8x3x2, .i32⟩
  | 82 => ⟨S1048576x8x3, .f32⟩
  | 83 => ⟨S_, .f32⟩
  | 84 => ⟨S1048576x8x3, .f32⟩
  | 85 => ⟨S1048576x8x3, .f32⟩
  | 86 => ⟨S1048576x8x3, .f32⟩
  | 87 => ⟨S_, .f32⟩
  | 88 => ⟨S_, .f32⟩
  | 89 => ⟨S1048576x8x3, .f32⟩
  | 90 => ⟨S1048576x8x3, .f32⟩
  | 91 => ⟨S1048576x8x3, .f32⟩
  | 92 => ⟨S1048576x8x1, .f32⟩
  | 93 => ⟨S1048576x8, .f32⟩
  | 94 => ⟨S1048576x8x1, .f32⟩
  | 95 => ⟨S1048576x8, .f32⟩
  | 96 => ⟨S_, .f32⟩
  | 97 => ⟨S1048576x8, .f32⟩
  | 98 => ⟨S1048576x8, .f32⟩
  | 99 => ⟨S1048576x8, .f32⟩
  | 100 => ⟨S1048576x8x1, .f32⟩
  | 101 => ⟨S1048576x8, .f32⟩
  | 102 => ⟨S_, .f32⟩
  | 103 => ⟨S1048576x8, .f32⟩
  | 104 => ⟨S1048576x8, .f32⟩
  | 105 => ⟨S1048576x8, .f32⟩
  | 106 => ⟨S_, .f32⟩
  | 107 => ⟨S8, .f32⟩
  | 108 => ⟨S_, .f32⟩
  | 109 => ⟨S8, .f32⟩
  | 110 => ⟨S8, .f32⟩
  | 111 => ⟨S1x8, .f32⟩
  | 112 => ⟨S1048576x8, .f32⟩
  | 113 => ⟨S1048576x8, .f32⟩
  | 114 => ⟨S1048576x8, .f32⟩
  | 115 => ⟨S_, .f32⟩
  | 116 => ⟨S8, .f32⟩
  | 117 => ⟨S_, .f32⟩
  | 118 => ⟨S8, .f32⟩
  | 119 => ⟨S8, .f32⟩
  | 120 => ⟨S1x8, .f32⟩
  | 121 => ⟨S1048576x8, .f32⟩
  | 122 => ⟨S1048576x8, .f32⟩
  | 123 => ⟨S_, .f32⟩
  | 124 => ⟨S8, .f32⟩
  | 125 => ⟨S8, .f32⟩
  | 126 => ⟨S8, .f32⟩
  | 127 => ⟨S1x8, .f32⟩
  | _ => ⟨S1048576x10, .f32⟩

abbrev hbmTy0_1 (i : Nat) : BufTy := match i % 128 with
  | 0 => ⟨S1048576x8, .f32⟩
  | 1 => ⟨S1048576x8, .f32⟩
  | 2 => ⟨S1x8, .f32⟩
  | 3 => ⟨S1048576x8, .f32⟩
  | 4 => ⟨S1048576x8, .f32⟩
  | 5 => ⟨S1x8, .f32⟩
  | 6 => ⟨S1048576x8, .f32⟩
  | 7 => ⟨S1048576x8, .f32⟩
  | 8 => ⟨S8x10, .f32⟩
  | 9 => ⟨S1048576x10, .f32⟩
  | 10 => ⟨S1x10, .f32⟩
  | 11 => ⟨S1048576x10, .f32⟩
  | 12 => ⟨S1048576x10, .f32⟩
  | 13 => ⟨S1048576x3, .f32⟩
  | 14 => ⟨S_, .f32⟩
  | 15 => ⟨S1048576x3, .f32⟩
  | 16 => ⟨S1048576x3, .f32⟩
  | 17 => ⟨S1048576x3, .f32⟩
  | 18 => ⟨S1048576x3, .f32⟩
  | 19 => ⟨S_, .f32⟩
  | 20 => ⟨S1048576x3, .f32⟩
  | 21 => ⟨S1048576x3, .f32⟩
  | 22 => ⟨S1048576x1, .f32⟩
  | 23 => ⟨S1048576, .f32⟩
  | 24 => ⟨S1048576x1, .f32⟩
  | 25 => ⟨S1048576, .f32⟩
  | 26 => ⟨S1048576, .f32⟩
  | 27 => ⟨S1048576x1, .f32⟩
  | 28 => ⟨S1048576, .f32⟩
  | 29 => ⟨S1048576, .f32⟩
  | 30 => ⟨S1048576x1, .f32⟩
  | 31 => ⟨S1048576, .f32⟩
  | 32 => ⟨S1048576x1, .f32⟩
  | 33 => ⟨S1048576, .f32⟩
  | 34 => ⟨S1048576, .f32⟩
  | 35 => ⟨S1048576x1, .f32⟩
  | 36 => ⟨S1048576, .f32⟩
  | 37 => ⟨S1048576, .f32⟩
  | 38 => ⟨S1048576x1, .f32⟩
  | 39 => ⟨S1048576, .f32⟩
  | 40 => ⟨S1048576x1, .f32⟩
  | 41 => ⟨S1048576, .f32⟩
  | 42 => ⟨S1048576, .f32⟩
  | 43 => ⟨S1048576x1, .f32⟩
  | 44 => ⟨S1048576, .f32⟩
  | 45 => ⟨S1048576, .f32⟩
  | 46 => ⟨S1048576x1, .f32⟩
  | 47 => ⟨S1048576x1, .f32⟩
  | 48 => ⟨S1048576x1, .f32⟩
  | 49 => ⟨S1048576x3, .f32⟩
  | _ => ⟨S1048576x10, .f32⟩

abbrev hbmTy (i : Nat) : BufTy := match i / 128 with
  | 0 => hbmTy0_0 i
  | 1 => hbmTy0_1 i
  | _ => ⟨S1048576x10, .f32⟩

abbrev bufTy : (tb : Table) → Fin (tcTables nBuf tb) → BufTy
  | .hbm, ⟨i, _⟩ => hbmTy i
  | _, _ => ⟨S1048576x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_call0_v0 : Ref sig .tc := ⟨.hbm, 88, rfl⟩
abbrev main_call0_v1 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_18 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩

abbrev nD : Nat := 1
abbrev τ : Topo := Topo.v7x

variable {F : FTy → Type} [FloatOps F]

class Facts₀ : Prop where
  transposes_S3x10_S10x3_1_0 : S3x10.Transposes [1, 0] S10x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  reducesTo_S1048576x3_S1048576_d1 : S1048576x3.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x3_0_1 : S1048576x1.BroadcastsInDim S1048576x3 (![0, 1] : Fin 2 → Fin S1048576x3.rank)
  transposes_S3x2_S2x3_1_0 : S3x2.Transposes [1, 0] S2x3
  bcast_S2x3_S1x2x3_1_2 : S2x3.BroadcastsInDim S1x2x3 (![1, 2] : Fin 2 → Fin S1x2x3.rank)
  bcast_S1048576x3_S1048576x1x3_0_2 : S1048576x3.BroadcastsInDim S1048576x1x3 (![0, 2] : Fin 2 → Fin S1048576x1x3.rank)
  bcast_S1048576x1x3_S1048576x2x3_0_1_2 : S1048576x1x3.BroadcastsInDim S1048576x2x3 (![0, 1, 2] : Fin 3 → Fin S1048576x2x3.rank)
  bcast_S1x2x3_S1048576x2x3_0_1_2 : S1x2x3.BroadcastsInDim S1048576x2x3 (![0, 1, 2] : Fin 3 → Fin S1048576x2x3.rank)
  bcast_S_S1x2x3 : S_.BroadcastsInDim S1x2x3 (![] : Fin 0 → Fin S1x2x3.rank)
  bcast_S_S8x3 : S_.BroadcastsInDim S8x3 (![] : Fin 0 → Fin S8x3.rank)
  bcast_S_S3 : S_.BroadcastsInDim S3 (![] : Fin 0 → Fin S3.rank)
  bcast_S3_S8x3_1 : S3.BroadcastsInDim S8x3 (![1] : Fin 1 → Fin S8x3.rank)
  bcast_S8x3_S8x3x1_0_1 : S8x3.BroadcastsInDim S8x3x1 (![0, 1] : Fin 2 → Fin S8x3x1.rank)
  concatenates_S8x3x1_S8x3x1_S8x3x2_d2 : Shape.Concatenates [S8x3x1, S8x3x1] S8x3x2 2
  bcast_S_S1048576x8x3 : S_.BroadcastsInDim S1048576x8x3 (![] : Fin 0 → Fin S1048576x8x3.rank)
  slices_S1048576x8x3_S1048576x8x1_0_0_0 : S1048576x8x3.Slices ![0, 0, 0] S1048576x8x1
  shapeCasts_S1048576x8x1_S1048576x8 : S1048576x8x1.ShapeCasts S1048576x8
  slices_S1048576x8x3_S1048576x8x1_0_0_1 : S1048576x8x3.Slices ![0, 0, 1] S1048576x8x1
  bcast_S_S1048576x8 : S_.BroadcastsInDim S1048576x8 (![] : Fin 0 → Fin S1048576x8.rank)
  slices_S1048576x8x3_S1048576x8x1_0_0_2 : S1048576x8x3.Slices ![0, 0, 2] S1048576x8x1
  reducesTo_S1048576x8_S8_d0 : S1048576x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  transposes_S10x8_S8x10_1_0 : S10x8.Transposes [1, 0] S8x10
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  slices_S1048576x10_S1048576x3_0_0 : S1048576x10.Slices ![0, 0] S1048576x3
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  concatenates_S1048576x1_S1048576x1_S1048576x1_S1048576x3_d1 : Shape.Concatenates [S1048576x1, S1048576x1, S1048576x1] S1048576x3 1
  dot_S1048576x10_S10x3_S1048576x3_1_0_0_1_n_n_wf : DotDims.WF S1048576x10 S10x3 S1048576x3 [1] [0] [0] [1] [] []
  gather_S1048576x2x3_S8x3x2_S1048576x8x3_0_12_n_n_12_2_104857611_wf : GatherDims.WF S1048576x2x3 S8x3x2 S1048576x8x3 [0] [1, 2] [] [1, 2] [] 2 ![1048576, 1, 1]
  dot_S1048576x8_S8x10_S1048576x10_1_0_0_1_n_n_wf : DotDims.WF S1048576x8 S8x10 S1048576x10 [1] [0] [0] [1] [] []

variable [Facts₀]

def dot_S1048576x10_S10x3_S1048576x3_1_0_0_1_n_n : DotDims S1048576x10 S10x3 S1048576x3 where
  lhsContracting := [1]
  rhsContracting := [0]
  lhsNonContracting := [0]
  rhsNonContracting := [1]
  lhsBatch := []
  rhsBatch := []
  wf := dot_S1048576x10_S10x3_S1048576x3_1_0_0_1_n_n_wf
def gather_S1048576x2x3_S8x3x2_S1048576x8x3_0_12_n_n_12_2_104857611 : GatherDims S1048576x2x3 S8x3x2 S1048576x8x3 where
  offsetDims := [0]
  collapsedSliceDims := [1, 2]
  operandBatchingDims := []
  startIndicesBatchingDims := []
  startIndexMap := [1, 2]
  indexVectorDim := 2
  sliceSizes := ![1048576, 1, 1]
  wf := gather_S1048576x2x3_S8x3x2_S1048576x8x3_0_12_n_n_12_2_104857611_wf
def dot_S1048576x8_S8x10_S1048576x10_1_0_0_1_n_n : DotDims S1048576x8 S8x10 S1048576x10 where
  lhsContracting := [1]
  rhsContracting := [0]
  lhsNonContracting := [0]
  rhsNonContracting := [1]
  lhsBatch := []
  rhsBatch := []
  wf := dot_S1048576x8_S8x10_S1048576x10_1_0_0_1_n_n_wf

class Facts : Prop extends Facts₀ where

variable [Facts]
-- ==== Proof.K.Runs0.lean ====
/-
  What the three control cases of the first kernel's body (the statistics pass) share: its two branch conditions —
  "this is grid point 0" (the accumulators are cleared) and "this is grid point 511" (mean and variance are written
  out) — decided over the grid in closed form, and where the two output windows are idle.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val % 512 = 0 :=
  (by decide +kernel : ∀ t : Fin grid0.N, cond0_0 (grid0.coords t) ↔ t.val % 512 = 0)

/-- The condition of the body's second `scf.if`: the grid coordinate is 511. -/
abbrev cond0_1 (i : grid0.Coords) : Prop := k0_cond2 i = 1#1
/-- It holds exactly at point 511. -/
theorem hcond0_1 : ∀ t : Fin cfg0.N, cond0_1 (grid0.coords t) ↔ t.val % 512 = 511 :=
  (by decide +kernel : ∀ t : Fin grid0.N, cond0_1 (grid0.coords t) ↔ t.val % 512 = 511)

/-- The input windows are never idle. -/
theorem liveAt0_in : ∀ (w : Fin 9) (t : Fin cfg0.N), cfg0.idle (Fin.castLE (by decide) w) (grid0.coords t) = false := by decide +kernel
/-- Away from point 511 the two output windows are idle and not written back. -/
theorem idleAt0_9 : ∀ t : Fin cfg0.N, ¬cond0_1 (grid0.coords t) → cfg0.idle 9 (grid0.coords t) = true := by decide +kernel
theorem idleAt0_10 : ∀ t : Fin cfg0.N, ¬cond0_1 (grid0.coords t) → cfg0.idle 10 (grid0.coords t) = true := by decide +kernel
theorem noFlush0_9 : ∀ t : Fin cfg0.N, ¬cond0_1 (grid0.coords t) → (cfg0.win 9).flush t = false := by decide +kernel
theorem noFlush0_10 : ∀ t : Fin cfg0.N, ¬cond0_1 (grid0.coords t) → (cfg0.win 10).flush t = false := by decide +kernel
/-- At point 511 they are live. -/
theorem liveAt0_9 : ∀ t : Fin cfg0.N, cond0_1 (grid0.coords t) → cfg0.idle 9 (grid0.coords t) = false := by decide +kernel
theorem liveAt0_10 : ∀ t : Fin cfg0.N, cond0_1 (grid0.coords t) → cfg0.idle 10 (grid0.coords t) = false := by decide +kernel

end Cert.Kernel.Frame

end
-- ==== Proof.K.Run0A.lean ====
/-
  The statistics kernel's body run once on whole staging buffers, at the first grid point (the accumulators are cleared, then added to; nothing is written out). The nine input
  windows' buffers are only read and come back as they were; the two accumulator buffers end with the body's stores
  written over them; the two output windows' buffers are not touched. What is stored is whatever the
  run meets, found by unification.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_A (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (xi9 : Vec F S8 .f32) (xi10 : Vec F S8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Frame

end
-- ==== Proof.K.Run0B.lean ====
/-
  The statistics kernel's body run once on whole staging buffers, at a grid point that is neither first nor last (the accumulators are added to). The nine input
  windows' buffers are only read and come back as they were; the two accumulator buffers end with the body's stores
  written over them; the two output windows' buffers are not touched. What is stored is whatever the
  run meets, found by unification.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_B (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (xi9 : Vec F S8 .f32) (xi10 : Vec F S8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Frame

end
-- ==== Proof.K.Run0C.lean ====
/-
  The statistics kernel's body run once on whole staging buffers, at the last grid point (the accumulators are added to, then mean and variance are written out). The nine input
  windows' buffers are only read and come back as they were; the two accumulator buffers end with the body's stores
  written over them; the two output windows' buffers end with the body's stores written over them. What is stored is whatever the
  run meets, found by unification.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_C (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

end Cert.Kernel.Frame

end
-- ==== Proof.K.Region0.lean ====
/-
  The first kernel's region (the statistics pass), at a parameter `V`: the contents of the core's buffers when the region
  is entered. Its nine input windows hold their blocks at every grid point. The two 8-vector accumulators live in
  scratch buffers the kernel keeps across grid points: cleared at point 0, added to at every point; what they hold
  after point n is stated by recursion on n (`outsAt0`), and the region's invariant carries them at those contents
  from one point to the next. The two output windows (mean, variance) are idle until the last point, 511, where the body
  stores into them and the pipeline writes them back.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl

end

/-! ## The buffers the contents are stated through -/

abbrev VO0_9 : View sig .tc .vmem S8 .f32 := (Memref.whole cc0_stg9_0 : Memref sig .tc .vmem S8 .f32).view
abbrev VO0_10 : View sig .tc .vmem S8 .f32 := (Memref.whole cc0_stg10_0 : Memref sig .tc .vmem S8 .f32).view
abbrev ms0_0 (t : Fin cfg0.N) : Memref sig .tc .vmem S2048x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8 .f32 := win0_10.stage (cfg0.slots t 10)
abbrev hs0_10 (t : Fin cfg0.N) : (ms0_10 t).IsWhole := hstage0_10 ((cfg0.slots t 10).cast nbuf0_10)
/-- The two accumulators: whole scoped buffers of the kernel's own. -/
abbrev scM0_0 : Memref sig .tc .vmem S8 .f32 := Memref.whole cc0_scratch0
abbrev scM0_1 : Memref sig .tc .vmem S8 .f32 := Memref.whole cc0_scratch1
abbrev VS0_0 : View sig .tc .vmem S8 .f32 := scM0_0.view
abbrev VS0_1 : View sig .tc .vmem S8 .f32 := scM0_1.view

/-- The scoped buffers of the core that this region neither stages nor uses (the other region's staging buffers), each
    at some contents. -/
def Rest18 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg15_0), ((c : Thread nD τ).loc cc1_stg15_0) ↦{fullShare} f) ∗ (∃ f : Buf (Elt F) ((c : Thread nD τ).loc cc1_stg15_1), ((c : Thread nD τ).loc cc1_stg15_1) ↦{fullShare} f))

/-- The region's plain invariant with the two accumulators split off as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest18 c) ∗ (∃ r, prngReg c r)) := by
  unfold Pipeline.ΦA Rest18; rw [scopedRest0_eq]; simp only [scM0_0, scM0_1, owns_whole]; try rfl

/-- The contents of an output window's buffer at a point where the body stores nothing into it: nothing consults it. -/
def junk9 : Vec F S8 .f32 := VO0_9.read (Elt F) VO0_9.junk
def junk10 : Vec F S8 .f32 := VO0_10.read (Elt F) VO0_10.junk

/-- Case A's stores into the first accumulator tile it, so they cover it. -/
theorem scover0_A_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (y : S8.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S8.size (by sl_kernel_rfl) y
theorem scover0_A_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (y : S8.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S8.size (by sl_kernel_rfl) y
/-- What case A leaves in the two accumulators: its stores read back. -/
def sout0_A_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) : Vec F S8 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)
def sout0_A_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) : Vec F S8 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

/-- Case B's stores into the first accumulator tile it, so they cover it. -/
theorem scover0_B_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S8.size (by sl_kernel_rfl) y
theorem scover0_B_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S8.size (by sl_kernel_rfl) y
/-- What case B leaves in the two accumulators: its stores read back. -/
def sout0_B_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)
def sout0_B_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)

/-- Case C's stores into the first accumulator tile it, so they cover it. -/
theorem scover0_C_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S8.size (by sl_kernel_rfl) y
theorem scover0_C_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S8.size (by sl_kernel_rfl) y
/-- What case C leaves in the two accumulators: its stores read back. -/
def sout0_C_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)
def sout0_C_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)
/-- At the last point the body's stores into each output window's buffer tile it. -/
theorem cover0_C_9 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S8.size (by sl_kernel_rfl) y
theorem cover0_C_10 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S8.size (by sl_kernel_rfl) y
/-- What the last point leaves in the output windows' buffers (the mean, the variance): its stores read back. -/
def out0_C_9 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1)
def out0_C_10 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1)

section
variable (V : (c : Dev nD) → (b : Ref sig .tc) → Buf (Elt F) ((c : Thread nD τ).loc b))

/-- THE ACCUMULATION: what the two output windows' buffers and the two accumulators hold after the body at point `n`
    (a tuple: mean buffer, variance buffer, first accumulator, second accumulator) — point 0 clears and adds; a later
    point adds to what the point before left; point 511 also stores the outputs. -/
def outsAt0 (c : Dev nD) : (n : ℕ) → n < cfg0.N → Vec F S8 .f32 × Vec F S8 .f32 × Vec F S8 .f32 × Vec F S8 .f32
  | 0, hn => (junk9, junk10, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : (n + 1) % 512 = 511 then
      (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2)
    else
      (junk9, junk10, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 512 = 0) (h1 : ¬t.val % 512 = 511) :
    outsAt0 V c t.val t.isLt = (junk9, junk10, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  have hN : n < 512 := lt_of_lt_of_eq hn (show cfg0.N = 512 from N_0)
  cases n with
  | zero => exact rfl
  | succ n => exfalso; (try dsimp only at h0); omega

theorem outsAt0_B (c : Dev nD) (t : Fin cfg0.N) (h0 : ¬t.val % 512 = 0) (h1 : ¬t.val % 512 = 511) :
    outsAt0 V c t.val t.isLt = (junk9, junk10, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 512 = 0) (h1 : t.val % 512 = 511) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position `n`: before the first point the plain one (every scratch at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop(owns (c : Thread nD τ) scM0_0 fullShare ((outsAt0 V c n hn).2.2.1) ∗ owns (c : Thread nD τ) scM0_1 fullShare ((outsAt0 V c n hn).2.2.2) ∗ Rest18 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare ((outsAt0 V c n hn).2.2.1) ∗ owns (c : Thread nD τ) scM0_1 fullShare ((outsAt0 V c n hn).2.2.2) ∗ Rest18 c ∗ (∃ r, prngReg c r)) := rfl

theorem PhiS_pos (c : Dev nD) (n : ℕ) (h : n ≤ cfg0.N) (hz : n ≠ 0) :
    PhiS V c n h = iprop(owns (c : Thread nD τ) scM0_0 fullShare ((outsAt0 V c (n - 1) (by omega)).2.2.1) ∗ owns (c : Thread nD τ) scM0_1 fullShare ((outsAt0 V c (n - 1) (by omega)).2.2.2) ∗ Rest18 c ∗ (∃ r, prngReg c r)) := by
  cases n with
  | zero => exact absurd rfl hz
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨_ + 11, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' buffers hold their blocks; the closed forms say which case the point is in; the
    invariant hands the body the accumulators at what the point before left (at anything at point 0) and takes them back
    at this point's contents; an idle output's buffer is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  by_cases h0 : t.val % 512 = 0
  · have h1 : ¬t.val % 512 = 511 := by omega
    have hc0 : cond0_0 (grid0.coords t) := (hcond0_0 t).mpr h0
    have hc1 : ¬cond0_1 (grid0.coords t) := fun h => h1 ((hcond0_1 t).mp h)
    rw [Dat.leavesExact_idle (dat0 V c) 9 t (idleAt0_9 t hc1) (noFlush0_9 t hc1), Dat.leavesExact_idle (dat0 V c) 10 t (idleAt0_10 t hc1) (noFlush0_10 t hc1)]
    rw [outsAt0_A V c t h0 h1]
    unfold sout0_A_0 sout0_A_1; (try dsimp only)
    have hz : t.val = 0 := by omega
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond0_0 (grid0.coords t) := fun h => h0 ((hcond0_0 t).mp h)
    have hz : t.val ≠ 0 := fun e => h0 (by rw [e])
    by_cases h1 : t.val % 512 = 511
    · have hc1 : cond0_1 (grid0.coords t) := (hcond0_1 t).mpr h1
      rw [show (dat0 V c).leavesExact 9 t = owns (c : Thread nD τ) (ms0_9 t) fullShare ((dat0 V c).after 9 t) from by
        unfold Dat.leavesExact; rw [liveAt0_9 t hc1], after0_9]
      rw [show (dat0 V c).leavesExact 10 t = owns (c : Thread nD τ) (ms0_10 t) fullShare ((dat0 V c).after 10 t) from by
        unfold Dat.leavesExact; rw [liveAt0_10 t hc1], after0_10]
      rw [outsAt0_C V c t h0 h1]
      unfold out0_C_9 out0_C_10 sout0_C_0 sout0_C_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e9, H9⟩, ⟨%e10, H10⟩, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 9 t (idleAt0_9 t hc1) (noFlush0_9 t hc1), Dat.leavesExact_idle (dat0 V c) 10 t (idleAt0_10 t hc1) (noFlush0_10 t hc1)]
      rw [outsAt0_B V c t h0 h1]
      unfold sout0_B_0 sout0_B_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, HR, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 512 := N_0; omega)

end

end Cert.Kernel.Frame

end
-- ==== Proof.K.Run1.lean ====
/-
  The second kernel's body (the final pass: the row chain, the batch normalisation from the two statistics vectors, the
  8 → 3 product, the sin² read-out) run once on whole staging buffers: the fifteen input windows' buffers are only
  read and come back as they were; the output window's buffer, at anything before, ends with the body's one store
  written over it. The store's payload is whatever the run meets, found by unification, so nothing of the arithmetic is
  transcribed here.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output window's staging buffer (last first), with the proof that on
    whole staging memrefs — each input's at its contents `xW`, the output's at anything — the body runs to the
    continuation holding the inputs' as they were and the output's with those pieces written. -/
noncomputable def kernelRun1 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) :
    { L15 : List (View.Piece (Elt F) S2048x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc1__final_kernel_eq_skeleton]; unfold cc1__final_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.Kernel.Frame

end
-- ==== Proof.K.Region1.lean ====
/-
  The second kernel's region (the final pass), at a parameter `V`: the contents of the core's buffers when the region is
  entered. Each of its fifteen input windows holds, at every grid point, its block of the array behind it (the x window
  block t, rows 2048 t … 2048 t + 2047; the other fourteen their one whole block); the output window's buffer after the
  body holds the body's store; the region's invariant is the scoped rest and the generator register, untouched; nothing
  is owed. This is the proof data of the pipeline and its body obligation at a generic point.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- No window of this region is ever idle. -/
theorem liveAt1 : ∀ (w : Fin 16) (t : Fin cfg1.N), cfg1.idle w (grid1.coords t) = false := by
  intro w t; fin_cases w <;> rfl

/-- One staging buffer of the output window, through which its contents are stated. -/
abbrev VO1_15 : View sig .tc .vmem S2048x3 .f32 := (Memref.whole cc1_stg15_0 : Memref sig .tc .vmem S2048x3 .f32).view
abbrev ms1_0 (t : Fin cfg1.N) : Memref sig .tc .vmem S2048x10 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S3 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x3 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S3 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S2048x3 .f32 := win1_15.stage (cfg1.slots t 15)
abbrev hs1_15 (t : Fin cfg1.N) : (ms1_15 t).IsWhole := hstage1_15 ((cfg1.slots t 15).cast nbuf1_15)

/-- The body's stores into the output window's buffer tile it, so they cover it. -/
theorem cover1_15 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) (y : S2048x3.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S2048x3.size (by sl_kernel_rfl) y

/-- What the body leaves in the output window's staging buffer: its stores read back. -/
def out1_15 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) : Vec F S2048x3 .f32 :=
  VO1_15.read (Elt F) (VO1_15.writes (Elt F) VO1_15.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t)

set_option maxHeartbeats 4000000 in
/-- The body at any point: the inputs' buffers hold their blocks, so the run applies; the invariant and the core's
    `owes` pass through unread; the output buffer ends at the run's stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1 0 t]]
  rw [show (dat1 V c).leavesExact 1 t = owns (c : Thread nD τ) (ms1_1 t) fullShare ((dat1 V c).after 1 t) from by
    unfold Dat.leavesExact; rw [liveAt1 1 t]]
  rw [show (dat1 V c).leavesExact 2 t = owns (c : Thread nD τ) (ms1_2 t) fullShare ((dat1 V c).after 2 t) from by
    unfold Dat.leavesExact; rw [liveAt1 2 t]]
  rw [show (dat1 V c).leavesExact 3 t = owns (c : Thread nD τ) (ms1_3 t) fullShare ((dat1 V c).after 3 t) from by
    unfold Dat.leavesExact; rw [liveAt1 3 t]]
  rw [show (dat1 V c).leavesExact 4 t = owns (c : Thread nD τ) (ms1_4 t) fullShare ((dat1 V c).after 4 t) from by
    unfold Dat.leavesExact; rw [liveAt1 4 t]]
  rw [show (dat1 V c).leavesExact 5 t = owns (c : Thread nD τ) (ms1_5 t) fullShare ((dat1 V c).after 5 t) from by
    unfold Dat.leavesExact; rw [liveAt1 5 t]]
  rw [show (dat1 V c).leavesExact 6 t = owns (c : Thread nD τ) (ms1_6 t) fullShare ((dat1 V c).after 6 t) from by
    unfold Dat.leavesExact; rw [liveAt1 6 t]]
  rw [show (dat1 V c).leavesExact 7 t = owns (c : Thread nD τ) (ms1_7 t) fullShare ((dat1 V c).after 7 t) from by
    unfold Dat.leavesExact; rw [liveAt1 7 t]]
  rw [show (dat1 V c).leavesExact 8 t = owns (c : Thread nD τ) (ms1_8 t) fullShare ((dat1 V c).after 8 t) from by
    unfold Dat.leavesExact; rw [liveAt1 8 t]]
  rw [show (dat1 V c).leavesExact 9 t = owns (c : Thread nD τ) (ms1_9 t) fullShare ((dat1 V c).after 9 t) from by
    unfold Dat.leavesExact; rw [liveAt1 9 t]]
  rw [show (dat1 V c).leavesExact 10 t = owns (c : Thread nD τ) (ms1_10 t) fullShare ((dat1 V c).after 10 t) from by
    unfold Dat.leavesExact; rw [liveAt1 10 t]]
  rw [show (dat1 V c).leavesExact 11 t = owns (c : Thread nD τ) (ms1_11 t) fullShare ((dat1 V c).after 11 t) from by
    unfold Dat.leavesExact; rw [liveAt1 11 t]]
  rw [show (dat1 V c).leavesExact 12 t = owns (c : Thread nD τ) (ms1_12 t) fullShare ((dat1 V c).after 12 t) from by
    unfold Dat.leavesExact; rw [liveAt1 12 t]]
  rw [show (dat1 V c).leavesExact 13 t = owns (c : Thread nD τ) (ms1_13 t) fullShare ((dat1 V c).after 13 t) from by
    unfold Dat.leavesExact; rw [liveAt1 13 t]]
  rw [show (dat1 V c).leavesExact 14 t = owns (c : Thread nD τ) (ms1_14 t) fullShare ((dat1 V c).after 14 t) from by
    unfold Dat.leavesExact; rw [liveAt1 14 t]]
  rw [show (dat1 V c).leavesExact 15 t = owns (c : Thread nD τ) (ms1_15 t) fullShare ((dat1 V c).after 15 t) from by
    unfold Dat.leavesExact; rw [liveAt1 15 t]]
  rw [after1_0, after1_1, after1_2, after1_3, after1_4, after1_5, after1_6, after1_7, after1_8, after1_9, after1_10, after1_11, after1_12, after1_13, after1_14, after1_15]
  unfold out1_15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun1 c (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover1_15 c _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frame

end
-- ==== Proof.K.Frame.lean ====
/-
  The whole program's run: the host operations before the first kernel (a transpose, six slices and reshapes of the
  parameters), the statistics region, the final region. The contents of the core's unscoped buffers at each boundary
  are named — at launch, after the host operations, after each region (its arrays at what the pipeline's write-backs
  leave, everything else as entered) — and every weakly fair execution terminates with every unscoped buffer at the
  last of these. The arguments are read back through the fold to their launch contents.
-/
import proofs.«142976_j49512382988410_2_alg».proof.Proof.Gen.Kernel.Launch
import proofs.«142976_j49512382988410_2_alg».proof.Proof.Gen.Kernel.Skeleton
import proofs.«142976_j49512382988410_2_alg».proof.Proof.Gen.Kernel.Points
import proofs.«142976_j49512382988410_2_alg».proof.Proof.K.Region0
import proofs.«142976_j49512382988410_2_alg».proof.Proof.K.Region1
import proofs.«142976_j49512382988410_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the host operations (the first region's entry). -/
abbrev W0 : Dev nD → Valuation τ sig (Elt F) := fun c => Gen.V0 m c
abbrev W1 : Dev nD → Valuation τ sig (Elt F) := fun c => Gen.V1 m c
abbrev VV1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! The arguments end as launched: no host operation and no region writes one. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VV2 m) c).arrAt_in 0 rfl _).trans (A_eq1 (VV2 m) c 0))
    _ = W1 m c (Proc.devRef .tc main_arg0) := (W2_arr m c 0).trans (((dat0 (VV1 m) c).arrAt_in 0 rfl _).trans (A_eq0 (VV1 m) c 0))
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (VV2 m) c).arrAt_in 2 rfl _).trans (A_eq1 (VV2 m) c 2))
    _ = W1 m c (Proc.devRef .tc main_arg2) := (W2_arr m c 2).trans (((dat0 (VV1 m) c).arrAt_in 2 rfl _).trans (A_eq0 (VV1 m) c 2))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 3).trans (((dat1 (VV2 m) c).arrAt_in 3 rfl _).trans (A_eq1 (VV2 m) c 3))
    _ = W1 m c (Proc.devRef .tc main_arg3) := (W2_arr m c 3).trans (((dat0 (VV1 m) c).arrAt_in 3 rfl _).trans (A_eq0 (VV1 m) c 3))
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 4).trans (((dat1 (VV2 m) c).arrAt_in 4 rfl _).trans (A_eq1 (VV2 m) c 4))
    _ = W1 m c (Proc.devRef .tc main_arg4) := (W2_arr m c 4).trans (((dat0 (VV1 m) c).arrAt_in 4 rfl _).trans (A_eq0 (VV1 m) c 4))
    _ = m ((c : Thread nD τ).loc main_arg4) := (Gen.V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (Gen.V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (Gen.V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 11).trans (((dat1 (VV2 m) c).arrAt_in 11 rfl _).trans (A_eq1 (VV2 m) c 11))
    _ = W1 m c (Proc.devRef .tc main_arg7) := W2_of_ne m c main_arg7 (by decide)
    _ = m ((c : Thread nD τ).loc main_arg7) := (Gen.V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 12).trans (((dat1 (VV2 m) c).arrAt_in 12 rfl _).trans (A_eq1 (VV2 m) c 12))
    _ = W1 m c (Proc.devRef .tc main_arg8) := W2_of_ne m c main_arg8 (by decide)
    _ = m ((c : Thread nD τ).loc main_arg8) := (Gen.V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (Gen.V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (Gen.V1_of m c main_arg10 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The statistics region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VV1 m) c)
    unfold Pipeline.ΦA
    iintro ⟨Hp, -, Hr⟩
    isplitl [Hr]; · iexact Hr
    iexact Hp
  hout c := by
    rw [Pipeline.ownSems0_none]
    refine (hout0 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer of every core at `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run m ρ)

end Cert.Kernel.Frame

end
-- ==== Proof.KI.Runs0.lean ====
/-
  What the three control cases of the first kernel's body (the statistics pass) share: its two branch conditions —
  "this is grid point 0" (the accumulators are cleared) and "this is grid point 511" (mean and variance are written
  out) — decided over the grid in closed form, and where the two output windows are idle.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val % 512 = 0 :=
  (by decide +kernel : ∀ t : Fin grid0.N, cond0_0 (grid0.coords t) ↔ t.val % 512 = 0)

/-- The condition of the body's second `scf.if`: the grid coordinate is 511. -/
abbrev cond0_1 (i : grid0.Coords) : Prop := k0_cond2 i = 1#1
/-- It holds exactly at point 511. -/
theorem hcond0_1 : ∀ t : Fin cfg0.N, cond0_1 (grid0.coords t) ↔ t.val % 512 = 511 :=
  (by decide +kernel : ∀ t : Fin grid0.N, cond0_1 (grid0.coords t) ↔ t.val % 512 = 511)

/-- The input windows are never idle. -/
theorem liveAt0_in : ∀ (w : Fin 9) (t : Fin cfg0.N), cfg0.idle (Fin.castLE (by decide) w) (grid0.coords t) = false := by decide +kernel
/-- Away from point 511 the two output windows are idle and not written back. -/
theorem idleAt0_9 : ∀ t : Fin cfg0.N, ¬cond0_1 (grid0.coords t) → cfg0.idle 9 (grid0.coords t) = true := by decide +kernel
theorem idleAt0_10 : ∀ t : Fin cfg0.N, ¬cond0_1 (grid0.coords t) → cfg0.idle 10 (grid0.coords t) = true := by decide +kernel
theorem noFlush0_9 : ∀ t : Fin cfg0.N, ¬cond0_1 (grid0.coords t) → (cfg0.win 9).flush t = false := by decide +kernel
theorem noFlush0_10 : ∀ t : Fin cfg0.N, ¬cond0_1 (grid0.coords t) → (cfg0.win 10).flush t = false := by decide +kernel
/-- At point 511 they are live. -/
theorem liveAt0_9 : ∀ t : Fin cfg0.N, cond0_1 (grid0.coords t) → cfg0.idle 9 (grid0.coords t) = false := by decide +kernel
theorem liveAt0_10 : ∀ t : Fin cfg0.N, cond0_1 (grid0.coords t) → cfg0.idle 10 (grid0.coords t) = false := by decide +kernel

end Cert.KernelIdeal.Frame

end
-- ==== Proof.KI.Run0A.lean ====
/-
  The statistics kernel's body run once on whole staging buffers, at the first grid point (the accumulators are cleared, then added to; nothing is written out). The nine input
  windows' buffers are only read and come back as they were; the two accumulator buffers end with the body's stores
  written over them; the two output windows' buffers are not touched. What is stored is whatever the
  run meets, found by unification.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_A (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (xi9 : Vec F S8 .f32) (xi10 : Vec F S8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Frame

end
-- ==== Proof.KI.Run0B.lean ====
/-
  The statistics kernel's body run once on whole staging buffers, at a grid point that is neither first nor last (the accumulators are added to). The nine input
  windows' buffers are only read and come back as they were; the two accumulator buffers end with the body's stores
  written over them; the two output windows' buffers are not touched. What is stored is whatever the
  run meets, found by unification.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_B (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (xi9 : Vec F S8 .f32) (xi10 : Vec F S8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨[], [], ?_, ?_, fun xi9 xi10 E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Frame

end
-- ==== Proof.KI.Run0C.lean ====
/-
  The statistics kernel's body run once on whole staging buffers, at the last grid point (the accumulators are added to, then mean and variance are written out). The nine input
  windows' buffers are only read and come back as they were; the two accumulator buffers end with the body's stores
  written over them; the two output windows' buffers end with the body's stores written over them. What is stored is whatever the
  run meets, found by unification.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in the two output windows' staging buffers (`L9`, `L10`) and in the
    two accumulators (`LS0`, `LS1`), with the proof that from the buffers at the stated contents the body runs to the
    continuation holding them with those pieces written. -/
noncomputable def kernelRun0_C (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) :
    Σ' (L9 : List (View.Piece (Elt F) S8 .f32)) (L10 : List (View.Piece (Elt F) S8 .f32)) (LS0 : List (View.Piece (Elt F) S8 .f32)), { LS1 : List (View.Piece (Elt F) S8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [HS0]; · iexists _; iexact HS0
    iexists _; iexact HS1

end Cert.KernelIdeal.Frame

end
-- ==== Proof.KI.Region0.lean ====
/-
  The first kernel's region (the statistics pass), at a parameter `V`: the contents of the core's buffers when the region
  is entered. Its nine input windows hold their blocks at every grid point. The two 8-vector accumulators live in
  scratch buffers the kernel keeps across grid points: cleared at point 0, added to at every point; what they hold
  after point n is stated by recursion on n (`outsAt0`), and the region's invariant carries them at those contents
  from one point to the next. The two output windows (mean, variance) are idle until the last point, 511, where the body
  stores into them and the pipeline writes them back.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl

end

/-! ## The buffers the contents are stated through -/

abbrev VO0_9 : View sig .tc .vmem S8 .f32 := (Memref.whole cc0_stg9_0 : Memref sig .tc .vmem S8 .f32).view
abbrev VO0_10 : View sig .tc .vmem S8 .f32 := (Memref.whole cc0_stg10_0 : Memref sig .tc .vmem S8 .f32).view
abbrev ms0_0 (t : Fin cfg0.N) : Memref sig .tc .vmem S2048x10 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8 .f32 := win0_10.stage (cfg0.slots t 10)
abbrev hs0_10 (t : Fin cfg0.N) : (ms0_10 t).IsWhole := hstage0_10 ((cfg0.slots t 10).cast nbuf0_10)
/-- The two accumulators: whole scoped buffers of the kernel's own. -/
abbrev scM0_0 : Memref sig .tc .vmem S8 .f32 := Memref.whole cc0_scratch0
abbrev scM0_1 : Memref sig .tc .vmem S8 .f32 := Memref.whole cc0_scratch1
abbrev VS0_0 : View sig .tc .vmem S8 .f32 := scM0_0.view
abbrev VS0_1 : View sig .tc .vmem S8 .f32 := scM0_1.view

/-- The scoped buffers of the core that this region neither stages nor uses (the other region's staging buffers), each
    at some contents. -/
def Rest18 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg15_0), ((c : Thread nD τ).loc cc1_stg15_0) ↦{fullShare} f) ∗ (∃ f : Buf (Elt F) ((c : Thread nD τ).loc cc1_stg15_1), ((c : Thread nD τ).loc cc1_stg15_1) ↦{fullShare} f))

/-- The region's plain invariant with the two accumulators split off as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest18 c) ∗ (∃ r, prngReg c r)) := by
  unfold Pipeline.ΦA Rest18; rw [scopedRest0_eq]; simp only [scM0_0, scM0_1, owns_whole]; try rfl

/-- The contents of an output window's buffer at a point where the body stores nothing into it: nothing consults it. -/
def junk9 : Vec F S8 .f32 := VO0_9.read (Elt F) VO0_9.junk
def junk10 : Vec F S8 .f32 := VO0_10.read (Elt F) VO0_10.junk

/-- Case A's stores into the first accumulator tile it, so they cover it. -/
theorem scover0_A_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (y : S8.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S8.size (by sl_kernel_rfl) y
theorem scover0_A_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (y : S8.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S8.size (by sl_kernel_rfl) y
/-- What case A leaves in the two accumulators: its stores read back. -/
def sout0_A_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) : Vec F S8 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)
def sout0_A_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) : Vec F S8 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

/-- Case B's stores into the first accumulator tile it, so they cover it. -/
theorem scover0_B_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S8.size (by sl_kernel_rfl) y
theorem scover0_B_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S8.size (by sl_kernel_rfl) y
/-- What case B leaves in the two accumulators: its stores read back. -/
def sout0_B_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)
def sout0_B_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : ¬cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)

/-- Case C's stores into the first accumulator tile it, so they cover it. -/
theorem scover0_C_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1 S8.size (by sl_kernel_rfl) y
theorem scover0_C_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1 S8.size (by sl_kernel_rfl) y
/-- What case C leaves in the two accumulators: its stores read back. -/
def sout0_C_0 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.1)
def sout0_C_1 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.2.2.1)
/-- At the last point the body's stores into each output window's buffer tile it. -/
theorem cover0_C_9 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1 S8.size (by sl_kernel_rfl) y
theorem cover0_C_10 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) (y : S8.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1 S8.size (by sl_kernel_rfl) y
/-- What the last point leaves in the output windows' buffers (the mean, the variance): its stores read back. -/
def out0_C_9 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).1)
def out0_C_10 (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (hc0 : ¬cond0_0 i) (hc1 : cond0_1 i)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (xs0 : Vec F S8 .f32) (xs1 : Vec F S8 .f32) : Vec F S8 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1).2.1)

section
variable (V : (c : Dev nD) → (b : Ref sig .tc) → Buf (Elt F) ((c : Thread nD τ).loc b))

/-- THE ACCUMULATION: what the two output windows' buffers and the two accumulators hold after the body at point `n`
    (a tuple: mean buffer, variance buffer, first accumulator, second accumulator) — point 0 clears and adds; a later
    point adds to what the point before left; point 511 also stores the outputs. -/
def outsAt0 (c : Dev nD) : (n : ℕ) → n < cfg0.N → Vec F S8 .f32 × Vec F S8 .f32 × Vec F S8 .f32 × Vec F S8 .f32
  | 0, hn => (junk9, junk10, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h1 : (n + 1) % 512 = 511 then
      (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2)
    else
      (junk9, junk10, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => by have h' := (hcond0_0 ⟨n + 1, hn⟩).mp h; have hN : (⟨n + 1, hn⟩ : Fin cfg0.N).val < 512 := lt_of_lt_of_eq (⟨n + 1, hn⟩ : Fin cfg0.N).isLt (show cfg0.N = 512 from N_0); (try dsimp only at h' hN); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 512 = 0) (h1 : ¬t.val % 512 = 511) :
    outsAt0 V c t.val t.isLt = (junk9, junk10, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  have hN : n < 512 := lt_of_lt_of_eq hn (show cfg0.N = 512 from N_0)
  cases n with
  | zero => exact rfl
  | succ n => exfalso; (try dsimp only at h0); omega

theorem outsAt0_B (c : Dev nD) (t : Fin cfg0.N) (h0 : ¬t.val % 512 = 0) (h1 : ¬t.val % 512 = 511) :
    outsAt0 V c t.val t.isLt = (junk9, junk10, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 512 = 0) (h1 : t.val % 512 = 511) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-- The region's invariant before position `n`: before the first point the plain one (every scratch at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop(owns (c : Thread nD τ) scM0_0 fullShare ((outsAt0 V c n hn).2.2.1) ∗ owns (c : Thread nD τ) scM0_1 fullShare ((outsAt0 V c n hn).2.2.2) ∗ Rest18 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare ((outsAt0 V c n hn).2.2.1) ∗ owns (c : Thread nD τ) scM0_1 fullShare ((outsAt0 V c n hn).2.2.2) ∗ Rest18 c ∗ (∃ r, prngReg c r)) := rfl

theorem PhiS_pos (c : Dev nD) (n : ℕ) (h : n ≤ cfg0.N) (hz : n ≠ 0) :
    PhiS V c n h = iprop(owns (c : Thread nD τ) scM0_0 fullShare ((outsAt0 V c (n - 1) (by omega)).2.2.1) ∗ owns (c : Thread nD τ) scM0_1 fullShare ((outsAt0 V c (n - 1) (by omega)).2.2.2) ∗ Rest18 c ∗ (∃ r, prngReg c r)) := by
  cases n with
  | zero => exact absurd rfl hz
  | succ n => rfl

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨_ + 11, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point: the inputs' buffers hold their blocks; the closed forms say which case the point is in; the
    invariant hands the body the accumulators at what the point before left (at anything at point 0) and takes them back
    at this point's contents; an idle output's buffer is handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  have hN : t.val < 512 := lt_of_lt_of_eq t.isLt (show cfg0.N = 512 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  by_cases h0 : t.val % 512 = 0
  · have h1 : ¬t.val % 512 = 511 := by omega
    have hc0 : cond0_0 (grid0.coords t) := (hcond0_0 t).mpr h0
    have hc1 : ¬cond0_1 (grid0.coords t) := fun h => h1 ((hcond0_1 t).mp h)
    rw [Dat.leavesExact_idle (dat0 V c) 9 t (idleAt0_9 t hc1) (noFlush0_9 t hc1), Dat.leavesExact_idle (dat0 V c) 10 t (idleAt0_10 t hc1) (noFlush0_10 t hc1)]
    rw [outsAt0_A V c t h0 h1]
    unfold sout0_A_0 sout0_A_1; (try dsimp only)
    have hz : t.val = 0 := by omega
    rw [PhiS_castSucc V c t, PhiS_zero V c _ _ hz, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 HR Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond0_0 (grid0.coords t) := fun h => h0 ((hcond0_0 t).mp h)
    have hz : t.val ≠ 0 := fun e => h0 (by rw [e])
    by_cases h1 : t.val % 512 = 511
    · have hc1 : cond0_1 (grid0.coords t) := (hcond0_1 t).mpr h1
      rw [show (dat0 V c).leavesExact 9 t = owns (c : Thread nD τ) (ms0_9 t) fullShare ((dat0 V c).after 9 t) from by
        unfold Dat.leavesExact; rw [liveAt0_9 t hc1], after0_9]
      rw [show (dat0 V c).leavesExact 10 t = owns (c : Thread nD τ) (ms0_10 t) fullShare ((dat0 V c).after 10 t) from by
        unfold Dat.leavesExact; rw [liveAt0_10 t hc1], after0_10]
      rw [outsAt0_C V c t h0 h1]
      unfold out0_C_9 out0_C_10 sout0_C_0 sout0_C_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e9, H9⟩, ⟨%e10, H10⟩, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 9 t (idleAt0_9 t hc1) (noFlush0_9 t hc1), Dat.leavesExact_idle (dat0 V c) 10 t (idleAt0_10 t hc1) (noFlush0_10 t hc1)]
      rw [outsAt0_B V c t h0 h1]
      unfold sout0_B_0 sout0_B_1; (try dsimp only)
      rw [PhiS_castSucc V c t, PhiS_pos V c _ _ hz]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 HR Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, HR, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 512 := N_0; omega)

end

end Cert.KernelIdeal.Frame

end
-- ==== Proof.KI.Run1.lean ====
/-
  The second kernel's body (the final pass: the row chain, the batch normalisation from the two statistics vectors, the
  8 → 3 product, the sin² read-out) run once on whole staging buffers: the fifteen input windows' buffers are only
  read and come back as they were; the output window's buffer, at anything before, ends with the body's one store
  written over it. The store's payload is whatever the run meets, found by unification, so nothing of the arithmetic is
  transcribed here.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output window's staging buffer (last first), with the proof that on
    whole staging memrefs — each input's at its contents `xW`, the output's at anything — the body runs to the
    continuation holding the inputs' as they were and the output's with those pieces written. -/
noncomputable def kernelRun1 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) :
    { L15 : List (View.Piece (Elt F) S2048x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc1__final_kernel_eq_skeleton]; unfold cc1__final_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact H15

end Cert.KernelIdeal.Frame

end
-- ==== Proof.KI.Region1.lean ====
/-
  The second kernel's region (the final pass), at a parameter `V`: the contents of the core's buffers when the region is
  entered. Each of its fifteen input windows holds, at every grid point, its block of the array behind it (the x window
  block t, rows 2048 t … 2048 t + 2047; the other fourteen their one whole block); the output window's buffer after the
  body holds the body's store; the region's invariant is the scoped rest and the generator register, untouched; nothing
  is owed. This is the proof data of the pipeline and its body obligation at a generic point.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- No window of this region is ever idle. -/
theorem liveAt1 : ∀ (w : Fin 16) (t : Fin cfg1.N), cfg1.idle w (grid1.coords t) = false := by
  intro w t; fin_cases w <;> rfl

/-- One staging buffer of the output window, through which its contents are stated. -/
abbrev VO1_15 : View sig .tc .vmem S2048x3 .f32 := (Memref.whole cc1_stg15_0 : Memref sig .tc .vmem S2048x3 .f32).view
abbrev ms1_0 (t : Fin cfg1.N) : Memref sig .tc .vmem S2048x10 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S3 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S3 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x3 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S3 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S2048x3 .f32 := win1_15.stage (cfg1.slots t 15)
abbrev hs1_15 (t : Fin cfg1.N) : (ms1_15 t).IsWhole := hstage1_15 ((cfg1.slots t 15).cast nbuf1_15)

/-- The body's stores into the output window's buffer tile it, so they cover it. -/
theorem cover1_15 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) (y : S2048x3.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1 S2048x3.size (by sl_kernel_rfl) y

/-- What the body leaves in the output window's staging buffer: its stores read back. -/
def out1_15 (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole)
    (x0 : Vec F S2048x10 .f32) (x1 : Vec F S10x3 .f32) (x2 : Vec F S3 .f32) (x3 : Vec F S3 .f32) (x4 : Vec F S3 .f32) (x5 : Vec F S3 .f32) (x6 : Vec F S3 .f32) (x7 : Vec F S3 .f32) (x8 : Vec F S3 .f32) (x9 : Vec F S8 .f32) (x10 : Vec F S8 .f32) (x11 : Vec F S8 .f32) (x12 : Vec F S8 .f32) (x13 : Vec F S8x3 .f32) (x14 : Vec F S3 .f32) : Vec F S2048x3 .f32 :=
  VO1_15.read (Elt F) (VO1_15.writes (Elt F) VO1_15.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1)

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t)

set_option maxHeartbeats 4000000 in
/-- The body at any point: the inputs' buffers hold their blocks, so the run applies; the invariant and the core's
    `owes` pass through unread; the output buffer ends at the run's stores read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1 0 t]]
  rw [show (dat1 V c).leavesExact 1 t = owns (c : Thread nD τ) (ms1_1 t) fullShare ((dat1 V c).after 1 t) from by
    unfold Dat.leavesExact; rw [liveAt1 1 t]]
  rw [show (dat1 V c).leavesExact 2 t = owns (c : Thread nD τ) (ms1_2 t) fullShare ((dat1 V c).after 2 t) from by
    unfold Dat.leavesExact; rw [liveAt1 2 t]]
  rw [show (dat1 V c).leavesExact 3 t = owns (c : Thread nD τ) (ms1_3 t) fullShare ((dat1 V c).after 3 t) from by
    unfold Dat.leavesExact; rw [liveAt1 3 t]]
  rw [show (dat1 V c).leavesExact 4 t = owns (c : Thread nD τ) (ms1_4 t) fullShare ((dat1 V c).after 4 t) from by
    unfold Dat.leavesExact; rw [liveAt1 4 t]]
  rw [show (dat1 V c).leavesExact 5 t = owns (c : Thread nD τ) (ms1_5 t) fullShare ((dat1 V c).after 5 t) from by
    unfold Dat.leavesExact; rw [liveAt1 5 t]]
  rw [show (dat1 V c).leavesExact 6 t = owns (c : Thread nD τ) (ms1_6 t) fullShare ((dat1 V c).after 6 t) from by
    unfold Dat.leavesExact; rw [liveAt1 6 t]]
  rw [show (dat1 V c).leavesExact 7 t = owns (c : Thread nD τ) (ms1_7 t) fullShare ((dat1 V c).after 7 t) from by
    unfold Dat.leavesExact; rw [liveAt1 7 t]]
  rw [show (dat1 V c).leavesExact 8 t = owns (c : Thread nD τ) (ms1_8 t) fullShare ((dat1 V c).after 8 t) from by
    unfold Dat.leavesExact; rw [liveAt1 8 t]]
  rw [show (dat1 V c).leavesExact 9 t = owns (c : Thread nD τ) (ms1_9 t) fullShare ((dat1 V c).after 9 t) from by
    unfold Dat.leavesExact; rw [liveAt1 9 t]]
  rw [show (dat1 V c).leavesExact 10 t = owns (c : Thread nD τ) (ms1_10 t) fullShare ((dat1 V c).after 10 t) from by
    unfold Dat.leavesExact; rw [liveAt1 10 t]]
  rw [show (dat1 V c).leavesExact 11 t = owns (c : Thread nD τ) (ms1_11 t) fullShare ((dat1 V c).after 11 t) from by
    unfold Dat.leavesExact; rw [liveAt1 11 t]]
  rw [show (dat1 V c).leavesExact 12 t = owns (c : Thread nD τ) (ms1_12 t) fullShare ((dat1 V c).after 12 t) from by
    unfold Dat.leavesExact; rw [liveAt1 12 t]]
  rw [show (dat1 V c).leavesExact 13 t = owns (c : Thread nD τ) (ms1_13 t) fullShare ((dat1 V c).after 13 t) from by
    unfold Dat.leavesExact; rw [liveAt1 13 t]]
  rw [show (dat1 V c).leavesExact 14 t = owns (c : Thread nD τ) (ms1_14 t) fullShare ((dat1 V c).after 14 t) from by
    unfold Dat.leavesExact; rw [liveAt1 14 t]]
  rw [show (dat1 V c).leavesExact 15 t = owns (c : Thread nD τ) (ms1_15 t) fullShare ((dat1 V c).after 15 t) from by
    unfold Dat.leavesExact; rw [liveAt1 15 t]]
  rw [after1_0, after1_1, after1_2, after1_3, after1_4, after1_5, after1_6, after1_7, after1_8, after1_9, after1_10, after1_11, after1_12, after1_13, after1_14, after1_15]
  unfold out1_15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun1 c (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (cover1_15 c _ _ _ _ _ _ _ _ _ _ _ _ _ _ _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frame

end
-- ==== Proof.KI.Frame.lean ====
/-
  The whole program's run: the host operations before the first kernel (a transpose, six slices and reshapes of the
  parameters), the statistics region, the final region. The contents of the core's unscoped buffers at each boundary
  are named — at launch, after the host operations, after each region (its arrays at what the pipeline's write-backs
  leave, everything else as entered) — and every weakly fair execution terminates with every unscoped buffer at the
  last of these. The arguments are read back through the fold to their launch contents.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Region0
import proofs.«142976_j49512382988410_2_alg».proof.Proof.KI.Region1
import proofs.«142976_j49512382988410_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the host operations (the first region's entry). -/
abbrev W0 : Dev nD → Valuation τ sig (Elt F) := fun c => Gen.V0 m c
abbrev W1 : Dev nD → Valuation τ sig (Elt F) := fun c => Gen.V1 m c
abbrev VV1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! The arguments end as launched: no host operation and no region writes one. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (VV2 m) c).arrAt_in 0 rfl _).trans (A_eq1 (VV2 m) c 0))
    _ = W1 m c (Proc.devRef .tc main_arg0) := (W2_arr m c 0).trans (((dat0 (VV1 m) c).arrAt_in 0 rfl _).trans (A_eq0 (VV1 m) c 0))
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 2).trans (((dat1 (VV2 m) c).arrAt_in 2 rfl _).trans (A_eq1 (VV2 m) c 2))
    _ = W1 m c (Proc.devRef .tc main_arg2) := (W2_arr m c 2).trans (((dat0 (VV1 m) c).arrAt_in 2 rfl _).trans (A_eq0 (VV1 m) c 2))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 3).trans (((dat1 (VV2 m) c).arrAt_in 3 rfl _).trans (A_eq1 (VV2 m) c 3))
    _ = W1 m c (Proc.devRef .tc main_arg3) := (W2_arr m c 3).trans (((dat0 (VV1 m) c).arrAt_in 3 rfl _).trans (A_eq0 (VV1 m) c 3))
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 4).trans (((dat1 (VV2 m) c).arrAt_in 4 rfl _).trans (A_eq1 (VV2 m) c 4))
    _ = W1 m c (Proc.devRef .tc main_arg4) := (W2_arr m c 4).trans (((dat0 (VV1 m) c).arrAt_in 4 rfl _).trans (A_eq0 (VV1 m) c 4))
    _ = m ((c : Thread nD τ).loc main_arg4) := (Gen.V1_of m c main_arg4 (by decide)).trans rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := (Gen.V1_of m c main_arg5 (by decide)).trans rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (Gen.V1_of m c main_arg6 (by decide)).trans rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 11).trans (((dat1 (VV2 m) c).arrAt_in 11 rfl _).trans (A_eq1 (VV2 m) c 11))
    _ = W1 m c (Proc.devRef .tc main_arg7) := W2_of_ne m c main_arg7 (by decide)
    _ = m ((c : Thread nD τ).loc main_arg7) := (Gen.V1_of m c main_arg7 (by decide)).trans rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 12).trans (((dat1 (VV2 m) c).arrAt_in 12 rfl _).trans (A_eq1 (VV2 m) c 12))
    _ = W1 m c (Proc.devRef .tc main_arg8) := W2_of_ne m c main_arg8 (by decide)
    _ = m ((c : Thread nD τ).loc main_arg8) := (Gen.V1_of m c main_arg8 (by decide)).trans rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := (Gen.V1_of m c main_arg9 (by decide)).trans rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = m ((c : Thread nD τ).loc main_arg10) := (Gen.V1_of m c main_arg10 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The statistics region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VV1 m) c)
    unfold Pipeline.ΦA
    iintro ⟨Hp, -, Hr⟩
    isplitl [Hr]; · iexact Hr
    iexact Hp
  hout c := by
    rw [Pipeline.ownSems0_none]
    refine (hout0 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The final region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and every final state has every unscoped buffer of every core at `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run m ρ)

end Cert.KernelIdeal.Frame

end
-- ==== Proof.KI.Arr0.lean ====
/-
  The statistics region's two output arrays after the region: each output window has one block, the whole 8-vector, and
  is written back once, after the last grid point; so each array ends holding what the last point's body stored.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Region0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Dat)

/-- The last grid point. -/
abbrev t511 : Fin cfg0.N := ⟨511, by rw [show cfg0.N = 512 from N_0]; decide⟩

section
variable (V : (c : Dev nD) → (b : Ref sig .tc) → Buf (Elt F) ((c : Thread nD τ).loc b))

/-- The one write-back of window 9, at point 511, writes what the last point left in its buffer: the window's single
    block, read through zero offsets, is the whole array. -/
theorem flushed9_eq (c : Dev nD) (t : Fin cfg0.N) (hf : (cfg0.win 9).flush t = true) :
    (dat0 V c).flushed 9 t = ((cfg0.win 9).blk t).view.read (Elt F) ((outsAt0 V c t511.val t511.isLt).1) := by
  have hN : cfg0.N = 512 := N_0
  have h1 : t.val = 511 := by have := (flush0_9 t).mp hf; have := t.isLt; omega
  obtain rfl : t = t511 := Fin.ext h1
  show (cfg0.win 9).cut (grid0.coords t511) ((dat0 V c).after 9 t511) = _
  rw [after0_9]
  have hz' : (fun a => win0_9.index t511 a * main_v12_0.ty.shape.size a) = fun _ => 0 := funext fun a => by fin_cases a <;> decide +kernel
  exact (Memref.read_access_unit_zero (Elt F) main_v12_0 hz' (fun a => by rw [congrFun hz' a]; simp) _).symm

/-- So the array behind window 9 ends holding it. -/
theorem arr9_eq (c : Dev nD) : (dat0 V c).arrAt 9 cfg0.N = (outsAt0 V c t511.val t511.isLt).1 :=
  (dat0 V c).arrAt_eq_of_cover 9 _ (flushed9_eq V c) fun i =>
    ⟨t511, (flush0_9 t511).mpr rfl, by
      show i ∈ ((View.whole main_v12_0).slice (win0_9.rect t511)).set
      rw [View.set_slice_whole, Rect.mem_set_unit]
      intro a
      have h0 : (i 0 : Nat) < 8 := (i 0).isLt
      match a with
      | ⟨0, _⟩ => show win0_9.index t511 0 * win0_9.size 0 ≤ (i 0 : Nat) ∧ (i 0 : Nat) < win0_9.index t511 0 * win0_9.size 0 + win0_9.xsize (grid0.coords t511) 0
                  rw [show win0_9.index t511 0 * win0_9.size 0 = 0 from by decide +kernel, show win0_9.xsize (grid0.coords t511) 0 = 8 from by decide +kernel]; omega⟩

/-- The one write-back of window 10, at point 511, writes what the last point left in its buffer: the window's single
    block, read through zero offsets, is the whole array. -/
theorem flushed10_eq (c : Dev nD) (t : Fin cfg0.N) (hf : (cfg0.win 10).flush t = true) :
    (dat0 V c).flushed 10 t = ((cfg0.win 10).blk t).view.read (Elt F) ((outsAt0 V c t511.val t511.isLt).2.1) := by
  have hN : cfg0.N = 512 := N_0
  have h1 : t.val = 511 := by have := (flush0_10 t).mp hf; have := t.isLt; omega
  obtain rfl : t = t511 := Fin.ext h1
  show (cfg0.win 10).cut (grid0.coords t511) ((dat0 V c).after 10 t511) = _
  rw [after0_10]
  have hz' : (fun a => win0_10.index t511 a * main_v12_1.ty.shape.size a) = fun _ => 0 := funext fun a => by fin_cases a <;> decide +kernel
  exact (Memref.read_access_unit_zero (Elt F) main_v12_1 hz' (fun a => by rw [congrFun hz' a]; simp) _).symm

/-- So the array behind window 10 ends holding it. -/
theorem arr10_eq (c : Dev nD) : (dat0 V c).arrAt 10 cfg0.N = (outsAt0 V c t511.val t511.isLt).2.1 :=
  (dat0 V c).arrAt_eq_of_cover 10 _ (flushed10_eq V c) fun i =>
    ⟨t511, (flush0_10 t511).mpr rfl, by
      show i ∈ ((View.whole main_v12_1).slice (win0_10.rect t511)).set
      rw [View.set_slice_whole, Rect.mem_set_unit]
      intro a
      have h0 : (i 0 : Nat) < 8 := (i 0).isLt
      match a with
      | ⟨0, _⟩ => show win0_10.index t511 0 * win0_10.size 0 ≤ (i 0 : Nat) ∧ (i 0 : Nat) < win0_10.index t511 0 * win0_10.size 0 + win0_10.xsize (grid0.coords t511) 0
                  rw [show win0_10.index t511 0 * win0_10.size 0 = 0 from by decide +kernel, show win0_10.xsize (grid0.coords t511) 0 = 8 from by decide +kernel]; omega⟩

end

end Cert.KernelIdeal.Frame

end
-- ==== Proof.KI.Vals.lean ====
/-
  The contents the two regions are entered from, traced back: the final region's input arrays that the statistics region
  only reads, or does not touch, hold at its entry what the host operations left (the arguments: their launch contents);
  its two statistics inputs hold the statistics region's output arrays.
-/
import proofs.«142976_j49512382988410_2_alg».proof.Proof.Gen.KernelIdeal.Launch
import proofs.«142976_j49512382988410_2_alg».proof.Proof.Gen.KernelIdeal.Skeleton
import proofs.«142976_j49512382988410_2_alg».proof.Proof.Gen.KernelIdeal.Points
import proofs.«142976_j49512382988410_2_alg».proof.Proof.KI.Frame
import proofs.«142976_j49512382988410_2_alg».proof.Proof.KI.Arr0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An input array of the statistics region is at its exit what it was at its entry. -/
theorem W2_in0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (VV1 m) c).arrAt_in w hw _).trans (A_eq0 (VV1 m) c w))

theorem VV2_main_arg0 (c : Dev nD) : VV2 m c main_arg0 = VV1 m c main_arg0 := W2_in0 m c 0 rfl
theorem VV2_main_v0 (c : Dev nD) : VV2 m c main_v0 = VV1 m c main_v0 := W2_in0 m c 1 rfl
theorem VV2_main_arg2 (c : Dev nD) : VV2 m c main_arg2 = VV1 m c main_arg2 := W2_in0 m c 2 rfl
theorem VV2_main_arg3 (c : Dev nD) : VV2 m c main_arg3 = VV1 m c main_arg3 := W2_in0 m c 3 rfl
theorem VV2_main_arg4 (c : Dev nD) : VV2 m c main_arg4 = VV1 m c main_arg4 := W2_in0 m c 4 rfl
theorem VV2_main_v2 (c : Dev nD) : VV2 m c main_v2 = VV1 m c main_v2 := W2_in0 m c 5 rfl
theorem VV2_main_v4 (c : Dev nD) : VV2 m c main_v4 = VV1 m c main_v4 := W2_in0 m c 6 rfl
theorem VV2_main_v6 (c : Dev nD) : VV2 m c main_v6 = VV1 m c main_v6 := W2_in0 m c 7 rfl
theorem VV2_main_v8 (c : Dev nD) : VV2 m c main_v8 = VV1 m c main_v8 := W2_in0 m c 8 rfl
theorem VV2_main_arg7 (c : Dev nD) : VV2 m c main_arg7 = VV1 m c main_arg7 := W2_of_ne m c main_arg7 (by decide)
theorem VV2_main_arg8 (c : Dev nD) : VV2 m c main_arg8 = VV1 m c main_arg8 := W2_of_ne m c main_arg8 (by decide)
theorem VV2_main_v10 (c : Dev nD) : VV2 m c main_v10 = VV1 m c main_v10 := W2_of_ne m c main_v10 (by decide)
theorem VV2_main_v11 (c : Dev nD) : VV2 m c main_v11 = VV1 m c main_v11 := W2_of_ne m c main_v11 (by decide)
/-- The statistics arrays at the final region's entry are what the statistics region's last point stored. -/
theorem VV2_main_v12_0 (c : Dev nD) : VV2 m c main_v12_0 = (outsAt0 (VV1 m) c t511.val t511.isLt).1 :=
  (W2_arr m c 9).trans (arr9_eq (VV1 m) c)
theorem VV2_main_v12_1 (c : Dev nD) : VV2 m c main_v12_1 = (outsAt0 (VV1 m) c t511.val t511.isLt).2.1 :=
  (W2_arr m c 10).trans (arr10_eq (VV1 m) c)
/-- An argument no host operation writes is at the first region's entry as launched. -/
theorem VV1_main_arg0 (c : Dev nD) : VV1 m c main_arg0 = m ((c : Thread nD τ).loc main_arg0) := (Gen.V1_of m c main_arg0 (by decide)).trans rfl
theorem VV1_main_arg2 (c : Dev nD) : VV1 m c main_arg2 = m ((c : Thread nD τ).loc main_arg2) := (Gen.V1_of m c main_arg2 (by decide)).trans rfl
theorem VV1_main_arg3 (c : Dev nD) : VV1 m c main_arg3 = m ((c : Thread nD τ).loc main_arg3) := (Gen.V1_of m c main_arg3 (by decide)).trans rfl
theorem VV1_main_arg4 (c : Dev nD) : VV1 m c main_arg4 = m ((c : Thread nD τ).loc main_arg4) := (Gen.V1_of m c main_arg4 (by decide)).trans rfl
theorem VV1_main_arg7 (c : Dev nD) : VV1 m c main_arg7 = m ((c : Thread nD τ).loc main_arg7) := (Gen.V1_of m c main_arg7 (by decide)).trans rfl
theorem VV1_main_arg8 (c : Dev nD) : VV1 m c main_arg8 = m ((c : Thread nD τ).loc main_arg8) := (Gen.V1_of m c main_arg8 (by decide)).trans rfl
/-- The result array after the run is the final region's output array after its write-backs. -/
theorem W3_main_v13 (c : Dev nD) : W3 m c (Proc.devRef .tc main_v13) = (dat1 (VV2 m) c).arrAt 15 cfg1.N := W3_arr m c 15

end Cert.KernelIdeal.Frame

end
-- ==== Proof.Spec.lean ====
/-
  The mathematics both programs compute, row by row, on the extended reals — the common form each side is read to.

  One input row x ∈ ℝ¹⁰ goes through: a linear map to three channels (`lin`); a normalisation over the three channels
  with an affine map (`gn`: subtract the mean, multiply by the reciprocal root of the biased variance plus ε, scale and
  shift); two Gaussian memberships per channel (`fz`); for each of the eight bit patterns i = (i₂ i₁ i₀) the three
  memberships the pattern selects, each passed through q ↦ min(√(q + 1e-16), 0.99999)² (`pp`), combined as
  p₀ (1 − p₁)(1 − p₂) (`comb`): the row's eight outputs (`rowOut`). Over the whole batch these eight columns are
  normalised by their batch mean and batch variance (`bn`), mapped linearly to three logits (`logit`), and read out as
  products of sin²(l/2) and 1 − sin²(l/2) (`res`).

  The batch mean and variance are the only place the two programs differ: one accumulates ∑ o and ∑ o² and takes
  max(∑o²/N − (∑o/N)², 0) with 1/N the exact dyadic 2⁻²⁰ (`meanK`, `varK`), the other takes ∑o / N and
  ∑ (o − mean)² / N (`meanR`, `varR`).
-/
import Idealize.ShloMosaic.PureOps.Ideal
import Mathlib.Algebra.BigOperators.Fin

open Idealize.ShloMosaic

noncomputable section

namespace Cert.Spec

/-- The float words both programs print, read on the extended reals. -/
abbrev c0 : EReal := Ideal.ofBits .f32 0x00000000#32
abbrev c1 : EReal := Ideal.ofBits .f32 0x3F800000#32
abbrev c2 : EReal := Ideal.ofBits .f32 0x40000000#32
abbrev c3 : EReal := Ideal.ofBits .f32 0x40400000#32
abbrev ceps : EReal := Ideal.ofBits .f32 0x3727C5AC#32
abbrev ctiny : EReal := Ideal.ofBits .f32 0x24E69595#32
abbrev cclamp : EReal := Ideal.ofBits .f32 0x3F7FFF58#32
abbrev chalf : EReal := Ideal.ofBits .f32 0x3F000000#32
/-- 2⁻²⁰, the first program's 1/N. -/
abbrev cinvN : EReal := Ideal.ofBits .f32 0x35800000#32
/-- 2²⁰ = 1048576, the second program's N. -/
abbrev cN : EReal := Ideal.ofBits .f32 0x49800000#32

/-- x·W1ᵀ + b1 at channel j. -/
def lin (x : Fin 10 → EReal) (W1 : Fin 3 → Fin 10 → EReal) (b1 : Fin 3 → EReal) (j : Fin 3) : EReal :=
  (∑ k, x k * W1 j k) + b1 j

/-- The mean over the three channels. -/
def mean3 (h : Fin 3 → EReal) : EReal := Ideal.div (∑ j, h j) c3

/-- The biased variance over the three channels. -/
def var3 (h : Fin 3 → EReal) : EReal := Ideal.div (∑ j, (h j - mean3 h) * (h j - mean3 h)) c3

/-- The normalised, scaled and shifted channel j. -/
def gn (h : Fin 3 → EReal) (gamma beta : Fin 3 → EReal) (j : Fin 3) : EReal :=
  (h j - mean3 h) * Ideal.rsqrt (var3 h + ceps) * gamma j + beta j

/-- A Gaussian membership exp(−(g − μ)² / (2 θ²)). -/
def fz (g mu th : EReal) : EReal := Ideal.exp (Ideal.div (-((g - mu) * (g - mu))) (c2 * (th * th)))

/-- q ↦ min(√(q + 1e-16), 0.99999). -/
def sq (q : EReal) : EReal := min (Ideal.sqrt (q + ctiny)) cclamp

/-- q ↦ min(√(q + 1e-16), 0.99999)². -/
def pp (q : EReal) : EReal := sq q * sq q

/-- p₀ (1 − p₁)(1 − p₂). -/
def comb (p0 p1 p2 : EReal) : EReal := p0 * (c1 - p1) * (c1 - p2)

/-- Digit j (most significant first) of the bit pattern i ∈ {0,…,7}. -/
def bit (i : Fin 8) (j : Fin 3) : Fin 2 :=
  match j with
  | 0 => ⟨(i.val / 4) % 2, Nat.mod_lt _ (by decide)⟩
  | 1 => ⟨(i.val / 2) % 2, Nat.mod_lt _ (by decide)⟩
  | 2 => ⟨i.val % 2, Nat.mod_lt _ (by decide)⟩

/-- Two per-channel vectors as one table indexed by the membership s ∈ {0,1}. -/
def pair (a b : Fin 3 → EReal) (j : Fin 3) (s : Fin 2) : EReal := if s = 0 then a j else b j

/-- Output i of a row with normalised channels g, memberships' centres m j s and widths th j s. -/
def out (g : Fin 3 → EReal) (m th : Fin 3 → Fin 2 → EReal) (i : Fin 8) : EReal :=
  comb (pp (fz (g 0) (m 0 (bit i 0)) (th 0 (bit i 0))))
       (pp (fz (g 1) (m 1 (bit i 1)) (th 1 (bit i 1))))
       (pp (fz (g 2) (m 2 (bit i 2)) (th 2 (bit i 2))))

/-- The eight outputs of the input row x. -/
def rowOut (x : Fin 10 → EReal) (W1 : Fin 3 → Fin 10 → EReal) (b1 gamma beta : Fin 3 → EReal)
    (m th : Fin 3 → Fin 2 → EReal) (i : Fin 8) : EReal :=
  out (gn (lin x W1 b1) gamma beta) m th i

/-- One column entry normalised by the batch statistics. -/
def bn (o mean var g2 b2 : EReal) : EReal := (o - mean) * Ideal.rsqrt (var + ceps) * g2 + b2

/-- Logit q ∈ {0,1,2}: row q of W2 against the eight normalised outputs, plus the bias. -/
def logit (ob : Fin 8 → EReal) (W2 : Fin 10 → Fin 8 → EReal) (b2 : Fin 10 → EReal) (q : Fin 3) : EReal :=
  (∑ i, ob i * W2 (Fin.castLE (by decide) q) i) + b2 (Fin.castLE (by decide) q)

/-- sin²(l / 2). -/
def sn (l : EReal) : EReal := Ideal.sin (l * chalf) * Ideal.sin (l * chalf)

/-- The three read-outs of the logits. -/
def res (l : Fin 3 → EReal) (j : Fin 3) : EReal :=
  match j with
  | 0 => (c1 - sn (l 0)) * (c1 - sn (l 1)) * (c1 - sn (l 2))
  | 1 => sn (l 0) * (c1 - sn (l 1)) * (c1 - sn (l 2))
  | 2 => (c1 - sn (l 0)) * sn (l 1) * (c1 - sn (l 2))

/-- The final value of a row from its eight outputs `o` and the batch statistics `mean`, `var`. -/
def fin (o mean var g2 be2 : Fin 8 → EReal) (W2 : Fin 10 → Fin 8 → EReal) (b2 : Fin 10 → EReal) (j : Fin 3) : EReal :=
  res (logit (fun i => bn (o i) (mean i) (var i) (g2 i) (be2 i)) W2 b2) j

/-! ## The batch statistics, the two ways -/

variable {B : Type} [Fintype B]

/-- One-pass: ∑o · 2⁻²⁰. -/
def meanK (O : B → EReal) : EReal := (∑ b, O b) * cinvN
/-- One-pass: max(∑o² · 2⁻²⁰ − mean², 0). -/
def varK (O : B → EReal) : EReal := max ((∑ b, O b * O b) * cinvN - meanK O * meanK O) c0
/-- Two-pass: ∑o / 2²⁰. -/
def meanR (O : B → EReal) : EReal := Ideal.div (∑ b, O b) cN
/-- Two-pass: ∑(o − mean)² / 2²⁰. -/
def varR (O : B → EReal) : EReal := Ideal.div (∑ b, (O b - meanR O) * (O b - meanR O)) cN

end Cert.Spec

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibColumnVector.lean ====
/-
  A column read as a vector: an [a, 1] array cast to the shape [a] holds, at i, the column's entry (i, 0) — the two
  shapes list the same entries in the same row-major order. (The converse cast, [a] to [a, 1], reads the vector at i
  for the entry (i, 0).)
-/
import Idealize.ShloMosaic.Lib.ValueIdx
import Idealize.ShloMosaic.Lib.Pipeline.Value

noncomputable section

namespace Idealize.ShloMosaic.ValueColumnVector

open Idealize.ShloMosaic Idealize.ShloMosaic.ValueIdx

variable {α : Type}

/-- An [a, 1] column cast to the vector [a] reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Idealize.ShloMosaic.ValueColumnVector

end
-- ==== Proof.KV.Tail1.lean ====
/-
  Kernel 1's tail read at an index.

  From the block of row outputs o (2048 rows, 8 columns) and the loaded vectors — the batch mean and variance, the scale
  and shift, the 8×3 slice of the second weight matrix and its three biases — the kernel forms, at row r and channel q,
  the logit l(r, q) = ∑ᵢ bn(o(r, i)) · W(i, q) + b(q), then s = sin²(l/2) and 1 − s, and stores side by side the three
  products (1 − s₀)(1 − s₁)(1 − s₂), s₀(1 − s₁)(1 − s₂), (1 − s₀) s₁ (1 − s₂). Each stage is read at an index by
  unfolding it and reading its layout and arithmetic operations at that index; the stored block at (r, j) is then the
  specification's final value of the row.
-/
import Idealize.ShloMosaic.Lib.ValueIdx
import Idealize.ShloMosaic.Lib.ValueLayout
import Idealize.ShloMosaic.Lib.Pipeline.Value
import Idealize.ShloMosaic.PureOps.Ideal.Laws
import proofs.«142976_j49512382988410_2_alg».proof.Proof.Gen.KernelIdeal.Skeleton
import proofs.«142976_j49512382988410_2_alg».proof.Proof.Spec
import proofs.«142976_j49512382988410_2_alg».proof.Proof.LibPlainDot
import proofs.«142976_j49512382988410_2_alg».proof.Proof.LibKeepdims
import proofs.«142976_j49512382988410_2_alg».proof.Proof.LibColumnVector

open Idealize.ShloMosaic Idealize.ShloMosaic.ValueIdx Idealize.ShloMosaic.ValueKeepdims Idealize.ShloMosaic.ValueColumnVector
open Cert.KernelIdeal Cert.KernelIdeal.Gen

noncomputable section

namespace Cert.KernelIdeal.TailVal

/-! ## Kernel 1's tail, read at an index -/

/-- The mean vector repeated down the rows: entry (r, i) is the vector at i. -/
theorem pay26_apply (v301 : Vec Ideal S8 .f32) (r : Fin 2048) (i : Fin 8) :
    k1_pay26 v301 (ix2 r i) = v301 (ix1 i) := by
  unfold k1_pay26
  simp only [broadcastTo_1b_ab_apply, shapeCast_a_1a_apply, shapeCast_self]

/-- The [2048,8]·[8,3] product into the zero accumulator at (r, q): the sum over the eight columns. -/
theorem matmul_tail (l : FVec Ideal S2048x8 .f32) (w : FVec Ideal S8x3 .f32) (r : Fin 2048) (q : Fin 3) :
    matmul dot_S2048x8_S8x3_S2048x3_1_0_0_1_n_n (some .fp32) l w (constant S2048x3 .f32 0x00000000#32) (ix2 r q)
      = ∑ k : Fin 8, l (ix2 r k) * w (ix2 k q) :=
  Cert.Lib.PlainDot.matmul_zero_apply (M := 2048) (K := 8) (N := 3) (some .fp32) l w r q

/-- The logit of row r at channel q, over the loaded vectors: the eight outputs normalised by the batch statistics,
    against column q of the weights, plus the bias. -/
def lg (v300 : FVec Ideal S2048x8 .f32) (v301 v306 v314 v318 : Vec Ideal S8 .f32) (v322 : Vec Ideal S8x3 .f32)
    (v325 : Vec Ideal S3 .f32) (r : Fin 2048) (q : Fin 3) : EReal :=
  (∑ i : Fin 8, Cert.Spec.bn (v300 (ix2 r i)) (v301 (ix1 i)) (v306 (ix1 i)) (v314 (ix1 i)) (v318 (ix1 i)) * v322 (ix2 i q))
    + v325 (ix1 q)

/-- sin²(l/2) of the logit. -/
theorem pay27_apply (v300 : FVec Ideal S2048x8 .f32) (v301 v306 v314 v318 : Vec Ideal S8 .f32) (v322 : Vec Ideal S8x3 .f32)
    (v325 : Vec Ideal S3 .f32) (r : Fin 2048) (q : Fin 3) :
    k1_pay27 v300 (k1_pay26 v301) v306 v314 v318 v322 v325 (ix2 r q) = Cert.Spec.sn (lg v300 v301 v306 v314 v318 v322 v325 r q) := by
  unfold k1_pay27
  simp only [matmul_tail, mulf_apply, addf_apply, subf_apply, broadcastTo_1b_ab_apply, shapeCast_a_1a_apply, shapeCast_self,
    broadcast_apply, sin, Ideal.sin_def, rsqrt, Ideal.rsqrt_def, pay26_apply]
  rfl

/-- 1 − sin²(l/2) of the logit. -/
theorem pay28_apply (v300 : FVec Ideal S2048x8 .f32) (v301 v306 v314 v318 : Vec Ideal S8 .f32) (v322 : Vec Ideal S8x3 .f32)
    (v325 : Vec Ideal S3 .f32) (r : Fin 2048) (q : Fin 3) :
    k1_pay28 v300 (k1_pay26 v301) v306 v314 v318 v322 v325 (ix2 r q)
      = Cert.Spec.c1 - Cert.Spec.sn (lg v300 v301 v306 v314 v318 v322 v325 r q) := by
  unfold k1_pay28
  simp only [subf_apply, broadcast_apply, pay27_apply]
  rfl

/-- Column 0 of a [2048,3] block as a [2048,1] column. -/
theorem col0_apply (X : FVec Ideal S2048x3 .f32) (h : S2048x3.Slices ![0, 0] S2048x1) (r : Fin 2048) (u : Fin 1) :
    extractStridedSlice S2048x1 ![0, 0] X h (ix2 r u) = X (ix2 r (0 : Fin 3)) :=
  slice2_axis1_apply 0 X h r u 0 (by have := u.isLt; show 0 = 0 + u.val; omega)
/-- Column 1. -/
theorem col1_apply (X : FVec Ideal S2048x3 .f32) (h : S2048x3.Slices ![0, 1] S2048x1) (r : Fin 2048) (u : Fin 1) :
    extractStridedSlice S2048x1 ![0, 1] X h (ix2 r u) = X (ix2 r (1 : Fin 3)) :=
  slice2_axis1_apply 1 X h r u 1 (by have := u.isLt; show 1 = 1 + u.val; omega)
/-- Column 2. -/
theorem col2_apply (X : FVec Ideal S2048x3 .f32) (h : S2048x3.Slices ![0, 2] S2048x1) (r : Fin 2048) (u : Fin 1) :
    extractStridedSlice S2048x1 ![0, 2] X h (ix2 r u) = X (ix2 r (2 : Fin 3)) :=
  slice2_axis1_apply 2 X h r u 2 (by have := u.isLt; show 2 = 2 + u.val; omega)

section
variable (v300 : FVec Ideal S2048x8 .f32) (v301 v306 v314 v318 : Vec Ideal S8 .f32) (v322 : Vec Ideal S8x3 .f32)
  (v325 : Vec Ideal S3 .f32) (r : Fin 2048)

local notation "L" => lg v300 v301 v306 v314 v318 v322 v325 r

theorem pay29_apply :
    k1_pay29 v300 (k1_pay26 v301) v306 v314 v318 v322 v325 (ix1 r)
      = (Cert.Spec.c1 - Cert.Spec.sn (L 0)) * (Cert.Spec.c1 - Cert.Spec.sn (L 1)) * (Cert.Spec.c1 - Cert.Spec.sn (L 2)) := by
  unfold k1_pay29
  simp only [mulf_apply, shapeCast_a1_a_apply, col0_apply, col1_apply, col2_apply, pay28_apply]

theorem pay30_apply :
    k1_pay30 v300 (k1_pay26 v301) v306 v314 v318 v322 v325 (ix1 r)
      = Cert.Spec.sn (L 0) * (Cert.Spec.c1 - Cert.Spec.sn (L 1)) * (Cert.Spec.c1 - Cert.Spec.sn (L 2)) := by
  unfold k1_pay30
  simp only [mulf_apply, shapeCast_a1_a_apply, col0_apply, col1_apply, col2_apply, pay28_apply, pay27_apply]

theorem pay31_apply :
    k1_pay31 v300 (k1_pay26 v301) v306 v314 v318 v322 v325 (ix1 r) = Cert.Spec.c1 - Cert.Spec.sn (L 0) := by
  unfold k1_pay31
  simp only [shapeCast_a1_a_apply, col0_apply, pay28_apply]

theorem pay32_apply (u : Fin 1) :
    k1_pay32 v300 (k1_pay26 v301) v306 v314 v318 v322 v325 (ix2 r u) = Cert.Spec.sn (L 1) := by
  unfold k1_pay32
  simp only [col1_apply, pay27_apply]

end

/-- Three [2048,1] columns set side by side: entry (r, j) is column j at (r, 0). -/
theorem concat3_apply (f : Fin 3 → FVec Ideal S2048x1 .f32) (h : Shape.Concatenates [S2048x1, S2048x1, S2048x1] S2048x3 1)
    (r : Fin 2048) (j : Fin 3) :
    concatenate S2048x3 1 [⟨S2048x1, f 0⟩, ⟨S2048x1, f 1⟩, ⟨S2048x1, f 2⟩] h (ix2 r j) = f j (ix2 r (0 : Fin 1)) :=
  concatenate_ofFn_unit_apply (t := S2048x3) (s₁ := S2048x1) 1 f h rfl rfl (ix2 r j) j rfl (ix2 r (0 : Fin 1))
    (fun b hb => match b with
      | ⟨0, _⟩ => rfl
      | ⟨1, _⟩ => absurd rfl hb)

theorem concat3_0 (a b c : FVec Ideal S2048x1 .f32) (h : Shape.Concatenates [S2048x1, S2048x1, S2048x1] S2048x3 1) (r : Fin 2048) :
    concatenate S2048x3 1 [⟨S2048x1, a⟩, ⟨S2048x1, b⟩, ⟨S2048x1, c⟩] h (ix2 r (0 : Fin 3)) = a (ix2 r (0 : Fin 1)) :=
  concat3_apply ![a, b, c] h r 0
theorem concat3_1 (a b c : FVec Ideal S2048x1 .f32) (h : Shape.Concatenates [S2048x1, S2048x1, S2048x1] S2048x3 1) (r : Fin 2048) :
    concatenate S2048x3 1 [⟨S2048x1, a⟩, ⟨S2048x1, b⟩, ⟨S2048x1, c⟩] h (ix2 r (1 : Fin 3)) = b (ix2 r (0 : Fin 1)) :=
  concat3_apply ![a, b, c] h r 1
theorem concat3_2 (a b c : FVec Ideal S2048x1 .f32) (h : Shape.Concatenates [S2048x1, S2048x1, S2048x1] S2048x3 1) (r : Fin 2048) :
    concatenate S2048x3 1 [⟨S2048x1, a⟩, ⟨S2048x1, b⟩, ⟨S2048x1, c⟩] h (ix2 r (2 : Fin 3)) = c (ix2 r (0 : Fin 1)) :=
  concat3_apply ![a, b, c] h r 2

section
variable (v335 : FVec Ideal S2048x3 .f32) (v343 v351 v353 : FVec Ideal S2048 .f32) (v354 : FVec Ideal S2048x1 .f32) (r : Fin 2048)

/-- The stored block's three columns. -/
theorem pay1_apply0 : k1_pay1 v335 v343 v351 v353 v354 (ix2 r (0 : Fin 3)) = v343 (ix1 r) := by
  unfold k1_pay1
  simp only [concat3_0, shapeCast_a_a1_apply]
theorem pay1_apply1 : k1_pay1 v335 v343 v351 v353 v354 (ix2 r (1 : Fin 3)) = v351 (ix1 r) := by
  unfold k1_pay1
  simp only [concat3_1, shapeCast_a_a1_apply]
theorem pay1_apply2 : k1_pay1 v335 v343 v351 v353 v354 (ix2 r (2 : Fin 3))
    = v353 (ix1 r) * v354 (ix2 r (0 : Fin 1)) * v335 (ix2 r (2 : Fin 3)) := by
  unfold k1_pay1
  simp only [concat3_2, shapeCast_a_a1_apply, shapeCast_a1_a_apply, mulf_apply, col2_apply]
end

/-- Kernel 1's stored block from the row outputs and the loaded vectors. -/
def tail1 (v300 : FVec Ideal S2048x8 .f32) (v301 v306 v314 v318 : Vec Ideal S8 .f32) (v322 : Vec Ideal S8x3 .f32)
    (v325 : Vec Ideal S3 .f32) : FVec Ideal S2048x3 .f32 :=
  k1_pay1 (k1_pay28 v300 (k1_pay26 v301) v306 v314 v318 v322 v325) (k1_pay29 v300 (k1_pay26 v301) v306 v314 v318 v322 v325)
    (k1_pay30 v300 (k1_pay26 v301) v306 v314 v318 v322 v325) (k1_pay31 v300 (k1_pay26 v301) v306 v314 v318 v322 v325)
    (k1_pay32 v300 (k1_pay26 v301) v306 v314 v318 v322 v325)

/-- The logit over the loaded vectors is the specification's logit, once the loaded weights and biases are read as
    the first three rows of W2 and the first three entries of b2. -/
theorem lg_eq (v300 : FVec Ideal S2048x8 .f32) (v301 v306 v314 v318 : Vec Ideal S8 .f32) (v322 : Vec Ideal S8x3 .f32)
    (v325 : Vec Ideal S3 .f32) (W2 : Fin 10 → Fin 8 → EReal) (b2 : Fin 10 → EReal)
    (hW : ∀ (i : Fin 8) (q : Fin 3), v322 (ix2 i q) = W2 (Fin.castLE (by decide) q) i)
    (hb : ∀ q : Fin 3, v325 (ix1 q) = b2 (Fin.castLE (by decide) q)) (r : Fin 2048) (q : Fin 3) :
    lg v300 v301 v306 v314 v318 v322 v325 r q
      = Cert.Spec.logit (fun i => Cert.Spec.bn (v300 (ix2 r i)) (v301 (ix1 i)) (v306 (ix1 i)) (v314 (ix1 i)) (v318 (ix1 i))) W2 b2 q := by
  unfold lg Cert.Spec.logit
  rw [hb]
  exact congrArg (· + _) (Finset.sum_congr rfl fun i _ => by rw [hW])

/-- Kernel 1's stored block at (r, j): the specification's final value of the row. -/
theorem tail1_apply (v300 : FVec Ideal S2048x8 .f32) (v301 v306 v314 v318 : Vec Ideal S8 .f32) (v322 : Vec Ideal S8x3 .f32)
    (v325 : Vec Ideal S3 .f32) (W2 : Fin 10 → Fin 8 → EReal) (b2 : Fin 10 → EReal)
    (hW : ∀ (i : Fin 8) (q : Fin 3), v322 (ix2 i q) = W2 (Fin.castLE (by decide) q) i)
    (hb : ∀ q : Fin 3, v325 (ix1 q) = b2 (Fin.castLE (by decide) q)) (r : Fin 2048) (j : Fin 3) :
    tail1 v300 v301 v306 v314 v318 v322 v325 (ix2 r j)
      = Cert.Spec.fin (fun i => v300 (ix2 r i)) (fun i => v301 (ix1 i)) (fun i => v306 (ix1 i)) (fun i => v314 (ix1 i))
          (fun i => v318 (ix1 i)) W2 b2 j := by
  have hl := lg_eq v300 v301 v306 v314 v318 v322 v325 W2 b2 hW hb r
  unfold tail1 Cert.Spec.fin
  match j with
  | ⟨0, _⟩ =>
    refine (pay1_apply0 _ _ _ _ _ r).trans ?_
    rw [pay29_apply, hl 0, hl 1, hl 2]; rfl
  | ⟨1, _⟩ =>
    refine (pay1_apply1 _ _ _ _ _ r).trans ?_
    rw [pay30_apply, hl 0, hl 1, hl 2]; rfl
  | ⟨2, _⟩ =>
    refine (pay1_apply2 _ _ _ _ _ r).trans ?_
    rw [pay31_apply, pay32_apply, pay28_apply, hl 0, hl 1, hl 2]; rfl

end Cert.KernelIdeal.TailVal
end
-- ==== Proof.KV.Blocks.lean ====
/-
  The windows' blocks read at an index.

  In both regions window 0 cuts the input's 1048576 rows into 512 blocks of 2048 rows, block t at point t: its entry
  (r, k) is the input at (2048 t + r, k). Every other input window has block index 0 on every axis and a block as large
  as its array: at every point the block is the whole array.
-/
import Idealize.ShloMosaic.Lib.ValueIdx
import Idealize.ShloMosaic.Lib.Pipeline.Value
import Idealize.ShloMosaic.Lib.Tactic
import proofs.«142976_j49512382988410_2_alg».proof.Proof.KI.Region0
import proofs.«142976_j49512382988410_2_alg».proof.Proof.KI.Region1

set_option maxRecDepth 16384

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame

noncomputable section

namespace Cert.KernelIdeal.BlockVal

variable (V : (c : Dev nD) → (b : Ref sig .tc) → Buf (Elt Ideal) ((c : Thread nD τ).loc b)) (c : Dev nD)

/-! ## Region 0 (the statistics pass) -/

/-- The block index of window 0 of region 0 at point t is (t, 0). -/
theorem index0_0 (t : Fin cfg0.N) : win0_0.index t 0 = t.val ∧ win0_0.index t 1 = 0 :=
  (by decide +kernel : ∀ t : Fin grid0.N, win0_0.index t 0 = t.val ∧ win0_0.index t 1 = 0) t

/-- Window 0 of region 0: block t of the input is rows 2048 t … 2048 t + 2047. -/
theorem iblk0_x_apply (t : Fin cfg0.N) (r : Fin 2048) (k : Fin 10) (b : Fin 1048576) (hb : b.val = 2048 * t.val + r.val) :
    (iblk0 V c 0 t : Vec Ideal S2048x10 .f32) (ix2 r k) = (V c main_arg0 : S1048576x10.Idx → EReal) (ix2 b k) := by
  have hi := index0_0 t
  unfold iblk0
  rw [View.read_apply]
  show V c main_arg0 _ = V c main_arg0 _
  congr 1
  funext a
  apply Fin.ext
  match a with
  | ⟨0, _⟩ => show win0_0.index t 0 * 2048 + 1 * r.val = b.val; rw [hi.1, hb]; omega
  | ⟨1, _⟩ => show win0_0.index t 1 * 10 + 1 * k.val = k.val; rw [hi.2]; omega

/-- Window 1 of region 0 is the whole of its array at every point. -/
theorem iblk0_whole_1 (t : Fin cfg0.N) : (iblk0 V c 1 t : S10x3.Idx → EReal) = (V c main_v0 : S10x3.Idx → EReal) := by
  funext x
  unfold iblk0
  rw [View.read_apply]
  show V c main_v0 _ = V c main_v0 x
  congr 1
  funext a
  apply Fin.ext
  match a with
  | ⟨0, _⟩ => show 0 * 10 + 1 * (x 0).val = (x 0).val; omega
  | ⟨1, _⟩ => show 0 * 3 + 1 * (x 1).val = (x 1).val; omega

/-- Window 2 of region 0 is the whole of its array at every point. -/
theorem iblk0_whole_2 (t : Fin cfg0.N) : (iblk0 V c 2 t : S3.Idx → EReal) = (V c main_arg2 : S3.Idx → EReal) := by
  funext x
  unfold iblk0
  rw [View.read_apply]
  show V c main_arg2 _ = V c main_arg2 x
  congr 1
  funext a
  apply Fin.ext
  match a with
  | ⟨0, _⟩ => show 0 * 3 + 1 * (x 0).val = (x 0).val; omega

/-- Window 3 of region 0 is the whole of its array at every point. -/
theorem iblk0_whole_3 (t : Fin cfg0.N) : (iblk0 V c 3 t : S3.Idx → EReal) = (V c main_arg3 : S3.Idx → EReal) := by
  funext x
  unfold iblk0
  rw [View.read_apply]
  show V c main_arg3 _ = V c main_arg3 x
  congr 1
  funext a
  apply Fin.ext
  match a with
  | ⟨0, _⟩ => show 0 * 3 + 1 * (x 0).val = (x 0).val; omega

/-- Window 4 of region 0 is the whole of its array at every point. -/
theorem iblk0_whole_4 (t : Fin cfg0.N) : (iblk0 V c 4 t : S3.Idx → EReal) = (V c main_arg4 : S3.Idx → EReal) := by
  funext x
  unfold iblk0
  rw [View.read_apply]
  show V c main_arg4 _ = V c main_arg4 x
  congr 1
  funext a
  apply Fin.ext
  match a with
  | ⟨0, _⟩ => show 0 * 3 + 1 * (x 0).val = (x 0).val; omega

/-- Window 5 of region 0 is the whole of its array at every point. -/
theorem iblk0_whole_5 (t : Fin cfg0.N) : (iblk0 V c 5 t : S3.Idx → EReal) = (V c main_v2 : S3.Idx → EReal) := by
  funext x
  unfold iblk0
  rw [View.read_apply]
  show V c main_v2 _ = V c main_v2 x
  congr 1
  funext a
  apply Fin.ext
  match a with
  | ⟨0, _⟩ => show 0 * 3 + 1 * (x 0).val = (x 0).val; omega

/-- Window 6 of region 0 is the whole of its array at every point. -/
theorem iblk0_whole_6 (t : Fin cfg0.N) : (iblk0 V c 6 t : S3.Idx → EReal) = (V c main_v4 : S3.Idx → EReal) := by
  funext x
  unfold iblk0
  rw [View.read_apply]
  show V c main_v4 _ = V c main_v4 x
  congr 1
  funext a
  apply Fin.ext
  match a with
  | ⟨0, _⟩ => show 0 * 3 + 1 * (x 0).val = (x 0).val; omega

/-- Window 7 of region 0 is the whole of its array at every point. -/
theorem iblk0_whole_7 (t : Fin cfg0.N) : (iblk0 V c 7 t : S3.Idx → EReal) = (V c main_v6 : S3.Idx → EReal) := by
  funext x
  unfold iblk0
  rw [View.read_apply]
  show V c main_v6 _ = V c main_v6 x
  congr 1
  funext a
  apply Fin.ext
  match a with
  | ⟨0, _⟩ => show 0 * 3 + 1 * (x 0).val = (x 0).val; omega

/-- Window 8 of region 0 is the whole of its array at every point. -/
theorem iblk0_whole_8 (t : Fin cfg0.N) : (iblk0 V c 8 t : S3.Idx → EReal) = (V c main_v8 : S3.Idx → EReal) := by
  funext x
  unfold iblk0
  rw [View.read_apply]
  show V c main_v8 _ = V c main_v8 x
  congr 1
  funext a
  apply Fin.ext
  match a with
  | ⟨0, _⟩ => show 0 * 3 + 1 * (x 0).val = (x 0).val; omega

/-! ## Region 1 (the final pass) -/

/-- The block index of window 0 of region 1 at point t is (t, 0). -/
theorem index1_0 (t : Fin cfg1.N) : win1_0.index t 0 = t.val ∧ win1_0.index t 1 = 0 :=
  (by decide +kernel : ∀ t : Fin grid1.N, win1_0.index t 0 = t.val ∧ win1_0.index t 1 = 0) t

/-- Window 0 of region 1: block t of the input is rows 2048 t … 2048 t + 2047. -/
theorem iblk1_x_apply (t : Fin cfg1.N) (r : Fin 2048) (k : Fin 10) (b : Fin 1048576) (hb : b.val = 2048 * t.val + r.val) :
    (iblk1 V c 0 t : Vec Ideal S2048x10 .f32) (ix2 r k) = (V c main_arg0 : S1048576x10.Idx → EReal) (ix2 b k) := by
  have hi := index1_0 t
  unfold iblk1
  rw [View.read_apply]
  show V c main_arg0 _ = V c main_arg0 _
  congr 1
  funext a
  apply Fin.ext
  match a with
  | ⟨0, _⟩ => show win1_0.index t 0 * 2048 + 1 * r.val = b.val; rw [hi.1, hb]; omega
  | ⟨1, _⟩ => show win1_0.index t 1 * 10 + 1 * k.val = k.val; rw [hi.2]; omega

/-- Window 1 of region 1 is the whole of its array at every point. -/
theorem iblk1_whole_1 (t : Fin cfg1.N) : (iblk1 V c 1 t : S10x3.Idx → EReal) = (V c main_v0 : S10x3.Idx → EReal) := by
  funext x
  unfold iblk1
  rw [View.read_apply]
  show V c main_v0 _ = V c main_v0 x
  congr 1
  funext a
  apply Fin.ext
  match a with
  | ⟨0, _⟩ => show 0 * 10 + 1 * (x 0).val = (x 0).val; omega
  | ⟨1, _⟩ => show 0 * 3 + 1 * (x 1).val = (x 1).val; omega

/-- Window 2 of region 1 is the whole of its array at every point. -/
theorem iblk1_whole_2 (t : Fin cfg1.N) : (iblk1 V c 2 t : S3.Idx → EReal) = (V c main_arg2 : S3.Idx → EReal) := by
  funext x
  unfold iblk1
  rw [View.read_apply]
  show V c main_arg2 _ = V c main_arg2 x
  congr 1
  funext a
  apply Fin.ext
  match a with
  | ⟨0, _⟩ => show 0 * 3 + 1 * (x 0).val = (x 0).val; omega

/-- Window 3 of region 1 is the whole of its array at every point. -/
theorem iblk1_whole_3 (t : Fin cfg1.N) : (iblk1 V c 3 t : S3.Idx → EReal) = (V c main_arg3 : S3.Idx → EReal) := by
  funext x
  unfold iblk1
  rw [View.read_apply]
  show V c main_arg3 _ = V c main_arg3 x
  congr 1
  funext a
  apply Fin.ext
  match a with
  | ⟨0, _⟩ => show 0 * 3 + 1 * (x 0).val = (x 0).val; omega

/-- Window 4 of region 1 is the whole of its array at every point. -/
theorem iblk1_whole_4 (t : Fin cfg1.N) : (iblk1 V c 4 t : S3.Idx → EReal) = (V c main_arg4 : S3.Idx → EReal) := by
  funext x
  unfold iblk1
  rw [View.read_apply]
  show V c main_arg4 _ = V c main_arg4 x
  congr 1
  funext a
  apply Fin.ext
  match a with
  | ⟨0, _⟩ => show 0 * 3 + 1 * (x 0).val = (x 0).val; omega

/-- Window 5 of region 1 is the whole of its array at every point. -/
theorem iblk1_whole_5 (t : Fin cfg1.N) : (iblk1 V c 5 t : S3.Idx → EReal) = (V c main_v2 : S3.Idx → EReal) := by
  funext x
  unfold iblk1
  rw [View.read_apply]
  show V c main_v2 _ = V c main_v2 x
  congr 1
  funext a
  apply Fin.ext
  match a with
  | ⟨0, _⟩ => show 0 * 3 + 1 * (x 0).val = (x 0).val; omega

/-- Window 6 of region 1 is the whole of its array at every point. -/
theorem iblk1_whole_6 (t : Fin cfg1.N) : (iblk1 V c 6 t : S3.Idx → EReal) = (V c main_v4 : S3.Idx → EReal) := by
  funext x
  unfold iblk1
  rw [View.read_apply]
  show V c main_v4 _ = V c main_v4 x
  congr 1
  funext a
  apply Fin.ext
  match a with
  | ⟨0, _⟩ => show 0 * 3 + 1 * (x 0).val = (x 0).val; omega

/-- Window 7 of region 1 is the whole of its array at every point. -/
theorem iblk1_whole_7 (t : Fin cfg1.N) : (iblk1 V c 7 t : S3.Idx → EReal) = (V c main_v6 : S3.Idx → EReal) := by
  funext x
  unfold iblk1
  rw [View.read_apply]
  show V c main_v6 _ = V c main_v6 x
  congr 1
  funext a
  apply Fin.ext
  match a with
  | ⟨0, _⟩ => show 0 * 3 + 1 * (x 0).val = (x 0).val; omega

/-- Window 8 of region 1 is the whole of its array at every point. -/
theorem iblk1_whole_8 (t : Fin cfg1.N) : (iblk1 V c 8 t : S3.Idx → EReal) = (V c main_v8 : S3.Idx → EReal) := by
  funext x
  unfold iblk1
  rw [View.read_apply]
  show V c main_v8 _ = V c main_v8 x
  congr 1
  funext a
  apply Fin.ext
  match a with
  | ⟨0, _⟩ => show 0 * 3 + 1 * (x 0).val = (x 0).val; omega

/-- Window 9 of region 1 is the whole of its array at every point. -/
theorem iblk1_whole_9 (t : Fin cfg1.N) : (iblk1 V c 9 t : S8.Idx → EReal) = (V c main_v12_0 : S8.Idx → EReal) := by
  funext x
  unfold iblk1
  rw [View.read_apply]
  show V c main_v12_0 _ = V c main_v12_0 x
  congr 1
  funext a
  apply Fin.ext
  match a with
  | ⟨0, _⟩ => show 0 * 8 + 1 * (x 0).val = (x 0).val; omega

/-- Window 10 of region 1 is the whole of its array at every point. -/
theorem iblk1_whole_10 (t : Fin cfg1.N) : (iblk1 V c 10 t : S8.Idx → EReal) = (V c main_v12_1 : S8.Idx → EReal) := by
  funext x
  unfold iblk1
  rw [View.read_apply]
  show V c main_v12_1 _ = V c main_v12_1 x
  congr 1
  funext a
  apply Fin.ext
  match a with
  | ⟨0, _⟩ => show 0 * 8 + 1 * (x 0).val = (x 0).val; omega

/-- Window 11 of region 1 is the whole of its array at every point. -/
theorem iblk1_whole_11 (t : Fin cfg1.N) : (iblk1 V c 11 t : S8.Idx → EReal) = (V c main_arg7 : S8.Idx → EReal) := by
  funext x
  unfold iblk1
  rw [View.read_apply]
  show V c main_arg7 _ = V c main_arg7 x
  congr 1
  funext a
  apply Fin.ext
  match a with
  | ⟨0, _⟩ => show 0 * 8 + 1 * (x 0).val = (x 0).val; omega

/-- Window 12 of region 1 is the whole of its array at every point. -/
theorem iblk1_whole_12 (t : Fin cfg1.N) : (iblk1 V c 12 t : S8.Idx → EReal) = (V c main_arg8 : S8.Idx → EReal) := by
  funext x
  unfold iblk1
  rw [View.read_apply]
  show V c main_arg8 _ = V c main_arg8 x
  congr 1
  funext a
  apply Fin.ext
  match a with
  | ⟨0, _⟩ => show 0 * 8 + 1 * (x 0).val = (x 0).val; omega

/-- Window 13 of region 1 is the whole of its array at every point. -/
theorem iblk1_whole_13 (t : Fin cfg1.N) : (iblk1 V c 13 t : S8x3.Idx → EReal) = (V c main_v10 : S8x3.Idx → EReal) := by
  funext x
  unfold iblk1
  rw [View.read_apply]
  show V c main_v10 _ = V c main_v10 x
  congr 1
  funext a
  apply Fin.ext
  match a with
  | ⟨0, _⟩ => show 0 * 8 + 1 * (x 0).val = (x 0).val; omega
  | ⟨1, _⟩ => show 0 * 3 + 1 * (x 1).val = (x 1).val; omega

/-- Window 14 of region 1 is the whole of its array at every point. -/
theorem iblk1_whole_14 (t : Fin cfg1.N) : (iblk1 V c 14 t : S3.Idx → EReal) = (V c main_v11 : S3.Idx → EReal) := by
  funext x
  unfold iblk1
  rw [View.read_apply]
  show V c main_v11 _ = V c main_v11 x
  congr 1
  funext a
  apply Fin.ext
  match a with
  | ⟨0, _⟩ => show 0 * 3 + 1 * (x 0).val = (x 0).val; omega

end Cert.KernelIdeal.BlockVal
end
-- ==== Proof.KV.Row0Lib.lean ====
/-
  The layout steps of the per-row chain, each read at an entry.

  A 2048×3 matrix's column k cut out as a 2048×1 column; three (eight) 2048×1 columns laid side by side as a 2048×3
  (2048×8) matrix, read at column k: the k-th piece's entry of the same row; the product of the 2048×10 block with the
  10×3 weights into the zero accumulator at (p, j): ∑ₖ l(p,k) r(k,j); the pointwise square root, reciprocal square
  root and exponential.
-/
import Idealize.ShloMosaic.Lib.ValueIdx
import Idealize.ShloMosaic.Lib.ValueLayout
import Idealize.ShloMosaic.Lib.Pipeline.Value
import Idealize.ShloMosaic.PureOps.Ideal.Laws
import proofs.«142976_j49512382988410_2_alg».proof.Proof.Gen.KernelIdeal.Skeleton
import proofs.«142976_j49512382988410_2_alg».proof.Proof.Spec
import proofs.«142976_j49512382988410_2_alg».proof.Proof.LibKeepdims
import proofs.«142976_j49512382988410_2_alg».proof.Proof.LibColumnVector
import proofs.«142976_j49512382988410_2_alg».proof.Proof.LibPlainDot

noncomputable section

namespace Cert.KernelIdeal.RowVal

open Idealize.ShloMosaic Idealize.ShloMosaic.ValueIdx Idealize.ShloMosaic.ValueKeepdims Idealize.ShloMosaic.ValueColumnVector
open Cert.KernelIdeal Cert.KernelIdeal.Gen

section Layout
variable {α : Type}

theorem cat3_apply0 (x0 x1 x2 : S2048x1.Idx → α) (h : Shape.Concatenates [S2048x1, S2048x1, S2048x1] S2048x3 1) (r : Fin 2048) :
    concatenate S2048x3 1 [⟨S2048x1, x0⟩, ⟨S2048x1, x1⟩, ⟨S2048x1, x2⟩] h (ix2 r (0 : Fin 3)) = x0 (ix2 r (0 : Fin 1)) := by
  refine concatenate_apply_piece (1 : Fin S2048x3.rank) [⟨S2048x1, x0⟩, ⟨S2048x1, x1⟩, ⟨S2048x1, x2⟩] h _ 0 (by simp) S2048x1 x0 rfl rfl 0 rfl (ix2 r (0 : Fin 1)) (fun b hb => ?_) rfl
  match b with
  | ⟨0, _⟩ => rfl
  | ⟨1, _⟩ => exact absurd rfl hb

theorem sliceCol0 (X : S2048x3.Idx → α) (h : S2048x3.Slices ![0, 0] S2048x1) (r : Fin 2048) (u : Fin 1) :
    extractStridedSlice S2048x1 ![0, 0] X h (ix2 r u) = X (ix2 r (0 : Fin 3)) :=
  slice2_axis1_apply 0 X h r u 0 (by simp)

theorem cat3_apply1 (x0 x1 x2 : S2048x1.Idx → α) (h : Shape.Concatenates [S2048x1, S2048x1, S2048x1] S2048x3 1) (r : Fin 2048) :
    concatenate S2048x3 1 [⟨S2048x1, x0⟩, ⟨S2048x1, x1⟩, ⟨S2048x1, x2⟩] h (ix2 r (1 : Fin 3)) = x1 (ix2 r (0 : Fin 1)) := by
  refine concatenate_apply_piece (1 : Fin S2048x3.rank) [⟨S2048x1, x0⟩, ⟨S2048x1, x1⟩, ⟨S2048x1, x2⟩] h _ 1 (by simp) S2048x1 x1 rfl rfl 1 rfl (ix2 r (0 : Fin 1)) (fun b hb => ?_) rfl
  match b with
  | ⟨0, _⟩ => rfl
  | ⟨1, _⟩ => exact absurd rfl hb

theorem sliceCol1 (X : S2048x3.Idx → α) (h : S2048x3.Slices ![0, 1] S2048x1) (r : Fin 2048) (u : Fin 1) :
    extractStridedSlice S2048x1 ![0, 1] X h (ix2 r u) = X (ix2 r (1 : Fin 3)) :=
  slice2_axis1_apply 1 X h r u 1 (by simp)

theorem cat3_apply2 (x0 x1 x2 : S2048x1.Idx → α) (h : Shape.Concatenates [S2048x1, S2048x1, S2048x1] S2048x3 1) (r : Fin 2048) :
    concatenate S2048x3 1 [⟨S2048x1, x0⟩, ⟨S2048x1, x1⟩, ⟨S2048x1, x2⟩] h (ix2 r (2 : Fin 3)) = x2 (ix2 r (0 : Fin 1)) := by
  refine concatenate_apply_piece (1 : Fin S2048x3.rank) [⟨S2048x1, x0⟩, ⟨S2048x1, x1⟩, ⟨S2048x1, x2⟩] h _ 2 (by simp) S2048x1 x2 rfl rfl 2 rfl (ix2 r (0 : Fin 1)) (fun b hb => ?_) rfl
  match b with
  | ⟨0, _⟩ => rfl
  | ⟨1, _⟩ => exact absurd rfl hb

theorem sliceCol2 (X : S2048x3.Idx → α) (h : S2048x3.Slices ![0, 2] S2048x1) (r : Fin 2048) (u : Fin 1) :
    extractStridedSlice S2048x1 ![0, 2] X h (ix2 r u) = X (ix2 r (2 : Fin 3)) :=
  slice2_axis1_apply 2 X h r u 2 (by simp)

theorem cat8_apply0 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (0 : Fin 8)) = x0 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 0 (by simp) S2048x1 x0 rfl rfl 0 rfl (ix2 r (0 : Fin 1)) (fun b hb => ?_) rfl
  match b with
  | ⟨0, _⟩ => rfl
  | ⟨1, _⟩ => exact absurd rfl hb

theorem cat8_apply1 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (1 : Fin 8)) = x1 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 1 (by simp) S2048x1 x1 rfl rfl 1 rfl (ix2 r (0 : Fin 1)) (fun b hb => ?_) rfl
  match b with
  | ⟨0, _⟩ => rfl
  | ⟨1, _⟩ => exact absurd rfl hb

theorem cat8_apply2 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (2 : Fin 8)) = x2 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 2 (by simp) S2048x1 x2 rfl rfl 2 rfl (ix2 r (0 : Fin 1)) (fun b hb => ?_) rfl
  match b with
  | ⟨0, _⟩ => rfl
  | ⟨1, _⟩ => exact absurd rfl hb

theorem cat8_apply3 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (3 : Fin 8)) = x3 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 3 (by simp) S2048x1 x3 rfl rfl 3 rfl (ix2 r (0 : Fin 1)) (fun b hb => ?_) rfl
  match b with
  | ⟨0, _⟩ => rfl
  | ⟨1, _⟩ => exact absurd rfl hb

theorem cat8_apply4 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (4 : Fin 8)) = x4 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 4 (by simp) S2048x1 x4 rfl rfl 4 rfl (ix2 r (0 : Fin 1)) (fun b hb => ?_) rfl
  match b with
  | ⟨0, _⟩ => rfl
  | ⟨1, _⟩ => exact absurd rfl hb

theorem cat8_apply5 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (5 : Fin 8)) = x5 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 5 (by simp) S2048x1 x5 rfl rfl 5 rfl (ix2 r (0 : Fin 1)) (fun b hb => ?_) rfl
  match b with
  | ⟨0, _⟩ => rfl
  | ⟨1, _⟩ => exact absurd rfl hb

theorem cat8_apply6 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (6 : Fin 8)) = x6 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 6 (by simp) S2048x1 x6 rfl rfl 6 rfl (ix2 r (0 : Fin 1)) (fun b hb => ?_) rfl
  match b with
  | ⟨0, _⟩ => rfl
  | ⟨1, _⟩ => exact absurd rfl hb

theorem cat8_apply7 (x0 x1 x2 x3 x4 x5 x6 x7 : S2048x1.Idx → α)
    (h : Shape.Concatenates [S2048x1, S2048x1, S2048x1, S2048x1, S2048x1, S2048x1, S2048x1, S2048x1] S2048x8 1) (r : Fin 2048) :
    concatenate S2048x8 1 [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h (ix2 r (7 : Fin 8)) = x7 (ix2 r (0 : Fin 1)) := by
  refine concatenate_apply_piece (1 : Fin S2048x8.rank) [⟨S2048x1, x0⟩, ⟨S2048x1, x1⟩, ⟨S2048x1, x2⟩, ⟨S2048x1, x3⟩, ⟨S2048x1, x4⟩, ⟨S2048x1, x5⟩, ⟨S2048x1, x6⟩, ⟨S2048x1, x7⟩] h _ 7 (by simp) S2048x1 x7 rfl rfl 7 rfl (ix2 r (0 : Fin 1)) (fun b hb => ?_) rfl
  match b with
  | ⟨0, _⟩ => rfl
  | ⟨1, _⟩ => exact absurd rfl hb

end Layout

/-- The block's product with the weights into the zero accumulator, at entry (p, j). -/
theorem mm_apply (prec : Option ContractPrecision) (l : FVec Ideal S2048x10 .f32) (w : FVec Ideal S10x3 .f32)
    (p : Fin 2048) (j : Fin 3) :
    matmul dot_S2048x10_S10x3_S2048x3_1_0_0_1_n_n prec l w (constant S2048x3 .f32 0x00000000#32) (ix2 p j)
      = ∑ k : Fin 10, l (ix2 p k) * w (ix2 k j) :=
  Cert.Lib.PlainDot.matmul_zero_apply (M := 2048) (K := 10) (N := 3) prec l w p j

theorem sqrt_apply {s : Shape} {φ : FTy} (x : FVec Ideal s φ) (i : s.Idx) : sqrt x i = Ideal.sqrt (x i) := rfl
theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl

end Cert.KernelIdeal.RowVal

end
-- ==== Proof.KV.Row0Chain.lean ====
/-
  The per-row chain as five block operations, each read at an entry.

  linRows: x·w + b over the block; normRows: each row less its mean, times the reciprocal root of its biased variance
  plus ε; affRows: scale and shift by per-channel vectors; fzRows: the Gaussian membership
  exp(−(g − μ)² / (2θ²)) per entry; ppRows A B C: column 0 of A, column 1 of B, column 2 of C side by side, each entry
  through q ↦ min(√(q + 1e-16), 0.99999)²; combCol P: p₀(1 − p₁)(1 − p₂) of each row of P.
-/
import proofs.«142976_j49512382988410_2_alg».proof.Proof.KV.Row0Lib

noncomputable section

namespace Cert.KernelIdeal.RowVal

open Idealize.ShloMosaic Idealize.ShloMosaic.ValueIdx Idealize.ShloMosaic.ValueKeepdims Idealize.ShloMosaic.ValueColumnVector
open Cert.KernelIdeal Cert.KernelIdeal.Gen

/-- A sum over the three lanes of a row, from the zero word. -/
theorem rowSum3 (src : FVec Ideal S2048x3 .f32) (h : S2048x3.Reduces [1] S2048) (hφ : FTy.f32 = FTy.f32 ∨ FTy.f32 = FTy.bf16)
    (hacc : (0x00000000#32 : BitVec 32) = 0x00000000#32) (r : Fin 2048) :
    multiReduction .add [1] S2048 src 0x00000000#32 h hφ hacc (ix1 r) = ∑ k : Fin 3, src (ix2 r k) :=
  multiReduction_add_row src _ h hφ hacc r

/-- x·w + b over the block. -/
def linRows (v3 : Vec Ideal S2048x10 .f32) (v4 : Vec Ideal S10x3 .f32) (v6 : Vec Ideal S3 .f32) : FVec Ideal S2048x3 .f32 :=
  addf (matmul (φ₁ := .f32) (φ₂ := .f32) dot_S2048x10_S10x3_S2048x3_1_0_0_1_n_n (some .fp32) v3 (shapeCast S10x3 v4 shapeCasts_S10x3_S10x3) (constant S2048x3 .f32 0x00000000#32))
    (broadcastTo S2048x3 (shapeCast S1x3 v6 shapeCasts_S3_S1x3) broadcasts_S1x3_S2048x3)

/-- Each row less its mean, times the reciprocal root of its biased variance plus ε. -/
def normRows (v20 : FVec Ideal S2048x3 .f32) : FVec Ideal S2048x3 .f32 :=
  have v21 : FVec Ideal S2048 .f32 := multiReduction .add [1] S2048 v20 0x00000000#32 reduces_S2048x3_S2048 (.inl rfl) rfl
  have v22 : FVec Ideal S2048x1 .f32 := shapeCast S2048x1 v21 shapeCasts_S2048_S2048x1
  have v24 : FVec Ideal S2048x1 .f32 := divf v22 (broadcast S2048x1 (Scalar.ofBits .f32 0x40400000#32))
  have v26 : FVec Ideal S2048x3 .f32 := subf v20 (broadcastTo S2048x3 v24 broadcasts_S2048x1_S2048x3)
  have v27 : FVec Ideal S2048x3 .f32 := mulf v26 v26
  have v28 : FVec Ideal S2048 .f32 := multiReduction .add [1] S2048 v27 0x00000000#32 reduces_S2048x3_S2048 (.inl rfl) rfl
  have v29 : FVec Ideal S2048x1 .f32 := shapeCast S2048x1 v28 shapeCasts_S2048_S2048x1
  have v31 : FVec Ideal S2048x1 .f32 := divf v29 (broadcast S2048x1 (Scalar.ofBits .f32 0x40400000#32))
  have v33 : FVec Ideal S2048x3 .f32 := subf v20 (broadcastTo S2048x3 v24 broadcasts_S2048x1_S2048x3)
  have v35 : FVec Ideal S2048x1 .f32 := addf v31 (broadcast S2048x1 (Scalar.ofBits .f32 0x3727C5AC#32))
  mulf v33 (broadcastTo S2048x3 (rsqrt v35) broadcasts_S2048x1_S2048x3)

/-- Scale by γ and shift by β, channel by channel. -/
def affRows (v7 v8 : Vec Ideal S3 .f32) (v38 : FVec Ideal S2048x3 .f32) : FVec Ideal S2048x3 .f32 :=
  addf (mulf v38 (broadcastTo S2048x3 (shapeCast S1x3 v7 shapeCasts_S3_S1x3) broadcasts_S1x3_S2048x3))
    (broadcastTo S2048x3 (shapeCast S1x3 v8 shapeCasts_S3_S1x3) broadcasts_S1x3_S2048x3)

/-- The Gaussian membership of every entry, with per-channel centre m and width θ. -/
def fzRows (m th : FVec Ideal S3 .f32) (g : FVec Ideal S2048x3 .f32) : FVec Ideal S2048x3 .f32 :=
  have v47 : FVec Ideal S2048x3 .f32 := subf g (broadcastTo S2048x3 (shapeCast S1x3 m shapeCasts_S3_S1x3) broadcasts_S1x3_S2048x3)
  have v50 : FVec Ideal S2048x3 .f32 := subf (broadcast S2048x3 (Scalar.ofBits .f32 0x00000000#32)) (mulf v47 v47)
  have v53 : FVec Ideal S3 .f32 := mulf (broadcast S3 (Scalar.ofBits .f32 0x40000000#32)) (mulf th th)
  exp (divf v50 (broadcastTo S2048x3 (shapeCast S1x3 v53 shapeCasts_S3_S1x3) broadcasts_S1x3_S2048x3))

/-- Column k of a 2048×3 block as a vector. -/
def colv0 (X : FVec Ideal S2048x3 .f32) : FVec Ideal S2048 .f32 :=
  shapeCast S2048 (extractStridedSlice S2048x1 ![0, 0] X slices_S2048x3_o0_0_S2048x1) shapeCasts_S2048x1_S2048
def colv1 (X : FVec Ideal S2048x3 .f32) : FVec Ideal S2048 .f32 :=
  shapeCast S2048 (extractStridedSlice S2048x1 ![0, 1] X slices_S2048x3_o0_1_S2048x1) shapeCasts_S2048x1_S2048
def colv2 (X : FVec Ideal S2048x3 .f32) : FVec Ideal S2048 .f32 :=
  shapeCast S2048 (extractStridedSlice S2048x1 ![0, 2] X slices_S2048x3_o0_2_S2048x1) shapeCasts_S2048x1_S2048

/-- Column 0 of A, column 1 of B, column 2 of C side by side. -/
def catRows (A B C : FVec Ideal S2048x3 .f32) : FVec Ideal S2048x3 .f32 :=
  concatenate S2048x3 1 [⟨S2048x1, shapeCast S2048x1 (colv0 A) shapeCasts_S2048_S2048x1⟩,
    ⟨S2048x1, shapeCast S2048x1 (colv1 B) shapeCasts_S2048_S2048x1⟩,
    ⟨S2048x1, shapeCast S2048x1 (colv2 C) shapeCasts_S2048_S2048x1⟩] concatenates_S2048x1_S2048x1_S2048x1_S2048x3_d1

/-- q ↦ √(q + 1e-16) on every entry. -/
def rootRows (X : FVec Ideal S2048x3 .f32) : FVec Ideal S2048x3 .f32 :=
  sqrt (addf X (broadcast S2048x3 (Scalar.ofBits .f32 0x24E69595#32)))

/-- s ↦ min(s, 0.99999)² on every entry. -/
def clampSq (S : FVec Ideal S2048x3 .f32) : FVec Ideal S2048x3 .f32 :=
  have v85 : FVec Ideal S2048x3 .f32 := minimumf S (broadcast S2048x3 (Scalar.ofBits .f32 0x3F7FFF58#32))
  mulf v85 v85

/-- Column 0 of A, column 1 of B, column 2 of C side by side, each entry through q ↦ min(√(q + 1e-16), 0.99999)². -/
def ppRows (A B C : FVec Ideal S2048x3 .f32) : FVec Ideal S2048x3 .f32 := clampSq (rootRows (catRows A B C))

/-- p₀ (1 − p₁) (1 − p₂) of each row. -/
def combCol (P : FVec Ideal S2048x3 .f32) : FVec Ideal S2048 .f32 :=
  mulf (mulf (colv0 P) (subf (broadcast S2048 (Scalar.ofBits .f32 0x3F800000#32)) (colv1 P)))
    (subf (broadcast S2048 (Scalar.ofBits .f32 0x3F800000#32)) (colv2 P))

theorem linRows_apply (v3 : Vec Ideal S2048x10 .f32) (v4 : Vec Ideal S10x3 .f32) (v6 : Vec Ideal S3 .f32) (r : Fin 2048) (j : Fin 3) :
    linRows v3 v4 v6 (ix2 r j) = Cert.Spec.lin (fun k => v3 (ix2 r k)) (fun j k => v4 (ix2 k j)) (fun j => v6 (ix1 j)) j := by
  unfold linRows
  simp only [addf_apply, broadcastTo_1b_ab_apply, shapeCast_a_1a_apply, shapeCast_self, mm_apply]
  rfl

theorem normRows_apply (X : FVec Ideal S2048x3 .f32) (r : Fin 2048) (j : Fin 3) :
    normRows X (ix2 r j) = (X (ix2 r j) - Cert.Spec.mean3 (fun j => X (ix2 r j)))
      * Ideal.rsqrt (Cert.Spec.var3 (fun j => X (ix2 r j)) + Cert.Spec.ceps) := by
  unfold normRows
  simp only [mulf_apply, subf_apply, addf_apply, divf_apply, broadcastTo_a1_ab_apply, rsqrt_apply, broadcast_apply,
    shapeCast_a_a1_apply, Ideal.ofBits_def]
  rw [rowSum3, rowSum3]
  simp only [mulf_apply, subf_apply, addf_apply, divf_apply, broadcastTo_a1_ab_apply, rsqrt_apply, broadcast_apply,
    shapeCast_a_a1_apply, Ideal.ofBits_def]
  rw [rowSum3]
  rfl

theorem affRows_apply (v7 v8 : Vec Ideal S3 .f32) (v38 : FVec Ideal S2048x3 .f32) (r : Fin 2048) (j : Fin 3) :
    affRows v7 v8 v38 (ix2 r j) = v38 (ix2 r j) * v7 (ix1 j) + v8 (ix1 j) := by
  unfold affRows
  simp only [addf_apply, mulf_apply, broadcastTo_1b_ab_apply, shapeCast_a_1a_apply]

theorem fzRows_apply (m th : FVec Ideal S3 .f32) (g : FVec Ideal S2048x3 .f32) (r : Fin 2048) (j : Fin 3) :
    fzRows m th g (ix2 r j) = Cert.Spec.fz (g (ix2 r j)) (m (ix1 j)) (th (ix1 j)) := by
  unfold fzRows
  simp only [exp_apply, divf_apply, subf_apply, mulf_apply, broadcast_apply, broadcastTo_1b_ab_apply, shapeCast_a_1a_apply,
    Ideal.ofBits_def, Ideal.ofBits_zero_f32, zero_sub]
  rfl

theorem colv0_apply (X : FVec Ideal S2048x3 .f32) (r : Fin 2048) : colv0 X (ix1 r) = X (ix2 r (0 : Fin 3)) := by
  unfold colv0; simp only [shapeCast_a1_a_apply, sliceCol0]
theorem colv1_apply (X : FVec Ideal S2048x3 .f32) (r : Fin 2048) : colv1 X (ix1 r) = X (ix2 r (1 : Fin 3)) := by
  unfold colv1; simp only [shapeCast_a1_a_apply, sliceCol1]
theorem colv2_apply (X : FVec Ideal S2048x3 .f32) (r : Fin 2048) : colv2 X (ix1 r) = X (ix2 r (2 : Fin 3)) := by
  unfold colv2; simp only [shapeCast_a1_a_apply, sliceCol2]

theorem catRows_apply0 (A B C : FVec Ideal S2048x3 .f32) (r : Fin 2048) : catRows A B C (ix2 r (0 : Fin 3)) = A (ix2 r (0 : Fin 3)) := by
  unfold catRows; simp only [cat3_apply0, shapeCast_a_a1_apply, colv0_apply]
theorem catRows_apply1 (A B C : FVec Ideal S2048x3 .f32) (r : Fin 2048) : catRows A B C (ix2 r (1 : Fin 3)) = B (ix2 r (1 : Fin 3)) := by
  unfold catRows; simp only [cat3_apply1, shapeCast_a_a1_apply, colv1_apply]
theorem catRows_apply2 (A B C : FVec Ideal S2048x3 .f32) (r : Fin 2048) : catRows A B C (ix2 r (2 : Fin 3)) = C (ix2 r (2 : Fin 3)) := by
  unfold catRows; simp only [cat3_apply2, shapeCast_a_a1_apply, colv2_apply]

theorem rootRows_apply (X : FVec Ideal S2048x3 .f32) (i : S2048x3.Idx) :
    rootRows X i = Ideal.sqrt (X i + Cert.Spec.ctiny) := rfl

theorem clampSq_apply (S : FVec Ideal S2048x3 .f32) (i : S2048x3.Idx) :
    clampSq S i = min (S i) Cert.Spec.cclamp * min (S i) Cert.Spec.cclamp := rfl

theorem ppRows_apply0 (A B C : FVec Ideal S2048x3 .f32) (r : Fin 2048) : ppRows A B C (ix2 r (0 : Fin 3)) = Cert.Spec.pp (A (ix2 r (0 : Fin 3))) := by
  unfold ppRows; rw [clampSq_apply, rootRows_apply, catRows_apply0]; rfl
theorem ppRows_apply1 (A B C : FVec Ideal S2048x3 .f32) (r : Fin 2048) : ppRows A B C (ix2 r (1 : Fin 3)) = Cert.Spec.pp (B (ix2 r (1 : Fin 3))) := by
  unfold ppRows; rw [clampSq_apply, rootRows_apply, catRows_apply1]; rfl
theorem ppRows_apply2 (A B C : FVec Ideal S2048x3 .f32) (r : Fin 2048) : ppRows A B C (ix2 r (2 : Fin 3)) = Cert.Spec.pp (C (ix2 r (2 : Fin 3))) := by
  unfold ppRows; rw [clampSq_apply, rootRows_apply, catRows_apply2]; rfl

theorem combCol_apply (P : FVec Ideal S2048x3 .f32) (r : Fin 2048) :
    combCol P (ix1 r) = Cert.Spec.comb (P (ix2 r (0 : Fin 3))) (P (ix2 r (1 : Fin 3))) (P (ix2 r (2 : Fin 3))) := by
  unfold combCol
  simp only [mulf_apply, subf_apply, broadcast_apply, colv0_apply, colv1_apply, colv2_apply, Ideal.ofBits_def]
  rfl

end Cert.KernelIdeal.RowVal

end
-- ==== Proof.KV.Row0.lean ====
/-
  Kernel 0's per-row chain: the eight 2048×1 columns its body lays side by side, each read at row r as the row's output
  of that bit pattern.

  The body's values are the block operations of the chain: the normalised, scaled and shifted channels
  G = affRows γ β (normRows (linRows x w b)); the two membership blocks fzRows m₀ θ₀ G and fzRows m₁ θ₁ G; and for the
  pattern (s₀ s₁ s₂) the column combCol (ppRows M_{s₀} M_{s₁} M_{s₂}).
-/
import proofs.«142976_j49512382988410_2_alg».proof.Proof.KV.Row0Chain

noncomputable section

namespace Cert.KernelIdeal.RowVal

open Idealize.ShloMosaic Idealize.ShloMosaic.ValueIdx Idealize.ShloMosaic.ValueKeepdims Idealize.ShloMosaic.ValueColumnVector
open Cert.KernelIdeal Cert.KernelIdeal.Gen

/-- The eight columns of kernel 0's body, as the body composes them from the block, the weights and the seven
    per-channel vectors it loads. -/
def col0 (v3 : Vec Ideal S2048x10 .f32) (v4 : Vec Ideal S10x3 .f32) (v6 v7 v8 v9 v11 v13 v15 : Vec Ideal S3 .f32) : Fin 8 → FVec Ideal S2048x1 .f32 :=
  have v10 : FVec Ideal S3 .f32 := k0_pay8 v9
  have v12 : FVec Ideal S3 .f32 := k0_pay9 v11
  have v14 : FVec Ideal S3 .f32 := k0_pay10 v13
  have v16 : FVec Ideal S3 .f32 := k0_pay11 v15
  have v38 : FVec Ideal S2048x3 .f32 := k0_pay12 v3 v4 v6
  have v57 : FVec Ideal S2048x3 .f32 := k0_pay14 v7 v8 v10 v14 v38
  have v70 : FVec Ideal S2048x3 .f32 := k0_pay15 v7 v8 v12 v16 v38
  have v86 : FVec Ideal S2048x3 .f32 := k0_pay16 v7 v8 v10 v14 v38
  have v88 : FVec Ideal S2048 .f32 := k0_pay17 v7 v8 v10 v14 v38
  have v90 : FVec Ideal S2048 .f32 := k0_pay18 v7 v8 v10 v14 v38
  have v91 : FVec Ideal S2048 .f32 := k0_pay19
  have v98 : FVec Ideal S2048 .f32 := k0_pay20 v86 v88 v90 v91
  have v126 : FVec Ideal S2048 .f32 := k0_pay21 v57 v70
  have v142 : FVec Ideal S2048x3 .f32 := k0_pay22 v57 v70
  have v144 : FVec Ideal S2048 .f32 := k0_pay23 v57 v70
  have v154 : FVec Ideal S2048 .f32 := k0_pay24 v142 v144
  have v182 : FVec Ideal S2048 .f32 := k0_pay25 v57 v70
  have v195 : FVec Ideal S2048x3 .f32 := k0_pay26 v57 v70
  have v196 : FVec Ideal S2048x3 .f32 := k0_pay27
  have v210 : FVec Ideal S2048 .f32 := k0_pay28 v195 v196
  have v238 : FVec Ideal S2048 .f32 := k0_pay29 v57 v70
  have v248 : FVec Ideal S2048x3 .f32 := k0_pay30 v57 v70
  have v249 : FVec Ideal S2048x3 .f32 := k0_pay31
  fun i => match i with
  | ⟨0, _⟩ => k0_pay32 v98
  | ⟨1, _⟩ => k0_pay33 v126
  | ⟨2, _⟩ => k0_pay34 v154
  | ⟨3, _⟩ => k0_pay35 v182
  | ⟨4, _⟩ => k0_pay36 v210
  | ⟨5, _⟩ => k0_pay37 v238
  | ⟨6, _⟩ => k0_pay38 v248 v249
  | ⟨7, _⟩ => k0_pay39 v70
  | ⟨n + 8, h⟩ => absurd h (by omega)

/-- The normalised, scaled and shifted channels of the block. -/
def chan0 (v3 : Vec Ideal S2048x10 .f32) (v4 : Vec Ideal S10x3 .f32) (v6 v7 v8 : Vec Ideal S3 .f32) : FVec Ideal S2048x3 .f32 :=
  affRows v7 v8 (normRows (linRows v3 v4 v6))

/-- The memberships of the first (second) centre and width. -/
def memb0 (v3 : Vec Ideal S2048x10 .f32) (v4 : Vec Ideal S10x3 .f32) (v6 v7 v8 v9 v13 : Vec Ideal S3 .f32) : FVec Ideal S2048x3 .f32 :=
  fzRows (k0_pay8 v9) (k0_pay10 v13) (chan0 v3 v4 v6 v7 v8)
def memb1 (v3 : Vec Ideal S2048x10 .f32) (v4 : Vec Ideal S10x3 .f32) (v6 v7 v8 v11 v15 : Vec Ideal S3 .f32) : FVec Ideal S2048x3 .f32 :=
  fzRows (k0_pay9 v11) (k0_pay11 v15) (chan0 v3 v4 v6 v7 v8)

theorem col0_eq0 (v3 : Vec Ideal S2048x10 .f32) (v4 : Vec Ideal S10x3 .f32) (v6 v7 v8 v9 v11 v13 v15 : Vec Ideal S3 .f32) :
    col0 v3 v4 v6 v7 v8 v9 v11 v13 v15 ⟨0, by omega⟩
      = shapeCast S2048x1 (combCol (ppRows (memb0 v3 v4 v6 v7 v8 v9 v13) (memb0 v3 v4 v6 v7 v8 v9 v13) (memb0 v3 v4 v6 v7 v8 v9 v13))) shapeCasts_S2048_S2048x1 := rfl
theorem col0_eq1 (v3 : Vec Ideal S2048x10 .f32) (v4 : Vec Ideal S10x3 .f32) (v6 v7 v8 v9 v11 v13 v15 : Vec Ideal S3 .f32) :
    col0 v3 v4 v6 v7 v8 v9 v11 v13 v15 ⟨1, by omega⟩
      = shapeCast S2048x1 (combCol (ppRows (memb0 v3 v4 v6 v7 v8 v9 v13) (memb0 v3 v4 v6 v7 v8 v9 v13) (memb1 v3 v4 v6 v7 v8 v11 v15))) shapeCasts_S2048_S2048x1 := rfl
theorem col0_eq2 (v3 : Vec Ideal S2048x10 .f32) (v4 : Vec Ideal S10x3 .f32) (v6 v7 v8 v9 v11 v13 v15 : Vec Ideal S3 .f32) :
    col0 v3 v4 v6 v7 v8 v9 v11 v13 v15 ⟨2, by omega⟩
      = shapeCast S2048x1 (combCol (ppRows (memb0 v3 v4 v6 v7 v8 v9 v13) (memb1 v3 v4 v6 v7 v8 v11 v15) (memb0 v3 v4 v6 v7 v8 v9 v13))) shapeCasts_S2048_S2048x1 := rfl
theorem col0_eq3 (v3 : Vec Ideal S2048x10 .f32) (v4 : Vec Ideal S10x3 .f32) (v6 v7 v8 v9 v11 v13 v15 : Vec Ideal S3 .f32) :
    col0 v3 v4 v6 v7 v8 v9 v11 v13 v15 ⟨3, by omega⟩
      = shapeCast S2048x1 (combCol (ppRows (memb0 v3 v4 v6 v7 v8 v9 v13) (memb1 v3 v4 v6 v7 v8 v11 v15) (memb1 v3 v4 v6 v7 v8 v11 v15))) shapeCasts_S2048_S2048x1 := rfl
theorem col0_eq4 (v3 : Vec Ideal S2048x10 .f32) (v4 : Vec Ideal S10x3 .f32) (v6 v7 v8 v9 v11 v13 v15 : Vec Ideal S3 .f32) :
    col0 v3 v4 v6 v7 v8 v9 v11 v13 v15 ⟨4, by omega⟩
      = shapeCast S2048x1 (combCol (ppRows (memb1 v3 v4 v6 v7 v8 v11 v15) (memb0 v3 v4 v6 v7 v8 v9 v13) (memb0 v3 v4 v6 v7 v8 v9 v13))) shapeCasts_S2048_S2048x1 := rfl
theorem col0_eq5 (v3 : Vec Ideal S2048x10 .f32) (v4 : Vec Ideal S10x3 .f32) (v6 v7 v8 v9 v11 v13 v15 : Vec Ideal S3 .f32) :
    col0 v3 v4 v6 v7 v8 v9 v11 v13 v15 ⟨5, by omega⟩
      = shapeCast S2048x1 (combCol (ppRows (memb1 v3 v4 v6 v7 v8 v11 v15) (memb0 v3 v4 v6 v7 v8 v9 v13) (memb1 v3 v4 v6 v7 v8 v11 v15))) shapeCasts_S2048_S2048x1 := rfl
theorem col0_eq6 (v3 : Vec Ideal S2048x10 .f32) (v4 : Vec Ideal S10x3 .f32) (v6 v7 v8 v9 v11 v13 v15 : Vec Ideal S3 .f32) :
    col0 v3 v4 v6 v7 v8 v9 v11 v13 v15 ⟨6, by omega⟩
      = shapeCast S2048x1 (combCol (ppRows (memb1 v3 v4 v6 v7 v8 v11 v15) (memb1 v3 v4 v6 v7 v8 v11 v15) (memb0 v3 v4 v6 v7 v8 v9 v13))) shapeCasts_S2048_S2048x1 := rfl
theorem col0_eq7 (v3 : Vec Ideal S2048x10 .f32) (v4 : Vec Ideal S10x3 .f32) (v6 v7 v8 v9 v11 v13 v15 : Vec Ideal S3 .f32) :
    col0 v3 v4 v6 v7 v8 v9 v11 v13 v15 ⟨7, by omega⟩
      = shapeCast S2048x1 (combCol (ppRows (memb1 v3 v4 v6 v7 v8 v11 v15) (memb1 v3 v4 v6 v7 v8 v11 v15) (memb1 v3 v4 v6 v7 v8 v11 v15))) shapeCasts_S2048_S2048x1 := rfl

theorem pay8_eq (v : Vec Ideal S3 .f32) : k0_pay8 v = v := by unfold k0_pay8; exact shapeCast_self _ _
theorem pay9_eq (v : Vec Ideal S3 .f32) : k0_pay9 v = v := by unfold k0_pay9; exact shapeCast_self _ _
theorem pay10_eq (v : Vec Ideal S3 .f32) : k0_pay10 v = v := by unfold k0_pay10; exact shapeCast_self _ _
theorem pay11_eq (v : Vec Ideal S3 .f32) : k0_pay11 v = v := by unfold k0_pay11; exact shapeCast_self _ _

theorem chan0_apply (v3 : Vec Ideal S2048x10 .f32) (v4 : Vec Ideal S10x3 .f32) (v6 v7 v8 : Vec Ideal S3 .f32) (r : Fin 2048) (j : Fin 3) :
    chan0 v3 v4 v6 v7 v8 (ix2 r j)
      = Cert.Spec.gn (Cert.Spec.lin (fun k => v3 (ix2 r k)) (fun j k => v4 (ix2 k j)) (fun j => v6 (ix1 j))) (fun j => v7 (ix1 j)) (fun j => v8 (ix1 j)) j := by
  unfold chan0
  rw [affRows_apply, normRows_apply]
  simp only [linRows_apply]
  rfl

theorem memb0_apply (v3 : Vec Ideal S2048x10 .f32) (v4 : Vec Ideal S10x3 .f32) (v6 v7 v8 v9 v13 : Vec Ideal S3 .f32) (r : Fin 2048) (j : Fin 3) :
    memb0 v3 v4 v6 v7 v8 v9 v13 (ix2 r j)
      = Cert.Spec.fz (Cert.Spec.gn (Cert.Spec.lin (fun k => v3 (ix2 r k)) (fun j k => v4 (ix2 k j)) (fun j => v6 (ix1 j))) (fun j => v7 (ix1 j)) (fun j => v8 (ix1 j)) j) (v9 (ix1 j)) (v13 (ix1 j)) := by
  unfold memb0
  rw [fzRows_apply, chan0_apply, pay8_eq, pay10_eq]

theorem memb1_apply (v3 : Vec Ideal S2048x10 .f32) (v4 : Vec Ideal S10x3 .f32) (v6 v7 v8 v11 v15 : Vec Ideal S3 .f32) (r : Fin 2048) (j : Fin 3) :
    memb1 v3 v4 v6 v7 v8 v11 v15 (ix2 r j)
      = Cert.Spec.fz (Cert.Spec.gn (Cert.Spec.lin (fun k => v3 (ix2 r k)) (fun j k => v4 (ix2 k j)) (fun j => v6 (ix1 j))) (fun j => v7 (ix1 j)) (fun j => v8 (ix1 j)) j) (v11 (ix1 j)) (v15 (ix1 j)) := by
  unfold memb1
  rw [fzRows_apply, chan0_apply, pay9_eq, pay11_eq]

/-- Column i of kernel 0's body at row r is output i of the row. -/
theorem col0_apply (v3 : Vec Ideal S2048x10 .f32) (v4 : Vec Ideal S10x3 .f32) (v6 v7 v8 v9 v11 v13 v15 : Vec Ideal S3 .f32) (r : Fin 2048) (i : Fin 8) :
    col0 v3 v4 v6 v7 v8 v9 v11 v13 v15 i (ix2 r 0)
      = Cert.Spec.rowOut (fun k => v3 (ix2 r k)) (fun j k => v4 (ix2 k j)) (fun j => v6 (ix1 j)) (fun j => v7 (ix1 j)) (fun j => v8 (ix1 j))
          (Cert.Spec.pair (fun j => v9 (ix1 j)) (fun j => v11 (ix1 j))) (Cert.Spec.pair (fun j => v13 (ix1 j)) (fun j => v15 (ix1 j))) i := by
  fin_cases i
  · refine (congrFun (col0_eq0 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq1 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq2 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq3 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq4 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq5 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq6 v3 v4 v6 v7 v8 v9 v11 v13 v15) (ix2 r 0)).trans ?_
    rw [shapeCast_a_a1_apply, combCol_apply, ppRows_apply0, ppRows_apply1, ppRows_apply2]
    simp only [memb0_apply, memb1_apply]
    rfl
  · refine (congrFun (col0_eq7 v3 v4 v6 v7 v8 v9 v11 v13 v15) (ix2 r 0)).trans ?_
    rw [shapeCast_a_a1_apply, combCol_apply, ppRows_apply0, ppRows_apply1, ppRows_apply2]
    simp only [memb0_apply, memb1_apply]
    rfl

end Cert.KernelIdeal.RowVal

end
-- ==== Proof.KV.Row1.lean ====
/-
  Kernel 1's per-row chain: the 2048×8 block its body lays out, read at (r, i) as output i of row r.

  The body's values are the same block operations as kernel 0's: the channels
  G = affRows γ β (normRows (linRows x w b)), the two membership blocks fzRows m₀ θ₀ G and fzRows m₁ θ₁ G, and for the
  pattern (s₀ s₁ s₂) the column combCol (ppRows M_{s₀} M_{s₁} M_{s₂}); the eight columns side by side are the block.
-/
import proofs.«142976_j49512382988410_2_alg».proof.Proof.KV.Row0

noncomputable section

namespace Cert.KernelIdeal.RowVal

open Idealize.ShloMosaic Idealize.ShloMosaic.ValueIdx Idealize.ShloMosaic.ValueKeepdims Idealize.ShloMosaic.ValueColumnVector
open Cert.KernelIdeal Cert.KernelIdeal.Gen

/-- The 2048×8 block of kernel 1's body, as the body composes it from the block, the weights and the seven per-channel
    vectors it loads. -/
def out1 (v0 : Vec Ideal S2048x10 .f32) (v1 : Vec Ideal S10x3 .f32) (v3 v4 v5 v6 v8 v10 v12 : Vec Ideal S3 .f32) : FVec Ideal S2048x8 .f32 :=
  have v7 : FVec Ideal S3 .f32 := k1_pay2 v6
  have v9 : FVec Ideal S3 .f32 := k1_pay3 v8
  have v11 : FVec Ideal S3 .f32 := k1_pay4 v10
  have v13 : FVec Ideal S3 .f32 := k1_pay5 v12
  have v41 : FVec Ideal S2048x3 .f32 := k1_pay6 v0 v1 v3 v4 v5
  have v54 : FVec Ideal S2048x3 .f32 := k1_pay7 v7 v11 v41
  have v67 : FVec Ideal S2048x3 .f32 := k1_pay8 v9 v13 v41
  have v90 : FVec Ideal S2048 .f32 := k1_pay10 v7 v11 v41
  have v92 : FVec Ideal S2048 .f32 := k1_pay11 v7 v11 v41
  have v93 : FVec Ideal S2048 .f32 := k1_pay12
  have v95 : FVec Ideal S2048 .f32 := k1_pay13 v90 v92 v93
  have v123 : FVec Ideal S2048 .f32 := k1_pay14 v54 v67
  have v139 : FVec Ideal S2048x3 .f32 := k1_pay15 v54 v67
  have v146 : FVec Ideal S2048 .f32 := k1_pay16 v54 v67
  have v151 : FVec Ideal S2048 .f32 := k1_pay17 v139 v146
  have v179 : FVec Ideal S2048 .f32 := k1_pay18 v54 v67
  have v195 : FVec Ideal S2048x3 .f32 := k1_pay19 v54 v67
  have v197 : FVec Ideal S2048 .f32 := k1_pay20 v54 v67
  have v199 : FVec Ideal S2048 .f32 := k1_pay21 v54 v67
  have v207 : FVec Ideal S2048 .f32 := k1_pay22 v195 v197 v199
  have v235 : FVec Ideal S2048 .f32 := k1_pay23 v54 v67
  have v251 : FVec Ideal S2048x3 .f32 := k1_pay24 v54 v67
  k1_pay25 v67 v95 v123 v151 v179 v207 v235 v251

/-- Eight vectors side by side as the columns of a 2048×8 block. -/
def cat8 (c0 c1 c2 c3 c4 c5 c6 c7 : FVec Ideal S2048 .f32) : FVec Ideal S2048x8 .f32 :=
  concatenate S2048x8 1 [⟨S2048x1, shapeCast S2048x1 c0 shapeCasts_S2048_S2048x1⟩,
    ⟨S2048x1, shapeCast S2048x1 c1 shapeCasts_S2048_S2048x1⟩,
    ⟨S2048x1, shapeCast S2048x1 c2 shapeCasts_S2048_S2048x1⟩,
    ⟨S2048x1, shapeCast S2048x1 c3 shapeCasts_S2048_S2048x1⟩,
    ⟨S2048x1, shapeCast S2048x1 c4 shapeCasts_S2048_S2048x1⟩,
    ⟨S2048x1, shapeCast S2048x1 c5 shapeCasts_S2048_S2048x1⟩,
    ⟨S2048x1, shapeCast S2048x1 c6 shapeCasts_S2048_S2048x1⟩,
    ⟨S2048x1, shapeCast S2048x1 c7 shapeCasts_S2048_S2048x1⟩]
    concatenates_S2048x1_S2048x1_S2048x1_S2048x1_S2048x1_S2048x1_S2048x1_S2048x1_S2048x8_d1

theorem cat8_at0 (c0 c1 c2 c3 c4 c5 c6 c7 : FVec Ideal S2048 .f32) (r : Fin 2048) :
    cat8 c0 c1 c2 c3 c4 c5 c6 c7 (ix2 r (0 : Fin 8)) = c0 (ix1 r) := by
  unfold cat8; rw [cat8_apply0, shapeCast_a_a1_apply]
theorem cat8_at1 (c0 c1 c2 c3 c4 c5 c6 c7 : FVec Ideal S2048 .f32) (r : Fin 2048) :
    cat8 c0 c1 c2 c3 c4 c5 c6 c7 (ix2 r (1 : Fin 8)) = c1 (ix1 r) := by
  unfold cat8; rw [cat8_apply1, shapeCast_a_a1_apply]
theorem cat8_at2 (c0 c1 c2 c3 c4 c5 c6 c7 : FVec Ideal S2048 .f32) (r : Fin 2048) :
    cat8 c0 c1 c2 c3 c4 c5 c6 c7 (ix2 r (2 : Fin 8)) = c2 (ix1 r) := by
  unfold cat8; rw [cat8_apply2, shapeCast_a_a1_apply]
theorem cat8_at3 (c0 c1 c2 c3 c4 c5 c6 c7 : FVec Ideal S2048 .f32) (r : Fin 2048) :
    cat8 c0 c1 c2 c3 c4 c5 c6 c7 (ix2 r (3 : Fin 8)) = c3 (ix1 r) := by
  unfold cat8; rw [cat8_apply3, shapeCast_a_a1_apply]
theorem cat8_at4 (c0 c1 c2 c3 c4 c5 c6 c7 : FVec Ideal S2048 .f32) (r : Fin 2048) :
    cat8 c0 c1 c2 c3 c4 c5 c6 c7 (ix2 r (4 : Fin 8)) = c4 (ix1 r) := by
  unfold cat8; rw [cat8_apply4, shapeCast_a_a1_apply]
theorem cat8_at5 (c0 c1 c2 c3 c4 c5 c6 c7 : FVec Ideal S2048 .f32) (r : Fin 2048) :
    cat8 c0 c1 c2 c3 c4 c5 c6 c7 (ix2 r (5 : Fin 8)) = c5 (ix1 r) := by
  unfold cat8; rw [cat8_apply5, shapeCast_a_a1_apply]
theorem cat8_at6 (c0 c1 c2 c3 c4 c5 c6 c7 : FVec Ideal S2048 .f32) (r : Fin 2048) :
    cat8 c0 c1 c2 c3 c4 c5 c6 c7 (ix2 r (6 : Fin 8)) = c6 (ix1 r) := by
  unfold cat8; rw [cat8_apply6, shapeCast_a_a1_apply]
theorem cat8_at7 (c0 c1 c2 c3 c4 c5 c6 c7 : FVec Ideal S2048 .f32) (r : Fin 2048) :
    cat8 c0 c1 c2 c3 c4 c5 c6 c7 (ix2 r (7 : Fin 8)) = c7 (ix1 r) := by
  unfold cat8; rw [cat8_apply7, shapeCast_a_a1_apply]

/-- The memberships of the first (second) centre and width. -/
def membA (v0 : Vec Ideal S2048x10 .f32) (v1 : Vec Ideal S10x3 .f32) (v3 v4 v5 v6 v10 : Vec Ideal S3 .f32) : FVec Ideal S2048x3 .f32 :=
  fzRows (k1_pay2 v6) (k1_pay4 v10) (chan0 v0 v1 v3 v4 v5)
def membB (v0 : Vec Ideal S2048x10 .f32) (v1 : Vec Ideal S10x3 .f32) (v3 v4 v5 v8 v12 : Vec Ideal S3 .f32) : FVec Ideal S2048x3 .f32 :=
  fzRows (k1_pay3 v8) (k1_pay5 v12) (chan0 v0 v1 v3 v4 v5)

theorem out1_eq (v0 : Vec Ideal S2048x10 .f32) (v1 : Vec Ideal S10x3 .f32) (v3 v4 v5 v6 v8 v10 v12 : Vec Ideal S3 .f32) :
    out1 v0 v1 v3 v4 v5 v6 v8 v10 v12 = cat8
      (combCol (ppRows (membA v0 v1 v3 v4 v5 v6 v10) (membA v0 v1 v3 v4 v5 v6 v10) (membA v0 v1 v3 v4 v5 v6 v10)))
      (combCol (ppRows (membA v0 v1 v3 v4 v5 v6 v10) (membA v0 v1 v3 v4 v5 v6 v10) (membB v0 v1 v3 v4 v5 v8 v12)))
      (combCol (ppRows (membA v0 v1 v3 v4 v5 v6 v10) (membB v0 v1 v3 v4 v5 v8 v12) (membA v0 v1 v3 v4 v5 v6 v10)))
      (combCol (ppRows (membA v0 v1 v3 v4 v5 v6 v10) (membB v0 v1 v3 v4 v5 v8 v12) (membB v0 v1 v3 v4 v5 v8 v12)))
      (combCol (ppRows (membB v0 v1 v3 v4 v5 v8 v12) (membA v0 v1 v3 v4 v5 v6 v10) (membA v0 v1 v3 v4 v5 v6 v10)))
      (combCol (ppRows (membB v0 v1 v3 v4 v5 v8 v12) (membA v0 v1 v3 v4 v5 v6 v10) (membB v0 v1 v3 v4 v5 v8 v12)))
      (combCol (ppRows (membB v0 v1 v3 v4 v5 v8 v12) (membB v0 v1 v3 v4 v5 v8 v12) (membA v0 v1 v3 v4 v5 v6 v10)))
      (combCol (ppRows (membB v0 v1 v3 v4 v5 v8 v12) (membB v0 v1 v3 v4 v5 v8 v12) (membB v0 v1 v3 v4 v5 v8 v12))) := rfl

theorem k1pay2_eq (v : Vec Ideal S3 .f32) : k1_pay2 v = v := by unfold k1_pay2; exact shapeCast_self _ _
theorem k1pay3_eq (v : Vec Ideal S3 .f32) : k1_pay3 v = v := by unfold k1_pay3; exact shapeCast_self _ _
theorem k1pay4_eq (v : Vec Ideal S3 .f32) : k1_pay4 v = v := by unfold k1_pay4; exact shapeCast_self _ _
theorem k1pay5_eq (v : Vec Ideal S3 .f32) : k1_pay5 v = v := by unfold k1_pay5; exact shapeCast_self _ _

theorem membA_apply (v0 : Vec Ideal S2048x10 .f32) (v1 : Vec Ideal S10x3 .f32) (v3 v4 v5 v6 v10 : Vec Ideal S3 .f32) (r : Fin 2048) (j : Fin 3) :
    membA v0 v1 v3 v4 v5 v6 v10 (ix2 r j)
      = Cert.Spec.fz (Cert.Spec.gn (Cert.Spec.lin (fun k => v0 (ix2 r k)) (fun j k => v1 (ix2 k j)) (fun j => v3 (ix1 j))) (fun j => v4 (ix1 j)) (fun j => v5 (ix1 j)) j) (v6 (ix1 j)) (v10 (ix1 j)) := by
  unfold membA
  rw [fzRows_apply, chan0_apply, k1pay2_eq, k1pay4_eq]

theorem membB_apply (v0 : Vec Ideal S2048x10 .f32) (v1 : Vec Ideal S10x3 .f32) (v3 v4 v5 v8 v12 : Vec Ideal S3 .f32) (r : Fin 2048) (j : Fin 3) :
    membB v0 v1 v3 v4 v5 v8 v12 (ix2 r j)
      = Cert.Spec.fz (Cert.Spec.gn (Cert.Spec.lin (fun k => v0 (ix2 r k)) (fun j k => v1 (ix2 k j)) (fun j => v3 (ix1 j))) (fun j => v4 (ix1 j)) (fun j => v5 (ix1 j)) j) (v8 (ix1 j)) (v12 (ix1 j)) := by
  unfold membB
  rw [fzRows_apply, chan0_apply, k1pay3_eq, k1pay5_eq]

/-- Kernel 1's block at (r, i) is output i of row r. -/
theorem out1_apply (v0 : Vec Ideal S2048x10 .f32) (v1 : Vec Ideal S10x3 .f32) (v3 v4 v5 v6 v8 v10 v12 : Vec Ideal S3 .f32) (r : Fin 2048) (i : Fin 8) :
    out1 v0 v1 v3 v4 v5 v6 v8 v10 v12 (ix2 r i)
      = Cert.Spec.rowOut (fun k => v0 (ix2 r k)) (fun j k => v1 (ix2 k j)) (fun j => v3 (ix1 j)) (fun j => v4 (ix1 j)) (fun j => v5 (ix1 j))
          (Cert.Spec.pair (fun j => v6 (ix1 j)) (fun j => v8 (ix1 j))) (Cert.Spec.pair (fun j => v10 (ix1 j)) (fun j => v12 (ix1 j))) i := by
  fin_cases i
  · refine ((congrFun (out1_eq v0 v1 v3 v4 v5 v6 v8 v10 v12) _).trans (cat8_at0 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at1 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at2 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at3 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at4 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at5 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at6 _ _ _ _ _ _ _ _ r)).trans ?_
    rw [combCol_apply, ppRows_apply0, ppRows_apply1, ppRows_apply2]
    simp only [membA_apply, membB_apply]
    rfl
  · refine ((congrFun (out1_eq v0 v1 v3 v4 v5 v6 v8 v10 v12) _).trans (cat8_at7 _ _ _ _ _ _ _ _ r)).trans ?_
    rw [combCol_apply, ppRows_apply0, ppRows_apply1, ppRows_apply2]
    simp only [membA_apply, membB_apply]
    rfl

end Cert.KernelIdeal.RowVal

end
-- ==== Proof.KV.Final1.lean ====
/-
  The final region's output array read at an index.

  At every grid point the body's one store leaves in the output window's buffer the tail — batch normalisation, the
  8 → 3 product, the sin² read-out — over the block of row outputs of the point's 2048 input rows. Read at (r, j) this is
  the specification's final value of input row 2048 t + r: the tail at an index, the row chain at an index, and the
  windows' blocks as rows of the input and as the whole parameter arrays. Point t writes its buffer back as block t of
  the output array, the 512 blocks cover the array's 1048576 rows, and so the array ends holding, at (b, j), the final
  value of row b at channel j.
-/
import Idealize.ShloMosaic.Lib.ValueIdx
import Idealize.ShloMosaic.Lib.Pipeline.Value
import Idealize.ShloMosaic.Lib.Tactic
import proofs.«142976_j49512382988410_2_alg».proof.Proof.KI.Region1
import proofs.«142976_j49512382988410_2_alg».proof.Proof.KV.Tail1
import proofs.«142976_j49512382988410_2_alg».proof.Proof.KV.Blocks
import proofs.«142976_j49512382988410_2_alg».proof.Proof.KV.Row1

set_option maxRecDepth 16384

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Frame

noncomputable section

namespace Cert.KernelIdeal.Val1

theorem hz2 : (![0, 0] : Fin 2 → Nat) = fun _ => 0 := funext fun a => by fin_cases a <;> rfl
theorem hz1 : (![0] : Fin 1 → Nat) = fun _ => 0 := funext fun a => by fin_cases a <;> rfl

/-! ## The store's payload as a term -/

/-- What the body leaves in the output window's buffer: the tail over the block of row outputs and the six loaded
    vectors of the second layer. -/
theorem out1_15_eq (c : Dev nD) (i : grid1.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole) (arg14 : Memref sig .tc .vmem S8x3 .f32) (harg14 : arg14.IsWhole) (arg15 : Memref sig .tc .vmem S3 .f32) (harg15 : arg15.IsWhole) (arg16 : Memref sig .tc .vmem S2048x3 .f32) (harg16 : arg16.IsWhole) (x0 : Vec Ideal S2048x10 .f32) (x1 : Vec Ideal S10x3 .f32) (x2 : Vec Ideal S3 .f32) (x3 : Vec Ideal S3 .f32) (x4 : Vec Ideal S3 .f32) (x5 : Vec Ideal S3 .f32) (x6 : Vec Ideal S3 .f32) (x7 : Vec Ideal S3 .f32) (x8 : Vec Ideal S3 .f32) (x9 : Vec Ideal S8 .f32) (x10 : Vec Ideal S8 .f32) (x11 : Vec Ideal S8 .f32) (x12 : Vec Ideal S8 .f32) (x13 : Vec Ideal S8x3 .f32) (x14 : Vec Ideal S3 .f32) :
    out1_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14
      = TailVal.tail1 (RowVal.out1 x0 x1 x2 x3 x4 x5 x6 x7 x8) x9 x10 x11 x12 x13 x14 := by
  unfold out1_15
  rw [View.read_writes_eq_canon _ _ _ (cover1_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)]
  unfold kernelRun1
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S2048x10) hz2, View.ld_unit_zero (S := S10x3) hz2, View.ld_unit_zero (S := S8x3) hz2, View.ld_unit_zero (S := S3) hz1, View.ld_unit_zero (S := S8) hz1]
  rfl

/-! ## The output array -/

section
variable (V : (c : Dev nD) → (b : Ref sig .tc) → Buf (Elt Ideal) ((c : Thread nD τ).loc b)) (c : Dev nD)

/-- The eight outputs of input row b, over the region's arrays. -/
def O1 (b : Fin 1048576) (i : Fin 8) : EReal :=
  Cert.Spec.rowOut (fun k => (V c main_arg0 : S1048576x10.Idx → EReal) (ix2 b k)) (fun j k => (V c main_v0 : S10x3.Idx → EReal) (ix2 k j))
    (fun j => (V c main_arg2 : S3.Idx → EReal) (ix1 j)) (fun j => (V c main_arg3 : S3.Idx → EReal) (ix1 j)) (fun j => (V c main_arg4 : S3.Idx → EReal) (ix1 j))
    (Cert.Spec.pair (fun j => (V c main_v2 : S3.Idx → EReal) (ix1 j)) (fun j => (V c main_v4 : S3.Idx → EReal) (ix1 j)))
    (Cert.Spec.pair (fun j => (V c main_v6 : S3.Idx → EReal) (ix1 j)) (fun j => (V c main_v8 : S3.Idx → EReal) (ix1 j))) i

/-- The final value of row b at channel j, over the region's arrays. -/
def fin1 (W2 : Fin 10 → Fin 8 → EReal) (b2 : Fin 10 → EReal) (b : Fin 1048576) (j : Fin 3) : EReal :=
  Cert.Spec.fin (O1 V c b) (fun i => (V c main_v12_0 : S8.Idx → EReal) (ix1 i)) (fun i => (V c main_v12_1 : S8.Idx → EReal) (ix1 i))
    (fun i => (V c main_arg7 : S8.Idx → EReal) (ix1 i)) (fun i => (V c main_arg8 : S8.Idx → EReal) (ix1 i)) W2 b2 j

/-- What the body leaves in the output window's buffer at point t, over the region's arrays. -/
theorem after15_eq (t : Fin cfg1.N) :
    ((dat1 V c).after 15 t : S2048x3.Idx → EReal)
      = TailVal.tail1 (RowVal.out1 (iblk1 V c 0 t) (V c main_v0) (V c main_arg2) (V c main_arg3) (V c main_arg4) (V c main_v2) (V c main_v4)
          (V c main_v6) (V c main_v8)) (V c main_v12_0) (V c main_v12_1) (V c main_arg7) (V c main_arg8) (V c main_v10) (V c main_v11) := by
  rw [after1_15]
  refine (out1_15_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)).trans ?_
  rw [BlockVal.iblk1_whole_1 V c t, BlockVal.iblk1_whole_2 V c t, BlockVal.iblk1_whole_3 V c t, BlockVal.iblk1_whole_4 V c t,
    BlockVal.iblk1_whole_5 V c t, BlockVal.iblk1_whole_6 V c t, BlockVal.iblk1_whole_7 V c t, BlockVal.iblk1_whole_8 V c t,
    BlockVal.iblk1_whole_9 V c t, BlockVal.iblk1_whole_10 V c t, BlockVal.iblk1_whole_11 V c t, BlockVal.iblk1_whole_12 V c t,
    BlockVal.iblk1_whole_13 V c t, BlockVal.iblk1_whole_14 V c t]

/-- The same at (r, j): the final value of row 2048 t + r. -/
theorem after15_apply (W2 : Fin 10 → Fin 8 → EReal) (b2 : Fin 10 → EReal)
    (hW : ∀ (i : Fin 8) (q : Fin 3), (V c main_v10 : S8x3.Idx → EReal) (ix2 i q) = W2 (Fin.castLE (by decide) q) i)
    (hb : ∀ q : Fin 3, (V c main_v11 : S3.Idx → EReal) (ix1 q) = b2 (Fin.castLE (by decide) q))
    (t : Fin cfg1.N) (r : Fin 2048) (j : Fin 3) (b : Fin 1048576) (hbv : b.val = 2048 * t.val + r.val) :
    ((dat1 V c).after 15 t : S2048x3.Idx → EReal) (ix2 r j) = fin1 V c W2 b2 b j := by
  rw [after15_eq]
  refine (TailVal.tail1_apply _ _ _ _ _ _ _ W2 b2 hW hb r j).trans ?_
  unfold fin1
  have hO : (fun i => RowVal.out1 (iblk1 V c 0 t) (V c main_v0) (V c main_arg2) (V c main_arg3) (V c main_arg4) (V c main_v2) (V c main_v4)
      (V c main_v6) (V c main_v8) (ix2 r i)) = O1 V c b := by
    funext i
    refine (RowVal.out1_apply _ _ _ _ _ _ _ _ _ r i).trans ?_
    unfold O1
    have hx : (fun k => (iblk1 V c 0 t : Vec Ideal S2048x10 .f32) (ix2 r k)) = fun k => (V c main_arg0 : S1048576x10.Idx → EReal) (ix2 b k) :=
      funext fun k => BlockVal.iblk1_x_apply V c t r k b hbv
    rw [hx]
  rw [hO]
end

section
variable (V : (c : Dev nD) → (b : Ref sig .tc) → Buf (Elt Ideal) ((c : Thread nD τ).loc b)) (c : Dev nD)

/-- The output array the region leaves, as a function of the index: the final value of row b at channel j. -/
def G15 (W2 : Fin 10 → Fin 8 → EReal) (b2 : Fin 10 → EReal) : S1048576x3.Idx → EReal :=
  fun y => fin1 V c W2 b2 (y 0) (y 1)

/-- The grid has 512 points. -/
theorem N1 : cfg1.N = 512 := by decide

/-- The output window's block index at point t is (t, 0). -/
theorem index1_15 (t : Fin cfg1.N) : win1_15.index t 0 = t.val ∧ win1_15.index t 1 = 0 :=
  (by decide +kernel : ∀ t : Fin grid1.N, win1_15.index t 0 = t.val ∧ win1_15.index t 1 = 0) t

/-- What point t writes back is block t of the output array. -/
theorem flushed15_eq (W2 : Fin 10 → Fin 8 → EReal) (b2 : Fin 10 → EReal)
    (hW : ∀ (i : Fin 8) (q : Fin 3), (V c main_v10 : S8x3.Idx → EReal) (ix2 i q) = W2 (Fin.castLE (by decide) q) i)
    (hb : ∀ q : Fin 3, (V c main_v11 : S3.Idx → EReal) (ix1 q) = b2 (Fin.castLE (by decide) q)) (t : Fin cfg1.N) :
    (dat1 V c).flushed 15 t = ((cfg1.win 15).blk t).view.read (Elt Ideal) (G15 V c W2 b2) := by
  have hi := index1_15 t
  have hN := N1
  have ht : t.val < 512 := by have := t.isLt; omega
  have key : ∀ (r : Fin 2048) (j : Fin 3),
      ((cfg1.win 15).cut (grid1.coords t) ((dat1 V c).after 15 t) : S2048x3.Idx → EReal) (ix2 r j)
        = (((cfg1.win 15).blk t).view.read (Elt Ideal) (G15 V c W2 b2) : S2048x3.Idx → EReal) (ix2 r j) := by
    intro r j
    have hbnd : 2048 * t.val + r.val < 1048576 := by have := r.isLt; omega
    show ((dat1 V c).after 15 t : S2048x3.Idx → EReal) (ix2 r j) = _
    rw [after15_apply V c W2 b2 hW hb t r j ⟨2048 * t.val + r.val, hbnd⟩ rfl]
    refine Eq.trans (b := G15 V c W2 b2 (ix2 (⟨2048 * t.val + r.val, hbnd⟩ : Fin 1048576) j)) rfl ?_
    rw [View.read_apply]
    show G15 V c W2 b2 _ = G15 V c W2 b2 _
    congr 1
    funext a
    apply Fin.ext
    match a with
    | ⟨0, _⟩ => show 2048 * t.val + r.val = win1_15.index t 0 * 2048 + 1 * r.val; rw [hi.1]; omega
    | ⟨1, _⟩ => show j.val = win1_15.index t 1 * 3 + 1 * j.val; rw [hi.2]; omega
  show (cfg1.win 15).cut (grid1.coords t) ((dat1 V c).after 15 t) = _
  funext (x : S2048x3.Idx)
  have h := key (x 0) (x 1)
  rw [eq_ix2 x]
  exact h

/-- Every row of the output array lies in the block of some point. -/
theorem cover15 (i : S1048576x3.Idx) : ∃ t : Fin cfg1.N, (cfg1.win 15).flush t = true ∧ i ∈ ((cfg1.win 15).blk t).view.set := by
  have hN := N1
  have h0 : (i 0 : Nat) < 1048576 := (i 0).isLt
  have h1 : (i 1 : Nat) < 3 := (i 1).isLt
  let t : Fin cfg1.N := ⟨(i 0 : Nat) / 2048, by rw [hN]; omega⟩
  have hi := index1_15 t
  refine ⟨t, flush1_15 t, ?_⟩
  show i ∈ ((View.whole main_v13).slice (win1_15.rect t)).set
  rw [View.set_slice_whole, Rect.mem_set_unit]
  intro a
  match a with
  | ⟨0, _⟩ =>
    show win1_15.index t 0 * 2048 ≤ (i 0 : Nat) ∧ (i 0 : Nat) < win1_15.index t 0 * 2048 + 2048
    rw [hi.1]; show (i 0 : Nat) / 2048 * 2048 ≤ (i 0 : Nat) ∧ (i 0 : Nat) < (i 0 : Nat) / 2048 * 2048 + 2048; omega
  | ⟨1, _⟩ =>
    show win1_15.index t 1 * 3 ≤ (i 1 : Nat) ∧ (i 1 : Nat) < win1_15.index t 1 * 3 + 3
    rw [hi.2]; omega

/-- The output array after the final region, at (b, j): the specification's final value of row b. -/
theorem arr15_apply (W2 : Fin 10 → Fin 8 → EReal) (b2 : Fin 10 → EReal)
    (hW : ∀ (i : Fin 8) (q : Fin 3), (V c main_v10 : S8x3.Idx → EReal) (ix2 i q) = W2 (Fin.castLE (by decide) q) i)
    (hb : ∀ q : Fin 3, (V c main_v11 : S3.Idx → EReal) (ix1 q) = b2 (Fin.castLE (by decide) q)) (b : Fin 1048576) (j : Fin 3) :
    ((dat1 V c).arrAt 15 cfg1.N : S1048576x3.Idx → EReal) (ix2 b j)
      = Cert.Spec.fin (O1 V c b) (fun i => (V c main_v12_0 : S8.Idx → EReal) (ix1 i)) (fun i => (V c main_v12_1 : S8.Idx → EReal) (ix1 i))
          (fun i => (V c main_arg7 : S8.Idx → EReal) (ix1 i)) (fun i => (V c main_arg8 : S8.Idx → EReal) (ix1 i)) W2 b2 j := by
  have h := (dat1 V c).arrAt_eq_of_cover 15 (G15 V c W2 b2) (fun t _ => flushed15_eq V c W2 b2 hW hb t) cover15
  rw [h]
  rfl
end

end Cert.KernelIdeal.Val1
end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.KV.Tail0.lean ====
/-
  Kernel 0's tail read at an index.

  At each grid point the kernel sets the tile's eight [2048,1] columns side by side, adds the column sums of the tile and
  of its square to two 8-vector accumulators (which start from zero), and at the last point turns the accumulated sums
  into the mean ∑o · 2⁻²⁰ and the variance max(∑o² · 2⁻²⁰ − mean², 0). Each stage is read at an index: the
  concatenation at (r, i) is column i at (r, 0); a first-axis sum at i is the sum of column i.
-/
import Idealize.ShloMosaic.Lib.ValueIdx
import Idealize.ShloMosaic.Lib.ValueLayout
import Idealize.ShloMosaic.Lib.Pipeline.Value
import Idealize.ShloMosaic.PureOps.Ideal.Laws
import proofs.«142976_j49512382988410_2_alg».proof.Proof.Gen.KernelIdeal.Skeleton
import proofs.«142976_j49512382988410_2_alg».proof.Proof.Spec
import proofs.«142976_j49512382988410_2_alg».proof.Proof.LibColumnSum
import proofs.«142976_j49512382988410_2_alg».proof.Proof.LibKeepdims
import proofs.«142976_j49512382988410_2_alg».proof.Proof.LibColumnVector

open Idealize.ShloMosaic Idealize.ShloMosaic.ValueIdx Idealize.ShloMosaic.ValueKeepdims Idealize.ShloMosaic.ValueColumnVector
open Cert.KernelIdeal Cert.KernelIdeal.Gen

noncomputable section

namespace Cert.KernelIdeal.TailVal

/-! ## Kernel 0's tail, read at an index -/

/-- The accumulators' initial value is zero. -/
theorem pay6_apply (i : Fin 8) : k0_pay6 (F := Ideal) (ix1 i) = Cert.Spec.c0 := by
  unfold k0_pay6
  simp only [shapeCast_self, broadcast_apply]
  rfl

theorem pay7_apply (i : Fin 8) : k0_pay7 (F := Ideal) (ix1 i) = Cert.Spec.c0 := by
  unfold k0_pay7
  simp only [shapeCast_self, broadcast_apply]
  rfl

/-- The mean: the accumulated sum times 2⁻²⁰. -/
theorem pay4_apply (v320 : Vec Ideal S8 .f32) (i : Fin 8) : k0_pay4 v320 (ix1 i) = v320 (ix1 i) * Cert.Spec.cinvN := by
  unfold k0_pay4
  simp only [mulf_apply, broadcast_apply]
  rfl

/-- The variance: max(∑o² · 2⁻²⁰ − mean², 0). -/
theorem pay5_apply (v320 v323 : Vec Ideal S8 .f32) (i : Fin 8) :
    k0_pay5 v320 v323 (ix1 i)
      = max (v323 (ix1 i) * Cert.Spec.cinvN - (v320 (ix1 i) * Cert.Spec.cinvN) * (v320 (ix1 i) * Cert.Spec.cinvN)) Cert.Spec.c0 := by
  unfold k0_pay5
  simp only [maximumf_apply, subf_apply, mulf_apply, broadcast_apply, pay4_apply]
  rfl

/-- Eight [2048,1] columns set side by side: entry (r, i) is column i at (r, 0). -/
theorem concat8_apply (f : Fin 8 → FVec Ideal S2048x1 .f32)
    (h : Shape.Concatenates [S2048x1, S2048x1, S2048x1, S2048x1, S2048x1, S2048x1, S2048x1, S2048x1] S2048x8 1)
    (r : Fin 2048) (i : Fin 8) :
    concatenate S2048x8 1 [⟨S2048x1, f 0⟩, ⟨S2048x1, f 1⟩, ⟨S2048x1, f 2⟩, ⟨S2048x1, f 3⟩, ⟨S2048x1, f 4⟩, ⟨S2048x1, f 5⟩,
      ⟨S2048x1, f 6⟩, ⟨S2048x1, f 7⟩] h (ix2 r i) = f i (ix2 r (0 : Fin 1)) :=
  concatenate_ofFn_unit_apply (t := S2048x8) (s₁ := S2048x1) 1 f h rfl rfl (ix2 r i) i rfl (ix2 r (0 : Fin 1))
    (fun b hb => match b with
      | ⟨0, _⟩ => rfl
      | ⟨1, _⟩ => absurd rfl hb)

/-- The tile from its eight columns. -/
theorem pay1_apply (cs : Fin 8 → FVec Ideal S2048x1 .f32) (r : Fin 2048) (i : Fin 8) :
    k0_pay1 (cs 0) (cs 1) (cs 2) (cs 3) (cs 4) (cs 5) (cs 6) (cs 7) (ix2 r i) = cs i (ix2 r (0 : Fin 1)) := by
  unfold k0_pay1
  exact concat8_apply cs _ r i

/-- The sum accumulator after a grid point: plus the tile's column sums. -/
theorem pay2_apply (cs : Fin 8 → FVec Ideal S2048x1 .f32) (v304 : Vec Ideal S8 .f32) (i : Fin 8) :
    k0_pay2 (cs 0) (cs 1) (cs 2) (cs 3) (cs 4) (cs 5) (cs 6) (cs 7) v304 (ix1 i)
      = v304 (ix1 i) + ∑ r : Fin 2048, cs i (ix2 r (0 : Fin 1)) := by
  unfold k0_pay2
  simp only [shapeCast_self, addf_apply]
  refine congrArg (v304 (ix1 i) + ·) ?_
  refine (multiReduction_add_col _ _ _ _ _ i).trans ?_
  exact Finset.sum_congr rfl fun r _ => pay1_apply cs r i

/-- The square-sum accumulator after a grid point: plus the column sums of the tile's square. -/
theorem pay3_apply (cs : Fin 8 → FVec Ideal S2048x1 .f32) (v310 : Vec Ideal S8 .f32) (i : Fin 8) :
    k0_pay3 (cs 0) (cs 1) (cs 2) (cs 3) (cs 4) (cs 5) (cs 6) (cs 7) v310 (ix1 i)
      = v310 (ix1 i) + ∑ r : Fin 2048, cs i (ix2 r (0 : Fin 1)) * cs i (ix2 r (0 : Fin 1)) := by
  unfold k0_pay3
  simp only [shapeCast_self, addf_apply]
  refine congrArg (v310 (ix1 i) + ·) ?_
  refine (multiReduction_add_col _ _ _ _ _ i).trans ?_
  exact Finset.sum_congr rfl fun r _ => by rw [mulf_apply, pay1_apply]

end Cert.KernelIdeal.TailVal
end
-- ==== Proof.KI.Val0.lean ====
/-
  The statistics region's accumulators and outputs as values. At grid point t the body adds to the two accumulators the
  column sums, over the tile's 2048 rows, of the tile's eight outputs and of their squares; point 0 starts them from
  zero. So after point n the accumulators hold the sums over the rows of tiles 0 … n; at the last point, 511, the body
  stores (sum · 2⁻²⁰) and max(sumsq · 2⁻²⁰ − mean², 0) into the two output windows.
-/
import proofs.«142976_j49512382988410_2_alg».proof.Proof.KI.Arr0
import proofs.«142976_j49512382988410_2_alg».proof.Proof.KV.Tail0
import Idealize.ShloMosaic.Lib.Pipeline.Value

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Frame Cert.KernelIdeal.TailVal

theorem hz2 : (![0, 0] : Fin 2 → Nat) = fun _ => 0 := funext fun a => by fin_cases a <;> rfl
theorem hz1 : (![0] : Fin 1 → Nat) = fun _ => 0 := funext fun a => by fin_cases a <;> rfl

/-- The tile's eight output columns as the body computes them from the nine loaded blocks (x, the transposed weight,
    the bias, scale and shift, the two centres, the two widths). -/
def tcols (x0 : Vec Ideal S2048x10 .f32) (x1 : Vec Ideal S10x3 .f32) (x2 x3 x4 x5 x6 x7 x8 : Vec Ideal S3 .f32) : Fin 8 → FVec Ideal S2048x1 .f32
  | 0 => k0_pay32 (k0_pay20 (k0_pay16 x3 x4 (k0_pay8 x5) (k0_pay10 x7) (k0_pay12 x0 x1 x2)) (k0_pay17 x3 x4 (k0_pay8 x5) (k0_pay10 x7) (k0_pay12 x0 x1 x2)) (k0_pay18 x3 x4 (k0_pay8 x5) (k0_pay10 x7) (k0_pay12 x0 x1 x2)) (k0_pay19 (F := Ideal)))
  | 1 => k0_pay33 (k0_pay21 (k0_pay14 x3 x4 (k0_pay8 x5) (k0_pay10 x7) (k0_pay12 x0 x1 x2)) (k0_pay15 x3 x4 (k0_pay9 x6) (k0_pay11 x8) (k0_pay12 x0 x1 x2)))
  | 2 => k0_pay34 (k0_pay24 (k0_pay22 (k0_pay14 x3 x4 (k0_pay8 x5) (k0_pay10 x7) (k0_pay12 x0 x1 x2)) (k0_pay15 x3 x4 (k0_pay9 x6) (k0_pay11 x8) (k0_pay12 x0 x1 x2))) (k0_pay23 (k0_pay14 x3 x4 (k0_pay8 x5) (k0_pay10 x7) (k0_pay12 x0 x1 x2)) (k0_pay15 x3 x4 (k0_pay9 x6) (k0_pay11 x8) (k0_pay12 x0 x1 x2))))
  | 3 => k0_pay35 (k0_pay25 (k0_pay14 x3 x4 (k0_pay8 x5) (k0_pay10 x7) (k0_pay12 x0 x1 x2)) (k0_pay15 x3 x4 (k0_pay9 x6) (k0_pay11 x8) (k0_pay12 x0 x1 x2)))
  | 4 => k0_pay36 (k0_pay28 (k0_pay26 (k0_pay14 x3 x4 (k0_pay8 x5) (k0_pay10 x7) (k0_pay12 x0 x1 x2)) (k0_pay15 x3 x4 (k0_pay9 x6) (k0_pay11 x8) (k0_pay12 x0 x1 x2))) (k0_pay27 (F := Ideal)))
  | 5 => k0_pay37 (k0_pay29 (k0_pay14 x3 x4 (k0_pay8 x5) (k0_pay10 x7) (k0_pay12 x0 x1 x2)) (k0_pay15 x3 x4 (k0_pay9 x6) (k0_pay11 x8) (k0_pay12 x0 x1 x2)))
  | 6 => k0_pay38 (k0_pay30 (k0_pay14 x3 x4 (k0_pay8 x5) (k0_pay10 x7) (k0_pay12 x0 x1 x2)) (k0_pay15 x3 x4 (k0_pay9 x6) (k0_pay11 x8) (k0_pay12 x0 x1 x2))) (k0_pay31 (F := Ideal))
  | 7 => k0_pay39 (k0_pay15 x3 x4 (k0_pay9 x6) (k0_pay11 x8) (k0_pay12 x0 x1 x2))

/-! ## What each case's stores are, as terms of the loaded blocks -/

section Pieces
variable (c : Dev nD) (i : grid0.Coords) (arg1 : Memref sig .tc .vmem S2048x10 .f32) (harg1 : arg1.IsWhole) (arg2 : Memref sig .tc .vmem S10x3 .f32) (harg2 : arg2.IsWhole) (arg3 : Memref sig .tc .vmem S3 .f32) (harg3 : arg3.IsWhole) (arg4 : Memref sig .tc .vmem S3 .f32) (harg4 : arg4.IsWhole) (arg5 : Memref sig .tc .vmem S3 .f32) (harg5 : arg5.IsWhole) (arg6 : Memref sig .tc .vmem S3 .f32) (harg6 : arg6.IsWhole) (arg7 : Memref sig .tc .vmem S3 .f32) (harg7 : arg7.IsWhole) (arg8 : Memref sig .tc .vmem S3 .f32) (harg8 : arg8.IsWhole) (arg9 : Memref sig .tc .vmem S3 .f32) (harg9 : arg9.IsWhole) (arg10 : Memref sig .tc .vmem S8 .f32) (harg10 : arg10.IsWhole) (arg11 : Memref sig .tc .vmem S8 .f32) (harg11 : arg11.IsWhole) (arg12 : Memref sig .tc .vmem S8 .f32) (harg12 : arg12.IsWhole) (arg13 : Memref sig .tc .vmem S8 .f32) (harg13 : arg13.IsWhole)
variable (x0 : Vec Ideal S2048x10 .f32) (x1 : Vec Ideal S10x3 .f32) (x2 x3 x4 x5 x6 x7 x8 : Vec Ideal S3 .f32) (xs0 xs1 : Vec Ideal S8 .f32)

local macro "pieces_tac" : tactic => `(tactic| (
  dsimp only
  try sl_unfold_words
  simp only [View.canon_unit_zero (S := S8) hz1, View.canon_cons_unit_zero (S := S8) hz1, View.readCov_unit_zero (S := S8) _ hz1,
    View.readAt_eq_ld, harg1.read_unread, harg2.read_unread, harg3.read_unread, harg4.read_unread, harg5.read_unread,
    harg6.read_unread, harg7.read_unread, harg8.read_unread, harg9.read_unread, harg12.read_unread, harg13.read_unread,
    View.ld_unit_zero (S := S2048x10) hz2, View.ld_unit_zero (S := S10x3) hz2, View.ld_unit_zero (S := S3) hz1,
    View.ld_unit_zero (S := S8) hz1]))

theorem soutA0_eq (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = k0_pay2 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) (k0_pay6 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  pieces_tac
  rfl

theorem soutA1_eq (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8
      = k0_pay3 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) (k0_pay7 (F := Ideal)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  pieces_tac
  rfl

theorem soutB0_eq (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay2 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  pieces_tac
  rfl

theorem soutB1_eq (hc0 : ¬cond0_0 i) (hc1 : ¬cond0_1 i) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay3 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  pieces_tac
  rfl

theorem soutC0_eq (hc0 : ¬cond0_0 i) (hc1 : cond0_1 i) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay2 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  pieces_tac
  rfl

theorem soutC1_eq (hc0 : ¬cond0_0 i) (hc1 : cond0_1 i) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay3 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  pieces_tac
  rfl

theorem outC9_eq (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay4 (k0_pay2 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs0) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  pieces_tac
  rfl

theorem outC10_eq (hc0 : ¬cond0_0 i) (hc1 : cond0_1 i) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1
      = k0_pay5 (k0_pay2 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs0) (k0_pay3 (tcols x0 x1 x2 x3 x4 x5 x6 x7 x8 0) (tcols x0 x1 x2 x3 x4 x5 x6 x7 x8 1) (tcols x0 x1 x2 x3 x4 x5 x6 x7 x8 2) (tcols x0 x1 x2 x3 x4 x5 x6 x7 x8 3) (tcols x0 x1 x2 x3 x4 x5 x6 x7 x8 4) (tcols x0 x1 x2 x3 x4 x5 x6 x7 x8 5) (tcols x0 x1 x2 x3 x4 x5 x6 x7 x8 6) (tcols x0 x1 x2 x3 x4 x5 x6 x7 x8 7) xs1) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  pieces_tac
  rfl

end Pieces

/-! ## The accumulation, entry by entry -/

section Acc
variable (V : (c : Dev nD) → (b : Ref sig .tc) → Buf (Elt Ideal) ((c : Thread nD τ).loc b)) (c : Dev nD)

/-- Tile t's eight output columns. -/
def cols (t : Fin cfg0.N) : Fin 8 → FVec Ideal S2048x1 .f32 := tcols (iblk0 V c 0 t) (iblk0 V c 1 t) (iblk0 V c 2 t) (iblk0 V c 3 t) (iblk0 V c 4 t) (iblk0 V c 5 t) (iblk0 V c 6 t) (iblk0 V c 7 t) (iblk0 V c 8 t)

/-- The sum over tile k's rows of output i, and of its square (zero past the grid). -/
def T1 (i : Fin 8) (k : ℕ) : EReal := if h : k < cfg0.N then ∑ r : Fin 2048, cols V c ⟨k, h⟩ i (ix2 r 0) else 0
def T2 (i : Fin 8) (k : ℕ) : EReal := if h : k < cfg0.N then ∑ r : Fin 2048, cols V c ⟨k, h⟩ i (ix2 r 0) * cols V c ⟨k, h⟩ i (ix2 r 0) else 0

theorem acc (i : Fin 8) : ∀ (n : ℕ) (hn : n < cfg0.N),
    (outsAt0 V c n hn).2.2.1 (ix1 i) = Cert.Spec.c0 + ∑ k ∈ Finset.range (n + 1), T1 V c i k
    ∧ (outsAt0 V c n hn).2.2.2 (ix1 i) = Cert.Spec.c0 + ∑ k ∈ Finset.range (n + 1), T2 V c i k
  | 0, hn => by
    have e := outsAt0_A V c ⟨0, hn⟩ (Nat.zero_mod _) (by show ¬ (0 % 512 = 511); decide)
    rw [show outsAt0 V c 0 hn = outsAt0 V c (⟨0, hn⟩ : Fin cfg0.N).val (⟨0, hn⟩ : Fin cfg0.N).isLt from rfl, e]
    dsimp only
    rw [soutA0_eq, soutA1_eq, pay2_apply, pay3_apply, pay6_apply, pay7_apply]
    simp only [zero_add, Finset.sum_range_one, T1, T2, dif_pos hn]
    exact ⟨rfl, rfl⟩
  | n + 1, hn => by
    have ih := acc i n (Nat.lt_of_succ_lt hn)
    have hN : n + 1 < 512 := lt_of_lt_of_eq hn (show cfg0.N = 512 from N_0)
    have h0 : ¬(n + 1) % 512 = 0 := by omega
    rw [Finset.sum_range_succ _ (n + 1), Finset.sum_range_succ _ (n + 1), ← add_assoc, ← add_assoc, ← ih.1, ← ih.2]
    simp only [T1, T2, dif_pos hn]
    by_cases h1 : (n + 1) % 512 = 511
    · have e := outsAt0_C V c ⟨n + 1, hn⟩ h0 h1
      rw [show outsAt0 V c (n + 1) hn = outsAt0 V c (⟨n + 1, hn⟩ : Fin cfg0.N).val (⟨n + 1, hn⟩ : Fin cfg0.N).isLt from rfl, e]
      dsimp only
      rw [soutC0_eq, soutC1_eq, pay2_apply, pay3_apply]
      exact ⟨rfl, rfl⟩
    · have e := outsAt0_B V c ⟨n + 1, hn⟩ h0 h1
      rw [show outsAt0 V c (n + 1) hn = outsAt0 V c (⟨n + 1, hn⟩ : Fin cfg0.N).val (⟨n + 1, hn⟩ : Fin cfg0.N).isLt from rfl, e]
      dsimp only
      rw [soutB0_eq, soutB1_eq, pay2_apply, pay3_apply]
      exact ⟨rfl, rfl⟩

/-- At the last point the two outputs are the mean and the clamped variance of the accumulators' final contents. -/
theorem last_out :
    (outsAt0 V c t511.val t511.isLt).1 = k0_pay4 (outsAt0 V c t511.val t511.isLt).2.2.1
    ∧ (outsAt0 V c t511.val t511.isLt).2.1 = k0_pay5 (outsAt0 V c t511.val t511.isLt).2.2.1 (outsAt0 V c t511.val t511.isLt).2.2.2 := by
  have e := outsAt0_C V c t511 (by decide) (by decide)
  rw [e]
  dsimp only
  rw [outC9_eq, outC10_eq, soutC0_eq, soutC1_eq]
  exact ⟨rfl, rfl⟩

end Acc

end Cert.KernelIdeal.Val0

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.Alg.lean ====
/-
  The certificate's one law on the real numbers, and the realness of every row output.

  • The words 2⁻²⁰, 2²⁰, 0, 1 read on the extended reals are the real numbers they name.
  • The one-pass mean ∑o · 2⁻²⁰ is the quotient ∑o / 2²⁰, with no hypothesis: dividing by a non-zero real is multiplying
    by its reciprocal, at the infinities too.
  • For real entries the one-pass variance max(∑o² · 2⁻²⁰ − mean², 0) is the two-pass variance ∑(o − mean)² / 2²⁰.
  • Every row output is a real number whatever the inputs: a Gaussian membership exp(·) lies in [0, ⊤]; adding the
    positive real 1e-16 keeps it in [0, ⊤]; the root of a non-negative real is a real and the root of ⊤ is ⊤; the
    minimum with the real 0.99999 is therefore a real; and squares, 1 − p and products of reals are reals.
-/
import proofs.«142976_j49512382988410_2_alg».proof.Proof.Spec
import proofs.«142976_j49512382988410_2_alg».proof.Proof.LibBatchVar

open Idealize.ShloMosaic

namespace Cert.Alg

open Cert.Spec

/-! ## The words as real numbers -/

theorem cinvN_eq : cinvN = ((1 / 1048576 : ℝ) : EReal) := by
  simp [cinvN, Ideal.ofBits, Ideal.ieee, -EReal.coe_mul]; norm_num

theorem cN_eq : cN = ((1048576 : ℝ) : EReal) := by
  simp [cN, Ideal.ofBits, Ideal.ieee, -EReal.coe_mul]; norm_num

theorem c0_eq : c0 = 0 := by
  simp [c0, Ideal.ofBits, Ideal.ieee]

theorem c1_eq : c1 = ((1 : ℝ) : EReal) := by
  simp [c1, Ideal.ofBits, Ideal.ieee, -EReal.coe_mul]; norm_num

/-- 1e-16 is a non-negative real. -/
theorem ctiny_real : ∃ t : ℝ, 0 ≤ t ∧ ctiny = (t : EReal) := by
  refine ⟨(15111573 : ℝ) * (2 : ℝ) ^ (-77 : Int), by positivity, ?_⟩
  simp [ctiny, Ideal.ofBits, Ideal.ieee, -EReal.coe_mul]

/-- 0.99999 is a real. -/
theorem cclamp_real : ∃ c : ℝ, cclamp = (c : EReal) := by
  refine ⟨(16777048 : ℝ) * (2 : ℝ) ^ (-24 : Int), ?_⟩
  simp [cclamp, Ideal.ofBits, Ideal.ieee, -EReal.coe_mul]

/-! ## The batch statistics -/

/-- The one-pass mean is the two-pass mean. -/
theorem meanK_eq (O : Fin 1048576 → EReal) : meanK O = meanR O := by
  unfold meanK meanR
  rw [cinvN_eq, cN_eq]
  exact (Ideal.div_coe (by norm_num) _).symm

/-- The one-pass variance is the two-pass variance, for real entries. -/
theorem varK_eq (O : Fin 1048576 → EReal) (hO : ∀ b, ∃ x : ℝ, O b = (x : EReal)) : varK O = varR O := by
  choose x hx using hO
  obtain rfl : O = fun b => (x b : EReal) := funext hx
  unfold varK varR meanK meanR
  rw [cinvN_eq, cN_eq, c0_eq]
  exact Cert.Lib.BatchVar.var_eq x 1048576 (by simp) (by norm_num)

/-! ## Every row output is real -/

/-- exp lies in [0, ⊤]. -/
theorem exp_nonneg (z : EReal) : 0 ≤ Ideal.exp z := by
  induction z using EReal.rec with
  | bot => exact le_refl _
  | coe r => exact EReal.coe_nonneg.mpr (Real.exp_pos r).le
  | top => exact le_top

/-- min(√(q + 1e-16), 0.99999) is a real for q in [0, ⊤]. -/
theorem sq_real (q : EReal) (hq : 0 ≤ q) : ∃ s : ℝ, Spec.sq q = (s : EReal) := by
  obtain ⟨t, ht0, ht⟩ := ctiny_real
  obtain ⟨c, hc⟩ := cclamp_real
  unfold Spec.sq
  rw [ht, hc]
  induction q using EReal.rec with
  | bot => exact absurd hq (by simp)
  | coe r =>
    have hr : 0 ≤ r := EReal.coe_nonneg.mp hq
    rw [← EReal.coe_add, Ideal.sqrt_coe, if_neg (not_lt.mpr (add_nonneg hr ht0))]
    rcases min_choice ((Real.sqrt (r + t) : ℝ) : EReal) (c : EReal) with h | h
    · exact ⟨_, h⟩
    · exact ⟨_, h⟩
  | top =>
    rw [EReal.top_add_coe, Ideal.sqrt_top]
    exact ⟨c, min_eq_right le_top⟩

/-- min(√(q + 1e-16), 0.99999)² is a real for q in [0, ⊤]. -/
theorem pp_real (q : EReal) (hq : 0 ≤ q) : ∃ p : ℝ, pp q = (p : EReal) := by
  obtain ⟨s, hs⟩ := sq_real q hq
  exact ⟨s * s, by rw [pp, hs, EReal.coe_mul]⟩

/-- p₀ (1 − p₁)(1 − p₂) of three reals is a real. -/
theorem comb_real (p0 p1 p2 : ℝ) : ∃ y : ℝ, comb (p0 : EReal) (p1 : EReal) (p2 : EReal) = (y : EReal) :=
  ⟨p0 * (1 - p1) * (1 - p2), by rw [comb, c1_eq, ← EReal.coe_sub, ← EReal.coe_sub, ← EReal.coe_mul, ← EReal.coe_mul]⟩

/-- A Gaussian membership lies in [0, ⊤]. -/
theorem fz_nonneg (g mu th : EReal) : 0 ≤ fz g mu th := exp_nonneg _

/-- Every output of a row is a real number. -/
theorem out_real (g : Fin 3 → EReal) (m th : Fin 3 → Fin 2 → EReal) (i : Fin 8) : ∃ y : ℝ, out g m th i = (y : EReal) := by
  obtain ⟨p0, h0⟩ := pp_real _ (fz_nonneg (g 0) (m 0 (bit i 0)) (th 0 (bit i 0)))
  obtain ⟨p1, h1⟩ := pp_real _ (fz_nonneg (g 1) (m 1 (bit i 1)) (th 1 (bit i 1)))
  obtain ⟨p2, h2⟩ := pp_real _ (fz_nonneg (g 2) (m 2 (bit i 2)) (th 2 (bit i 2)))
  unfold out
  rw [h0, h1, h2]
  exact comb_real p0 p1 p2

/-- Every row output is a real number, whatever the inputs. -/
theorem rowOut_real (x : Fin 10 → EReal) (W1 : Fin 3 → Fin 10 → EReal) (b1 gamma beta : Fin 3 → EReal)
    (m th : Fin 3 → Fin 2 → EReal) (i : Fin 8) : ∃ y : ℝ, rowOut x W1 b1 gamma beta m th i = (y : EReal) :=
  out_real _ m th i

end Cert.Alg
-- ==== Proof.KV.Stats0.lean ====
/-
  The first program's batch statistics as the one-pass forms of the common mathematical description.

  Tile t of the statistics pass holds the rows 2048 t … 2048 t + 2047 of the batch, and column i of the tile at row r is
  output i of batch row b = 2048 t + r. The two accumulators hold, after the last tile, the sums over all 512 tiles of
  the tiles' column sums, that is the sums over the whole batch ∑_b o_b and ∑_b o_b² (512 blocks of 2048 consecutive
  rows); the stored mean and variance are then (∑ o) · 2⁻²⁰ and max((∑ o²) · 2⁻²⁰ − mean², 0).
-/
import proofs.«142976_j49512382988410_2_alg».proof.Proof.KI.Val0
import proofs.«142976_j49512382988410_2_alg».proof.Proof.KV.Row0
import proofs.«142976_j49512382988410_2_alg».proof.Proof.KV.Blocks
import proofs.«142976_j49512382988410_2_alg».proof.Proof.KV.Tail0
import proofs.«142976_j49512382988410_2_alg».proof.Proof.LibBlockSum
import proofs.«142976_j49512382988410_2_alg».proof.Proof.Alg

noncomputable section

namespace Cert.KernelIdeal.Stats0

open Idealize.ShloMosaic Idealize.ShloMosaic.TcCoe Idealize.ShloMosaic.ValueIdx
open Idealize.SL.Sem
open Cert.KernelIdeal Cert.KernelIdeal.Gen Cert.KernelIdeal.Frame Cert.KernelIdeal.TailVal

variable (V : (c : Dev nD) → (b : Ref sig .tc) → Buf (Elt Ideal) ((c : Thread nD τ).loc b)) (c : Dev nD)

/-- Output i of batch row b, from the arrays the statistics pass reads. -/
def O0 (b : Fin 1048576) (i : Fin 8) : EReal :=
  Cert.Spec.rowOut (fun k => (V c main_arg0 : S1048576x10.Idx → EReal) (ix2 b k)) (fun j k => (V c main_v0 : S10x3.Idx → EReal) (ix2 k j))
    (fun j => (V c main_arg2 : S3.Idx → EReal) (ix1 j)) (fun j => (V c main_arg3 : S3.Idx → EReal) (ix1 j)) (fun j => (V c main_arg4 : S3.Idx → EReal) (ix1 j))
    (Cert.Spec.pair (fun j => (V c main_v2 : S3.Idx → EReal) (ix1 j)) (fun j => (V c main_v4 : S3.Idx → EReal) (ix1 j)))
    (Cert.Spec.pair (fun j => (V c main_v6 : S3.Idx → EReal) (ix1 j)) (fun j => (V c main_v8 : S3.Idx → EReal) (ix1 j))) i

/-- The tile's eight columns, written as one nest or with its shared stages named, are the same functions. -/
theorem tcols_eq (x0 : Vec Ideal S2048x10 .f32) (x1 : Vec Ideal S10x3 .f32) (x2 x3 x4 x5 x6 x7 x8 : Vec Ideal S3 .f32) :
    Val0.tcols x0 x1 x2 x3 x4 x5 x6 x7 x8 = RowVal.col0 x0 x1 x2 x3 x4 x5 x6 x7 x8 := by
  funext k
  fin_cases k <;> rfl

/-- Column i of tile t at row r is output i of batch row 2048 t + r. -/
theorem cols_apply (t : Fin cfg0.N) (r : Fin 2048) (i : Fin 8) (b : Fin 1048576) (hb : b.val = 2048 * t.val + r.val) :
    Val0.cols V c t i (ix2 r 0) = O0 V c b i := by
  unfold Val0.cols O0
  rw [tcols_eq, RowVal.col0_apply, BlockVal.iblk0_whole_1 V c t, BlockVal.iblk0_whole_2 V c t, BlockVal.iblk0_whole_3 V c t,
    BlockVal.iblk0_whole_4 V c t, BlockVal.iblk0_whole_5 V c t, BlockVal.iblk0_whole_6 V c t, BlockVal.iblk0_whole_7 V c t,
    BlockVal.iblk0_whole_8 V c t]
  simp only [fun k => BlockVal.iblk0_x_apply V c t r k b hb]

/-- A sum over the batch is the sum over the 512 tiles of the sums over each tile's 2048 rows. -/
theorem sum_tiles (H : Fin 1048576 → EReal) :
    ∑ b, H b = ∑ s : Fin 512, ∑ j : Fin 2048, H (Cert.Lib.BlockSum.at_ (K := 512) (n := 2048) s j) :=
  Cert.Lib.BlockSum.sum_blocks 512 2048 H

/-- The tiles' column sums add up to the sum over the batch. -/
theorem sum_T1 (i : Fin 8) : ∑ k ∈ Finset.range 512, Val0.T1 V c i k = ∑ b : Fin 1048576, O0 V c b i := by
  rw [Finset.sum_range]
  refine Eq.trans ?_ (sum_tiles (fun b => O0 V c b i)).symm
  refine Finset.sum_congr rfl fun s _ => ?_
  have h : s.val < cfg0.N := lt_of_lt_of_eq s.isLt (show cfg0.N = 512 from N_0).symm
  simp only [Val0.T1, dif_pos h]
  refine Finset.sum_congr rfl fun r _ => ?_
  exact cols_apply V c ⟨s.val, h⟩ r i _ (by show s.val * 2048 + r.val = 2048 * s.val + r.val; omega)

/-- The tiles' column sums of squares add up to the sum of squares over the batch. -/
theorem sum_T2 (i : Fin 8) : ∑ k ∈ Finset.range 512, Val0.T2 V c i k = ∑ b : Fin 1048576, O0 V c b i * O0 V c b i := by
  rw [Finset.sum_range]
  refine Eq.trans ?_ (sum_tiles (fun b => O0 V c b i * O0 V c b i)).symm
  refine Finset.sum_congr rfl fun s _ => ?_
  have h : s.val < cfg0.N := lt_of_lt_of_eq s.isLt (show cfg0.N = 512 from N_0).symm
  simp only [Val0.T2, dif_pos h]
  refine Finset.sum_congr rfl fun r _ => ?_
  rw [cols_apply V c ⟨s.val, h⟩ r i (Cert.Lib.BlockSum.at_ (K := 512) (n := 2048) s r)
    (by show s.val * 2048 + r.val = 2048 * s.val + r.val; omega)]

/-- After the last tile the first accumulator holds the sum of the outputs over the batch. -/
theorem acc1 (i : Fin 8) : (outsAt0 V c t511.val t511.isLt).2.2.1 (ix1 i) = ∑ b : Fin 1048576, O0 V c b i := by
  refine ((Val0.acc V c i t511.val t511.isLt).1).trans ?_
  rw [Cert.Alg.c0_eq, zero_add]
  exact sum_T1 V c i

/-- and the second the sum of their squares. -/
theorem acc2 (i : Fin 8) : (outsAt0 V c t511.val t511.isLt).2.2.2 (ix1 i) = ∑ b : Fin 1048576, O0 V c b i * O0 V c b i := by
  refine ((Val0.acc V c i t511.val t511.isLt).2).trans ?_
  rw [Cert.Alg.c0_eq, zero_add]
  exact sum_T2 V c i

/-- The stored mean is the one-pass mean of the batch's outputs. -/
theorem mean_apply (i : Fin 8) : (outsAt0 V c t511.val t511.isLt).1 (ix1 i) = Cert.Spec.meanK (fun b => O0 V c b i) := by
  refine (congrFun (Val0.last_out V c).1 (ix1 i)).trans ?_
  rw [pay4_apply, acc1]
  rfl

/-- The stored variance is the one-pass variance of the batch's outputs. -/
theorem var_apply (i : Fin 8) : (outsAt0 V c t511.val t511.isLt).2.1 (ix1 i) = Cert.Spec.varK (fun b => O0 V c b i) := by
  refine (congrFun (Val0.last_out V c).2 (ix1 i)).trans ?_
  rw [pay5_apply, acc1, acc2]
  rfl

end Cert.KernelIdeal.Stats0

end
-- ==== Proof.KV.Host.lean ====
/-
  The host operations before the first kernel, read at an index.

  Before the first region the program transposes the first weight matrix, cuts the two columns of the two [3,2]
  membership tables (centres and widths) into 3-vectors, cuts the first three rows of the second weight matrix and
  transposes them, and cuts the first three biases. Each result is first written as the operations' term over the launch
  contents of the argument it reads, then read at an index: a transpose swaps the coordinates, a column cut and its
  reshape read the table at (j, s), a leading cut reads the same coordinates of the longer array.
-/
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import proofs.«142976_j49512382988410_2_alg».proof.Proof.Gen.KernelIdeal.Regions
import proofs.«142976_j49512382988410_2_alg».proof.Proof.LibColumnVector

set_option maxRecDepth 16384

open Idealize.ShloMosaic Idealize.ShloMosaic.TcCoe Idealize.ShloMosaic.ValueIdx Idealize.ShloMosaic.ValueColumnVector
open Cert.KernelIdeal Cert.KernelIdeal.Gen

noncomputable section

namespace Cert.KernelIdeal.HostVal

variable (m : (ℓ : Loc nD τ sig) → Buf (Elt Ideal) ℓ) (c : Dev nD)

/-! ## What the host operations leave, as terms over the launch contents -/

theorem V1_v0_eq : (Gen.V1 m c (Proc.devRef .tc main_v0) : S10x3.Idx → EReal)
    = transpose S10x3 [1, 0] (m ((c : Thread nD τ).loc main_arg1) : S3x10.Idx → EReal) transposes_S3x10_S10x3_1_0 := by
  dsimp only [Gen.V1, Gen.V0, hostOps0]
  after_results <;> rfl

theorem V1_v2_eq : (Gen.V1 m c (Proc.devRef .tc main_v2) : S3.Idx → EReal)
    = shapeCast S3 (extractStridedSlice S3x1 ![0, 0] (m ((c : Thread nD τ).loc main_arg5) : S3x2.Idx → EReal) slices_S3x2_S3x1_0_0)
        shapeCasts_S3x1_S3 := by
  dsimp only [Gen.V1, Gen.V0, hostOps0]
  after_results <;> rfl

theorem V1_v4_eq : (Gen.V1 m c (Proc.devRef .tc main_v4) : S3.Idx → EReal)
    = shapeCast S3 (extractStridedSlice S3x1 ![0, 1] (m ((c : Thread nD τ).loc main_arg5) : S3x2.Idx → EReal) slices_S3x2_S3x1_0_1)
        shapeCasts_S3x1_S3 := by
  dsimp only [Gen.V1, Gen.V0, hostOps0]
  after_results <;> rfl

theorem V1_v6_eq : (Gen.V1 m c (Proc.devRef .tc main_v6) : S3.Idx → EReal)
    = shapeCast S3 (extractStridedSlice S3x1 ![0, 0] (m ((c : Thread nD τ).loc main_arg6) : S3x2.Idx → EReal) slices_S3x2_S3x1_0_0)
        shapeCasts_S3x1_S3 := by
  dsimp only [Gen.V1, Gen.V0, hostOps0]
  after_results <;> rfl

theorem V1_v8_eq : (Gen.V1 m c (Proc.devRef .tc main_v8) : S3.Idx → EReal)
    = shapeCast S3 (extractStridedSlice S3x1 ![0, 1] (m ((c : Thread nD τ).loc main_arg6) : S3x2.Idx → EReal) slices_S3x2_S3x1_0_1)
        shapeCasts_S3x1_S3 := by
  dsimp only [Gen.V1, Gen.V0, hostOps0]
  after_results <;> rfl

theorem V1_v10_eq : (Gen.V1 m c (Proc.devRef .tc main_v10) : S8x3.Idx → EReal)
    = transpose S8x3 [1, 0]
        (extractStridedSlice S3x8 ![0, 0] (m ((c : Thread nD τ).loc main_arg9) : S10x8.Idx → EReal) slices_S10x8_S3x8_0_0)
        transposes_S3x8_S8x3_1_0 := by
  dsimp only [Gen.V1, Gen.V0, hostOps0]
  after_results <;> rfl

theorem V1_v11_eq : (Gen.V1 m c (Proc.devRef .tc main_v11) : S3.Idx → EReal)
    = extractStridedSlice S3 ![0] (m ((c : Thread nD τ).loc main_arg10) : S10.Idx → EReal) slices_S10_S3_0 := by
  dsimp only [Gen.V1, Gen.V0, hostOps0]
  after_results <;> rfl

/-! ## The same, read at an index -/

/-- Column s of a [3,2] table as a 3-vector. -/
theorem col_of_table (X : S3x2.Idx → EReal) (s : Fin 2) (h : S3x2.Slices ![0, s.val] S3x1) (h' : S3x1.ShapeCasts S3) (j : Fin 3) :
    shapeCast S3 (extractStridedSlice S3x1 ![0, s.val] X h) h' (ix1 j) = X (ix2 j s) := by
  refine (shapeCast_a1_a_apply _ h' j).trans ?_
  exact slice2_axis1_apply s.val X h j (0 : Fin 1) s (by show s.val = s.val + 0; omega)

/-- The first weight matrix transposed. -/
theorem V1_v0_apply (k : Fin 10) (j : Fin 3) :
    (Gen.V1 m c (Proc.devRef .tc main_v0) : S10x3.Idx → EReal) (ix2 k j)
      = (m ((c : Thread nD τ).loc main_arg1) : S3x10.Idx → EReal) (ix2 j k) := by
  rw [V1_v0_eq]
  exact transpose_ix2_apply _ _ k j

theorem V1_v2_apply (j : Fin 3) :
    (Gen.V1 m c (Proc.devRef .tc main_v2) : S3.Idx → EReal) (ix1 j)
      = (m ((c : Thread nD τ).loc main_arg5) : S3x2.Idx → EReal) (ix2 j (0 : Fin 2)) := by
  rw [V1_v2_eq]
  exact col_of_table _ 0 _ _ j

theorem V1_v4_apply (j : Fin 3) :
    (Gen.V1 m c (Proc.devRef .tc main_v4) : S3.Idx → EReal) (ix1 j)
      = (m ((c : Thread nD τ).loc main_arg5) : S3x2.Idx → EReal) (ix2 j (1 : Fin 2)) := by
  rw [V1_v4_eq]
  exact col_of_table _ 1 _ _ j

theorem V1_v6_apply (j : Fin 3) :
    (Gen.V1 m c (Proc.devRef .tc main_v6) : S3.Idx → EReal) (ix1 j)
      = (m ((c : Thread nD τ).loc main_arg6) : S3x2.Idx → EReal) (ix2 j (0 : Fin 2)) := by
  rw [V1_v6_eq]
  exact col_of_table _ 0 _ _ j

theorem V1_v8_apply (j : Fin 3) :
    (Gen.V1 m c (Proc.devRef .tc main_v8) : S3.Idx → EReal) (ix1 j)
      = (m ((c : Thread nD τ).loc main_arg6) : S3x2.Idx → EReal) (ix2 j (1 : Fin 2)) := by
  rw [V1_v8_eq]
  exact col_of_table _ 1 _ _ j

/-- The first three rows of the second weight matrix, transposed. -/
theorem V1_v10_apply (i : Fin 8) (q : Fin 3) :
    (Gen.V1 m c (Proc.devRef .tc main_v10) : S8x3.Idx → EReal) (ix2 i q)
      = (m ((c : Thread nD τ).loc main_arg9) : S10x8.Idx → EReal) (ix2 (Fin.castLE (by decide) q) i) := by
  rw [V1_v10_eq]
  refine (transpose_ix2_apply _ _ i q).trans ?_
  exact slice2_axis0_apply 0 _ _ q i (Fin.castLE (by decide) q) (by show q.val = 0 + q.val; omega)

/-- The first three biases of the second layer. -/
theorem V1_v11_apply (q : Fin 3) :
    (Gen.V1 m c (Proc.devRef .tc main_v11) : S3.Idx → EReal) (ix1 q)
      = (m ((c : Thread nD τ).loc main_arg10) : S10.Idx → EReal) (ix1 (Fin.castLE (by decide) q)) := by
  rw [V1_v11_eq]
  exact extractStridedSlice_apply _ _ _ _ _ (fun a => by
    match a with
    | ⟨0, _⟩ => show q.val = 0 + q.val; omega)

end Cert.KernelIdeal.HostVal
end
-- ==== Proof.KI.ValRun.lean ====
/-
  The kernel program's result as one function of its arguments. The final region's output array, entry (b, j), is the
  read-out of row b's eight outputs normalised by the statistics arrays; those arrays are the statistics region's
  one-pass mean and variance of the eight output columns over all 1048576 rows; and every array either region reads is
  an argument or a transposed / sliced parameter the host operations prepared. Put together: the result is `KRes`.
-/
import proofs.«142976_j49512382988410_2_alg».proof.Proof.KI.Vals
import proofs.«142976_j49512382988410_2_alg».proof.Proof.KV.Final1
import proofs.«142976_j49512382988410_2_alg».proof.Proof.KV.Stats0
import proofs.«142976_j49512382988410_2_alg».proof.Proof.KV.Host

set_option maxRecDepth 16384

noncomputable section

namespace Cert.KernelIdeal.ValRun

open Idealize.ShloMosaic Idealize.ShloMosaic.TcCoe Idealize.ShloMosaic.ValueIdx
open Idealize.SL.Sem
open Cert.KernelIdeal Cert.KernelIdeal.Gen Cert.KernelIdeal.Frame

variable (m : (ℓ : Loc nD τ sig) → Buf (Elt Ideal) ℓ) (c : Dev nD)

/-- Row b's eight outputs, from the arguments. -/
def OK (b : Fin 1048576) (i : Fin 8) : EReal :=
  Cert.Spec.rowOut (fun k => ((m ((c : Thread nD τ).loc main_arg0)) : S1048576x10.Idx → EReal) (ix2 b k)) (fun j k => ((m ((c : Thread nD τ).loc main_arg1)) : S3x10.Idx → EReal) (ix2 j k))
    (fun j => ((m ((c : Thread nD τ).loc main_arg2)) : S3.Idx → EReal) (ix1 j)) (fun j => ((m ((c : Thread nD τ).loc main_arg3)) : S3.Idx → EReal) (ix1 j)) (fun j => ((m ((c : Thread nD τ).loc main_arg4)) : S3.Idx → EReal) (ix1 j))
    (fun j s => ((m ((c : Thread nD τ).loc main_arg5)) : S3x2.Idx → EReal) (ix2 j s)) (fun j s => ((m ((c : Thread nD τ).loc main_arg6)) : S3x2.Idx → EReal) (ix2 j s)) i

/-- The kernel program's result array, from the arguments. -/
def KRes : S1048576x3.Idx → EReal := fun y =>
  Cert.Spec.fin (OK m c (y 0)) (fun i => Cert.Spec.meanK (fun b => OK m c b i)) (fun i => Cert.Spec.varK (fun b => OK m c b i))
    (fun i => ((m ((c : Thread nD τ).loc main_arg7)) : S8.Idx → EReal) (ix1 i)) (fun i => ((m ((c : Thread nD τ).loc main_arg8)) : S8.Idx → EReal) (ix1 i))
    (fun q i => ((m ((c : Thread nD τ).loc main_arg9)) : S10x8.Idx → EReal) (ix2 q i)) (fun q => ((m ((c : Thread nD τ).loc main_arg10)) : S10.Idx → EReal) (ix1 q)) (y 1)

/-- Two column slices of a [3,2] table as one table. -/
theorem pair_cols (T : S3x2.Idx → EReal) :
    Cert.Spec.pair (fun j => T (ix2 j 0)) (fun j => T (ix2 j 1)) = fun j s => T (ix2 j s) := by
  funext j s
  fin_cases s
  · simp [Cert.Spec.pair]
  · simp [Cert.Spec.pair]

/-- The rows' outputs over the contents the statistics region is entered from are the rows' outputs from the arguments. -/
theorem O0_eq (b : Fin 1048576) (i : Fin 8) : Stats0.O0 (VV1 m) c b i = OK m c b i := by
  unfold Stats0.O0 OK
  have e0 : (fun k => (VV1 m c main_arg0 : S1048576x10.Idx → EReal) (ix2 b k)) = fun k => ((m ((c : Thread nD τ).loc main_arg0)) : S1048576x10.Idx → EReal) (ix2 b k) := by
    rw [VV1_main_arg0]
  have e1 : (fun j k => (VV1 m c main_v0 : S10x3.Idx → EReal) (ix2 k j)) = fun j k => ((m ((c : Thread nD τ).loc main_arg1)) : S3x10.Idx → EReal) (ix2 j k) :=
    funext fun j => funext fun k => HostVal.V1_v0_apply m c k j
  have e5 : Cert.Spec.pair (fun j => (VV1 m c main_v2 : S3.Idx → EReal) (ix1 j)) (fun j => (VV1 m c main_v4 : S3.Idx → EReal) (ix1 j)) = fun j s => ((m ((c : Thread nD τ).loc main_arg5)) : S3x2.Idx → EReal) (ix2 j s) := by
    rw [← pair_cols]; congr 1 <;> funext j
    · exact HostVal.V1_v2_apply m c j
    · exact HostVal.V1_v4_apply m c j
  have e6 : Cert.Spec.pair (fun j => (VV1 m c main_v6 : S3.Idx → EReal) (ix1 j)) (fun j => (VV1 m c main_v8 : S3.Idx → EReal) (ix1 j)) = fun j s => ((m ((c : Thread nD τ).loc main_arg6)) : S3x2.Idx → EReal) (ix2 j s) := by
    rw [← pair_cols]; congr 1 <;> funext j
    · exact HostVal.V1_v6_apply m c j
    · exact HostVal.V1_v8_apply m c j
  rw [e0, e1, e5, e6, VV1_main_arg2, VV1_main_arg3, VV1_main_arg4]

/-- The same over the contents the final region is entered from. -/
theorem O1_eq (b : Fin 1048576) (i : Fin 8) : Val1.O1 (VV2 m) c b i = OK m c b i := by
  rw [← O0_eq]
  unfold Val1.O1 Stats0.O0
  rw [VV2_main_arg0, VV2_main_v0, VV2_main_arg2, VV2_main_arg3, VV2_main_arg4, VV2_main_v2, VV2_main_v4, VV2_main_v6, VV2_main_v8]

/-- The result buffer after the run is `KRes`. -/
theorem W3_v13_eq : (W3 m c (Proc.devRef .tc main_v13) : S1048576x3.Idx → EReal) = KRes m c := by
  funext y
  obtain ⟨b, j, rfl⟩ : ∃ (b : Fin 1048576) (j : Fin 3), y = ix2 b j := ⟨y 0, y 1, eq_ix2 y⟩
  rw [W3_main_v13]
  refine (Val1.arr15_apply (VV2 m) c (fun q i => ((m ((c : Thread nD τ).loc main_arg9)) : S10x8.Idx → EReal) (ix2 q i)) (fun q => ((m ((c : Thread nD τ).loc main_arg10)) : S10.Idx → EReal) (ix1 q))
    (fun i q => by rw [VV2_main_v10]; exact HostVal.V1_v10_apply m c i q)
    (fun q => by rw [VV2_main_v11]; exact HostVal.V1_v11_apply m c q) b j).trans ?_
  unfold KRes
  have eO : Val1.O1 (VV2 m) c b = OK m c b := funext fun i => O1_eq m c b i
  have eM : (fun i => (VV2 m c main_v12_0 : S8.Idx → EReal) (ix1 i)) = fun i => Cert.Spec.meanK (fun b => OK m c b i) := by
    funext i
    rw [VV2_main_v12_0, Stats0.mean_apply]
    exact congrArg Cert.Spec.meanK (funext fun b => O0_eq m c b i)
  have eV : (fun i => (VV2 m c main_v12_1 : S8.Idx → EReal) (ix1 i)) = fun i => Cert.Spec.varK (fun b => OK m c b i) := by
    funext i
    rw [VV2_main_v12_1, Stats0.var_apply]
    exact congrArg Cert.Spec.varK (funext fun b => O0_eq m c b i)
  rw [eO, eM, eV, VV2_main_arg7, VV2_main_arg8, VV1_main_arg7, VV1_main_arg8]

/-- THE RUN with the result named: every weakly fair execution terminates with the result buffer at `KRes` and every
    argument as launched. -/
theorem run (ρ : Dev nD → PrngReg) : θ_run defs (onTc (τ := τ) (main (F := Ideal))) ⟨m, fun _ => 0, ρ⟩ (fun r => ∀ c : Dev nD,
      r.2.mem ((c.tc : Thread nD τ).loc main_v13) = KRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v13 (by decide))).trans (W3_v13_eq m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (Frame.run m ρ)

end Cert.KernelIdeal.ValRun

end
-- ==== Proof.Ref.RunOps.lean ====
/-
  The second program as a list of its host operations, in the order its text runs them, in three consecutive pieces
  (the pieces its text is printed in); the call of the clipping function is its three operations over the call's own
  buffers. Beside each piece, the buffers its operations assign, in order.
-/
import proofs.«142976_j49512382988410_2_alg».proof.ReferenceIdeal
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

/-- The operations of the first piece. -/
abbrev ops0 : List (HloOp τ sig (Elt F)) :=
  [
    nullary main_c (fun i => lit0 (S8x3.rowMajor i)),
    unary main_arg1 main_v0 ((transpose S10x3 [1, 0] · transposes_S3x10_S10x3_1_0) : (⟨S3x10, .f32⟩ : BufTy).Contents (Elt F) → (⟨S10x3, .f32⟩ : BufTy).Contents (Elt F)),
    binary main_arg0 main_v0 main_v1 ((fun l r => Host.dotGeneral dot_S1048576x10_S10x3_S1048576x3_1_0_0_1_n_n none l r) : (⟨S1048576x10, .f32⟩ : BufTy).Contents (Elt F) → (⟨S10x3, .f32⟩ : BufTy).Contents (Elt F) → (⟨S1048576x3, .f32⟩ : BufTy).Contents (Elt F)),
    unary main_arg2 main_v2 (broadcastInDim S1x3 ![1] bcast_S3_S1x3_1 : (⟨S3, .f32⟩ : BufTy).Contents (Elt F) → (⟨S1x3, .f32⟩ : BufTy).Contents (Elt F)),
    unary main_v2 main_v3 (broadcastInDim S1048576x3 ![0, 1] bcast_S1x3_S1048576x3_0_1 : (⟨S1x3, .f32⟩ : BufTy).Contents (Elt F) → (⟨S1048576x3, .f32⟩ : BufTy).Contents (Elt F)),
    binary main_v1 main_v3 main_v4 (addf : (⟨S1048576x3, .f32⟩ : BufTy).Contents (Elt F) → (⟨S1048576x3, .f32⟩ : BufTy).Contents (Elt F) → (⟨S1048576x3, .f32⟩ : BufTy).Contents (Elt F)),
    nullary main_cst (constant S_ .f32 0x00000000#32),
    binary main_v4 main_cst main_v5 ((fun x v => Host.reduceAdd x v reducesTo_S1048576x3_S1048576_d1 h_S_) : (⟨S1048576x3, .f32⟩ : BufTy).Contents (Elt F) → (⟨S_, .f32⟩ : BufTy).Contents (Elt F) → (⟨S1048576, .f32⟩ : BufTy).Contents (Elt F)),
    unary main_v5 main_v6 (broadcastInDim S1048576x1 ![0] bcast_S1048576_S1048576x1_0 : (⟨S1048576, .f32⟩ : BufTy).Contents (Elt F) → (⟨S1048576x1, .f32⟩ : BufTy).Contents (Elt F)),
    nullary main_cst_0 (constant S_ .f32 0x40400000#32),
    unary main_cst_0 main_v7 (broadcastInDim S1048576x1 ![] bcast_S_S1048576x1 : (⟨S_, .f32⟩ : BufTy).Contents (Elt F) → (⟨S1048576x1, .f32⟩ : BufTy).Contents (Elt F)),
    binary main_v6 main_v7 main_v8 (Host.divf : (⟨S1048576x1, .f32⟩ : BufTy).Contents (Elt F) → (⟨S1048576x1, .f32⟩ : BufTy).Contents (Elt F) → (⟨S1048576x1, .f32⟩ : BufTy).Contents (Elt F)),
    unary main_v8 main_v9 (broadcastInDim S1048576x3 ![0, 1] bcast_S1048576x1_S1048576x3_0_1 : (⟨S1048576x1, .f32⟩ : BufTy).Contents (Elt F) → (⟨S1048576x3, .f32⟩ : BufTy).Contents (Elt F)),
    binary main_v4 main_v9 main_v10 (subf : (⟨S1048576x3, .f32⟩ : BufTy).Contents (Elt F) → (⟨S1048576x3, .f32⟩ : BufTy).Contents (Elt F) → (⟨S1048576x3, .f32⟩ : BufTy).Contents (Elt F)),
    binary main_v10 main_v10 main_v11 (mulf : (⟨S1048576x3, .f32⟩ : BufTy).Contents (Elt F) → (⟨S1048576x3, .f32⟩ : BufTy).Contents (Elt F) → (⟨S1048576x3, .f32⟩ : BufTy).Contents (Elt F)),
    nullary main_cst_1 (constant S_ .f32 0x00000000#32),
    binary main_v11 main_cst_1 main_v12 ((fun x v => Host.reduceAdd x v reducesTo_S1048576x3_S1048576_d1 h_S_) : (⟨S1048576x3, .f32⟩ : BufTy).Contents (Elt F) → (⟨S_, .f32⟩ : BufTy).Contents (Elt F) → (⟨S1048576, .f32⟩ : BufTy).Contents (Elt F)),
    unary main_v12 main_v13 (broadcastInDim S1048576x1 ![0] bcast_S1048576_S1048576x1_0 : (⟨S1048576, .f32⟩ : BufTy).Contents (Elt F) → (⟨S1048576x1, .f32⟩ : BufTy).Contents (Elt F)),
    nullary main_cst_2 (constant S_ .f32 0x40400000#32),
    unary main_cst_2 main_v14 (broadcastInDim S1048576x1 ![] bcast_S_S1048576x1 : (⟨S_, .f32⟩ : BufTy).Contents (Elt F) → (⟨S1048576x1, .f32⟩ : BufTy).Contents (Elt F)),
    binary main_v13 main_v14 main_v15 (Host.divf : (⟨S1048576x1, .f32⟩ : BufTy).Contents (Elt F) → (⟨S1048576x1, .f32⟩ : BufTy).Contents (Elt F) → (⟨S1048576x1, .f32⟩ : BufTy).Contents (Elt F)),
    unary main_v8 main_v16 (broadcastInDim S1048576x3 ![0, 1] bcast_S1048576x1_S1048576x3_0_1 : (⟨S1048576x1, .f32⟩ : BufTy).Contents (Elt F) → (⟨S1048576x3, .f32⟩ : BufTy).Contents (Elt F)),
    binary main_v4 main_v16 main_v17 (subf : (⟨S1048576x3, .f32⟩ : BufTy).Contents (Elt F) → (⟨S1048576x3, .f32⟩ : BufTy).Contents (Elt F) → (⟨S1048576x3, .f32⟩ : BufTy).Contents (Elt F)),
    nullary main_cst_3 (constant S_ .f32 0x3727C5AC#32),
    unary main_cst_3 main_v18 (broadcastInDim S1048576x1 ![] bcast_S_S1048576x1 : (⟨S_, .f32⟩ : BufTy).Contents (Elt F) → (⟨S1048576x1, .f32⟩ : BufTy).Contents (Elt F)),
    binary main_v15 main_v18 main_v19 (addf : (⟨S1048576x1, .f32⟩ : BufTy).Contents (Elt F) → (⟨S1048576x1, .f32⟩ : BufTy).Contents (Elt F) → (⟨S1048576x1, .f32⟩ : BufTy).Contents (Elt F)),
    unary main_v19 main_v20 (Host.rsqrt : (⟨S1048576x1, .f32⟩ : BufTy).Contents (Elt F) → (⟨S1048576x1, .f32⟩ : BufTy).Contents (Elt F)),
    unary main_v20 main_v21 (broadcastInDim S1048576x3 ![0, 1] bcast_S1048576x1_S1048576x3_0_1 : (⟨S1048576x1, .f32⟩ : BufTy).Contents (Elt F) → (⟨S1048576x3, .f32⟩ : BufTy).Contents (Elt F)),
    binary main_v17 main_v21 main_v22 (mulf : (⟨S1048576x3, .f32⟩ : BufTy).Contents (Elt F) → (⟨S1048576x3, .f32⟩ : BufTy).Contents (Elt F) → (⟨S1048576x3, .f32⟩ : BufTy).Contents (Elt F)),
    unary main_arg3 main_v23 (broadcastInDim S1x3 ![1] bcast_S3_S1x3_1 : (⟨S3, .f32⟩ : BufTy).Contents (Elt F) → (⟨S1x3, .f32⟩ : BufTy).Contents (Elt F)),
    unary main_v23 main_v24 (broadcastInDim S1048576x3 ![0, 1] bcast_S1x3_S1048576x3_0_1 : (⟨S1x3, .f32⟩ : BufTy).Contents (Elt F) → (⟨S1048576x3, .f32⟩ : BufTy).Contents (Elt F)),
    binary main_v22 main_v24 main_v25 (mulf : (⟨S1048576x3, .f32⟩ : BufTy).Contents (Elt F) → (⟨S1048576x3, .f32⟩ : BufTy).Contents (Elt F) → (⟨S1048576x3, .f32⟩ : BufTy).Contents (Elt F)),
    unary main_arg4 main_v26 (broadcastInDim S1x3 ![1] bcast_S3_S1x3_1 : (⟨S3, .f32⟩ : BufTy).Contents (Elt F) → (⟨S1x3, .f32⟩ : BufTy).Contents (Elt F)),
    unary main_v26 main_v27 (broadcastInDim S1048576x3 ![0, 1] bcast_S1x3_S1048576x3_0_1 : (⟨S1x3, .f32⟩ : BufTy).Contents (Elt F) → (⟨S1048576x3, .f32⟩ : BufTy).Contents (Elt F)),
    binary main_v25 main_v27 main_v28 (addf : (⟨S1048576x3, .f32⟩ : BufTy).Contents (Elt F) → (⟨S1048576x3, .f32⟩ : BufTy).Contents (Elt F) → (⟨S1048576x3, .f32⟩ : BufTy).Contents (Elt F)),
    unary main_arg5 main_v29 ((transpose S2x3 [1, 0] · transposes_S3x2_S2x3_1_0) : (⟨S3x2, .f32⟩ : BufTy).Contents (Elt F) → (⟨S2x3, .f32⟩ : BufTy).Contents (Elt F)),
    unary main_v29 main_v30 (broadcastInDim S1x2x3 ![1, 2] bcast_S2x3_S1x2x3_1_2 : (⟨S2x3, .f32⟩ : BufTy).Contents (Elt F) → (⟨S1x2x3, .f32⟩ : BufTy).Contents (Elt F)),
    unary main_arg6 main_v31 ((transpose S2x3 [1, 0] · transposes_S3x2_S2x3_1_0) : (⟨S3x2, .f32⟩ : BufTy).Contents (Elt F) → (⟨S2x3, .f32⟩ : BufTy).Contents (Elt F)),
    unary main_v31 main_v32 (broadcastInDim S1x2x3 ![1, 2] bcast_S2x3_S1x2x3_1_2 : (⟨S2x3, .f32⟩ : BufTy).Contents (Elt F) → (⟨S1x2x3, .f32⟩ : BufTy).Contents (Elt F)),
    unary main_v28 main_v33 (broadcastInDim S1048576x1x3 ![0, 2] bcast_S1048576x3_S1048576x1x3_0_2 : (⟨S1048576x3, .f32⟩ : BufTy).Contents (Elt F) → (⟨S1048576x1x3, .f32⟩ : BufTy).Contents (Elt F)),
    unary main_v33 main_v34 (broadcastInDim S1048576x2x3 ![0, 1, 2] bcast_S1048576x1x3_S1048576x2x3_0_1_2 : (⟨S1048576x1x3, .f32⟩ : BufTy).Contents (Elt F) → (⟨S1048576x2x3, .f32⟩ : BufTy).Contents (Elt F)),
    unary main_v30 main_v35 (broadcastInDim S1048576x2x3 ![0, 1, 2] bcast_S1x2x3_S1048576x2x3_0_1_2 : (⟨S1x2x3, .f32⟩ : BufTy).Contents (Elt F) → (⟨S1048576x2x3, .f32⟩ : BufTy).Contents (Elt F)),
    binary main_v34 main_v35 main_v36 (subf : (⟨S1048576x2x3, .f32⟩ : BufTy).Contents (Elt F) → (⟨S1048576x2x3, .f32⟩ : BufTy).Contents (Elt F) → (⟨S1048576x2x3, .f32⟩ : BufTy).Contents (Elt F)),
    binary main_v36 main_v36 main_v37 (mulf : (⟨S1048576x2x3, .f32⟩ : BufTy).Contents (Elt F) → (⟨S1048576x2x3, .f32⟩ : BufTy).Contents (Elt F) → (⟨S1048576x2x3, .f32⟩ : BufTy).Contents (Elt F)),
    unary main_v37 main_v38 (Host.negf : (⟨S1048576x2x3, .f32⟩ : BufTy).Contents (Elt F) → (⟨S1048576x2x3, .f32⟩ : BufTy).Contents (Elt F)),
    binary main_v32 main_v32 main_v39 (mulf : (⟨S1x2x3, .f32⟩ : BufTy).Contents (Elt F) → (⟨S1x2x3, .f32⟩ : BufTy).Contents (Elt F) → (⟨S1x2x3, .f32⟩ : BufTy).Contents (Elt F)),
    nullary main_cst_4 (constant S_ .f32 0x40000000#32),
    unary main_cst_4 main_v40 (broadcastInDim S1x2x3 ![] bcast_S_S1x2x3 : (⟨S_, .f32⟩ : BufTy).Contents (Elt F) → (⟨S1x2x3, .f32⟩ : BufTy).Contents (Elt F)),
    binary main_v40 main_v39 main_v41 (mulf : (⟨S1x2x3, .f32⟩ : BufTy).Contents (Elt F) → (⟨S1x2x3, .f32⟩ : BufTy).Contents (Elt F) → (⟨S1x2x3, .f32⟩ : BufTy).Contents (Elt F)),
    unary main_v41 main_v42 (broadcastInDim S1048576x2x3 ![0, 1, 2] bcast_S1x2x3_S1048576x2x3_0_1_2 : (⟨S1x2x3, .f32⟩ : BufTy).Contents (Elt F) → (⟨S1048576x2x3, .f32⟩ : BufTy).Contents (Elt F)),
    binary main_v38 main_v42 main_v43 (Host.divf : (⟨S1048576x2x3, .f32⟩ : BufTy).Contents (Elt F) → (⟨S1048576x2x3, .f32⟩ : BufTy).Contents (Elt F) → (⟨S1048576x2x3, .f32⟩ : BufTy).Contents (Elt F)),
    unary main_v43 main_v44 (Host.exp : (⟨S1048576x2x3, .f32⟩ : BufTy).Contents (Elt F) → (⟨S1048576x2x3, .f32⟩ : BufTy).Contents (Elt F)),
    nullary main_v45 (iotaInDim S3 32 0),
    nullary main_c_5 (constantI S_ 32 0#32),
    unary main_c_5 main_v46 (broadcastInDim S8x3 ![] bcast_S_S8x3 : (⟨S_, .i32⟩ : BufTy).Contents (Elt F) → (⟨S8x3, .i32⟩ : BufTy).Contents (Elt F)),
    binary main_c main_v46 main_v47 (cmpi .slt : (⟨S8x3, .i32⟩ : BufTy).Contents (Elt F) → (⟨S8x3, .i32⟩ : BufTy).Contents (Elt F) → (⟨S8x3, .i1⟩ : BufTy).Contents (Elt F)),
    nullary main_c_6 (constantI S_ 32 2#32),
    unary main_c_6 main_v48 (broadcastInDim S8x3 ![] bcast_S_S8x3 : (⟨S_, .i32⟩ : BufTy).Contents (Elt F) → (⟨S8x3, .i32⟩ : BufTy).Contents (Elt F)),
    binary main_c main_v48 main_v49 (addi : (⟨S8x3, .i32⟩ : BufTy).Contents (Elt F) → (⟨S8x3, .i32⟩ : BufTy).Contents (Elt F) → (⟨S8x3, .i32⟩ : BufTy).Contents (Elt F)),
    ternary main_v47 main_v49 main_c main_v50 (select : (⟨S8x3, .i1⟩ : BufTy).Contents (Elt F) → (⟨S8x3, .i32⟩ : BufTy).Contents (Elt F) → (⟨S8x3, .i32⟩ : BufTy).Contents (Elt F) → (⟨S8x3, .i32⟩ : BufTy).Contents (Elt F)) ]

/-- The operations of the second piece; the call of the clipping function contributes three. -/
abbrev ops1 : List (HloOp τ sig (Elt F)) :=
  [
    nullary main_c_7 (constantI S_ 32 0#32),
    unary main_c_7 main_v51 (broadcastInDim S3 ![] bcast_S_S3 : (⟨S_, .i32⟩ : BufTy).Contents (Elt F) → (⟨S3, .i32⟩ : BufTy).Contents (Elt F)),
    binary main_v45 main_v51 main_v52 (cmpi .slt : (⟨S3, .i32⟩ : BufTy).Contents (Elt F) → (⟨S3, .i32⟩ : BufTy).Contents (Elt F) → (⟨S3, .i1⟩ : BufTy).Contents (Elt F)),
    nullary main_c_8 (constantI S_ 32 3#32),
    unary main_c_8 main_v53 (broadcastInDim S3 ![] bcast_S_S3 : (⟨S_, .i32⟩ : BufTy).Contents (Elt F) → (⟨S3, .i32⟩ : BufTy).Contents (Elt F)),
    binary main_v45 main_v53 main_v54 (addi : (⟨S3, .i32⟩ : BufTy).Contents (Elt F) → (⟨S3, .i32⟩ : BufTy).Contents (Elt F) → (⟨S3, .i32⟩ : BufTy).Contents (Elt F)),
    ternary main_v52 main_v54 main_v45 main_v55 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v55 main_v56 (broadcastInDim S8x3 ![1] bcast_S3_S8x3_1 : (⟨S3, .i32⟩ : BufTy).Contents (Elt F) → (⟨S8x3, .i32⟩ : BufTy).Contents (Elt F)),
    unary main_v50 main_v57 (broadcastInDim S8x3x1 ![0, 1] bcast_S8x3_S8x3x1_0_1 : (⟨S8x3, .i32⟩ : BufTy).Contents (Elt F) → (⟨S8x3x1, .i32⟩ : BufTy).Contents (Elt F)),
    unary main_v56 main_v58 (broadcastInDim S8x3x1 ![0, 1] bcast_S8x3_S8x3x1_0_1 : (⟨S8x3, .i32⟩ : BufTy).Contents (Elt F) → (⟨S8x3x1, .i32⟩ : BufTy).Contents (Elt F)),
    binary main_v57 main_v58 main_v59 ((fun a b => concatenate S8x3x2 2 [⟨S8x3x1, a⟩, ⟨S8x3x1, b⟩] concatenates_S8x3x1_S8x3x1_S8x3x2_d2) : (⟨S8x3x1, .i32⟩ : BufTy).Contents (Elt F) → (⟨S8x3x1, .i32⟩ : BufTy).Contents (Elt F) → (⟨S8x3x2, .i32⟩ : BufTy).Contents (Elt F)),
    binary main_v44 main_v59 main_v60 ((fun x i => Host.gather gather_S1048576x2x3_S8x3x2_S1048576x8x3_0_12_n_n_12_2_104857611 x i) : (⟨S1048576x2x3, .f32⟩ : BufTy).Contents (Elt F) → (⟨S8x3x2, .i32⟩ : BufTy).Contents (Elt F) → (⟨S1048576x8x3, .f32⟩ : BufTy).Contents (Elt F)),
    nullary main_cst_9 (constant S_ .f32 0x24E69595#32),
    unary main_cst_9 main_v61 (broadcastInDim S1048576x8x3 ![] bcast_S_S1048576x8x3 : (⟨S_, .f32⟩ : BufTy).Contents (Elt F) → (⟨S1048576x8x3, .f32⟩ : BufTy).Contents (Elt F)),
    binary main_v60 main_v61 main_v62 (addf : (⟨S1048576x8x3, .f32⟩ : BufTy).Contents (Elt F) → (⟨S1048576x8x3, .f32⟩ : BufTy).Contents (Elt F) → (⟨S1048576x8x3, .f32⟩ : BufTy).Contents (Elt F)),
    unary main_v62 main_v63 (Host.sqrt : (⟨S1048576x8x3, .f32⟩ : BufTy).Contents (Elt F) → (⟨S1048576x8x3, .f32⟩ : BufTy).Contents (Elt F)),
    nullary main_cst_10 (constant S_ .f32 0x3F7FFF58#32),
    TRef.unary (.of main_cst_10) main_call0.v0 id,
    TRef.unary main_call0.v0 main_call0.v1 (broadcastInDim S1048576x8x3 ![] bcast_S_S1048576x8x3),
    TRef.binary main_call0.v1 (.of main_v63) main_call0.v2 minimumf,
    binary main_v64 main_v64 main_v65 (mulf : (⟨S1048576x8x3, .f32⟩ : BufTy).Contents (Elt F) → (⟨S1048576x8x3, .f32⟩ : BufTy).Contents (Elt F) → (⟨S1048576x8x3, .f32⟩ : BufTy).Contents (Elt F)),
    unary main_v65 main_v66 ((extractStridedSlice S1048576x8x1 ![0, 0, 0] · slices_S1048576x8x3_S1048576x8x1_0_0_0) : (⟨S1048576x8x3, .f32⟩ : BufTy).Contents (Elt F) → (⟨S1048576x8x1, .f32⟩ : BufTy).Contents (Elt F)),
    reshape main_v66 main_v67 rfl shapeCasts_S1048576x8x1_S1048576x8,
    unary main_v65 main_v68 ((extractStridedSlice S1048576x8x1 ![0, 0, 1] · slices_S1048576x8x3_S1048576x8x1_0_0_1) : (⟨S1048576x8x3, .f32⟩ : BufTy).Contents (Elt F) → (⟨S1048576x8x1, .f32⟩ : BufTy).Contents (Elt F)),
    reshape main_v68 main_v69 rfl shapeCasts_S1048576x8x1_S1048576x8,
    nullary main_cst_11 (constant S_ .f32 0x3F800000#32),
    unary main_cst_11 main_v70 (broadcastInDim S1048576x8 ![] bcast_S_S1048576x8 : (⟨S_, .f32⟩ : BufTy).Contents (Elt F) → (⟨S1048576x8, .f32⟩ : BufTy).Contents (Elt F)),
    binary main_v70 main_v69 main_v71 (subf : (⟨S1048576x8, .f32⟩ : BufTy).Contents (Elt F) → (⟨S1048576x8, .f32⟩ : BufTy).Contents (Elt F) → (⟨S1048576x8, .f32⟩ : BufTy).Contents (Elt F)),
    binary main_v67 main_v71 main_v72 (mulf : (⟨S1048576x8, .f32⟩ : BufTy).Contents (Elt F) → (⟨S1048576x8, .f32⟩ : BufTy).Contents (Elt F) → (⟨S1048576x8, .f32⟩ : BufTy).Contents (Elt F)),
    unary main_v65 main_v73 ((extractStridedSlice S1048576x8x1 ![0, 0, 2] · slices_S1048576x8x3_S1048576x8x1_0_0_2) : (⟨S1048576x8x3, .f32⟩ : BufTy).Contents (Elt F) → (⟨S1048576x8x1, .f32⟩ : BufTy).Contents (Elt F)),
    reshape main_v73 main_v74 rfl shapeCasts_S1048576x8x1_S1048576x8,
    nullary main_cst_12 (constant S_ .f32 0x3F800000#32),
    unary main_cst_12 main_v75 (broadcastInDim S1048576x8 ![] bcast_S_S1048576x8 : (⟨S_, .f32⟩ : BufTy).Contents (Elt F) → (⟨S1048576x8, .f32⟩ : BufTy).Contents (Elt F)),
    binary main_v75 main_v74 main_v76 (subf : (⟨S1048576x8, .f32⟩ : BufTy).Contents (Elt F) → (⟨S1048576x8, .f32⟩ : BufTy).Contents (Elt F) → (⟨S1048576x8, .f32⟩ : BufTy).Contents (Elt F)),
    binary main_v72 main_v76 main_v77 (mulf : (⟨S1048576x8, .f32⟩ : BufTy).Contents (Elt F) → (⟨S1048576x8, .f32⟩ : BufTy).Contents (Elt F) → (⟨S1048576x8, .f32⟩ : BufTy).Contents (Elt F)),
    nullary main_cst_13 (constant S_ .f32 0x00000000#32),
    binary main_v77 main_cst_13 main_v78 ((fun x v => Host.reduceAdd x v reducesTo_S1048576x8_S8_d0 h_S_) : (⟨S1048576x8, .f32⟩ : BufTy).Contents (Elt F) → (⟨S_, .f32⟩ : BufTy).Contents (Elt F) → (⟨S8, .f32⟩ : BufTy).Contents (Elt F)),
    nullary main_cst_14 (constant S_ .f32 0x49800000#32),
    unary main_cst_14 main_v79 (broadcastInDim S8 ![] bcast_S_S8 : (⟨S_, .f32⟩ : BufTy).Contents (Elt F) → (⟨S8, .f32⟩ : BufTy).Contents (Elt F)),
    binary main_v78 main_v79 main_v80 (Host.divf : (⟨S8, .f32⟩ : BufTy).Contents (Elt F) → (⟨S8, .f32⟩ : BufTy).Contents (Elt F) → (⟨S8, .f32⟩ : BufTy).Contents (Elt F)),
    unary main_v80 main_v81 (broadcastInDim S1x8 ![1] bcast_S8_S1x8_1 : (⟨S8, .f32⟩ : BufTy).Contents (Elt F) → (⟨S1x8, .f32⟩ : BufTy).Contents (Elt F)),
    unary main_v81 main_v82 (broadcastInDim S1048576x8 ![0, 1] bcast_S1x8_S1048576x8_0_1 : (⟨S1x8, .f32⟩ : BufTy).Contents (Elt F) → (⟨S1048576x8, .f32⟩ : BufTy).Contents (Elt F)),
    binary main_v77 main_v82 main_v83 (subf : (⟨S1048576x8, .f32⟩ : BufTy).Contents (Elt F) → (⟨S1048576x8, .f32⟩ : BufTy).Contents (Elt F) → (⟨S1048576x8, .f32⟩ : BufTy).Contents (Elt F)),
    binary main_v83 main_v83 main_v84 (mulf : (⟨S1048576x8, .f32⟩ : BufTy).Contents (Elt F) → (⟨S1048576x8, .f32⟩ : BufTy).Contents (Elt F) → (⟨S1048576x8, .f32⟩ : BufTy).Contents (Elt F)),
    nullary main_cst_15 (constant S_ .f32 0x00000000#32),
    binary main_v84 main_cst_15 main_v85 ((fun x v => Host.reduceAdd x v reducesTo_S1048576x8_S8_d0 h_S_) : (⟨S1048576x8, .f32⟩ : BufTy).Contents (Elt F) → (⟨S_, .f32⟩ : BufTy).Contents (Elt F) → (⟨S8, .f32⟩ : BufTy).Contents (Elt F)),
    nullary main_cst_16 (constant S_ .f32 0x49800000#32),
    unary main_cst_16 main_v86 (broadcastInDim S8 ![] bcast_S_S8 : (⟨S_, .f32⟩ : BufTy).Contents (Elt F) → (⟨S8, .f32⟩ : BufTy).Contents (Elt F)),
    binary main_v85 main_v86 main_v87 (Host.divf : (⟨S8, .f32⟩ : BufTy).Contents (Elt F) → (⟨S8, .f32⟩ : BufTy).Contents (Elt F) → (⟨S8, .f32⟩ : BufTy).Contents (Elt F)),
    unary main_v80 main_v88 (broadcastInDim S1x8 ![1] bcast_S8_S1x8_1 : (⟨S8, .f32⟩ : BufTy).Contents (Elt F) → (⟨S1x8, .f32⟩ : BufTy).Contents (Elt F)),
    unary main_v88 main_v89 (broadcastInDim S1048576x8 ![0, 1] bcast_S1x8_S1048576x8_0_1 : (⟨S1x8, .f32⟩ : BufTy).Contents (Elt F) → (⟨S1048576x8, .f32⟩ : BufTy).Contents (Elt F)),
    binary main_v77 main_v89 main_v90 (subf : (⟨S1048576x8, .f32⟩ : BufTy).Contents (Elt F) → (⟨S1048576x8, .f32⟩ : BufTy).Contents (Elt F) → (⟨S1048576x8, .f32⟩ : BufTy).Contents (Elt F)),
    nullary main_cst_17 (constant S_ .f32 0x3727C5AC#32),
    unary main_cst_17 main_v91 (broadcastInDim S8 ![] bcast_S_S8 : (⟨S_, .f32⟩ : BufTy).Contents (Elt F) → (⟨S8, .f32⟩ : BufTy).Contents (Elt F)),
    binary main_v87 main_v91 main_v92 (addf : (⟨S8, .f32⟩ : BufTy).Contents (Elt F) → (⟨S8, .f32⟩ : BufTy).Contents (Elt F) → (⟨S8, .f32⟩ : BufTy).Contents (Elt F)),
    unary main_v92 main_v93 (Host.rsqrt : (⟨S8, .f32⟩ : BufTy).Contents (Elt F) → (⟨S8, .f32⟩ : BufTy).Contents (Elt F)),
    unary main_v93 main_v94 (broadcastInDim S1x8 ![1] bcast_S8_S1x8_1 : (⟨S8, .f32⟩ : BufTy).Contents (Elt F) → (⟨S1x8, .f32⟩ : BufTy).Contents (Elt F)),
    unary main_v94 main_v95 (broadcastInDim S1048576x8 ![0, 1] bcast_S1x8_S1048576x8_0_1 : (⟨S1x8, .f32⟩ : BufTy).Contents (Elt F) → (⟨S1048576x8, .f32⟩ : BufTy).Contents (Elt F)),
    binary main_v90 main_v95 main_v96 (mulf : (⟨S1048576x8, .f32⟩ : BufTy).Contents (Elt F) → (⟨S1048576x8, .f32⟩ : BufTy).Contents (Elt F) → (⟨S1048576x8, .f32⟩ : BufTy).Contents (Elt F)),
    unary main_arg7 main_v97 (broadcastInDim S1x8 ![1] bcast_S8_S1x8_1 : (⟨S8, .f32⟩ : BufTy).Contents (Elt F) → (⟨S1x8, .f32⟩ : BufTy).Contents (Elt F)),
    unary main_v97 main_v98 (broadcastInDim S1048576x8 ![0, 1] bcast_S1x8_S1048576x8_0_1 : (⟨S1x8, .f32⟩ : BufTy).Contents (Elt F) → (⟨S1048576x8, .f32⟩ : BufTy).Contents (Elt F)),
    binary main_v96 main_v98 main_v99 (mulf : (⟨S1048576x8, .f32⟩ : BufTy).Contents (Elt F) → (⟨S1048576x8, .f32⟩ : BufTy).Contents (Elt F) → (⟨S1048576x8, .f32⟩ : BufTy).Contents (Elt F)) ]

/-- The operations of the third piece. -/
abbrev ops2 : List (HloOp τ sig (Elt F)) :=
  [
    unary main_arg8 main_v100 (broadcastInDim S1x8 ![1] bcast_S8_S1x8_1 : (⟨S8, .f32⟩ : BufTy).Contents (Elt F) → (⟨S1x8, .f32⟩ : BufTy).Contents (Elt F)),
    unary main_v100 main_v101 (broadcastInDim S1048576x8 ![0, 1] bcast_S1x8_S1048576x8_0_1 : (⟨S1x8, .f32⟩ : BufTy).Contents (Elt F) → (⟨S1048576x8, .f32⟩ : BufTy).Contents (Elt F)),
    binary main_v99 main_v101 main_v102 (addf : (⟨S1048576x8, .f32⟩ : BufTy).Contents (Elt F) → (⟨S1048576x8, .f32⟩ : BufTy).Contents (Elt F) → (⟨S1048576x8, .f32⟩ : BufTy).Contents (Elt F)),
    unary main_arg9 main_v103 ((transpose S8x10 [1, 0] · transposes_S10x8_S8x10_1_0) : (⟨S10x8, .f32⟩ : BufTy).Contents (Elt F) → (⟨S8x10, .f32⟩ : BufTy).Contents (Elt F)),
    binary main_v102 main_v103 main_v104 ((fun l r => Host.dotGeneral dot_S1048576x8_S8x10_S1048576x10_1_0_0_1_n_n none l r) : (⟨S1048576x8, .f32⟩ : BufTy).Contents (Elt F) → (⟨S8x10, .f32⟩ : BufTy).Contents (Elt F) → (⟨S1048576x10, .f32⟩ : BufTy).Contents (Elt F)),
    unary main_arg10 main_v105 (broadcastInDim S1x10 ![1] bcast_S10_S1x10_1 : (⟨S10, .f32⟩ : BufTy).Contents (Elt F) → (⟨S1x10, .f32⟩ : BufTy).Contents (Elt F)),
    unary main_v105 main_v106 (broadcastInDim S1048576x10 ![0, 1] bcast_S1x10_S1048576x10_0_1 : (⟨S1x10, .f32⟩ : BufTy).Contents (Elt F) → (⟨S1048576x10, .f32⟩ : BufTy).Contents (Elt F)),
    binary main_v104 main_v106 main_v107 (addf : (⟨S1048576x10, .f32⟩ : BufTy).Contents (Elt F) → (⟨S1048576x10, .f32⟩ : BufTy).Contents (Elt F) → (⟨S1048576x10, .f32⟩ : BufTy).Contents (Elt F)),
    unary main_v107 main_v108 ((extractStridedSlice S1048576x3 ![0, 0] · slices_S1048576x10_S1048576x3_0_0) : (⟨S1048576x10, .f32⟩ : BufTy).Contents (Elt F) → (⟨S1048576x3, .f32⟩ : BufTy).Contents (Elt F)),
    nullary main_cst_18 (constant S_ .f32 0x3F000000#32),
    unary main_cst_18 main_v109 (broadcastInDim S1048576x3 ![] bcast_S_S1048576x3 : (⟨S_, .f32⟩ : BufTy).Contents (Elt F) → (⟨S1048576x3, .f32⟩ : BufTy).Contents (Elt F)),
    binary main_v108 main_v109 main_v110 (mulf : (⟨S1048576x3, .f32⟩ : BufTy).Contents (Elt F) → (⟨S1048576x3, .f32⟩ : BufTy).Contents (Elt F) → (⟨S1048576x3, .f32⟩ : BufTy).Contents (Elt F)),
    unary main_v110 main_v111 (Host.sin : (⟨S1048576x3, .f32⟩ : BufTy).Contents (Elt F) → (⟨S1048576x3, .f32⟩ : BufTy).Contents (Elt F)),
    binary main_v111 main_v111 main_v112 (mulf : (⟨S1048576x3, .f32⟩ : BufTy).Contents (Elt F) → (⟨S1048576x3, .f32⟩ : BufTy).Contents (Elt F) → (⟨S1048576x3, .f32⟩ : BufTy).Contents (Elt F)),
    nullary main_cst_19 (constant S_ .f32 0x3F800000#32),
    unary main_cst_19 main_v113 (broadcastInDim S1048576x3 ![] bcast_S_S1048576x3 : (⟨S_, .f32⟩ : BufTy).Contents (Elt F) → (⟨S1048576x3, .f32⟩ : BufTy).Contents (Elt F)),
    binary main_v113 main_v112 main_v114 (subf : (⟨S1048576x3, .f32⟩ : BufTy).Contents (Elt F) → (⟨S1048576x3, .f32⟩ : BufTy).Contents (Elt F) → (⟨S1048576x3, .f32⟩ : BufTy).Contents (Elt F)),
    unary main_v114 main_v115 ((extractStridedSlice S1048576x1 ![0, 0] · slices_S1048576x3_S1048576x1_0_0) : (⟨S1048576x3, .f32⟩ : BufTy).Contents (Elt F) → (⟨S1048576x1, .f32⟩ : BufTy).Contents (Elt F)),
    reshape main_v115 main_v116 rfl shapeCasts_S1048576x1_S1048576,
    unary main_v114 main_v117 ((extractStridedSlice S1048576x1 ![0, 1] · slices_S1048576x3_S1048576x1_0_1) : (⟨S1048576x3, .f32⟩ : BufTy).Contents (Elt F) → (⟨S1048576x1, .f32⟩ : BufTy).Contents (Elt F)),
    reshape main_v117 main_v118 rfl shapeCasts_S1048576x1_S1048576,
    binary main_v116 main_v118 main_v119 (mulf : (⟨S1048576, .f32⟩ : BufTy).Contents (Elt F) → (⟨S1048576, .f32⟩ : BufTy).Contents (Elt F) → (⟨S1048576, .f32⟩ : BufTy).Contents (Elt F)),
    unary main_v114 main_v120 ((extractStridedSlice S1048576x1 ![0, 2] · slices_S1048576x3_S1048576x1_0_2) : (⟨S1048576x3, .f32⟩ : BufTy).Contents (Elt F) → (⟨S1048576x1, .f32⟩ : BufTy).Contents (Elt F)),
    reshape main_v120 main_v121 rfl shapeCasts_S1048576x1_S1048576,
    binary main_v119 main_v121 main_v122 (mulf : (⟨S1048576, .f32⟩ : BufTy).Contents (Elt F) → (⟨S1048576, .f32⟩ : BufTy).Contents (Elt F) → (⟨S1048576, .f32⟩ : BufTy).Contents (Elt F)),
    unary main_v112 main_v123 ((extractStridedSlice S1048576x1 ![0, 0] · slices_S1048576x3_S1048576x1_0_0) : (⟨S1048576x3, .f32⟩ : BufTy).Contents (Elt F) → (⟨S1048576x1, .f32⟩ : BufTy).Contents (Elt F)),
    reshape main_v123 main_v124 rfl shapeCasts_S1048576x1_S1048576,
    unary main_v114 main_v125 ((extractStridedSlice S1048576x1 ![0, 1] · slices_S1048576x3_S1048576x1_0_1) : (⟨S1048576x3, .f32⟩ : BufTy).Contents (Elt F) → (⟨S1048576x1, .f32⟩ : BufTy).Contents (Elt F)),
    reshape main_v125 main_v126 rfl shapeCasts_S1048576x1_S1048576,
    binary main_v124 main_v126 main_v127 (mulf : (⟨S1048576, .f32⟩ : BufTy).Contents (Elt F) → (⟨S1048576, .f32⟩ : BufTy).Contents (Elt F) → (⟨S1048576, .f32⟩ : BufTy).Contents (Elt F)),
    unary main_v114 main_v128 ((extractStridedSlice S1048576x1 ![0, 2] · slices_S1048576x3_S1048576x1_0_2) : (⟨S1048576x3, .f32⟩ : BufTy).Contents (Elt F) → (⟨S1048576x1, .f32⟩ : BufTy).Contents (Elt F)),
    reshape main_v128 main_v129 rfl shapeCasts_S1048576x1_S1048576,
    binary main_v127 main_v129 main_v130 (mulf : (⟨S1048576, .f32⟩ : BufTy).Contents (Elt F) → (⟨S1048576, .f32⟩ : BufTy).Contents (Elt F) → (⟨S1048576, .f32⟩ : BufTy).Contents (Elt F)),
    unary main_v114 main_v131 ((extractStridedSlice S1048576x1 ![0, 0] · slices_S1048576x3_S1048576x1_0_0) : (⟨S1048576x3, .f32⟩ : BufTy).Contents (Elt F) → (⟨S1048576x1, .f32⟩ : BufTy).Contents (Elt F)),
    reshape main_v131 main_v132 rfl shapeCasts_S1048576x1_S1048576,
    unary main_v112 main_v133 ((extractStridedSlice S1048576x1 ![0, 1] · slices_S1048576x3_S1048576x1_0_1) : (⟨S1048576x3, .f32⟩ : BufTy).Contents (Elt F) → (⟨S1048576x1, .f32⟩ : BufTy).Contents (Elt F)),
    reshape main_v133 main_v134 rfl shapeCasts_S1048576x1_S1048576,
    binary main_v132 main_v134 main_v135 (mulf : (⟨S1048576, .f32⟩ : BufTy).Contents (Elt F) → (⟨S1048576, .f32⟩ : BufTy).Contents (Elt F) → (⟨S1048576, .f32⟩ : BufTy).Contents (Elt F)),
    unary main_v114 main_v136 ((extractStridedSlice S1048576x1 ![0, 2] · slices_S1048576x3_S1048576x1_0_2) : (⟨S1048576x3, .f32⟩ : BufTy).Contents (Elt F) → (⟨S1048576x1, .f32⟩ : BufTy).Contents (Elt F)),
    reshape main_v136 main_v137 rfl shapeCasts_S1048576x1_S1048576,
    binary main_v135 main_v137 main_v138 (mulf : (⟨S1048576, .f32⟩ : BufTy).Contents (Elt F) → (⟨S1048576, .f32⟩ : BufTy).Contents (Elt F) → (⟨S1048576, .f32⟩ : BufTy).Contents (Elt F)),
    unary main_v122 main_v139 (broadcastInDim S1048576x1 ![0] bcast_S1048576_S1048576x1_0 : (⟨S1048576, .f32⟩ : BufTy).Contents (Elt F) → (⟨S1048576x1, .f32⟩ : BufTy).Contents (Elt F)),
    unary main_v130 main_v140 (broadcastInDim S1048576x1 ![0] bcast_S1048576_S1048576x1_0 : (⟨S1048576, .f32⟩ : BufTy).Contents (Elt F) → (⟨S1048576x1, .f32⟩ : BufTy).Contents (Elt F)),
    unary main_v138 main_v141 (broadcastInDim S1048576x1 ![0] bcast_S1048576_S1048576x1_0 : (⟨S1048576, .f32⟩ : BufTy).Contents (Elt F) → (⟨S1048576x1, .f32⟩ : BufTy).Contents (Elt F)),
    nary ![main_v139, main_v140, main_v141] main_v142 (fun u => concatenate S1048576x3 1 [⟨S1048576x1, u 0⟩, ⟨S1048576x1, u 1⟩, ⟨S1048576x1, u 2⟩] concatenates_S1048576x1_S1048576x1_S1048576x1_S1048576x3_d1) ]

/-- The whole program's operations. -/
abbrev ops : List (HloOp τ sig (Elt F)) := ops0 ++ ops1 ++ ops2

/-- The buffers the pieces assign, one per operation, in order. -/
abbrev W0 : List (Ref sig .tc) := [main_c, main_v0, main_v1, main_v2, main_v3, main_v4, main_cst, main_v5, main_v6, main_cst_0, main_v7, main_v8, main_v9, main_v10, main_v11, main_cst_1, main_v12, main_v13, main_cst_2, main_v14, main_v15, main_v16, main_v17, main_cst_3, main_v18, main_v19, main_v20, main_v21, main_v22, main_v23, main_v24, main_v25, main_v26, main_v27, main_v28, main_v29, main_v30, main_v31, main_v32, main_v33, main_v34, main_v35, main_v36, main_v37, main_v38, main_v39, main_cst_4, main_v40, main_v41, main_v42, main_v43, main_v44, main_v45, main_c_5, main_v46, main_v47, main_c_6, main_v48, main_v49, main_v50]
abbrev W1 : List (Ref sig .tc) := [main_c_7, main_v51, main_v52, main_c_8, main_v53, main_v54, main_v55, main_v56, main_v57, main_v58, main_v59, main_v60, main_cst_9, main_v61, main_v62, main_v63, main_cst_10, main_call0_v0, main_call0_v1, main_v64, main_v65, main_v66, main_v67, main_v68, main_v69, main_cst_11, main_v70, main_v71, main_v72, main_v73, main_v74, main_cst_12, main_v75, main_v76, main_v77, main_cst_13, main_v78, main_cst_14, main_v79, main_v80, main_v81, main_v82, main_v83, main_v84, main_cst_15, main_v85, main_cst_16, main_v86, main_v87, main_v88, main_v89, main_v90, main_cst_17, main_v91, main_v92, main_v93, main_v94, main_v95, main_v96, main_v97, main_v98, main_v99]
abbrev W2 : List (Ref sig .tc) := [main_v100, main_v101, main_v102, main_v103, main_v104, main_v105, main_v106, main_v107, main_v108, main_cst_18, main_v109, main_v110, main_v111, main_v112, main_cst_19, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142]
abbrev W : List (Ref sig .tc) := W0 ++ W1 ++ W2

end Cert.ReferenceIdeal.RefRun

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«142976_j49512382988410_2_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.Ref.RunLib.lean ====
/-
  Two facts about straight lines of host operations in single-assignment form: the final value of the variable an
  operation with a family of operands assigns, and that a line all of whose operations determine their results
  allocates nothing.
-/
import Idealize.ShloMosaic.Lib.StableHlo.Run
import proofs.«142976_j49512382988410_2_alg».proof.Proof.LibSingleAssign

namespace Idealize.ShloMosaic.StableHlo

variable {τ : Topo} {sig : RefSig} {Val : EltTy → Type}
variable {ops : List (HloOp τ sig Val)} {W : List (Ref sig .tc)}

/-- The final value of the variable an operation over a family of operands assigns: its function of the operands'
    final values, each operand being assigned earlier or never. -/
theorem final_nary (h : SingleAssign ops W) (V : Valuation τ sig Val) (j : Nat) {n : Nat} {xs : Fin n → Ref sig .tc} {y : Ref sig .tc}
    {f : ((k : Fin n) → (xs k).ty.Contents Val) → y.ty.Contents Val} {hxs hy}
    (hop : ops[j]? = some (nary xs y f hxs hy)) (hw : W[j]? = some y)
    (sx : ∀ k, after (ops.take j) V (Proc.devRef .tc (xs k)) = after ops V (Proc.devRef .tc (xs k))) :
    after ops V (Proc.devRef .tc y) = f (fun k => after ops V (Proc.devRef .tc (xs k))) := by
  rw [after_at ops W h.writes h.nodup V j _ y hop hw, nary_result]
  congr 1
  funext k
  exact sx k

/-- A line whose operations' sets of freshly allocated buffers are, in order, all empty allocates nothing. -/
theorem fresh_of_map_eq {l : List (HloOp τ sig Val)}
    (h : l.map (fun op => op.fresh) = List.replicate l.length ∅) : ∀ op ∈ l, op.fresh = ∅ := by
  intro op hop
  have hm : op.fresh ∈ l.map (fun op => op.fresh) := List.mem_map.mpr ⟨op, hop, rfl⟩
  rw [h] at hm
  exact (List.mem_replicate.mp hm).2

/-- A property of every operation of two lines holds of every operation of their concatenation. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun op hop =>
    (List.mem_append.mp hop).elim (List.forall_iff_forall_mem.mp h₁ op) (List.forall_iff_forall_mem.mp h₂ op)

end Idealize.ShloMosaic.StableHlo
-- ==== Proof.Ref.RunMain.lean ====
/-
  The second program is the straight line of its operations, every buffer the line assigns is assigned once, and so
  its run is read off the line: from any memory with zero counters every weakly fair execution terminates with each
  buffer at the fold of the operations over the launch contents.
-/
import proofs.«142976_j49512382988410_2_alg».proof.Proof.Ref.RunOps
import proofs.«142976_j49512382988410_2_alg».proof.Proof.Ref.RunLib

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

set_option maxRecDepth 4096 in
/-- The first piece of the text is the first list run in order. -/
theorem main_part0_eq (c : Dev nD) : main_part0 (F := F) c = seq ops0 := rfl

set_option maxRecDepth 4096 in
/-- The second piece, the clipping function unfolded at its call. -/
theorem main_part1_eq (c : Dev nD) : main_part1 (F := F) c = seq ops1 := by
  simp only [main_part1, fn_clip.body, seq, bind_assoc, pure_bind]
  rfl

set_option maxRecDepth 4096 in
/-- The third piece. -/
theorem main_part2_eq (c : Dev nD) : main_part2 (F := F) c = seq ops2 := rfl

/-- The whole program is the whole list run in order. -/
theorem main_eq (c : Dev nD) : main (F := F) c = seq ops := by
  unfold main
  rw [main_part0_eq, main_part1_eq, main_part2_eq, seq_append, seq_append, bind_assoc]

/-- Operation by operation, the buffer written is the one listed. -/
theorem writes_eq : (ops (F := F)).map (fun op => op.writes) = W.map (fun r => ({Proc.devRef (τ := τ) .tc r} : Finset (DevRef τ sig))) := rfl

set_option maxRecDepth 100000 in
/-- No buffer is listed twice. -/
theorem nodup_W : W.Nodup := by decide

/-- The program is in single-assignment form. -/
theorem assign : SingleAssign (ops (F := F)) W := ⟨writes_eq, nodup_W⟩

set_option maxRecDepth 100000 in
/-- The eleven arguments are assigned by no operation. -/
theorem arg0_not_mem : main_arg0 ∉ W := by decide
set_option maxRecDepth 100000 in
theorem arg1_not_mem : main_arg1 ∉ W := by decide
set_option maxRecDepth 100000 in
theorem arg2_not_mem : main_arg2 ∉ W := by decide
set_option maxRecDepth 100000 in
theorem arg3_not_mem : main_arg3 ∉ W := by decide
set_option maxRecDepth 100000 in
theorem arg4_not_mem : main_arg4 ∉ W := by decide
set_option maxRecDepth 100000 in
theorem arg5_not_mem : main_arg5 ∉ W := by decide
set_option maxRecDepth 100000 in
theorem arg6_not_mem : main_arg6 ∉ W := by decide
set_option maxRecDepth 100000 in
theorem arg7_not_mem : main_arg7 ∉ W := by decide
set_option maxRecDepth 100000 in
theorem arg8_not_mem : main_arg8 ∉ W := by decide
set_option maxRecDepth 100000 in
theorem arg9_not_mem : main_arg9 ∉ W := by decide
set_option maxRecDepth 100000 in
theorem arg10_not_mem : main_arg10 ∉ W := by decide

theorem scopedRefs_eq : (Finset.univ.filter fun b : Ref sig .tc => b.isScoped) = ∅ := by decide
theorem scopedSems_eq : (Finset.univ.filter fun sm : SemLoc sig => sm.isScoped .tc) = ∅ := by decide

theorem ops_sub0 : (ops0 : List (HloOp τ sig (Elt F))).Forall fun op => op.bufs ⊆ tcRefs τ sig :=
  ⟨
    nullary_bufs_sub .., unary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., unary_bufs_sub .., unary_bufs_sub .., unary_bufs_sub .., unary_bufs_sub .., unary_bufs_sub ..,
    binary_bufs_sub .., binary_bufs_sub .., unary_bufs_sub .., binary_bufs_sub .., nullary_bufs_sub .., unary_bufs_sub ..,
    binary_bufs_sub .., unary_bufs_sub .., binary_bufs_sub .., unary_bufs_sub .., nullary_bufs_sub .., nullary_bufs_sub ..,
    unary_bufs_sub .., binary_bufs_sub .., nullary_bufs_sub .., unary_bufs_sub .., binary_bufs_sub .., ternary_bufs_sub ..⟩
theorem ops_sub1 : (ops1 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    unary_bufs_sub .., binary_bufs_sub .., binary_bufs_sub .., unary_bufs_sub .., reshape_bufs_sub .., unary_bufs_sub ..,
    reshape_bufs_sub .., nullary_bufs_sub .., unary_bufs_sub .., binary_bufs_sub .., binary_bufs_sub .., unary_bufs_sub ..,
    reshape_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩
theorem ops_sub2 : (ops2 : List (HloOp τ sig (Elt F))).Forall fun op => op.bufs ⊆ tcRefs τ sig :=
  ⟨
    unary_bufs_sub .., unary_bufs_sub .., binary_bufs_sub .., unary_bufs_sub .., binary_bufs_sub .., unary_bufs_sub ..,
    unary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    reshape_bufs_sub .., unary_bufs_sub .., reshape_bufs_sub .., binary_bufs_sub .., unary_bufs_sub .., reshape_bufs_sub ..,
    binary_bufs_sub .., unary_bufs_sub .., reshape_bufs_sub .., unary_bufs_sub .., reshape_bufs_sub .., binary_bufs_sub ..,
    unary_bufs_sub .., reshape_bufs_sub .., binary_bufs_sub .., unary_bufs_sub .., reshape_bufs_sub .., unary_bufs_sub ..,
    reshape_bufs_sub .., binary_bufs_sub .., unary_bufs_sub .., reshape_bufs_sub .., binary_bufs_sub .., unary_bufs_sub ..,
    unary_bufs_sub .., unary_bufs_sub .., nary_bufs_sub ..⟩
theorem ops_sub : (ops : List (HloOp τ sig (Elt F))).Forall fun op => op.bufs ⊆ tcRefs τ sig :=
  forall_append (forall_append ops_sub0 ops_sub1) ops_sub2

/-- Every operation determines its result: none allocates. -/
theorem ops_fresh : ∀ op ∈ (ops : List (HloOp τ sig (Elt F))), op.fresh = ∅ := fresh_of_map_eq rfl

/-- From any memory with zero counters every weakly fair execution of the program terminates, and every buffer ends at the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Ref.Stages.lean ====
/-
  The second program's values, one definition per array it computes, each a pure function of the eleven argument
  arrays: a0 the batch of input rows x [1048576, 10], a1 the first weight matrix W1 [3, 10], a2 its bias, a3 and a4 the
  scale and shift of the normalisation over the three channels, a5 and a6 the memberships' centres and widths [3, 2],
  a7 and a8 the scale and shift of the normalisation over the batch, a9 the second weight matrix W2 [10, 8], a10 its
  bias. Every definition is the operation the program's text applies at that line, to the values of the lines it reads;
  `val` is the last one, the [1048576, 3] result.
-/
import proofs.«142976_j49512382988410_2_alg».proof.ReferenceIdeal
import Idealize.ShloMosaic.PureOps.Ideal

noncomputable section

namespace Cert.ReferenceIdeal.RefVal

open Idealize.ShloMosaic
open Cert.ReferenceIdeal Cert.ReferenceIdeal.Facts₀ Cert.ReferenceIdeal.Facts

variable [Facts]

/-- The table of the eight bit patterns, most significant digit first. -/
def c_ (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  fun i => lit0 (S8x3.rowMajor i)

def v0 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S10x3 .f32 :=
  transpose S10x3 [1, 0] a1 transposes_S3x10_S10x3_1_0

def v1 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  Host.dotGeneral dot_S1048576x10_S10x3_S1048576x3_1_0_0_1_n_n none a0 (v0 a0 a1 a2 a3 a4 a5 a6 a7 a8 a9 a10)

def v2 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x3 .f32 :=
  broadcastInDim S1x3 ![1] bcast_S3_S1x3_1 a2

def v3 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1x3_S1048576x3_0_1 (v2 a0 a1 a2 a3 a4 a5 a6 a7 a8 a9 a10)

/-- x·W1ᵀ + b1: the three channels of every row. -/
def v4 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  addf (v1 a0 a1 a2 a3 a4 a5 a6 a7 a8 a9 a10) (v3 a0 a1 a2 a3 a4 a5 a6 a7 a8 a9 a10)

def cst (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x00000000#32

def v5 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  Host.reduceAdd (v4 a0 a1 a2 a3 a4 a5 a6 a7 a8 a9 a10) (cst a0 a1 a2 a3 a4 a5 a6 a7 a8 a9 a10) reducesTo_S1048576x3_S1048576_d1 h_S_

def v6 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![0] bcast_S1048576_S1048576x1_0 (v5 a0 a1 a2 a3 a4 a5 a6 a7 a8 a9 a10)

def cst_0 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x40400000#32

def v7 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![] bcast_S_S1048576x1 (cst_0 a0 a1 a2 a3 a4 a5 a6 a7 a8 a9 a10)

/-- The mean over the three channels, as a column. -/
def v8 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  Host.divf (v6 a0 a1 a2 a3 a4 a5 a6 a7 a8 a9 a10) (v7 a0 a1 a2 a3 a4 a5 a6 a7 a8 a9 a10)

def v9 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1048576x1_S1048576x3_0_1 (v8 a0 a1 a2 a3 a4 a5 a6 a7 a8 a9 a10)

def v10 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  subf (v4 a0 a1 a2 a3 a4 a5 a6 a7 a8 a9 a10) (v9 a0 a1 a2 a3 a4 a5 a6 a7 a8 a9 a10)

def v11 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  mulf (v10 a0 a1 a2 a3 a4 a5 a6 a7 a8 a9 a10) (v10 a0 a1 a2 a3 a4 a5 a6 a7 a8 a9 a10)

def cst_1 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x00000000#32

def v12 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  Host.reduceAdd (v11 a0 a1 a2 a3 a4 a5 a6 a7 a8 a9 a10) (cst_1 a0 a1 a2 a3 a4 a5 a6 a7 a8 a9 a10) reducesTo_S1048576x3_S1048576_d1 h_S_

def v13 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![0] bcast_S1048576_S1048576x1_0 (v12 a0 a1 a2 a3 a4 a5 a6 a7 a8 a9 a10)

def cst_2 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x40400000#32

def v14 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![] bcast_S_S1048576x1 (cst_2 a0 a1 a2 a3 a4 a5 a6 a7 a8 a9 a10)

/-- The biased variance over the three channels, as a column. -/
def v15 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  Host.divf (v13 a0 a1 a2 a3 a4 a5 a6 a7 a8 a9 a10) (v14 a0 a1 a2 a3 a4 a5 a6 a7 a8 a9 a10)

def v16 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1048576x1_S1048576x3_0_1 (v8 a0 a1 a2 a3 a4 a5 a6 a7 a8 a9 a10)

def v17 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  subf (v4 a0 a1 a2 a3 a4 a5 a6 a7 a8 a9 a10) (v16 a0 a1 a2 a3 a4 a5 a6 a7 a8 a9 a10)

def cst_3 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3727C5AC#32

def v18 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![] bcast_S_S1048576x1 (cst_3 a0 a1 a2 a3 a4 a5 a6 a7 a8 a9 a10)

def v19 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  addf (v15 a0 a1 a2 a3 a4 a5 a6 a7 a8 a9 a10) (v18 a0 a1 a2 a3 a4 a5 a6 a7 a8 a9 a10)

def v20 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  Host.rsqrt (v19 a0 a1 a2 a3 a4 a5 a6 a7 a8 a9 a10)

def v21 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1048576x1_S1048576x3_0_1 (v20 a0 a1 a2 a3 a4 a5 a6 a7 a8 a9 a10)

def v22 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  mulf (v17 a0 a1 a2 a3 a4 a5 a6 a7 a8 a9 a10) (v21 a0 a1 a2 a3 a4 a5 a6 a7 a8 a9 a10)

def v23 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x3 .f32 :=
  broadcastInDim S1x3 ![1] bcast_S3_S1x3_1 a3

def v24 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1x3_S1048576x3_0_1 (v23 a0 a1 a2 a3 a4 a5 a6 a7 a8 a9 a10)

def v25 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  mulf (v22 a0 a1 a2 a3 a4 a5 a6 a7 a8 a9 a10) (v24 a0 a1 a2 a3 a4 a5 a6 a7 a8 a9 a10)

def v26 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x3 .f32 :=
  broadcastInDim S1x3 ![1] bcast_S3_S1x3_1 a4

def v27 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![0, 1] bcast_S1x3_S1048576x3_0_1 (v26 a0 a1 a2 a3 a4 a5 a6 a7 a8 a9 a10)

/-- The normalised, scaled and shifted channels. -/
def v28 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  addf (v25 a0 a1 a2 a3 a4 a5 a6 a7 a8 a9 a10) (v27 a0 a1 a2 a3 a4 a5 a6 a7 a8 a9 a10)

def v29 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S2x3 .f32 :=
  transpose S2x3 [1, 0] a5 transposes_S3x2_S2x3_1_0

def v30 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x2x3 .f32 :=
  broadcastInDim S1x2x3 ![1, 2] bcast_S2x3_S1x2x3_1_2 (v29 a0 a1 a2 a3 a4 a5 a6 a7 a8 a9 a10)

def v31 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S2x3 .f32 :=
  transpose S2x3 [1, 0] a6 transposes_S3x2_S2x3_1_0

def v32 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x2x3 .f32 :=
  broadcastInDim S1x2x3 ![1, 2] bcast_S2x3_S1x2x3_1_2 (v31 a0 a1 a2 a3 a4 a5 a6 a7 a8 a9 a10)

def v33 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1x3 .f32 :=
  broadcastInDim S1048576x1x3 ![0, 2] bcast_S1048576x3_S1048576x1x3_0_2 (v28 a0 a1 a2 a3 a4 a5 a6 a7 a8 a9 a10)

def v34 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  broadcastInDim S1048576x2x3 ![0, 1, 2] bcast_S1048576x1x3_S1048576x2x3_0_1_2 (v33 a0 a1 a2 a3 a4 a5 a6 a7 a8 a9 a10)

def v35 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  broadcastInDim S1048576x2x3 ![0, 1, 2] bcast_S1x2x3_S1048576x2x3_0_1_2 (v30 a0 a1 a2 a3 a4 a5 a6 a7 a8 a9 a10)

def v36 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  subf (v34 a0 a1 a2 a3 a4 a5 a6 a7 a8 a9 a10) (v35 a0 a1 a2 a3 a4 a5 a6 a7 a8 a9 a10)

def v37 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  mulf (v36 a0 a1 a2 a3 a4 a5 a6 a7 a8 a9 a10) (v36 a0 a1 a2 a3 a4 a5 a6 a7 a8 a9 a10)

def v38 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  Host.negf (v37 a0 a1 a2 a3 a4 a5 a6 a7 a8 a9 a10)

def v39 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x2x3 .f32 :=
  mulf (v32 a0 a1 a2 a3 a4 a5 a6 a7 a8 a9 a10) (v32 a0 a1 a2 a3 a4 a5 a6 a7 a8 a9 a10)

def cst_4 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x40000000#32

def v40 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x2x3 .f32 :=
  broadcastInDim S1x2x3 ![] bcast_S_S1x2x3 (cst_4 a0 a1 a2 a3 a4 a5 a6 a7 a8 a9 a10)

def v41 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x2x3 .f32 :=
  mulf (v40 a0 a1 a2 a3 a4 a5 a6 a7 a8 a9 a10) (v39 a0 a1 a2 a3 a4 a5 a6 a7 a8 a9 a10)

def v42 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  broadcastInDim S1048576x2x3 ![0, 1, 2] bcast_S1x2x3_S1048576x2x3_0_1_2 (v41 a0 a1 a2 a3 a4 a5 a6 a7 a8 a9 a10)

def v43 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  Host.divf (v38 a0 a1 a2 a3 a4 a5 a6 a7 a8 a9 a10) (v42 a0 a1 a2 a3 a4 a5 a6 a7 a8 a9 a10)

/-- The two Gaussian memberships of every channel: [row, membership, channel]. -/
def v44 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x2x3 .f32 :=
  Host.exp (v43 a0 a1 a2 a3 a4 a5 a6 a7 a8 a9 a10)

def v45 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 32 :=
  iotaInDim S3 32 0

def c_5 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S_ 32 :=
  constantI S_ 32 0#32

def v46 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  broadcastInDim S8x3 ![] bcast_S_S8x3 (c_5 a0 a1 a2 a3 a4 a5 a6 a7 a8 a9 a10)

def v47 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 1 :=
  cmpi .slt (c_ a0 a1 a2 a3 a4 a5 a6 a7 a8 a9 a10) (v46 a0 a1 a2 a3 a4 a5 a6 a7 a8 a9 a10)

def c_6 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S_ 32 :=
  constantI S_ 32 2#32

def v48 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  broadcastInDim S8x3 ![] bcast_S_S8x3 (c_6 a0 a1 a2 a3 a4 a5 a6 a7 a8 a9 a10)

def v49 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  addi (c_ a0 a1 a2 a3 a4 a5 a6 a7 a8 a9 a10) (v48 a0 a1 a2 a3 a4 a5 a6 a7 a8 a9 a10)

def v50 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  select (v47 a0 a1 a2 a3 a4 a5 a6 a7 a8 a9 a10) (v49 a0 a1 a2 a3 a4 a5 a6 a7 a8 a9 a10) (c_ a0 a1 a2 a3 a4 a5 a6 a7 a8 a9 a10)

def c_7 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S_ 32 :=
  constantI S_ 32 0#32

def v51 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 32 :=
  broadcastInDim S3 ![] bcast_S_S3 (c_7 a0 a1 a2 a3 a4 a5 a6 a7 a8 a9 a10)

def v52 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 1 :=
  cmpi .slt (v45 a0 a1 a2 a3 a4 a5 a6 a7 a8 a9 a10) (v51 a0 a1 a2 a3 a4 a5 a6 a7 a8 a9 a10)

def c_8 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S_ 32 :=
  constantI S_ 32 3#32

def v53 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 32 :=
  broadcastInDim S3 ![] bcast_S_S3 (c_8 a0 a1 a2 a3 a4 a5 a6 a7 a8 a9 a10)

def v54 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 32 :=
  addi (v45 a0 a1 a2 a3 a4 a5 a6 a7 a8 a9 a10) (v53 a0 a1 a2 a3 a4 a5 a6 a7 a8 a9 a10)

def v55 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S3 32 :=
  select (v52 a0 a1 a2 a3 a4 a5 a6 a7 a8 a9 a10) (v54 a0 a1 a2 a3 a4 a5 a6 a7 a8 a9 a10) (v45 a0 a1 a2 a3 a4 a5 a6 a7 a8 a9 a10)

def v56 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3 32 :=
  broadcastInDim S8x3 ![1] bcast_S3_S8x3_1 (v55 a0 a1 a2 a3 a4 a5 a6 a7 a8 a9 a10)

def v57 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3x1 32 :=
  broadcastInDim S8x3x1 ![0, 1] bcast_S8x3_S8x3x1_0_1 (v50 a0 a1 a2 a3 a4 a5 a6 a7 a8 a9 a10)

def v58 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3x1 32 :=
  broadcastInDim S8x3x1 ![0, 1] bcast_S8x3_S8x3x1_0_1 (v56 a0 a1 a2 a3 a4 a5 a6 a7 a8 a9 a10)

/-- The gather's index array: at (i, j) the pair (digit j of pattern i, j). -/
def v59 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : IVec S8x3x2 32 :=
  concatenate S8x3x2 2 [⟨S8x3x1, (v57 a0 a1 a2 a3 a4 a5 a6 a7 a8 a9 a10)⟩, ⟨S8x3x1, (v58 a0 a1 a2 a3 a4 a5 a6 a7 a8 a9 a10)⟩] concatenates_S8x3x1_S8x3x1_S8x3x2_d2

/-- For every pattern i and channel j the membership the pattern's digit selects. -/
def v60 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  Host.gather gather_S1048576x2x3_S8x3x2_S1048576x8x3_0_12_n_n_12_2_104857611 (v44 a0 a1 a2 a3 a4 a5 a6 a7 a8 a9 a10) (v59 a0 a1 a2 a3 a4 a5 a6 a7 a8 a9 a10)

def cst_9 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x24E69595#32

def v61 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  broadcastInDim S1048576x8x3 ![] bcast_S_S1048576x8x3 (cst_9 a0 a1 a2 a3 a4 a5 a6 a7 a8 a9 a10)

def v62 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  addf (v60 a0 a1 a2 a3 a4 a5 a6 a7 a8 a9 a10) (v61 a0 a1 a2 a3 a4 a5 a6 a7 a8 a9 a10)

def v63 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  Host.sqrt (v62 a0 a1 a2 a3 a4 a5 a6 a7 a8 a9 a10)

def cst_10 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3F7FFF58#32

def call0_v0 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  id (cst_10 a0 a1 a2 a3 a4 a5 a6 a7 a8 a9 a10)

def call0_v1 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  broadcastInDim S1048576x8x3 ![] bcast_S_S1048576x8x3 (call0_v0 a0 a1 a2 a3 a4 a5 a6 a7 a8 a9 a10)

/-- min(clamp, √(q + tiny)). -/
def v64 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  minimumf (call0_v1 a0 a1 a2 a3 a4 a5 a6 a7 a8 a9 a10) (v63 a0 a1 a2 a3 a4 a5 a6 a7 a8 a9 a10)

def v65 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x3 .f32 :=
  mulf (v64 a0 a1 a2 a3 a4 a5 a6 a7 a8 a9 a10) (v64 a0 a1 a2 a3 a4 a5 a6 a7 a8 a9 a10)

def v66 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x1 .f32 :=
  extractStridedSlice S1048576x8x1 ![0, 0, 0] (v65 a0 a1 a2 a3 a4 a5 a6 a7 a8 a9 a10) slices_S1048576x8x3_S1048576x8x1_0_0_0

def v67 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  shapeCast S1048576x8 (v66 a0 a1 a2 a3 a4 a5 a6 a7 a8 a9 a10) shapeCasts_S1048576x8x1_S1048576x8

def v68 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x1 .f32 :=
  extractStridedSlice S1048576x8x1 ![0, 0, 1] (v65 a0 a1 a2 a3 a4 a5 a6 a7 a8 a9 a10) slices_S1048576x8x3_S1048576x8x1_0_0_1

def v69 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  shapeCast S1048576x8 (v68 a0 a1 a2 a3 a4 a5 a6 a7 a8 a9 a10) shapeCasts_S1048576x8x1_S1048576x8

def cst_11 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3F800000#32

def v70 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![] bcast_S_S1048576x8 (cst_11 a0 a1 a2 a3 a4 a5 a6 a7 a8 a9 a10)

def v71 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  subf (v70 a0 a1 a2 a3 a4 a5 a6 a7 a8 a9 a10) (v69 a0 a1 a2 a3 a4 a5 a6 a7 a8 a9 a10)

def v72 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  mulf (v67 a0 a1 a2 a3 a4 a5 a6 a7 a8 a9 a10) (v71 a0 a1 a2 a3 a4 a5 a6 a7 a8 a9 a10)

def v73 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8x1 .f32 :=
  extractStridedSlice S1048576x8x1 ![0, 0, 2] (v65 a0 a1 a2 a3 a4 a5 a6 a7 a8 a9 a10) slices_S1048576x8x3_S1048576x8x1_0_0_2

def v74 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  shapeCast S1048576x8 (v73 a0 a1 a2 a3 a4 a5 a6 a7 a8 a9 a10) shapeCasts_S1048576x8x1_S1048576x8

def cst_12 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3F800000#32

def v75 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![] bcast_S_S1048576x8 (cst_12 a0 a1 a2 a3 a4 a5 a6 a7 a8 a9 a10)

def v76 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  subf (v75 a0 a1 a2 a3 a4 a5 a6 a7 a8 a9 a10) (v74 a0 a1 a2 a3 a4 a5 a6 a7 a8 a9 a10)

/-- The eight outputs of every row: p₀ (1 − p₁)(1 − p₂). -/
def v77 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  mulf (v72 a0 a1 a2 a3 a4 a5 a6 a7 a8 a9 a10) (v76 a0 a1 a2 a3 a4 a5 a6 a7 a8 a9 a10)

def cst_13 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x00000000#32

def v78 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  Host.reduceAdd (v77 a0 a1 a2 a3 a4 a5 a6 a7 a8 a9 a10) (cst_13 a0 a1 a2 a3 a4 a5 a6 a7 a8 a9 a10) reducesTo_S1048576x8_S8_d0 h_S_

def cst_14 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x49800000#32

def v79 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  broadcastInDim S8 ![] bcast_S_S8 (cst_14 a0 a1 a2 a3 a4 a5 a6 a7 a8 a9 a10)

/-- The batch mean of each of the eight columns. -/
def v80 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  Host.divf (v78 a0 a1 a2 a3 a4 a5 a6 a7 a8 a9 a10) (v79 a0 a1 a2 a3 a4 a5 a6 a7 a8 a9 a10)

def v81 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x8 .f32 :=
  broadcastInDim S1x8 ![1] bcast_S8_S1x8_1 (v80 a0 a1 a2 a3 a4 a5 a6 a7 a8 a9 a10)

def v82 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![0, 1] bcast_S1x8_S1048576x8_0_1 (v81 a0 a1 a2 a3 a4 a5 a6 a7 a8 a9 a10)

def v83 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  subf (v77 a0 a1 a2 a3 a4 a5 a6 a7 a8 a9 a10) (v82 a0 a1 a2 a3 a4 a5 a6 a7 a8 a9 a10)

def v84 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  mulf (v83 a0 a1 a2 a3 a4 a5 a6 a7 a8 a9 a10) (v83 a0 a1 a2 a3 a4 a5 a6 a7 a8 a9 a10)

def cst_15 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x00000000#32

def v85 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  Host.reduceAdd (v84 a0 a1 a2 a3 a4 a5 a6 a7 a8 a9 a10) (cst_15 a0 a1 a2 a3 a4 a5 a6 a7 a8 a9 a10) reducesTo_S1048576x8_S8_d0 h_S_

def cst_16 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x49800000#32

def v86 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  broadcastInDim S8 ![] bcast_S_S8 (cst_16 a0 a1 a2 a3 a4 a5 a6 a7 a8 a9 a10)

/-- The batch variance of each of the eight columns. -/
def v87 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  Host.divf (v85 a0 a1 a2 a3 a4 a5 a6 a7 a8 a9 a10) (v86 a0 a1 a2 a3 a4 a5 a6 a7 a8 a9 a10)

def v88 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x8 .f32 :=
  broadcastInDim S1x8 ![1] bcast_S8_S1x8_1 (v80 a0 a1 a2 a3 a4 a5 a6 a7 a8 a9 a10)

def v89 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![0, 1] bcast_S1x8_S1048576x8_0_1 (v88 a0 a1 a2 a3 a4 a5 a6 a7 a8 a9 a10)

def v90 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  subf (v77 a0 a1 a2 a3 a4 a5 a6 a7 a8 a9 a10) (v89 a0 a1 a2 a3 a4 a5 a6 a7 a8 a9 a10)

def cst_17 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3727C5AC#32

def v91 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  broadcastInDim S8 ![] bcast_S_S8 (cst_17 a0 a1 a2 a3 a4 a5 a6 a7 a8 a9 a10)

def v92 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  addf (v87 a0 a1 a2 a3 a4 a5 a6 a7 a8 a9 a10) (v91 a0 a1 a2 a3 a4 a5 a6 a7 a8 a9 a10)

def v93 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8 .f32 :=
  Host.rsqrt (v92 a0 a1 a2 a3 a4 a5 a6 a7 a8 a9 a10)

def v94 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x8 .f32 :=
  broadcastInDim S1x8 ![1] bcast_S8_S1x8_1 (v93 a0 a1 a2 a3 a4 a5 a6 a7 a8 a9 a10)

def v95 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![0, 1] bcast_S1x8_S1048576x8_0_1 (v94 a0 a1 a2 a3 a4 a5 a6 a7 a8 a9 a10)

def v96 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  mulf (v90 a0 a1 a2 a3 a4 a5 a6 a7 a8 a9 a10) (v95 a0 a1 a2 a3 a4 a5 a6 a7 a8 a9 a10)

def v97 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x8 .f32 :=
  broadcastInDim S1x8 ![1] bcast_S8_S1x8_1 a7

def v98 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![0, 1] bcast_S1x8_S1048576x8_0_1 (v97 a0 a1 a2 a3 a4 a5 a6 a7 a8 a9 a10)

def v99 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  mulf (v96 a0 a1 a2 a3 a4 a5 a6 a7 a8 a9 a10) (v98 a0 a1 a2 a3 a4 a5 a6 a7 a8 a9 a10)

def v100 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x8 .f32 :=
  broadcastInDim S1x8 ![1] bcast_S8_S1x8_1 a8

def v101 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  broadcastInDim S1048576x8 ![0, 1] bcast_S1x8_S1048576x8_0_1 (v100 a0 a1 a2 a3 a4 a5 a6 a7 a8 a9 a10)

/-- The eight columns normalised by the batch statistics, scaled and shifted. -/
def v102 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x8 .f32 :=
  addf (v99 a0 a1 a2 a3 a4 a5 a6 a7 a8 a9 a10) (v101 a0 a1 a2 a3 a4 a5 a6 a7 a8 a9 a10)

def v103 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S8x10 .f32 :=
  transpose S8x10 [1, 0] a9 transposes_S10x8_S8x10_1_0

def v104 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x10 .f32 :=
  Host.dotGeneral dot_S1048576x8_S8x10_S1048576x10_1_0_0_1_n_n none (v102 a0 a1 a2 a3 a4 a5 a6 a7 a8 a9 a10) (v103 a0 a1 a2 a3 a4 a5 a6 a7 a8 a9 a10)

def v105 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1x10 .f32 :=
  broadcastInDim S1x10 ![1] bcast_S10_S1x10_1 a10

def v106 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x10 .f32 :=
  broadcastInDim S1048576x10 ![0, 1] bcast_S1x10_S1048576x10_0_1 (v105 a0 a1 a2 a3 a4 a5 a6 a7 a8 a9 a10)

def v107 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x10 .f32 :=
  addf (v104 a0 a1 a2 a3 a4 a5 a6 a7 a8 a9 a10) (v106 a0 a1 a2 a3 a4 a5 a6 a7 a8 a9 a10)

/-- The three logits. -/
def v108 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  extractStridedSlice S1048576x3 ![0, 0] (v107 a0 a1 a2 a3 a4 a5 a6 a7 a8 a9 a10) slices_S1048576x10_S1048576x3_0_0

def cst_18 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3F000000#32

def v109 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![] bcast_S_S1048576x3 (cst_18 a0 a1 a2 a3 a4 a5 a6 a7 a8 a9 a10)

def v110 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  mulf (v108 a0 a1 a2 a3 a4 a5 a6 a7 a8 a9 a10) (v109 a0 a1 a2 a3 a4 a5 a6 a7 a8 a9 a10)

def v111 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  Host.sin (v110 a0 a1 a2 a3 a4 a5 a6 a7 a8 a9 a10)

/-- sin²(l/2). -/
def v112 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  mulf (v111 a0 a1 a2 a3 a4 a5 a6 a7 a8 a9 a10) (v111 a0 a1 a2 a3 a4 a5 a6 a7 a8 a9 a10)

def cst_19 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S_ .f32 :=
  constant (F := Ideal) S_ .f32 0x3F800000#32

def v113 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  broadcastInDim S1048576x3 ![] bcast_S_S1048576x3 (cst_19 a0 a1 a2 a3 a4 a5 a6 a7 a8 a9 a10)

def v114 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  subf (v113 a0 a1 a2 a3 a4 a5 a6 a7 a8 a9 a10) (v112 a0 a1 a2 a3 a4 a5 a6 a7 a8 a9 a10)

def v115 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 0] (v114 a0 a1 a2 a3 a4 a5 a6 a7 a8 a9 a10) slices_S1048576x3_S1048576x1_0_0

def v116 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v115 a0 a1 a2 a3 a4 a5 a6 a7 a8 a9 a10) shapeCasts_S1048576x1_S1048576

def v117 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 1] (v114 a0 a1 a2 a3 a4 a5 a6 a7 a8 a9 a10) slices_S1048576x3_S1048576x1_0_1

def v118 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v117 a0 a1 a2 a3 a4 a5 a6 a7 a8 a9 a10) shapeCasts_S1048576x1_S1048576

def v119 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v116 a0 a1 a2 a3 a4 a5 a6 a7 a8 a9 a10) (v118 a0 a1 a2 a3 a4 a5 a6 a7 a8 a9 a10)

def v120 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 2] (v114 a0 a1 a2 a3 a4 a5 a6 a7 a8 a9 a10) slices_S1048576x3_S1048576x1_0_2

def v121 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v120 a0 a1 a2 a3 a4 a5 a6 a7 a8 a9 a10) shapeCasts_S1048576x1_S1048576

def v122 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v119 a0 a1 a2 a3 a4 a5 a6 a7 a8 a9 a10) (v121 a0 a1 a2 a3 a4 a5 a6 a7 a8 a9 a10)

def v123 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 0] (v112 a0 a1 a2 a3 a4 a5 a6 a7 a8 a9 a10) slices_S1048576x3_S1048576x1_0_0

def v124 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v123 a0 a1 a2 a3 a4 a5 a6 a7 a8 a9 a10) shapeCasts_S1048576x1_S1048576

def v125 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 1] (v114 a0 a1 a2 a3 a4 a5 a6 a7 a8 a9 a10) slices_S1048576x3_S1048576x1_0_1

def v126 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v125 a0 a1 a2 a3 a4 a5 a6 a7 a8 a9 a10) shapeCasts_S1048576x1_S1048576

def v127 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v124 a0 a1 a2 a3 a4 a5 a6 a7 a8 a9 a10) (v126 a0 a1 a2 a3 a4 a5 a6 a7 a8 a9 a10)

def v128 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 2] (v114 a0 a1 a2 a3 a4 a5 a6 a7 a8 a9 a10) slices_S1048576x3_S1048576x1_0_2

def v129 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v128 a0 a1 a2 a3 a4 a5 a6 a7 a8 a9 a10) shapeCasts_S1048576x1_S1048576

def v130 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v127 a0 a1 a2 a3 a4 a5 a6 a7 a8 a9 a10) (v129 a0 a1 a2 a3 a4 a5 a6 a7 a8 a9 a10)

def v131 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 0] (v114 a0 a1 a2 a3 a4 a5 a6 a7 a8 a9 a10) slices_S1048576x3_S1048576x1_0_0

def v132 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v131 a0 a1 a2 a3 a4 a5 a6 a7 a8 a9 a10) shapeCasts_S1048576x1_S1048576

def v133 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 1] (v112 a0 a1 a2 a3 a4 a5 a6 a7 a8 a9 a10) slices_S1048576x3_S1048576x1_0_1

def v134 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v133 a0 a1 a2 a3 a4 a5 a6 a7 a8 a9 a10) shapeCasts_S1048576x1_S1048576

def v135 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v132 a0 a1 a2 a3 a4 a5 a6 a7 a8 a9 a10) (v134 a0 a1 a2 a3 a4 a5 a6 a7 a8 a9 a10)

def v136 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  extractStridedSlice S1048576x1 ![0, 2] (v114 a0 a1 a2 a3 a4 a5 a6 a7 a8 a9 a10) slices_S1048576x3_S1048576x1_0_2

def v137 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  shapeCast S1048576 (v136 a0 a1 a2 a3 a4 a5 a6 a7 a8 a9 a10) shapeCasts_S1048576x1_S1048576

def v138 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576 .f32 :=
  mulf (v135 a0 a1 a2 a3 a4 a5 a6 a7 a8 a9 a10) (v137 a0 a1 a2 a3 a4 a5 a6 a7 a8 a9 a10)

def v139 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![0] bcast_S1048576_S1048576x1_0 (v122 a0 a1 a2 a3 a4 a5 a6 a7 a8 a9 a10)

def v140 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![0] bcast_S1048576_S1048576x1_0 (v130 a0 a1 a2 a3 a4 a5 a6 a7 a8 a9 a10)

def v141 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x1 .f32 :=
  broadcastInDim S1048576x1 ![0] bcast_S1048576_S1048576x1_0 (v138 a0 a1 a2 a3 a4 a5 a6 a7 a8 a9 a10)

/-- The three read-outs side by side. -/
def v142 (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  concatenate S1048576x3 1 [⟨S1048576x1, (v139 a0 a1 a2 a3 a4 a5 a6 a7 a8 a9 a10)⟩, ⟨S1048576x1, (v140 a0 a1 a2 a3 a4 a5 a6 a7 a8 a9 a10)⟩, ⟨S1048576x1, (v141 a0 a1 a2 a3 a4 a5 a6 a7 a8 a9 a10)⟩] concatenates_S1048576x1_S1048576x1_S1048576x1_S1048576x3_d1

/-- The second program's result as a function of its eleven arguments. -/
def val (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32) : FVec Ideal S1048576x3 .f32 :=
  v142 a0 a1 a2 a3 a4 a5 a6 a7 a8 a9 a10

end Cert.ReferenceIdeal.RefVal

end
-- ==== Proof.Ref.RunFin0.lean ====
/-
  The final value of every buffer the first piece of the second program assigns, as the stage of the same name applied
  to the arguments' launch contents: each by the operation's own equation over the final values of its operands, which
  were read before it. The eleven arguments, assigned by no operation, hold at the end what they held at launch.
-/
import proofs.«142976_j49512382988410_2_alg».proof.Proof.Ref.RunMain
import proofs.«142976_j49512382988410_2_alg».proof.Proof.Ref.Stages

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable [Facts]

theorem fin_arg0 (V : Valuation τ sig (Elt Ideal)) : after ops V (Proc.devRef .tc main_arg0) = V (Proc.devRef .tc main_arg0) :=
  after_of_not_assigned assign V arg0_not_mem

theorem fin_arg1 (V : Valuation τ sig (Elt Ideal)) : after ops V (Proc.devRef .tc main_arg1) = V (Proc.devRef .tc main_arg1) :=
  after_of_not_assigned assign V arg1_not_mem

theorem fin_arg2 (V : Valuation τ sig (Elt Ideal)) : after ops V (Proc.devRef .tc main_arg2) = V (Proc.devRef .tc main_arg2) :=
  after_of_not_assigned assign V arg2_not_mem

theorem fin_arg3 (V : Valuation τ sig (Elt Ideal)) : after ops V (Proc.devRef .tc main_arg3) = V (Proc.devRef .tc main_arg3) :=
  after_of_not_assigned assign V arg3_not_mem

theorem fin_arg4 (V : Valuation τ sig (Elt Ideal)) : after ops V (Proc.devRef .tc main_arg4) = V (Proc.devRef .tc main_arg4) :=
  after_of_not_assigned assign V arg4_not_mem

theorem fin_arg5 (V : Valuation τ sig (Elt Ideal)) : after ops V (Proc.devRef .tc main_arg5) = V (Proc.devRef .tc main_arg5) :=
  after_of_not_assigned assign V arg5_not_mem

theorem fin_arg6 (V : Valuation τ sig (Elt Ideal)) : after ops V (Proc.devRef .tc main_arg6) = V (Proc.devRef .tc main_arg6) :=
  after_of_not_assigned assign V arg6_not_mem

theorem fin_arg7 (V : Valuation τ sig (Elt Ideal)) : after ops V (Proc.devRef .tc main_arg7) = V (Proc.devRef .tc main_arg7) :=
  after_of_not_assigned assign V arg7_not_mem

theorem fin_arg8 (V : Valuation τ sig (Elt Ideal)) : after ops V (Proc.devRef .tc main_arg8) = V (Proc.devRef .tc main_arg8) :=
  after_of_not_assigned assign V arg8_not_mem

theorem fin_arg9 (V : Valuation τ sig (Elt Ideal)) : after ops V (Proc.devRef .tc main_arg9) = V (Proc.devRef .tc main_arg9) :=
  after_of_not_assigned assign V arg9_not_mem

theorem fin_arg10 (V : Valuation τ sig (Elt Ideal)) : after ops V (Proc.devRef .tc main_arg10) = V (Proc.devRef .tc main_arg10) :=
  after_of_not_assigned assign V arg10_not_mem

theorem fin_c_ (V : Valuation τ sig (Elt Ideal)) :
    after ops V (Proc.devRef .tc main_c) = RefVal.c_ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 0 (hop := rfl) (hw := rfl)).trans ?_
  rfl

theorem fin_v0 (V : Valuation τ sig (Elt Ideal)) :
    after ops V (Proc.devRef .tc main_v0) = RefVal.v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 1 (hop := rfl) (hw := rfl) (after_take_of_not_assigned assign V 1 arg1_not_mem)).trans ?_
  rw [fin_arg1 V]
  rfl

theorem fin_v1 (V : Valuation τ sig (Elt Ideal)) :
    after ops V (Proc.devRef .tc main_v1) = RefVal.v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 2 (hop := rfl) (hw := rfl) (after_take_of_not_assigned assign V 2 arg0_not_mem) (after_take_of_lt assign V (i := 1) (j := 2) rfl (by decide))).trans ?_
  rw [fin_arg0 V, fin_v0 V]
  rfl

theorem fin_v2 (V : Valuation τ sig (Elt Ideal)) :
    after ops V (Proc.devRef .tc main_v2) = RefVal.v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 3 (hop := rfl) (hw := rfl) (after_take_of_not_assigned assign V 3 arg2_not_mem)).trans ?_
  rw [fin_arg2 V]
  rfl

theorem fin_v3 (V : Valuation τ sig (Elt Ideal)) :
    after ops V (Proc.devRef .tc main_v3) = RefVal.v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 4 (hop := rfl) (hw := rfl) (after_take_of_lt assign V (i := 3) (j := 4) rfl (by decide))).trans ?_
  rw [fin_v2 V]
  rfl

theorem fin_v4 (V : Valuation τ sig (Elt Ideal)) :
    after ops V (Proc.devRef .tc main_v4) = RefVal.v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 5 (hop := rfl) (hw := rfl) (after_take_of_lt assign V (i := 2) (j := 5) rfl (by decide)) (after_take_of_lt assign V (i := 4) (j := 5) rfl (by decide))).trans ?_
  rw [fin_v1 V, fin_v3 V]
  rfl

theorem fin_cst (V : Valuation τ sig (Elt Ideal)) :
    after ops V (Proc.devRef .tc main_cst) = RefVal.cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 6 (hop := rfl) (hw := rfl)).trans ?_
  rfl

theorem fin_v5 (V : Valuation τ sig (Elt Ideal)) :
    after ops V (Proc.devRef .tc main_v5) = RefVal.v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 7 (hop := rfl) (hw := rfl) (after_take_of_lt assign V (i := 5) (j := 7) rfl (by decide)) (after_take_of_lt assign V (i := 6) (j := 7) rfl (by decide))).trans ?_
  rw [fin_v4 V, fin_cst V]
  rfl

theorem fin_v6 (V : Valuation τ sig (Elt Ideal)) :
    after ops V (Proc.devRef .tc main_v6) = RefVal.v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 8 (hop := rfl) (hw := rfl) (after_take_of_lt assign V (i := 7) (j := 8) rfl (by decide))).trans ?_
  rw [fin_v5 V]
  rfl

theorem fin_cst_0 (V : Valuation τ sig (Elt Ideal)) :
    after ops V (Proc.devRef .tc main_cst_0) = RefVal.cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 9 (hop := rfl) (hw := rfl)).trans ?_
  rfl

theorem fin_v7 (V : Valuation τ sig (Elt Ideal)) :
    after ops V (Proc.devRef .tc main_v7) = RefVal.v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 10 (hop := rfl) (hw := rfl) (after_take_of_lt assign V (i := 9) (j := 10) rfl (by decide))).trans ?_
  rw [fin_cst_0 V]
  rfl

theorem fin_v8 (V : Valuation τ sig (Elt Ideal)) :
    after ops V (Proc.devRef .tc main_v8) = RefVal.v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 11 (hop := rfl) (hw := rfl) (after_take_of_lt assign V (i := 8) (j := 11) rfl (by decide)) (after_take_of_lt assign V (i := 10) (j := 11) rfl (by decide))).trans ?_
  rw [fin_v6 V, fin_v7 V]
  rfl

theorem fin_v9 (V : Valuation τ sig (Elt Ideal)) :
    after ops V (Proc.devRef .tc main_v9) = RefVal.v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 12 (hop := rfl) (hw := rfl) (after_take_of_lt assign V (i := 11) (j := 12) rfl (by decide))).trans ?_
  rw [fin_v8 V]
  rfl

theorem fin_v10 (V : Valuation τ sig (Elt Ideal)) :
    after ops V (Proc.devRef .tc main_v10) = RefVal.v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 13 (hop := rfl) (hw := rfl) (after_take_of_lt assign V (i := 5) (j := 13) rfl (by decide)) (after_take_of_lt assign V (i := 12) (j := 13) rfl (by decide))).trans ?_
  rw [fin_v4 V, fin_v9 V]
  rfl

theorem fin_v11 (V : Valuation τ sig (Elt Ideal)) :
    after ops V (Proc.devRef .tc main_v11) = RefVal.v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 14 (hop := rfl) (hw := rfl) (after_take_of_lt assign V (i := 13) (j := 14) rfl (by decide)) (after_take_of_lt assign V (i := 13) (j := 14) rfl (by decide))).trans ?_
  rw [fin_v10 V]
  rfl

theorem fin_cst_1 (V : Valuation τ sig (Elt Ideal)) :
    after ops V (Proc.devRef .tc main_cst_1) = RefVal.cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 15 (hop := rfl) (hw := rfl)).trans ?_
  rfl

theorem fin_v12 (V : Valuation τ sig (Elt Ideal)) :
    after ops V (Proc.devRef .tc main_v12) = RefVal.v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 16 (hop := rfl) (hw := rfl) (after_take_of_lt assign V (i := 14) (j := 16) rfl (by decide)) (after_take_of_lt assign V (i := 15) (j := 16) rfl (by decide))).trans ?_
  rw [fin_v11 V, fin_cst_1 V]
  rfl

theorem fin_v13 (V : Valuation τ sig (Elt Ideal)) :
    after ops V (Proc.devRef .tc main_v13) = RefVal.v13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 17 (hop := rfl) (hw := rfl) (after_take_of_lt assign V (i := 16) (j := 17) rfl (by decide))).trans ?_
  rw [fin_v12 V]
  rfl

theorem fin_cst_2 (V : Valuation τ sig (Elt Ideal)) :
    after ops V (Proc.devRef .tc main_cst_2) = RefVal.cst_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 18 (hop := rfl) (hw := rfl)).trans ?_
  rfl

theorem fin_v14 (V : Valuation τ sig (Elt Ideal)) :
    after ops V (Proc.devRef .tc main_v14) = RefVal.v14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 19 (hop := rfl) (hw := rfl) (after_take_of_lt assign V (i := 18) (j := 19) rfl (by decide))).trans ?_
  rw [fin_cst_2 V]
  rfl

theorem fin_v15 (V : Valuation τ sig (Elt Ideal)) :
    after ops V (Proc.devRef .tc main_v15) = RefVal.v15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 20 (hop := rfl) (hw := rfl) (after_take_of_lt assign V (i := 17) (j := 20) rfl (by decide)) (after_take_of_lt assign V (i := 19) (j := 20) rfl (by decide))).trans ?_
  rw [fin_v13 V, fin_v14 V]
  rfl

theorem fin_v16 (V : Valuation τ sig (Elt Ideal)) :
    after ops V (Proc.devRef .tc main_v16) = RefVal.v16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 21 (hop := rfl) (hw := rfl) (after_take_of_lt assign V (i := 11) (j := 21) rfl (by decide))).trans ?_
  rw [fin_v8 V]
  rfl

theorem fin_v17 (V : Valuation τ sig (Elt Ideal)) :
    after ops V (Proc.devRef .tc main_v17) = RefVal.v17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 22 (hop := rfl) (hw := rfl) (after_take_of_lt assign V (i := 5) (j := 22) rfl (by decide)) (after_take_of_lt assign V (i := 21) (j := 22) rfl (by decide))).trans ?_
  rw [fin_v4 V, fin_v16 V]
  rfl

theorem fin_cst_3 (V : Valuation τ sig (Elt Ideal)) :
    after ops V (Proc.devRef .tc main_cst_3) = RefVal.cst_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 23 (hop := rfl) (hw := rfl)).trans ?_
  rfl

theorem fin_v18 (V : Valuation τ sig (Elt Ideal)) :
    after ops V (Proc.devRef .tc main_v18) = RefVal.v18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 24 (hop := rfl) (hw := rfl) (after_take_of_lt assign V (i := 23) (j := 24) rfl (by decide))).trans ?_
  rw [fin_cst_3 V]
  rfl

theorem fin_v19 (V : Valuation τ sig (Elt Ideal)) :
    after ops V (Proc.devRef .tc main_v19) = RefVal.v19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 25 (hop := rfl) (hw := rfl) (after_take_of_lt assign V (i := 20) (j := 25) rfl (by decide)) (after_take_of_lt assign V (i := 24) (j := 25) rfl (by decide))).trans ?_
  rw [fin_v15 V, fin_v18 V]
  rfl

theorem fin_v20 (V : Valuation τ sig (Elt Ideal)) :
    after ops V (Proc.devRef .tc main_v20) = RefVal.v20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 26 (hop := rfl) (hw := rfl) (after_take_of_lt assign V (i := 25) (j := 26) rfl (by decide))).trans ?_
  rw [fin_v19 V]
  rfl

theorem fin_v21 (V : Valuation τ sig (Elt Ideal)) :
    after ops V (Proc.devRef .tc main_v21) = RefVal.v21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 27 (hop := rfl) (hw := rfl) (after_take_of_lt assign V (i := 26) (j := 27) rfl (by decide))).trans ?_
  rw [fin_v20 V]
  rfl

theorem fin_v22 (V : Valuation τ sig (Elt Ideal)) :
    after ops V (Proc.devRef .tc main_v22) = RefVal.v22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 28 (hop := rfl) (hw := rfl) (after_take_of_lt assign V (i := 22) (j := 28) rfl (by decide)) (after_take_of_lt assign V (i := 27) (j := 28) rfl (by decide))).trans ?_
  rw [fin_v17 V, fin_v21 V]
  rfl

theorem fin_v23 (V : Valuation τ sig (Elt Ideal)) :
    after ops V (Proc.devRef .tc main_v23) = RefVal.v23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 29 (hop := rfl) (hw := rfl) (after_take_of_not_assigned assign V 29 arg3_not_mem)).trans ?_
  rw [fin_arg3 V]
  rfl

theorem fin_v24 (V : Valuation τ sig (Elt Ideal)) :
    after ops V (Proc.devRef .tc main_v24) = RefVal.v24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 30 (hop := rfl) (hw := rfl) (after_take_of_lt assign V (i := 29) (j := 30) rfl (by decide))).trans ?_
  rw [fin_v23 V]
  rfl

theorem fin_v25 (V : Valuation τ sig (Elt Ideal)) :
    after ops V (Proc.devRef .tc main_v25) = RefVal.v25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 31 (hop := rfl) (hw := rfl) (after_take_of_lt assign V (i := 28) (j := 31) rfl (by decide)) (after_take_of_lt assign V (i := 30) (j := 31) rfl (by decide))).trans ?_
  rw [fin_v22 V, fin_v24 V]
  rfl

theorem fin_v26 (V : Valuation τ sig (Elt Ideal)) :
    after ops V (Proc.devRef .tc main_v26) = RefVal.v26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 32 (hop := rfl) (hw := rfl) (after_take_of_not_assigned assign V 32 arg4_not_mem)).trans ?_
  rw [fin_arg4 V]
  rfl

theorem fin_v27 (V : Valuation τ sig (Elt Ideal)) :
    after ops V (Proc.devRef .tc main_v27) = RefVal.v27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 33 (hop := rfl) (hw := rfl) (after_take_of_lt assign V (i := 32) (j := 33) rfl (by decide))).trans ?_
  rw [fin_v26 V]
  rfl

theorem fin_v28 (V : Valuation τ sig (Elt Ideal)) :
    after ops V (Proc.devRef .tc main_v28) = RefVal.v28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 34 (hop := rfl) (hw := rfl) (after_take_of_lt assign V (i := 31) (j := 34) rfl (by decide)) (after_take_of_lt assign V (i := 33) (j := 34) rfl (by decide))).trans ?_
  rw [fin_v25 V, fin_v27 V]
  rfl

theorem fin_v29 (V : Valuation τ sig (Elt Ideal)) :
    after ops V (Proc.devRef .tc main_v29) = RefVal.v29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 35 (hop := rfl) (hw := rfl) (after_take_of_not_assigned assign V 35 arg5_not_mem)).trans ?_
  rw [fin_arg5 V]
  rfl

theorem fin_v30 (V : Valuation τ sig (Elt Ideal)) :
    after ops V (Proc.devRef .tc main_v30) = RefVal.v30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 36 (hop := rfl) (hw := rfl) (after_take_of_lt assign V (i := 35) (j := 36) rfl (by decide))).trans ?_
  rw [fin_v29 V]
  rfl

theorem fin_v31 (V : Valuation τ sig (Elt Ideal)) :
    after ops V (Proc.devRef .tc main_v31) = RefVal.v31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 37 (hop := rfl) (hw := rfl) (after_take_of_not_assigned assign V 37 arg6_not_mem)).trans ?_
  rw [fin_arg6 V]
  rfl

theorem fin_v32 (V : Valuation τ sig (Elt Ideal)) :
    after ops V (Proc.devRef .tc main_v32) = RefVal.v32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 38 (hop := rfl) (hw := rfl) (after_take_of_lt assign V (i := 37) (j := 38) rfl (by decide))).trans ?_
  rw [fin_v31 V]
  rfl

theorem fin_v33 (V : Valuation τ sig (Elt Ideal)) :
    after ops V (Proc.devRef .tc main_v33) = RefVal.v33 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 39 (hop := rfl) (hw := rfl) (after_take_of_lt assign V (i := 34) (j := 39) rfl (by decide))).trans ?_
  rw [fin_v28 V]
  rfl

theorem fin_v34 (V : Valuation τ sig (Elt Ideal)) :
    after ops V (Proc.devRef .tc main_v34) = RefVal.v34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 40 (hop := rfl) (hw := rfl) (after_take_of_lt assign V (i := 39) (j := 40) rfl (by decide))).trans ?_
  rw [fin_v33 V]
  rfl

theorem fin_v35 (V : Valuation τ sig (Elt Ideal)) :
    after ops V (Proc.devRef .tc main_v35) = RefVal.v35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 41 (hop := rfl) (hw := rfl) (after_take_of_lt assign V (i := 36) (j := 41) rfl (by decide))).trans ?_
  rw [fin_v30 V]
  rfl

theorem fin_v36 (V : Valuation τ sig (Elt Ideal)) :
    after ops V (Proc.devRef .tc main_v36) = RefVal.v36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 42 (hop := rfl) (hw := rfl) (after_take_of_lt assign V (i := 40) (j := 42) rfl (by decide)) (after_take_of_lt assign V (i := 41) (j := 42) rfl (by decide))).trans ?_
  rw [fin_v34 V, fin_v35 V]
  rfl

theorem fin_v37 (V : Valuation τ sig (Elt Ideal)) :
    after ops V (Proc.devRef .tc main_v37) = RefVal.v37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 43 (hop := rfl) (hw := rfl) (after_take_of_lt assign V (i := 42) (j := 43) rfl (by decide)) (after_take_of_lt assign V (i := 42) (j := 43) rfl (by decide))).trans ?_
  rw [fin_v36 V]
  rfl

theorem fin_v38 (V : Valuation τ sig (Elt Ideal)) :
    after ops V (Proc.devRef .tc main_v38) = RefVal.v38 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 44 (hop := rfl) (hw := rfl) (after_take_of_lt assign V (i := 43) (j := 44) rfl (by decide))).trans ?_
  rw [fin_v37 V]
  rfl

theorem fin_v39 (V : Valuation τ sig (Elt Ideal)) :
    after ops V (Proc.devRef .tc main_v39) = RefVal.v39 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 45 (hop := rfl) (hw := rfl) (after_take_of_lt assign V (i := 38) (j := 45) rfl (by decide)) (after_take_of_lt assign V (i := 38) (j := 45) rfl (by decide))).trans ?_
  rw [fin_v32 V]
  rfl

theorem fin_cst_4 (V : Valuation τ sig (Elt Ideal)) :
    after ops V (Proc.devRef .tc main_cst_4) = RefVal.cst_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 46 (hop := rfl) (hw := rfl)).trans ?_
  rfl

theorem fin_v40 (V : Valuation τ sig (Elt Ideal)) :
    after ops V (Proc.devRef .tc main_v40) = RefVal.v40 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 47 (hop := rfl) (hw := rfl) (after_take_of_lt assign V (i := 46) (j := 47) rfl (by decide))).trans ?_
  rw [fin_cst_4 V]
  rfl

theorem fin_v41 (V : Valuation τ sig (Elt Ideal)) :
    after ops V (Proc.devRef .tc main_v41) = RefVal.v41 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 48 (hop := rfl) (hw := rfl) (after_take_of_lt assign V (i := 47) (j := 48) rfl (by decide)) (after_take_of_lt assign V (i := 45) (j := 48) rfl (by decide))).trans ?_
  rw [fin_v40 V, fin_v39 V]
  rfl

theorem fin_v42 (V : Valuation τ sig (Elt Ideal)) :
    after ops V (Proc.devRef .tc main_v42) = RefVal.v42 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 49 (hop := rfl) (hw := rfl) (after_take_of_lt assign V (i := 48) (j := 49) rfl (by decide))).trans ?_
  rw [fin_v41 V]
  rfl

theorem fin_v43 (V : Valuation τ sig (Elt Ideal)) :
    after ops V (Proc.devRef .tc main_v43) = RefVal.v43 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 50 (hop := rfl) (hw := rfl) (after_take_of_lt assign V (i := 44) (j := 50) rfl (by decide)) (after_take_of_lt assign V (i := 49) (j := 50) rfl (by decide))).trans ?_
  rw [fin_v38 V, fin_v42 V]
  rfl

theorem fin_v44 (V : Valuation τ sig (Elt Ideal)) :
    after ops V (Proc.devRef .tc main_v44) = RefVal.v44 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 51 (hop := rfl) (hw := rfl) (after_take_of_lt assign V (i := 50) (j := 51) rfl (by decide))).trans ?_
  rw [fin_v43 V]
  rfl

theorem fin_v45 (V : Valuation τ sig (Elt Ideal)) :
    after ops V (Proc.devRef .tc main_v45) = RefVal.v45 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 52 (hop := rfl) (hw := rfl)).trans ?_
  rfl

theorem fin_c_5 (V : Valuation τ sig (Elt Ideal)) :
    after ops V (Proc.devRef .tc main_c_5) = RefVal.c_5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 53 (hop := rfl) (hw := rfl)).trans ?_
  rfl

theorem fin_v46 (V : Valuation τ sig (Elt Ideal)) :
    after ops V (Proc.devRef .tc main_v46) = RefVal.v46 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 54 (hop := rfl) (hw := rfl) (after_take_of_lt assign V (i := 53) (j := 54) rfl (by decide))).trans ?_
  rw [fin_c_5 V]
  rfl

theorem fin_v47 (V : Valuation τ sig (Elt Ideal)) :
    after ops V (Proc.devRef .tc main_v47) = RefVal.v47 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 55 (hop := rfl) (hw := rfl) (after_take_of_lt assign V (i := 0) (j := 55) rfl (by decide)) (after_take_of_lt assign V (i := 54) (j := 55) rfl (by decide))).trans ?_
  rw [fin_c_ V, fin_v46 V]
  rfl

theorem fin_c_6 (V : Valuation τ sig (Elt Ideal)) :
    after ops V (Proc.devRef .tc main_c_6) = RefVal.c_6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 56 (hop := rfl) (hw := rfl)).trans ?_
  rfl

theorem fin_v48 (V : Valuation τ sig (Elt Ideal)) :
    after ops V (Proc.devRef .tc main_v48) = RefVal.v48 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 57 (hop := rfl) (hw := rfl) (after_take_of_lt assign V (i := 56) (j := 57) rfl (by decide))).trans ?_
  rw [fin_c_6 V]
  rfl

theorem fin_v49 (V : Valuation τ sig (Elt Ideal)) :
    after ops V (Proc.devRef .tc main_v49) = RefVal.v49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 58 (hop := rfl) (hw := rfl) (after_take_of_lt assign V (i := 0) (j := 58) rfl (by decide)) (after_take_of_lt assign V (i := 57) (j := 58) rfl (by decide))).trans ?_
  rw [fin_c_ V, fin_v48 V]
  rfl

theorem fin_v50 (V : Valuation τ sig (Elt Ideal)) :
    after ops V (Proc.devRef .tc main_v50) = RefVal.v50 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_ternary assign V 59 (hop := rfl) (hw := rfl) (after_take_of_lt assign V (i := 55) (j := 59) rfl (by decide)) (after_take_of_lt assign V (i := 58) (j := 59) rfl (by decide)) (after_take_of_lt assign V (i := 0) (j := 59) rfl (by decide))).trans ?_
  rw [fin_v47 V, fin_v49 V, fin_c_ V]
  rfl

end Cert.ReferenceIdeal.RefRun

end
-- ==== Proof.Ref.RunFin1.lean ====
/-
  The final value of every buffer the second piece of the second program assigns (the clipping call's three among
  them), as the stage of the same name applied to the arguments' launch contents.
-/
import proofs.«142976_j49512382988410_2_alg».proof.Proof.Ref.RunFin0

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable [Facts]

theorem fin_c_7 (V : Valuation τ sig (Elt Ideal)) :
    after ops V (Proc.devRef .tc main_c_7) = RefVal.c_7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 60 (hop := rfl) (hw := rfl)).trans ?_
  rfl

theorem fin_v51 (V : Valuation τ sig (Elt Ideal)) :
    after ops V (Proc.devRef .tc main_v51) = RefVal.v51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 61 (hop := rfl) (hw := rfl) (after_take_of_lt assign V (i := 60) (j := 61) rfl (by decide))).trans ?_
  rw [fin_c_7 V]
  rfl

theorem fin_v52 (V : Valuation τ sig (Elt Ideal)) :
    after ops V (Proc.devRef .tc main_v52) = RefVal.v52 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 62 (hop := rfl) (hw := rfl) (after_take_of_lt assign V (i := 52) (j := 62) rfl (by decide)) (after_take_of_lt assign V (i := 61) (j := 62) rfl (by decide))).trans ?_
  rw [fin_v45 V, fin_v51 V]
  rfl

theorem fin_c_8 (V : Valuation τ sig (Elt Ideal)) :
    after ops V (Proc.devRef .tc main_c_8) = RefVal.c_8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 63 (hop := rfl) (hw := rfl)).trans ?_
  rfl

theorem fin_v53 (V : Valuation τ sig (Elt Ideal)) :
    after ops V (Proc.devRef .tc main_v53) = RefVal.v53 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 64 (hop := rfl) (hw := rfl) (after_take_of_lt assign V (i := 63) (j := 64) rfl (by decide))).trans ?_
  rw [fin_c_8 V]
  rfl

theorem fin_v54 (V : Valuation τ sig (Elt Ideal)) :
    after ops V (Proc.devRef .tc main_v54) = RefVal.v54 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 65 (hop := rfl) (hw := rfl) (after_take_of_lt assign V (i := 52) (j := 65) rfl (by decide)) (after_take_of_lt assign V (i := 64) (j := 65) rfl (by decide))).trans ?_
  rw [fin_v45 V, fin_v53 V]
  rfl

theorem fin_v55 (V : Valuation τ sig (Elt Ideal)) :
    after ops V (Proc.devRef .tc main_v55) = RefVal.v55 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_ternary assign V 66 (hop := rfl) (hw := rfl) (after_take_of_lt assign V (i := 62) (j := 66) rfl (by decide)) (after_take_of_lt assign V (i := 65) (j := 66) rfl (by decide)) (after_take_of_lt assign V (i := 52) (j := 66) rfl (by decide))).trans ?_
  rw [fin_v52 V, fin_v54 V, fin_v45 V]
  rfl

theorem fin_v56 (V : Valuation τ sig (Elt Ideal)) :
    after ops V (Proc.devRef .tc main_v56) = RefVal.v56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 67 (hop := rfl) (hw := rfl) (after_take_of_lt assign V (i := 66) (j := 67) rfl (by decide))).trans ?_
  rw [fin_v55 V]
  rfl

theorem fin_v57 (V : Valuation τ sig (Elt Ideal)) :
    after ops V (Proc.devRef .tc main_v57) = RefVal.v57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 68 (hop := rfl) (hw := rfl) (after_take_of_lt assign V (i := 59) (j := 68) rfl (by decide))).trans ?_
  rw [fin_v50 V]
  rfl

theorem fin_v58 (V : Valuation τ sig (Elt Ideal)) :
    after ops V (Proc.devRef .tc main_v58) = RefVal.v58 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 69 (hop := rfl) (hw := rfl) (after_take_of_lt assign V (i := 67) (j := 69) rfl (by decide))).trans ?_
  rw [fin_v56 V]
  rfl

theorem fin_v59 (V : Valuation τ sig (Elt Ideal)) :
    after ops V (Proc.devRef .tc main_v59) = RefVal.v59 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 70 (hop := rfl) (hw := rfl) (after_take_of_lt assign V (i := 68) (j := 70) rfl (by decide)) (after_take_of_lt assign V (i := 69) (j := 70) rfl (by decide))).trans ?_
  rw [fin_v57 V, fin_v58 V]
  rfl

theorem fin_v60 (V : Valuation τ sig (Elt Ideal)) :
    after ops V (Proc.devRef .tc main_v60) = RefVal.v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 71 (hop := rfl) (hw := rfl) (after_take_of_lt assign V (i := 51) (j := 71) rfl (by decide)) (after_take_of_lt assign V (i := 70) (j := 71) rfl (by decide))).trans ?_
  rw [fin_v44 V, fin_v59 V]
  rfl

theorem fin_cst_9 (V : Valuation τ sig (Elt Ideal)) :
    after ops V (Proc.devRef .tc main_cst_9) = RefVal.cst_9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 72 (hop := rfl) (hw := rfl)).trans ?_
  rfl

theorem fin_v61 (V : Valuation τ sig (Elt Ideal)) :
    after ops V (Proc.devRef .tc main_v61) = RefVal.v61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 73 (hop := rfl) (hw := rfl) (after_take_of_lt assign V (i := 72) (j := 73) rfl (by decide))).trans ?_
  rw [fin_cst_9 V]
  rfl

theorem fin_v62 (V : Valuation τ sig (Elt Ideal)) :
    after ops V (Proc.devRef .tc main_v62) = RefVal.v62 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 74 (hop := rfl) (hw := rfl) (after_take_of_lt assign V (i := 71) (j := 74) rfl (by decide)) (after_take_of_lt assign V (i := 73) (j := 74) rfl (by decide))).trans ?_
  rw [fin_v60 V, fin_v61 V]
  rfl

theorem fin_v63 (V : Valuation τ sig (Elt Ideal)) :
    after ops V (Proc.devRef .tc main_v63) = RefVal.v63 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 75 (hop := rfl) (hw := rfl) (after_take_of_lt assign V (i := 74) (j := 75) rfl (by decide))).trans ?_
  rw [fin_v62 V]
  rfl

theorem fin_cst_10 (V : Valuation τ sig (Elt Ideal)) :
    after ops V (Proc.devRef .tc main_cst_10) = RefVal.cst_10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 76 (hop := rfl) (hw := rfl)).trans ?_
  rfl

theorem fin_call0_v0 (V : Valuation τ sig (Elt Ideal)) :
    after ops V (Proc.devRef .tc main_call0_v0) = RefVal.call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 77 (hop := rfl) (hw := rfl) (after_take_of_lt assign V (i := 76) (j := 77) rfl (by decide))).trans ?_
  rw [fin_cst_10 V]
  rfl

theorem fin_call0_v1 (V : Valuation τ sig (Elt Ideal)) :
    after ops V (Proc.devRef .tc main_call0_v1) = RefVal.call0_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 78 (hop := rfl) (hw := rfl) (after_take_of_lt assign V (i := 77) (j := 78) rfl (by decide))).trans ?_
  rw [fin_call0_v0 V]
  rfl

theorem fin_v64 (V : Valuation τ sig (Elt Ideal)) :
    after ops V (Proc.devRef .tc main_v64) = RefVal.v64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 79 (hop := rfl) (hw := rfl) (after_take_of_lt assign V (i := 78) (j := 79) rfl (by decide)) (after_take_of_lt assign V (i := 75) (j := 79) rfl (by decide))).trans ?_
  rw [fin_call0_v1 V, fin_v63 V]
  rfl

theorem fin_v65 (V : Valuation τ sig (Elt Ideal)) :
    after ops V (Proc.devRef .tc main_v65) = RefVal.v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 80 (hop := rfl) (hw := rfl) (after_take_of_lt assign V (i := 79) (j := 80) rfl (by decide)) (after_take_of_lt assign V (i := 79) (j := 80) rfl (by decide))).trans ?_
  rw [fin_v64 V]
  rfl

theorem fin_v66 (V : Valuation τ sig (Elt Ideal)) :
    after ops V (Proc.devRef .tc main_v66) = RefVal.v66 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 81 (hop := rfl) (hw := rfl) (after_take_of_lt assign V (i := 80) (j := 81) rfl (by decide))).trans ?_
  rw [fin_v65 V]
  rfl

theorem fin_v67 (V : Valuation τ sig (Elt Ideal)) :
    after ops V (Proc.devRef .tc main_v67) = RefVal.v67 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 82 (hop := rfl) (hw := rfl) (after_take_of_lt assign V (i := 81) (j := 82) rfl (by decide))).trans ?_
  rw [fin_v66 V]
  rfl

theorem fin_v68 (V : Valuation τ sig (Elt Ideal)) :
    after ops V (Proc.devRef .tc main_v68) = RefVal.v68 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 83 (hop := rfl) (hw := rfl) (after_take_of_lt assign V (i := 80) (j := 83) rfl (by decide))).trans ?_
  rw [fin_v65 V]
  rfl

theorem fin_v69 (V : Valuation τ sig (Elt Ideal)) :
    after ops V (Proc.devRef .tc main_v69) = RefVal.v69 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 84 (hop := rfl) (hw := rfl) (after_take_of_lt assign V (i := 83) (j := 84) rfl (by decide))).trans ?_
  rw [fin_v68 V]
  rfl

theorem fin_cst_11 (V : Valuation τ sig (Elt Ideal)) :
    after ops V (Proc.devRef .tc main_cst_11) = RefVal.cst_11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 85 (hop := rfl) (hw := rfl)).trans ?_
  rfl

theorem fin_v70 (V : Valuation τ sig (Elt Ideal)) :
    after ops V (Proc.devRef .tc main_v70) = RefVal.v70 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 86 (hop := rfl) (hw := rfl) (after_take_of_lt assign V (i := 85) (j := 86) rfl (by decide))).trans ?_
  rw [fin_cst_11 V]
  rfl

theorem fin_v71 (V : Valuation τ sig (Elt Ideal)) :
    after ops V (Proc.devRef .tc main_v71) = RefVal.v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 87 (hop := rfl) (hw := rfl) (after_take_of_lt assign V (i := 86) (j := 87) rfl (by decide)) (after_take_of_lt assign V (i := 84) (j := 87) rfl (by decide))).trans ?_
  rw [fin_v70 V, fin_v69 V]
  rfl

theorem fin_v72 (V : Valuation τ sig (Elt Ideal)) :
    after ops V (Proc.devRef .tc main_v72) = RefVal.v72 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 88 (hop := rfl) (hw := rfl) (after_take_of_lt assign V (i := 82) (j := 88) rfl (by decide)) (after_take_of_lt assign V (i := 87) (j := 88) rfl (by decide))).trans ?_
  rw [fin_v67 V, fin_v71 V]
  rfl

theorem fin_v73 (V : Valuation τ sig (Elt Ideal)) :
    after ops V (Proc.devRef .tc main_v73) = RefVal.v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 89 (hop := rfl) (hw := rfl) (after_take_of_lt assign V (i := 80) (j := 89) rfl (by decide))).trans ?_
  rw [fin_v65 V]
  rfl

theorem fin_v74 (V : Valuation τ sig (Elt Ideal)) :
    after ops V (Proc.devRef .tc main_v74) = RefVal.v74 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 90 (hop := rfl) (hw := rfl) (after_take_of_lt assign V (i := 89) (j := 90) rfl (by decide))).trans ?_
  rw [fin_v73 V]
  rfl

theorem fin_cst_12 (V : Valuation τ sig (Elt Ideal)) :
    after ops V (Proc.devRef .tc main_cst_12) = RefVal.cst_12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 91 (hop := rfl) (hw := rfl)).trans ?_
  rfl

theorem fin_v75 (V : Valuation τ sig (Elt Ideal)) :
    after ops V (Proc.devRef .tc main_v75) = RefVal.v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 92 (hop := rfl) (hw := rfl) (after_take_of_lt assign V (i := 91) (j := 92) rfl (by decide))).trans ?_
  rw [fin_cst_12 V]
  rfl

theorem fin_v76 (V : Valuation τ sig (Elt Ideal)) :
    after ops V (Proc.devRef .tc main_v76) = RefVal.v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 93 (hop := rfl) (hw := rfl) (after_take_of_lt assign V (i := 92) (j := 93) rfl (by decide)) (after_take_of_lt assign V (i := 90) (j := 93) rfl (by decide))).trans ?_
  rw [fin_v75 V, fin_v74 V]
  rfl

theorem fin_v77 (V : Valuation τ sig (Elt Ideal)) :
    after ops V (Proc.devRef .tc main_v77) = RefVal.v77 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 94 (hop := rfl) (hw := rfl) (after_take_of_lt assign V (i := 88) (j := 94) rfl (by decide)) (after_take_of_lt assign V (i := 93) (j := 94) rfl (by decide))).trans ?_
  rw [fin_v72 V, fin_v76 V]
  rfl

theorem fin_cst_13 (V : Valuation τ sig (Elt Ideal)) :
    after ops V (Proc.devRef .tc main_cst_13) = RefVal.cst_13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 95 (hop := rfl) (hw := rfl)).trans ?_
  rfl

theorem fin_v78 (V : Valuation τ sig (Elt Ideal)) :
    after ops V (Proc.devRef .tc main_v78) = RefVal.v78 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 96 (hop := rfl) (hw := rfl) (after_take_of_lt assign V (i := 94) (j := 96) rfl (by decide)) (after_take_of_lt assign V (i := 95) (j := 96) rfl (by decide))).trans ?_
  rw [fin_v77 V, fin_cst_13 V]
  rfl

theorem fin_cst_14 (V : Valuation τ sig (Elt Ideal)) :
    after ops V (Proc.devRef .tc main_cst_14) = RefVal.cst_14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 97 (hop := rfl) (hw := rfl)).trans ?_
  rfl

theorem fin_v79 (V : Valuation τ sig (Elt Ideal)) :
    after ops V (Proc.devRef .tc main_v79) = RefVal.v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 98 (hop := rfl) (hw := rfl) (after_take_of_lt assign V (i := 97) (j := 98) rfl (by decide))).trans ?_
  rw [fin_cst_14 V]
  rfl

theorem fin_v80 (V : Valuation τ sig (Elt Ideal)) :
    after ops V (Proc.devRef .tc main_v80) = RefVal.v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 99 (hop := rfl) (hw := rfl) (after_take_of_lt assign V (i := 96) (j := 99) rfl (by decide)) (after_take_of_lt assign V (i := 98) (j := 99) rfl (by decide))).trans ?_
  rw [fin_v78 V, fin_v79 V]
  rfl

theorem fin_v81 (V : Valuation τ sig (Elt Ideal)) :
    after ops V (Proc.devRef .tc main_v81) = RefVal.v81 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 100 (hop := rfl) (hw := rfl) (after_take_of_lt assign V (i := 99) (j := 100) rfl (by decide))).trans ?_
  rw [fin_v80 V]
  rfl

theorem fin_v82 (V : Valuation τ sig (Elt Ideal)) :
    after ops V (Proc.devRef .tc main_v82) = RefVal.v82 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 101 (hop := rfl) (hw := rfl) (after_take_of_lt assign V (i := 100) (j := 101) rfl (by decide))).trans ?_
  rw [fin_v81 V]
  rfl

theorem fin_v83 (V : Valuation τ sig (Elt Ideal)) :
    after ops V (Proc.devRef .tc main_v83) = RefVal.v83 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 102 (hop := rfl) (hw := rfl) (after_take_of_lt assign V (i := 94) (j := 102) rfl (by decide)) (after_take_of_lt assign V (i := 101) (j := 102) rfl (by decide))).trans ?_
  rw [fin_v77 V, fin_v82 V]
  rfl

theorem fin_v84 (V : Valuation τ sig (Elt Ideal)) :
    after ops V (Proc.devRef .tc main_v84) = RefVal.v84 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 103 (hop := rfl) (hw := rfl) (after_take_of_lt assign V (i := 102) (j := 103) rfl (by decide)) (after_take_of_lt assign V (i := 102) (j := 103) rfl (by decide))).trans ?_
  rw [fin_v83 V]
  rfl

theorem fin_cst_15 (V : Valuation τ sig (Elt Ideal)) :
    after ops V (Proc.devRef .tc main_cst_15) = RefVal.cst_15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 104 (hop := rfl) (hw := rfl)).trans ?_
  rfl

theorem fin_v85 (V : Valuation τ sig (Elt Ideal)) :
    after ops V (Proc.devRef .tc main_v85) = RefVal.v85 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 105 (hop := rfl) (hw := rfl) (after_take_of_lt assign V (i := 103) (j := 105) rfl (by decide)) (after_take_of_lt assign V (i := 104) (j := 105) rfl (by decide))).trans ?_
  rw [fin_v84 V, fin_cst_15 V]
  rfl

theorem fin_cst_16 (V : Valuation τ sig (Elt Ideal)) :
    after ops V (Proc.devRef .tc main_cst_16) = RefVal.cst_16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 106 (hop := rfl) (hw := rfl)).trans ?_
  rfl

theorem fin_v86 (V : Valuation τ sig (Elt Ideal)) :
    after ops V (Proc.devRef .tc main_v86) = RefVal.v86 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 107 (hop := rfl) (hw := rfl) (after_take_of_lt assign V (i := 106) (j := 107) rfl (by decide))).trans ?_
  rw [fin_cst_16 V]
  rfl

theorem fin_v87 (V : Valuation τ sig (Elt Ideal)) :
    after ops V (Proc.devRef .tc main_v87) = RefVal.v87 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 108 (hop := rfl) (hw := rfl) (after_take_of_lt assign V (i := 105) (j := 108) rfl (by decide)) (after_take_of_lt assign V (i := 107) (j := 108) rfl (by decide))).trans ?_
  rw [fin_v85 V, fin_v86 V]
  rfl

theorem fin_v88 (V : Valuation τ sig (Elt Ideal)) :
    after ops V (Proc.devRef .tc main_v88) = RefVal.v88 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 109 (hop := rfl) (hw := rfl) (after_take_of_lt assign V (i := 99) (j := 109) rfl (by decide))).trans ?_
  rw [fin_v80 V]
  rfl

theorem fin_v89 (V : Valuation τ sig (Elt Ideal)) :
    after ops V (Proc.devRef .tc main_v89) = RefVal.v89 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 110 (hop := rfl) (hw := rfl) (after_take_of_lt assign V (i := 109) (j := 110) rfl (by decide))).trans ?_
  rw [fin_v88 V]
  rfl

theorem fin_v90 (V : Valuation τ sig (Elt Ideal)) :
    after ops V (Proc.devRef .tc main_v90) = RefVal.v90 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 111 (hop := rfl) (hw := rfl) (after_take_of_lt assign V (i := 94) (j := 111) rfl (by decide)) (after_take_of_lt assign V (i := 110) (j := 111) rfl (by decide))).trans ?_
  rw [fin_v77 V, fin_v89 V]
  rfl

theorem fin_cst_17 (V : Valuation τ sig (Elt Ideal)) :
    after ops V (Proc.devRef .tc main_cst_17) = RefVal.cst_17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 112 (hop := rfl) (hw := rfl)).trans ?_
  rfl

theorem fin_v91 (V : Valuation τ sig (Elt Ideal)) :
    after ops V (Proc.devRef .tc main_v91) = RefVal.v91 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 113 (hop := rfl) (hw := rfl) (after_take_of_lt assign V (i := 112) (j := 113) rfl (by decide))).trans ?_
  rw [fin_cst_17 V]
  rfl

theorem fin_v92 (V : Valuation τ sig (Elt Ideal)) :
    after ops V (Proc.devRef .tc main_v92) = RefVal.v92 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 114 (hop := rfl) (hw := rfl) (after_take_of_lt assign V (i := 108) (j := 114) rfl (by decide)) (after_take_of_lt assign V (i := 113) (j := 114) rfl (by decide))).trans ?_
  rw [fin_v87 V, fin_v91 V]
  rfl

theorem fin_v93 (V : Valuation τ sig (Elt Ideal)) :
    after ops V (Proc.devRef .tc main_v93) = RefVal.v93 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 115 (hop := rfl) (hw := rfl) (after_take_of_lt assign V (i := 114) (j := 115) rfl (by decide))).trans ?_
  rw [fin_v92 V]
  rfl

theorem fin_v94 (V : Valuation τ sig (Elt Ideal)) :
    after ops V (Proc.devRef .tc main_v94) = RefVal.v94 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 116 (hop := rfl) (hw := rfl) (after_take_of_lt assign V (i := 115) (j := 116) rfl (by decide))).trans ?_
  rw [fin_v93 V]
  rfl

theorem fin_v95 (V : Valuation τ sig (Elt Ideal)) :
    after ops V (Proc.devRef .tc main_v95) = RefVal.v95 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 117 (hop := rfl) (hw := rfl) (after_take_of_lt assign V (i := 116) (j := 117) rfl (by decide))).trans ?_
  rw [fin_v94 V]
  rfl

theorem fin_v96 (V : Valuation τ sig (Elt Ideal)) :
    after ops V (Proc.devRef .tc main_v96) = RefVal.v96 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 118 (hop := rfl) (hw := rfl) (after_take_of_lt assign V (i := 111) (j := 118) rfl (by decide)) (after_take_of_lt assign V (i := 117) (j := 118) rfl (by decide))).trans ?_
  rw [fin_v90 V, fin_v95 V]
  rfl

theorem fin_v97 (V : Valuation τ sig (Elt Ideal)) :
    after ops V (Proc.devRef .tc main_v97) = RefVal.v97 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 119 (hop := rfl) (hw := rfl) (after_take_of_not_assigned assign V 119 arg7_not_mem)).trans ?_
  rw [fin_arg7 V]
  rfl

theorem fin_v98 (V : Valuation τ sig (Elt Ideal)) :
    after ops V (Proc.devRef .tc main_v98) = RefVal.v98 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 120 (hop := rfl) (hw := rfl) (after_take_of_lt assign V (i := 119) (j := 120) rfl (by decide))).trans ?_
  rw [fin_v97 V]
  rfl

theorem fin_v99 (V : Valuation τ sig (Elt Ideal)) :
    after ops V (Proc.devRef .tc main_v99) = RefVal.v99 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 121 (hop := rfl) (hw := rfl) (after_take_of_lt assign V (i := 118) (j := 121) rfl (by decide)) (after_take_of_lt assign V (i := 120) (j := 121) rfl (by decide))).trans ?_
  rw [fin_v96 V, fin_v98 V]
  rfl

end Cert.ReferenceIdeal.RefRun

end
-- ==== Proof.Ref.RunFin2.lean ====
/-
  The final value of every buffer the third piece of the second program assigns, the result among them, as the stage of
  the same name applied to the arguments' launch contents.
-/
import proofs.«142976_j49512382988410_2_alg».proof.Proof.Ref.RunFin1

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable [Facts]

theorem fin_v100 (V : Valuation τ sig (Elt Ideal)) :
    after ops V (Proc.devRef .tc main_v100) = RefVal.v100 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 122 (hop := rfl) (hw := rfl) (after_take_of_not_assigned assign V 122 arg8_not_mem)).trans ?_
  rw [fin_arg8 V]
  rfl

theorem fin_v101 (V : Valuation τ sig (Elt Ideal)) :
    after ops V (Proc.devRef .tc main_v101) = RefVal.v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 123 (hop := rfl) (hw := rfl) (after_take_of_lt assign V (i := 122) (j := 123) rfl (by decide))).trans ?_
  rw [fin_v100 V]
  rfl

theorem fin_v102 (V : Valuation τ sig (Elt Ideal)) :
    after ops V (Proc.devRef .tc main_v102) = RefVal.v102 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 124 (hop := rfl) (hw := rfl) (after_take_of_lt assign V (i := 121) (j := 124) rfl (by decide)) (after_take_of_lt assign V (i := 123) (j := 124) rfl (by decide))).trans ?_
  rw [fin_v99 V, fin_v101 V]
  rfl

theorem fin_v103 (V : Valuation τ sig (Elt Ideal)) :
    after ops V (Proc.devRef .tc main_v103) = RefVal.v103 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 125 (hop := rfl) (hw := rfl) (after_take_of_not_assigned assign V 125 arg9_not_mem)).trans ?_
  rw [fin_arg9 V]
  rfl

theorem fin_v104 (V : Valuation τ sig (Elt Ideal)) :
    after ops V (Proc.devRef .tc main_v104) = RefVal.v104 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 126 (hop := rfl) (hw := rfl) (after_take_of_lt assign V (i := 124) (j := 126) rfl (by decide)) (after_take_of_lt assign V (i := 125) (j := 126) rfl (by decide))).trans ?_
  rw [fin_v102 V, fin_v103 V]
  rfl

theorem fin_v105 (V : Valuation τ sig (Elt Ideal)) :
    after ops V (Proc.devRef .tc main_v105) = RefVal.v105 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 127 (hop := rfl) (hw := rfl) (after_take_of_not_assigned assign V 127 arg10_not_mem)).trans ?_
  rw [fin_arg10 V]
  rfl

theorem fin_v106 (V : Valuation τ sig (Elt Ideal)) :
    after ops V (Proc.devRef .tc main_v106) = RefVal.v106 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 128 (hop := rfl) (hw := rfl) (after_take_of_lt assign V (i := 127) (j := 128) rfl (by decide))).trans ?_
  rw [fin_v105 V]
  rfl

theorem fin_v107 (V : Valuation τ sig (Elt Ideal)) :
    after ops V (Proc.devRef .tc main_v107) = RefVal.v107 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 129 (hop := rfl) (hw := rfl) (after_take_of_lt assign V (i := 126) (j := 129) rfl (by decide)) (after_take_of_lt assign V (i := 128) (j := 129) rfl (by decide))).trans ?_
  rw [fin_v104 V, fin_v106 V]
  rfl

theorem fin_v108 (V : Valuation τ sig (Elt Ideal)) :
    after ops V (Proc.devRef .tc main_v108) = RefVal.v108 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 130 (hop := rfl) (hw := rfl) (after_take_of_lt assign V (i := 129) (j := 130) rfl (by decide))).trans ?_
  rw [fin_v107 V]
  rfl

theorem fin_cst_18 (V : Valuation τ sig (Elt Ideal)) :
    after ops V (Proc.devRef .tc main_cst_18) = RefVal.cst_18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 131 (hop := rfl) (hw := rfl)).trans ?_
  rfl

theorem fin_v109 (V : Valuation τ sig (Elt Ideal)) :
    after ops V (Proc.devRef .tc main_v109) = RefVal.v109 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 132 (hop := rfl) (hw := rfl) (after_take_of_lt assign V (i := 131) (j := 132) rfl (by decide))).trans ?_
  rw [fin_cst_18 V]
  rfl

theorem fin_v110 (V : Valuation τ sig (Elt Ideal)) :
    after ops V (Proc.devRef .tc main_v110) = RefVal.v110 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 133 (hop := rfl) (hw := rfl) (after_take_of_lt assign V (i := 130) (j := 133) rfl (by decide)) (after_take_of_lt assign V (i := 132) (j := 133) rfl (by decide))).trans ?_
  rw [fin_v108 V, fin_v109 V]
  rfl

theorem fin_v111 (V : Valuation τ sig (Elt Ideal)) :
    after ops V (Proc.devRef .tc main_v111) = RefVal.v111 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 134 (hop := rfl) (hw := rfl) (after_take_of_lt assign V (i := 133) (j := 134) rfl (by decide))).trans ?_
  rw [fin_v110 V]
  rfl

theorem fin_v112 (V : Valuation τ sig (Elt Ideal)) :
    after ops V (Proc.devRef .tc main_v112) = RefVal.v112 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 135 (hop := rfl) (hw := rfl) (after_take_of_lt assign V (i := 134) (j := 135) rfl (by decide)) (after_take_of_lt assign V (i := 134) (j := 135) rfl (by decide))).trans ?_
  rw [fin_v111 V]
  rfl

theorem fin_cst_19 (V : Valuation τ sig (Elt Ideal)) :
    after ops V (Proc.devRef .tc main_cst_19) = RefVal.cst_19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nullary assign V 136 (hop := rfl) (hw := rfl)).trans ?_
  rfl

theorem fin_v113 (V : Valuation τ sig (Elt Ideal)) :
    after ops V (Proc.devRef .tc main_v113) = RefVal.v113 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 137 (hop := rfl) (hw := rfl) (after_take_of_lt assign V (i := 136) (j := 137) rfl (by decide))).trans ?_
  rw [fin_cst_19 V]
  rfl

theorem fin_v114 (V : Valuation τ sig (Elt Ideal)) :
    after ops V (Proc.devRef .tc main_v114) = RefVal.v114 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 138 (hop := rfl) (hw := rfl) (after_take_of_lt assign V (i := 137) (j := 138) rfl (by decide)) (after_take_of_lt assign V (i := 135) (j := 138) rfl (by decide))).trans ?_
  rw [fin_v113 V, fin_v112 V]
  rfl

theorem fin_v115 (V : Valuation τ sig (Elt Ideal)) :
    after ops V (Proc.devRef .tc main_v115) = RefVal.v115 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 139 (hop := rfl) (hw := rfl) (after_take_of_lt assign V (i := 138) (j := 139) rfl (by decide))).trans ?_
  rw [fin_v114 V]
  rfl

theorem fin_v116 (V : Valuation τ sig (Elt Ideal)) :
    after ops V (Proc.devRef .tc main_v116) = RefVal.v116 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 140 (hop := rfl) (hw := rfl) (after_take_of_lt assign V (i := 139) (j := 140) rfl (by decide))).trans ?_
  rw [fin_v115 V]
  rfl

theorem fin_v117 (V : Valuation τ sig (Elt Ideal)) :
    after ops V (Proc.devRef .tc main_v117) = RefVal.v117 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 141 (hop := rfl) (hw := rfl) (after_take_of_lt assign V (i := 138) (j := 141) rfl (by decide))).trans ?_
  rw [fin_v114 V]
  rfl

theorem fin_v118 (V : Valuation τ sig (Elt Ideal)) :
    after ops V (Proc.devRef .tc main_v118) = RefVal.v118 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 142 (hop := rfl) (hw := rfl) (after_take_of_lt assign V (i := 141) (j := 142) rfl (by decide))).trans ?_
  rw [fin_v117 V]
  rfl

theorem fin_v119 (V : Valuation τ sig (Elt Ideal)) :
    after ops V (Proc.devRef .tc main_v119) = RefVal.v119 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 143 (hop := rfl) (hw := rfl) (after_take_of_lt assign V (i := 140) (j := 143) rfl (by decide)) (after_take_of_lt assign V (i := 142) (j := 143) rfl (by decide))).trans ?_
  rw [fin_v116 V, fin_v118 V]
  rfl

theorem fin_v120 (V : Valuation τ sig (Elt Ideal)) :
    after ops V (Proc.devRef .tc main_v120) = RefVal.v120 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 144 (hop := rfl) (hw := rfl) (after_take_of_lt assign V (i := 138) (j := 144) rfl (by decide))).trans ?_
  rw [fin_v114 V]
  rfl

theorem fin_v121 (V : Valuation τ sig (Elt Ideal)) :
    after ops V (Proc.devRef .tc main_v121) = RefVal.v121 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 145 (hop := rfl) (hw := rfl) (after_take_of_lt assign V (i := 144) (j := 145) rfl (by decide))).trans ?_
  rw [fin_v120 V]
  rfl

theorem fin_v122 (V : Valuation τ sig (Elt Ideal)) :
    after ops V (Proc.devRef .tc main_v122) = RefVal.v122 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 146 (hop := rfl) (hw := rfl) (after_take_of_lt assign V (i := 143) (j := 146) rfl (by decide)) (after_take_of_lt assign V (i := 145) (j := 146) rfl (by decide))).trans ?_
  rw [fin_v119 V, fin_v121 V]
  rfl

theorem fin_v123 (V : Valuation τ sig (Elt Ideal)) :
    after ops V (Proc.devRef .tc main_v123) = RefVal.v123 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 147 (hop := rfl) (hw := rfl) (after_take_of_lt assign V (i := 135) (j := 147) rfl (by decide))).trans ?_
  rw [fin_v112 V]
  rfl

theorem fin_v124 (V : Valuation τ sig (Elt Ideal)) :
    after ops V (Proc.devRef .tc main_v124) = RefVal.v124 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 148 (hop := rfl) (hw := rfl) (after_take_of_lt assign V (i := 147) (j := 148) rfl (by decide))).trans ?_
  rw [fin_v123 V]
  rfl

theorem fin_v125 (V : Valuation τ sig (Elt Ideal)) :
    after ops V (Proc.devRef .tc main_v125) = RefVal.v125 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 149 (hop := rfl) (hw := rfl) (after_take_of_lt assign V (i := 138) (j := 149) rfl (by decide))).trans ?_
  rw [fin_v114 V]
  rfl

theorem fin_v126 (V : Valuation τ sig (Elt Ideal)) :
    after ops V (Proc.devRef .tc main_v126) = RefVal.v126 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 150 (hop := rfl) (hw := rfl) (after_take_of_lt assign V (i := 149) (j := 150) rfl (by decide))).trans ?_
  rw [fin_v125 V]
  rfl

theorem fin_v127 (V : Valuation τ sig (Elt Ideal)) :
    after ops V (Proc.devRef .tc main_v127) = RefVal.v127 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 151 (hop := rfl) (hw := rfl) (after_take_of_lt assign V (i := 148) (j := 151) rfl (by decide)) (after_take_of_lt assign V (i := 150) (j := 151) rfl (by decide))).trans ?_
  rw [fin_v124 V, fin_v126 V]
  rfl

theorem fin_v128 (V : Valuation τ sig (Elt Ideal)) :
    after ops V (Proc.devRef .tc main_v128) = RefVal.v128 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 152 (hop := rfl) (hw := rfl) (after_take_of_lt assign V (i := 138) (j := 152) rfl (by decide))).trans ?_
  rw [fin_v114 V]
  rfl

theorem fin_v129 (V : Valuation τ sig (Elt Ideal)) :
    after ops V (Proc.devRef .tc main_v129) = RefVal.v129 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 153 (hop := rfl) (hw := rfl) (after_take_of_lt assign V (i := 152) (j := 153) rfl (by decide))).trans ?_
  rw [fin_v128 V]
  rfl

theorem fin_v130 (V : Valuation τ sig (Elt Ideal)) :
    after ops V (Proc.devRef .tc main_v130) = RefVal.v130 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 154 (hop := rfl) (hw := rfl) (after_take_of_lt assign V (i := 151) (j := 154) rfl (by decide)) (after_take_of_lt assign V (i := 153) (j := 154) rfl (by decide))).trans ?_
  rw [fin_v127 V, fin_v129 V]
  rfl

theorem fin_v131 (V : Valuation τ sig (Elt Ideal)) :
    after ops V (Proc.devRef .tc main_v131) = RefVal.v131 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 155 (hop := rfl) (hw := rfl) (after_take_of_lt assign V (i := 138) (j := 155) rfl (by decide))).trans ?_
  rw [fin_v114 V]
  rfl

theorem fin_v132 (V : Valuation τ sig (Elt Ideal)) :
    after ops V (Proc.devRef .tc main_v132) = RefVal.v132 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 156 (hop := rfl) (hw := rfl) (after_take_of_lt assign V (i := 155) (j := 156) rfl (by decide))).trans ?_
  rw [fin_v131 V]
  rfl

theorem fin_v133 (V : Valuation τ sig (Elt Ideal)) :
    after ops V (Proc.devRef .tc main_v133) = RefVal.v133 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 157 (hop := rfl) (hw := rfl) (after_take_of_lt assign V (i := 135) (j := 157) rfl (by decide))).trans ?_
  rw [fin_v112 V]
  rfl

theorem fin_v134 (V : Valuation τ sig (Elt Ideal)) :
    after ops V (Proc.devRef .tc main_v134) = RefVal.v134 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 158 (hop := rfl) (hw := rfl) (after_take_of_lt assign V (i := 157) (j := 158) rfl (by decide))).trans ?_
  rw [fin_v133 V]
  rfl

theorem fin_v135 (V : Valuation τ sig (Elt Ideal)) :
    after ops V (Proc.devRef .tc main_v135) = RefVal.v135 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 159 (hop := rfl) (hw := rfl) (after_take_of_lt assign V (i := 156) (j := 159) rfl (by decide)) (after_take_of_lt assign V (i := 158) (j := 159) rfl (by decide))).trans ?_
  rw [fin_v132 V, fin_v134 V]
  rfl

theorem fin_v136 (V : Valuation τ sig (Elt Ideal)) :
    after ops V (Proc.devRef .tc main_v136) = RefVal.v136 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 160 (hop := rfl) (hw := rfl) (after_take_of_lt assign V (i := 138) (j := 160) rfl (by decide))).trans ?_
  rw [fin_v114 V]
  rfl

theorem fin_v137 (V : Valuation τ sig (Elt Ideal)) :
    after ops V (Proc.devRef .tc main_v137) = RefVal.v137 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_reshape assign V 161 (hop := rfl) (hw := rfl) (after_take_of_lt assign V (i := 160) (j := 161) rfl (by decide))).trans ?_
  rw [fin_v136 V]
  rfl

theorem fin_v138 (V : Valuation τ sig (Elt Ideal)) :
    after ops V (Proc.devRef .tc main_v138) = RefVal.v138 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_binary assign V 162 (hop := rfl) (hw := rfl) (after_take_of_lt assign V (i := 159) (j := 162) rfl (by decide)) (after_take_of_lt assign V (i := 161) (j := 162) rfl (by decide))).trans ?_
  rw [fin_v135 V, fin_v137 V]
  rfl

theorem fin_v139 (V : Valuation τ sig (Elt Ideal)) :
    after ops V (Proc.devRef .tc main_v139) = RefVal.v139 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 163 (hop := rfl) (hw := rfl) (after_take_of_lt assign V (i := 146) (j := 163) rfl (by decide))).trans ?_
  rw [fin_v122 V]
  rfl

theorem fin_v140 (V : Valuation τ sig (Elt Ideal)) :
    after ops V (Proc.devRef .tc main_v140) = RefVal.v140 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 164 (hop := rfl) (hw := rfl) (after_take_of_lt assign V (i := 154) (j := 164) rfl (by decide))).trans ?_
  rw [fin_v130 V]
  rfl

theorem fin_v141 (V : Valuation τ sig (Elt Ideal)) :
    after ops V (Proc.devRef .tc main_v141) = RefVal.v141 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_unary assign V 165 (hop := rfl) (hw := rfl) (after_take_of_lt assign V (i := 162) (j := 165) rfl (by decide))).trans ?_
  rw [fin_v138 V]
  rfl

theorem fin_v142 (V : Valuation τ sig (Elt Ideal)) :
    after ops V (Proc.devRef .tc main_v142) = RefVal.v142 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  refine (final_nary assign V 166 (hop := rfl) (hw := rfl) ?_).trans ?_
  · intro k; fin_cases k
    · exact (after_take_of_lt assign V (i := 163) (j := 166) rfl (by decide))
    · exact (after_take_of_lt assign V (i := 164) (j := 166) rfl (by decide))
    · exact (after_take_of_lt assign V (i := 165) (j := 166) rfl (by decide))
  · show concatenate S1048576x3 1 [⟨S1048576x1, after ops V (Proc.devRef .tc main_v139)⟩, ⟨S1048576x1, after ops V (Proc.devRef .tc main_v140)⟩, ⟨S1048576x1, after ops V (Proc.devRef .tc main_v141)⟩] concatenates_S1048576x1_S1048576x1_S1048576x1_S1048576x3_d1 = _
    rw [fin_v139 V, fin_v140 V, fin_v141 V]
    rfl

end Cert.ReferenceIdeal.RefRun

end
-- ==== Proof.Ref.Run.lean ====
/-
  The second program's run: from any memory with zero counters every weakly fair execution terminates, the result
  buffer holds the value the stages compute from the arguments' launch contents, and the eleven arguments hold what
  they held at launch.
-/
import proofs.«142976_j49512382988410_2_alg».proof.Proof.Ref.RunFin2

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable [Facts]

/-- On every device: the result is `RefVal.val` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v142) = RefVal.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v142).trans (fin_v142 (launchContents m c)),
      (h c main_arg0).trans (fin_arg0 (launchContents m c)),
      (h c main_arg1).trans (fin_arg1 (launchContents m c)),
      (h c main_arg2).trans (fin_arg2 (launchContents m c)),
      (h c main_arg3).trans (fin_arg3 (launchContents m c)),
      (h c main_arg4).trans (fin_arg4 (launchContents m c)),
      (h c main_arg5).trans (fin_arg5 (launchContents m c)),
      (h c main_arg6).trans (fin_arg6 (launchContents m c)),
      (h c main_arg7).trans (fin_arg7 (launchContents m c)),
      (h c main_arg8).trans (fin_arg8 (launchContents m c)),
      (h c main_arg9).trans (fin_arg9 (launchContents m c)),
      (h c main_arg10).trans (fin_arg10 (launchContents m c))⟩)
    (run_main m ρ)

end Cert.ReferenceIdeal.RefRun

end
-- ==== Proof.LibRowNorm.lean ====
/-
  Row-wise L2 normalisation after a rectifier, on the extended reals.  For a matrix z the result is
      r / (sqrt (Σ_k r_{·,k}²) + ε),   r = max z 0,
  every row by itself.  Computed on a block of B rows with vector operations (a lane reduction, a cast of the
  row sums to a column, a broadcast of that column) it is, entry for entry, what the host computes on the whole
  M-row array with a reduce and broadcast_in_dim, whenever row p of the block is row P of the array.  No finiteness
  is asked of anything: both sides are the same expression of the row's entries.
  Also here: the two keepdims readings of broadcast_in_dim ([M] put on a column [M, 1]; a column [M, 1] repeated
  along [M, N]), a rank-0 constant broadcast anywhere, and the host's sum of a row from the zero word.
-/
import Idealize.ShloMosaic.PureOps.Ideal.Laws
import Idealize.ShloMosaic.Lib.ValueIdx
import Idealize.ShloMosaic.Lib.Pipeline.Value
import proofs.«142976_j49512382988410_2_alg».proof.Proof.LibKeepdims

noncomputable section

open scoped BigOperators

namespace Cert.Lib.RowNorm

open Idealize.ShloMosaic Idealize.ShloMosaic.ValueIdx Idealize.ShloMosaic.ValueKeepdims

variable {α : Type} {M B N : ℕ}

/-- A vector `[M]` put on axis 0 of the column `[M, 1]` reads, at `(P, u)`, the vector at `P`. -/
theorem inDimCol_apply (x : (⟨1, ![M]⟩ : Shape).Idx → α) (h : (⟨1, ![M]⟩ : Shape).BroadcastsInDim ⟨2, ![M, 1]⟩ ![0])
    (P : Fin M) (u : Fin 1) : broadcastInDim ⟨2, ![M, 1]⟩ ![0] h x (ix2 P u) = x (ix1 P) := by
  refine broadcastInDim_apply _ h x (ix2 P u) (ix1 P) fun a => ?_
  match a with
  | ⟨0, _⟩ =>
    show P.val = if M = 1 then 0 else P.val
    split
    · have := P.isLt; omega
    · rfl

/-- A column `[M, 1]` put on both axes of `[M, N]` reads, at `(P, q)`, the column at `(P, 0)`. -/
theorem inDimColRep_apply (x : (⟨2, ![M, 1]⟩ : Shape).Idx → α) (h : (⟨2, ![M, 1]⟩ : Shape).BroadcastsInDim ⟨2, ![M, N]⟩ ![0, 1])
    (P : Fin M) (q : Fin N) : broadcastInDim ⟨2, ![M, N]⟩ ![0, 1] h x (ix2 P q) = x (ix2 P (0 : Fin 1)) := by
  refine broadcastInDim_apply _ h x (ix2 P q) (ix2 P (0 : Fin 1)) fun a => ?_
  match a with
  | ⟨0, _⟩ =>
    show P.val = if M = 1 then 0 else P.val
    split
    · have := P.isLt; omega
    · rfl
  | ⟨1, _⟩ =>
    show (0 : ℕ) = if (1 : ℕ) = 1 then 0 else q.val
    rw [if_pos rfl]

/-- A rank-0 float constant broadcast to any shape reads, everywhere, the constant's value. -/
theorem inDimConst_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply _ h _ i ix0 fun a => a.elim0

/-- The host's sum of a matrix over its second axis from the zero word, at row `P`: the sum of the row's entries. -/
theorem hostRowSum (X : FVec Ideal ⟨2, ![M, N]⟩ .f32) (hR : (⟨2, ![M, N]⟩ : Shape).ReducesTo [1] ⟨1, ![M]⟩)
    (hr : (⟨2, ![M, N]⟩ : Shape).Reduces [1] ⟨1, ![M]⟩) (h0 : 0 < (⟨0, ![]⟩ : Shape).numel) (P : Fin M) :
    Host.reduceAdd (F := Ideal) X (constant ⟨0, ![]⟩ .f32 0x00000000#32) hR h0 (ix1 P) = ∑ k : Fin N, X (ix2 P k) := by
  simp only [Host.reduceAdd, Ideal.hostReduceAdd_def]
  rw [Ideal.hostReduceAdd_single hR hr, constant_apply, Ideal.ofBits_zero_f32, zero_add]
  exact Finset.sum_congr rfl fun k _ => congrArg X (lift_axis1_ix2 hr P k)

/-- The rectifier of a block against the splat zero and of the whole array against the broadcast rank-0 zero agree
    at corresponding entries. -/
theorem relu_entry (z : FVec Ideal ⟨2, ![B, N]⟩ .f32) (Z : FVec Ideal ⟨2, ![M, N]⟩ .f32)
    (b0 : (⟨0, ![]⟩ : Shape).BroadcastsInDim ⟨2, ![M, N]⟩ ![]) (p : Fin B) (P : Fin M) (q : Fin N)
    (hz : (z (ix2 p q) : EReal) = Z (ix2 P q)) :
    maximumf z (broadcast ⟨2, ![B, N]⟩ (Scalar.ofBits (F := Ideal) .f32 0x00000000#32)) (ix2 p q)
      = maximumf Z (broadcastInDim ⟨2, ![M, N]⟩ ![] b0 (constant (F := Ideal) ⟨0, ![]⟩ .f32 0x00000000#32)) (ix2 P q) := by
  rw [maximumf_apply, maximumf_apply, inDimConst_apply, hz]
  rfl

/-- Entry `(p, q)` of a row block's `relu z / (sqrt (Σ relu z ²) + ε)` is entry `(P, q)` of the whole array's, the
    block by vector operations and the array by host operations, when row `p` of the block is row `P` of the array. -/
theorem l2norm_row (e : BitVec 32) (z : FVec Ideal ⟨2, ![B, N]⟩ .f32) (Z : FVec Ideal ⟨2, ![M, N]⟩ .f32)
    (hred : (⟨2, ![B, N]⟩ : Shape).Reduces [1] ⟨1, ![B]⟩) (hφ : FKind.Formats .f32)
    (hacc : (0x00000000#32 : BitVec FTy.f32.bits) = FKind.add.neutral .f32 hφ)
    (hc : (⟨1, ![B]⟩ : Shape).ShapeCasts ⟨2, ![B, 1]⟩) (hb : (⟨2, ![B, 1]⟩ : Shape).Broadcasts ⟨2, ![B, N]⟩)
    (hR : (⟨2, ![M, N]⟩ : Shape).ReducesTo [1] ⟨1, ![M]⟩) (hr : (⟨2, ![M, N]⟩ : Shape).Reduces [1] ⟨1, ![M]⟩)
    (h0 : 0 < (⟨0, ![]⟩ : Shape).numel)
    (b0 : (⟨0, ![]⟩ : Shape).BroadcastsInDim ⟨2, ![M, N]⟩ ![]) (b0' : (⟨0, ![]⟩ : Shape).BroadcastsInDim ⟨2, ![M, 1]⟩ ![])
    (b1 : (⟨1, ![M]⟩ : Shape).BroadcastsInDim ⟨2, ![M, 1]⟩ ![0]) (b2 : (⟨2, ![M, 1]⟩ : Shape).BroadcastsInDim ⟨2, ![M, N]⟩ ![0, 1])
    (p : Fin B) (P : Fin M) (q : Fin N) (hz : ∀ q' : Fin N, (z (ix2 p q') : EReal) = Z (ix2 P q')) :
    divf (maximumf z (broadcast ⟨2, ![B, N]⟩ (Scalar.ofBits (F := Ideal) .f32 0x00000000#32)))
        (broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb) (ix2 p q)
      = Host.divf (maximumf Z (broadcastInDim ⟨2, ![M, N]⟩ ![] b0 (constant (F := Ideal) ⟨0, ![]⟩ .f32 0x00000000#32)))
          (broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e)))) (ix2 P q) := by
  have hrelu := fun q' => relu_entry z Z b0 p P q' (hz q')
  -- the two denominators: the row's root sum of squares plus ε, read at the row
  have hden : broadcastTo ⟨2, ![B, N]⟩
          (addf (sqrt (shapeCast ⟨2, ![B, 1]⟩
              (multiReduction .add [1] ⟨1, ![B]⟩
                (mulf (maximumf z (broadcast ⟨2, ![B, N]⟩ (Scalar.ofBits (F := Ideal) .f32 0x00000000#32)))
                  (maximumf z (broadcast ⟨2, ![B, N]⟩ (Scalar.ofBits (F := Ideal) .f32 0x00000000#32))))
                0x00000000#32 hred hφ hacc) hc))
            (broadcast ⟨2, ![B, 1]⟩ (Scalar.ofBits (F := Ideal) .f32 e))) hb (ix2 p q)
      = broadcastInDim ⟨2, ![M, N]⟩ ![0, 1] b2
            (addf (Host.sqrt (broadcastInDim ⟨2, ![M, 1]⟩ ![0] b1
                (Host.reduceAdd
                  (mulf (maximumf Z (broadcastInDim ⟨2, ![M, N]⟩ ![] b0 (constant (F := Ideal) ⟨0, ![]⟩ .f32 0x00000000#32)))
                    (maximumf Z (broadcastInDim ⟨2, ![M, N]⟩ ![] b0 (constant (F := Ideal) ⟨0, ![]⟩ .f32 0x00000000#32))))
                  (constant (F := Ideal) ⟨0, ![]⟩ .f32 0x00000000#32) hR h0)))
              (broadcastInDim ⟨2, ![M, 1]⟩ ![] b0' (constant (F := Ideal) ⟨0, ![]⟩ .f32 e))) (ix2 P q) := by
    rw [broadcastTo_a1_ab_apply, inDimColRep_apply, addf_apply, addf_apply, inDimConst_apply, broadcast_apply]
    refine congrArg (· + Ideal.ofBits .f32 e) ?_
    show Ideal.sqrt _ = Ideal.sqrt _
    refine congrArg Ideal.sqrt ?_
    rw [shapeCast_a_a1_apply, inDimCol_apply, multiReduction_add_row, hostRowSum _ hR hr h0]
    refine Finset.sum_congr rfl fun k _ => ?_
    rw [mulf_apply, mulf_apply, hrelu k]
  show Ideal.div _ _ = Ideal.div _ _
  rw [hden, hrelu q]

end Cert.Lib.RowNorm

end
-- ==== Proof.Ref.ReadLib.lean ====
/-
  Array operations read at one entry, on the extended reals: the host's elementwise division, negation, square root,
  reciprocal square root, exponential and sine; a vector laid along the columns of a one-row matrix and a one-row
  matrix repeated down the rows; the rank-3 placements a table indexed [membership, channel] and a batch of rows
  indexed [row, channel] go through before they meet; the last axis cut to one entry and that unit axis dropped; a
  sum down the columns of a matrix from the zero word; a matrix product with the printed dimension numbers; and a
  gather that keeps the first axis whole and picks, for every (i, j), the entry of the last two axes that a table of
  index pairs names.
-/
import proofs.«142976_j49512382988410_2_alg».proof.Proof.Ref.Stages
import proofs.«142976_j49512382988410_2_alg».proof.Proof.LibKeepdims
import proofs.«142976_j49512382988410_2_alg».proof.Proof.LibRowNorm
import proofs.«142976_j49512382988410_2_alg».proof.Proof.LibPlainDot
import proofs.«142976_j49512382988410_2_alg».proof.Proof.LibColumnVector
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefVal

open Idealize.ShloMosaic Idealize.ShloMosaic.ValueIdx Idealize.ShloMosaic.ValueKeepdims

variable {α : Type}

/-! ## The host's elementwise operations at an entry -/

section Elementwise
variable {s : Shape} {φ : FTy}

theorem hdivf_apply (a b : FVec Ideal s φ) (i : s.Idx) : Host.divf a b i = Ideal.div (a i) (b i) := rfl
theorem hnegf_apply (a : FVec Ideal s φ) (i : s.Idx) : Host.negf a i = -(a i) := rfl
theorem hsqrt_apply (a : FVec Ideal s φ) (i : s.Idx) : Host.sqrt a i = Ideal.sqrt (a i) := rfl
theorem hrsqrt_apply (a : FVec Ideal s φ) (i : s.Idx) : Host.rsqrt a i = Ideal.rsqrt (a i) := rfl
theorem hexp_apply (a : FVec Ideal s φ) (i : s.Idx) : Host.exp a i = Ideal.exp (a i) := rfl
theorem hsin_apply (a : FVec Ideal s φ) (i : s.Idx) : Host.sin a i = Ideal.sin (a i) := rfl

end Elementwise

/-! ## Placements of an array on the axes of a larger one -/

/-- A coordinate is itself unless its axis has one entry, where it is zero anyway. -/
theorem val_eq_ite {n : ℕ} (p : Fin n) : p.val = if n = 1 then 0 else p.val := by
  split
  · have := p.isLt; omega
  · rfl

/-- On a unit axis the operand is read at zero. -/
theorem zero_eq_ite (q : ℕ) : (0 : ℕ) = if (1 : ℕ) = 1 then 0 else q := by rw [if_pos rfl]

/-- A vector [b] laid along the columns of [1, b] reads, at (u, j), the vector at j. -/
theorem inDimRow_apply {b : ℕ} (x : (⟨1, ![b]⟩ : Shape).Idx → α) (h : (⟨1, ![b]⟩ : Shape).BroadcastsInDim ⟨2, ![1, b]⟩ ![1])
    (u : Fin 1) (j : Fin b) : broadcastInDim ⟨2, ![1, b]⟩ ![1] h x (ix2 u j) = x (ix1 j) := by
  refine broadcastInDim_apply _ h x (ix2 u j) (ix1 j) fun a => ?_
  match a with
  | ⟨0, _⟩ => exact val_eq_ite j

/-- A one-row matrix [1, b] repeated down [a, b] reads, at (p, j), the row at j. -/
theorem inDimRowRep_apply {a b : ℕ} (x : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun c => ?_
  match c with
  | ⟨0, _⟩ => exact zero_eq_ite p.val
  | ⟨1, _⟩ => exact val_eq_ite j

/-- A vector [b] laid along the columns of [a, b] reads, at (p, j), the vector at j. -/
theorem inDimCols_apply {a b : ℕ} (x : (⟨1, ![b]⟩ : Shape).Idx → α) (h : (⟨1, ![b]⟩ : Shape).BroadcastsInDim ⟨2, ![a, b]⟩ ![1])
    (p : Fin a) (j : Fin b) : broadcastInDim ⟨2, ![a, b]⟩ ![1] h x (ix2 p j) = x (ix1 j) := by
  refine broadcastInDim_apply _ h x (ix2 p j) (ix1 j) fun c => ?_
  match c with
  | ⟨0, _⟩ => exact val_eq_ite j

/-- A matrix [a, b] given a trailing unit axis reads, at (i, j, u), the matrix at (i, j). -/
theorem inDimLast_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun c => ?_
  match c with
  | ⟨0, _⟩ => exact val_eq_ite i
  | ⟨1, _⟩ => exact val_eq_ite j

/-- A table [m, c] given a leading unit axis reads, at (u, s, j), the table at (s, j). -/
theorem inDimLead_apply {m c : ℕ} (x : (⟨2, ![m, c]⟩ : Shape).Idx → α)
    (h : (⟨2, ![m, c]⟩ : Shape).BroadcastsInDim ⟨3, ![1, m, c]⟩ ![1, 2]) (u : Fin 1) (s : Fin m) (j : Fin c) :
    broadcastInDim ⟨3, ![1, m, c]⟩ ![1, 2] h x (ix3 u s j) = x (ix2 s j) := by
  refine broadcastInDim_apply _ h x (ix3 u s j) (ix2 s j) fun d => ?_
  match d with
  | ⟨0, _⟩ => exact val_eq_ite s
  | ⟨1, _⟩ => exact val_eq_ite j

/-- A batch of rows [a, c] given a middle unit axis reads, at (p, u, j), the batch at (p, j). -/
theorem inDimMid_apply {a c : ℕ} (x : (⟨2, ![a, c]⟩ : Shape).Idx → α)
    (h : (⟨2, ![a, c]⟩ : Shape).BroadcastsInDim ⟨3, ![a, 1, c]⟩ ![0, 2]) (p : Fin a) (u : Fin 1) (j : Fin c) :
    broadcastInDim ⟨3, ![a, 1, c]⟩ ![0, 2] h x (ix3 p u j) = x (ix2 p j) := by
  refine broadcastInDim_apply _ h x (ix3 p u j) (ix2 p j) fun d => ?_
  match d with
  | ⟨0, _⟩ => exact val_eq_ite p
  | ⟨1, _⟩ => exact val_eq_ite j

/-- [a, 1, c] repeated along its middle axis to [a, m, c] reads, at (p, s, j), the operand at (p, 0, j). -/
theorem inDimMidRep_apply {a m c : ℕ} (x : (⟨3, ![a, 1, c]⟩ : Shape).Idx → α)
    (h : (⟨3, ![a, 1, c]⟩ : Shape).BroadcastsInDim ⟨3, ![a, m, c]⟩ ![0, 1, 2]) (p : Fin a) (s : Fin m) (j : Fin c) :
    broadcastInDim ⟨3, ![a, m, c]⟩ ![0, 1, 2] h x (ix3 p s j) = x (ix3 p (0 : Fin 1) j) := by
  refine broadcastInDim_apply _ h x (ix3 p s j) (ix3 p (0 : Fin 1) j) fun d => ?_
  match d with
  | ⟨0, _⟩ => exact val_eq_ite p
  | ⟨1, _⟩ => exact zero_eq_ite s.val
  | ⟨2, _⟩ => exact val_eq_ite j

/-- [1, m, c] repeated along its leading axis to [a, m, c] reads, at (p, s, j), the operand at (0, s, j). -/
theorem inDimLeadRep_apply {a m c : ℕ} (x : (⟨3, ![1, m, c]⟩ : Shape).Idx → α)
    (h : (⟨3, ![1, m, c]⟩ : Shape).BroadcastsInDim ⟨3, ![a, m, c]⟩ ![0, 1, 2]) (p : Fin a) (s : Fin m) (j : Fin c) :
    broadcastInDim ⟨3, ![a, m, c]⟩ ![0, 1, 2] h x (ix3 p s j) = x (ix3 (0 : Fin 1) s j) := by
  refine broadcastInDim_apply _ h x (ix3 p s j) (ix3 (0 : Fin 1) s j) fun d => ?_
  match d with
  | ⟨0, _⟩ => exact zero_eq_ite p.val
  | ⟨1, _⟩ => exact val_eq_ite s
  | ⟨2, _⟩ => exact val_eq_ite j

/-- A rank-0 array placed on no axis of any shape reads its one entry everywhere. -/
theorem inDimScalar_apply {t : Shape} (x : (⟨0, ![]⟩ : Shape).Idx → α) (h : (⟨0, ![]⟩ : Shape).BroadcastsInDim t ![])
    (i : t.Idx) : broadcastInDim t ![] h x i = x ix0 :=
  broadcastInDim_apply _ h _ i ix0 fun a => a.elim0

/-! ## The last axis cut to one entry, and a trailing unit axis dropped -/

/-- A rank-3 array cut along its last axis from `o` reads, at (a, b, j), the source at (a, b, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-! ## A sum down the columns -/

/-- Column j with row k put back on the reduced first axis is (k, j). -/
theorem lift_axis0 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The host's sum of a matrix over its first axis from the zero word, at column j: the sum of the column's entries. -/
theorem hostColSum {M N : ℕ} (X : FVec Ideal ⟨2, ![M, N]⟩ .f32) (hR : (⟨2, ![M, N]⟩ : Shape).ReducesTo [0] ⟨1, ![N]⟩)
    (hr : (⟨2, ![M, N]⟩ : Shape).Reduces [0] ⟨1, ![N]⟩) (h0 : 0 < (⟨0, ![]⟩ : Shape).numel) (j : Fin N) :
    Host.reduceAdd (F := Ideal) X (constant ⟨0, ![]⟩ .f32 0x00000000#32) hR h0 (ix1 j) = ∑ k : Fin M, X (ix2 k j) := by
  simp only [Host.reduceAdd, Ideal.hostReduceAdd_def]
  rw [Ideal.hostReduceAdd_single hR hr, constant_apply, Ideal.ofBits_zero_f32, zero_add]
  exact Finset.sum_congr rfl fun k _ => congrArg X (lift_axis0 hr j k)

end Cert.ReferenceIdeal.RefVal

end
-- ==== Proof.Ref.Read1.lean ====
/-
  The first stretch of the second program read at an entry: the three channels of a row are x·W1ᵀ + b1, and the
  normalisation over the three channels (mean, biased variance, reciprocal root, scale and shift) is the common
  form's, channel by channel.
-/
import proofs.«142976_j49512382988410_2_alg».proof.Proof.Ref.ReadLib
import proofs.«142976_j49512382988410_2_alg».proof.Proof.Spec

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

/-- Row b of the batch. -/
abbrev xrow (b : Fin 1048576) : Fin 10 → EReal := fun k => a0 (ix2 b k)
/-- The first weight matrix by (channel, input). -/
abbrev w1 : Fin 3 → Fin 10 → EReal := fun j k => a1 (ix2 j k)
/-- A per-channel vector. -/
abbrev vec3 (a : FVec Ideal S3 .f32) : Fin 3 → EReal := fun j => a (ix1 j)
/-- The three channels of row b. -/
abbrev hrow (b : Fin 1048576) : Fin 3 → EReal := Cert.Spec.lin (xrow a0 b) (w1 a1) (vec3 a2)

theorem v0_apply (k : Fin 10) (j : Fin 3) : v0 a0 a1 a2 a3 a4 a5 a6 a7 a8 a9 a10 (ix2 k j) = a1 (ix2 j k) := by
  unfold v0; exact transpose_ix2_apply a1 _ k j

theorem v1_apply (b : Fin 1048576) (j : Fin 3) :
    v1 a0 a1 a2 a3 a4 a5 a6 a7 a8 a9 a10 (ix2 b j) = ∑ k : Fin 10, a0 (ix2 b k) * a1 (ix2 j k) := by
  unfold v1
  refine (Cert.Lib.PlainDot.dotGeneral_apply (M := 1048576) (K := 10) (N := 3) none .single a0 (v0 a0 a1 a2 a3 a4 a5 a6 a7 a8 a9 a10) b j).trans ?_
  exact Finset.sum_congr rfl fun k _ => by rw [v0_apply]

theorem v3_apply (b : Fin 1048576) (j : Fin 3) : v3 a0 a1 a2 a3 a4 a5 a6 a7 a8 a9 a10 (ix2 b j) = a2 (ix1 j) := by
  unfold v3 v2; rw [inDimRowRep_apply, inDimRow_apply]

theorem v4_apply (b : Fin 1048576) (j : Fin 3) : v4 a0 a1 a2 a3 a4 a5 a6 a7 a8 a9 a10 (ix2 b j) = hrow a0 a1 a2 b j := by
  unfold v4; rw [addf_apply, v1_apply, v3_apply]; rfl

theorem v8_apply (b : Fin 1048576) (u : Fin 1) : v8 a0 a1 a2 a3 a4 a5 a6 a7 a8 a9 a10 (ix2 b u) = Cert.Spec.mean3 (hrow a0 a1 a2 b) := by
  unfold v8 v7 v6 v5 cst cst_0
  rw [hdivf_apply, inDimCol_apply, inDimConst_apply, hostRowSum _ _ (by decide)]
  unfold Cert.Spec.mean3
  exact congrArg (fun t => Ideal.div t Cert.Spec.c3) (Finset.sum_congr rfl fun k _ => v4_apply a0 a1 a2 a3 a4 a5 a6 a7 a8 a9 a10 b k)

theorem v10_apply (b : Fin 1048576) (j : Fin 3) :
    v10 a0 a1 a2 a3 a4 a5 a6 a7 a8 a9 a10 (ix2 b j) = hrow a0 a1 a2 b j - Cert.Spec.mean3 (hrow a0 a1 a2 b) := by
  unfold v10 v9; rw [subf_apply, inDimColRep_apply, v4_apply, v8_apply]

theorem v15_apply (b : Fin 1048576) (u : Fin 1) : v15 a0 a1 a2 a3 a4 a5 a6 a7 a8 a9 a10 (ix2 b u) = Cert.Spec.var3 (hrow a0 a1 a2 b) := by
  unfold v15 v14 v13 v12 v11 cst_1 cst_2
  rw [hdivf_apply, inDimCol_apply, inDimConst_apply, hostRowSum _ _ (by decide)]
  unfold Cert.Spec.var3
  exact congrArg (fun t => Ideal.div t Cert.Spec.c3)
    (Finset.sum_congr rfl fun k _ => by rw [mulf_apply, v10_apply])

theorem v17_apply (b : Fin 1048576) (j : Fin 3) :
    v17 a0 a1 a2 a3 a4 a5 a6 a7 a8 a9 a10 (ix2 b j) = hrow a0 a1 a2 b j - Cert.Spec.mean3 (hrow a0 a1 a2 b) := by
  unfold v17 v16; rw [subf_apply, inDimColRep_apply, v4_apply, v8_apply]

theorem v21_apply (b : Fin 1048576) (j : Fin 3) :
    v21 a0 a1 a2 a3 a4 a5 a6 a7 a8 a9 a10 (ix2 b j) = Ideal.rsqrt (Cert.Spec.var3 (hrow a0 a1 a2 b) + Cert.Spec.ceps) := by
  unfold v21 v20 v19 v18 cst_3
  rw [inDimColRep_apply, hrsqrt_apply, addf_apply, inDimConst_apply, v15_apply]

theorem v24_apply (b : Fin 1048576) (j : Fin 3) : v24 a0 a1 a2 a3 a4 a5 a6 a7 a8 a9 a10 (ix2 b j) = a3 (ix1 j) := by
  unfold v24 v23; rw [inDimRowRep_apply, inDimRow_apply]

theorem v27_apply (b : Fin 1048576) (j : Fin 3) : v27 a0 a1 a2 a3 a4 a5 a6 a7 a8 a9 a10 (ix2 b j) = a4 (ix1 j) := by
  unfold v27 v26; rw [inDimRowRep_apply, inDimRow_apply]

/-- The normalised, scaled and shifted channels of row b. -/
abbrev grow (b : Fin 1048576) : Fin 3 → EReal := Cert.Spec.gn (hrow a0 a1 a2 b) (vec3 a3) (vec3 a4)

/-- The normalised channel j of row b is the common form's. -/
theorem v28_apply (b : Fin 1048576) (j : Fin 3) : v28 a0 a1 a2 a3 a4 a5 a6 a7 a8 a9 a10 (ix2 b j) = grow a0 a1 a2 a3 a4 b j := by
  unfold v28 v25 v22
  rw [addf_apply, mulf_apply, mulf_apply, v17_apply, v21_apply, v24_apply, v27_apply]
  rfl

end Cert.ReferenceIdeal.RefVal

end
-- ==== Proof.Ref.Read2.lean ====
/-
  The two Gaussian memberships of every channel, read at an entry [row, membership, channel]: the normalised channel
  less the membership's centre, squared and negated, over twice the squared width, exponentiated — the common form's
  membership of that channel with that centre and width.
-/
import proofs.«142976_j49512382988410_2_alg».proof.Proof.Ref.Read1

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

theorem v30_apply (u : Fin 1) (s : Fin 2) (j : Fin 3) : v30 a0 a1 a2 a3 a4 a5 a6 a7 a8 a9 a10 (ix3 u s j) = a5 (ix2 j s) := by
  unfold v30 v29; rw [inDimLead_apply]; exact transpose_ix2_apply a5 _ s j

theorem v32_apply (u : Fin 1) (s : Fin 2) (j : Fin 3) : v32 a0 a1 a2 a3 a4 a5 a6 a7 a8 a9 a10 (ix3 u s j) = a6 (ix2 j s) := by
  unfold v32 v31; rw [inDimLead_apply]; exact transpose_ix2_apply a6 _ s j

theorem v36_apply (b : Fin 1048576) (s : Fin 2) (j : Fin 3) :
    v36 a0 a1 a2 a3 a4 a5 a6 a7 a8 a9 a10 (ix3 b s j) = grow a0 a1 a2 a3 a4 b j - a5 (ix2 j s) := by
  unfold v36 v35 v34 v33
  rw [subf_apply, inDimMidRep_apply, inDimMid_apply, inDimLeadRep_apply, v28_apply, v30_apply]

theorem v42_apply (b : Fin 1048576) (s : Fin 2) (j : Fin 3) :
    v42 a0 a1 a2 a3 a4 a5 a6 a7 a8 a9 a10 (ix3 b s j) = Cert.Spec.c2 * (a6 (ix2 j s) * a6 (ix2 j s)) := by
  unfold v42 v41 v40 v39 cst_4
  rw [inDimLeadRep_apply, mulf_apply, mulf_apply, inDimConst_apply, v32_apply]

/-- Membership s of channel j of row b is the common form's Gaussian of the normalised channel. -/
theorem v44_apply (b : Fin 1048576) (s : Fin 2) (j : Fin 3) :
    v44 a0 a1 a2 a3 a4 a5 a6 a7 a8 a9 a10 (ix3 b s j) = Cert.Spec.fz (grow a0 a1 a2 a3 a4 b j) (a5 (ix2 j s)) (a6 (ix2 j s)) := by
  unfold v44 v43 v38 v37
  rw [hexp_apply, hdivf_apply, hnegf_apply, mulf_apply, v36_apply, v42_apply]
  rfl

end Cert.ReferenceIdeal.RefVal

end
-- ==== Proof.Ref.Read3.lean ====
/-
  The selection of memberships by bit pattern, read at an entry. The table of the eight patterns holds only zeros
  and ones, so the "negative index" correction of the index arithmetic never applies; the index pair at (i, j) is
  (digit j of pattern i, j); and the gather, which keeps the row axis whole and reads the last two axes at that pair,
  picks for pattern i and channel j the membership that digit names.
-/
import proofs.«142976_j49512382988410_2_alg».proof.Proof.Ref.Read2

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

variable {α : Type}

/-! ## The gather at an entry -/

local notation "G" => gather_S1048576x2x3_S8x3x2_S1048576x8x3_0_12_n_n_12_2_104857611

theorem gather_apply (x : S1048576x2x3.Idx → α) (idx : IVec S8x3x2 32) (b : Fin 1048576) (i : Fin 8) (j : Fin 3)
    (s : Fin 2) (j' : Fin 3)
    (hs : s.val = min (idx (ix3 i j (0 : Fin 2))).toInt.toNat 1)
    (hj : j'.val = min (idx (ix3 i j (1 : Fin 2))).toInt.toNat 2) :
    Host.gather G x idx (ix3 b i j) = x (ix3 b s j') := by
  unfold Host.gather
  refine congrArg x (funext fun a => Fin.ext ?_)
  have hsi0 : GatherDims.siIdx G (ix3 b i j) ⟨0, by show 0 < ([1, 2] : List (Fin 3)).length; decide⟩ = ix3 i j (0 : Fin 2) := by
    funext c; refine Fin.ext ?_
    match c with
    | ⟨0, _⟩ => rfl
    | ⟨1, _⟩ => rfl
    | ⟨2, _⟩ => rfl
  have hsi1 : GatherDims.siIdx G (ix3 b i j) ⟨1, by show 1 < ([1, 2] : List (Fin 3)).length; decide⟩ = ix3 i j (1 : Fin 2) := by
    funext c; refine Fin.ext ?_
    match c with
    | ⟨0, _⟩ => rfl
    | ⟨1, _⟩ => rfl
    | ⟨2, _⟩ => rfl
  match a with
  | ⟨0, _⟩ =>
    show GatherDims.start G (ix3 b i j) idx 0 + GatherDims.batchCoord G (ix3 b i j) 0 + GatherDims.offCoord G (ix3 b i j) 0 = b.val
    rw [GatherDims.batchCoord_eq_zero _ _ _ List.not_mem_nil]
    unfold GatherDims.start GatherDims.offCoord
    rw [dif_neg (by show ¬ (0 : Fin 3) ∈ ([1, 2] : List (Fin 3)); decide),
      dif_pos (by show (0 : Fin 3) ∈ Shape.kept S1048576x2x3 (([1, 2] : List (Fin 3)) ++ []); decide)]
    show 0 + 0 + b.val = b.val
    omega
  | ⟨1, _⟩ =>
    show GatherDims.start G (ix3 b i j) idx 1 + GatherDims.batchCoord G (ix3 b i j) 1 + GatherDims.offCoord G (ix3 b i j) 1 = s.val
    rw [GatherDims.batchCoord_eq_zero _ _ _ List.not_mem_nil,
      GatherDims.offCoord_eq_zero _ _ _ (by show ¬ (1 : Fin 3) ∈ Shape.kept S1048576x2x3 (([1, 2] : List (Fin 3)) ++ []); decide)]
    unfold GatherDims.start
    rw [dif_pos (by show (1 : Fin 3) ∈ ([1, 2] : List (Fin 3)); decide)]
    rw [hs]
    show min (idx (GatherDims.siIdx G (ix3 b i j) ⟨0, _⟩)).toInt.toNat (2 - 1) + 0 + 0 = _
    rw [hsi0]
    rfl
  | ⟨2, _⟩ =>
    show GatherDims.start G (ix3 b i j) idx 2 + GatherDims.batchCoord G (ix3 b i j) 2 + GatherDims.offCoord G (ix3 b i j) 2 = j'.val
    rw [GatherDims.batchCoord_eq_zero _ _ _ List.not_mem_nil,
      GatherDims.offCoord_eq_zero _ _ _ (by show ¬ (2 : Fin 3) ∈ Shape.kept S1048576x2x3 (([1, 2] : List (Fin 3)) ++ []); decide)]
    unfold GatherDims.start
    rw [dif_pos (by show (2 : Fin 3) ∈ ([1, 2] : List (Fin 3)); decide)]
    rw [hj]
    show min (idx (GatherDims.siIdx G (ix3 b i j) ⟨1, _⟩)).toInt.toNat (3 - 1) + 0 + 0 = _
    rw [hsi1]
    rfl

/-! ## The index pairs -/

theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

/-- Entry (i, j) of the table of patterns. -/
abbrev tbl (i : Fin 8) (j : Fin 3) : BitVec 32 := lit0 (S8x3.rowMajor (ix2 i j))

theorem v50_apply (i : Fin 8) (j : Fin 3) :
    v50 a0 a1 a2 a3 a4 a5 a6 a7 a8 a9 a10 (ix2 i j)
      = Scalar.select (IntOp.cmpi .slt (tbl i j) 0#32) (IntOp.addi (tbl i j) 2#32) (tbl i j) := by
  unfold v50 v49 v48 v47 v46 c_6 c_5 c_
  rw [select_apply, cmpi_apply, addi_apply, inDimScalar_apply, inDimScalar_apply, constantI_apply, constantI_apply]

theorem v55_apply (j : Fin 3) :
    v55 a0 a1 a2 a3 a4 a5 a6 a7 a8 a9 a10 (ix1 j)
      = Scalar.select (IntOp.cmpi .slt (BitVec.ofNat 32 j.val) 0#32) (IntOp.addi (BitVec.ofNat 32 j.val) 3#32)
          (BitVec.ofNat 32 j.val) := by
  unfold v55 v54 v53 v52 v51 v45 c_8 c_7
  rw [select_apply, cmpi_apply, addi_apply, inDimScalar_apply, inDimScalar_apply, constantI_apply, constantI_apply]
  rfl

theorem v59_fst (i : Fin 8) (j : Fin 3) : v59 a0 a1 a2 a3 a4 a5 a6 a7 a8 a9 a10 (ix3 i j (0 : Fin 2)) = v50 a0 a1 a2 a3 a4 a5 a6 a7 a8 a9 a10 (ix2 i j) := by
  unfold v59
  refine (concatenate_pair_apply_left _ (v57 a0 a1 a2 a3 a4 a5 a6 a7 a8 a9 a10) (v58 a0 a1 a2 a3 a4 a5 a6 a7 a8 a9 a10) _ (ix3 i j (0 : Fin 2)) rfl (ix3 i j (0 : Fin 1))
    (fun c => ?_)).trans ?_
  · match c with
    | ⟨0, _⟩ => rfl
    | ⟨1, _⟩ => rfl
    | ⟨2, _⟩ => rfl
  · unfold v57; exact inDimLast_apply _ _ i j 0

theorem v59_snd (i : Fin 8) (j : Fin 3) : v59 a0 a1 a2 a3 a4 a5 a6 a7 a8 a9 a10 (ix3 i j (1 : Fin 2)) = v55 a0 a1 a2 a3 a4 a5 a6 a7 a8 a9 a10 (ix1 j) := by
  unfold v59
  refine (concatenate_pair_apply_right _ (v57 a0 a1 a2 a3 a4 a5 a6 a7 a8 a9 a10) (v58 a0 a1 a2 a3 a4 a5 a6 a7 a8 a9 a10) _ (ix3 i j (1 : Fin 2)) rfl rfl (ix3 i j (0 : Fin 1))
    (fun c hc => ?_) rfl).trans ?_
  · match c with
    | ⟨0, _⟩ => rfl
    | ⟨1, _⟩ => rfl
    | ⟨2, _⟩ => exact absurd rfl hc
  · unfold v58 v56; rw [inDimLast_apply, inDimCols_apply]

/-- The table's entry, read signed and kept inside the membership axis, is the pattern's digit. -/
theorem digit_of_tbl (i : Fin 8) (j : Fin 3) :
    min (Scalar.select (IntOp.cmpi .slt (tbl i j) 0#32) (IntOp.addi (tbl i j) 2#32) (tbl i j)).toInt.toNat 1
      = (Cert.Spec.bit i j).val := by
  fin_cases i <;> fin_cases j <;> rfl

/-- The channel's own number, read signed and kept inside the channel axis, is itself. -/
theorem chan_of_iota (j : Fin 3) :
    min (Scalar.select (IntOp.cmpi .slt (BitVec.ofNat 32 j.val) 0#32) (IntOp.addi (BitVec.ofNat 32 j.val) 3#32)
          (BitVec.ofNat 32 j.val)).toInt.toNat 2 = j.val := by
  fin_cases j <;> rfl

/-- For pattern i and channel j the gather reads the membership the pattern's digit j names. -/
theorem v60_apply (b : Fin 1048576) (i : Fin 8) (j : Fin 3) :
    v60 a0 a1 a2 a3 a4 a5 a6 a7 a8 a9 a10 (ix3 b i j) = v44 a0 a1 a2 a3 a4 a5 a6 a7 a8 a9 a10 (ix3 b (Cert.Spec.bit i j) j) := by
  unfold v60
  exact gather_apply (v44 a0 a1 a2 a3 a4 a5 a6 a7 a8 a9 a10) (v59 a0 a1 a2 a3 a4 a5 a6 a7 a8 a9 a10) b i j (Cert.Spec.bit i j) j
    (by rw [v59_fst, v50_apply]; exact (digit_of_tbl i j).symm)
    (by rw [v59_snd, v55_apply]; exact (chan_of_iota j).symm)

end Cert.ReferenceIdeal.RefVal

end
-- ==== Proof.Ref.Read4.lean ====
/-
  From the selected memberships to the eight outputs of a row, read at an entry: each selected membership q goes
  through min(√(q + tiny), clamp)² — the clamp is the first operand of the printed minimum, the common form has it
  second — and the three channels' values p₀, p₁, p₂ are cut from the last axis and combined as p₀ (1 − p₁)(1 − p₂).
-/
import proofs.«142976_j49512382988410_2_alg».proof.Proof.Ref.Read3

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

theorem v64_apply (b : Fin 1048576) (i : Fin 8) (j : Fin 3) :
    v64 a0 a1 a2 a3 a4 a5 a6 a7 a8 a9 a10 (ix3 b i j) = Cert.Spec.sq (v60 a0 a1 a2 a3 a4 a5 a6 a7 a8 a9 a10 (ix3 b i j)) := by
  unfold v64 call0_v1 call0_v0 cst_10 v63 v62 v61 cst_9
  rw [minimumf_apply, inDimScalar_apply, hsqrt_apply, addf_apply, inDimConst_apply]
  exact min_comm _ _

theorem v65_apply (b : Fin 1048576) (i : Fin 8) (j : Fin 3) :
    v65 a0 a1 a2 a3 a4 a5 a6 a7 a8 a9 a10 (ix3 b i j)
      = Cert.Spec.pp (Cert.Spec.fz (grow a0 a1 a2 a3 a4 b j) (a5 (ix2 j (Cert.Spec.bit i j))) (a6 (ix2 j (Cert.Spec.bit i j)))) := by
  unfold v65; rw [mulf_apply, v64_apply, v60_apply, v44_apply]; rfl

theorem v67_apply (b : Fin 1048576) (i : Fin 8) : v67 a0 a1 a2 a3 a4 a5 a6 a7 a8 a9 a10 (ix2 b i) = v65 a0 a1 a2 a3 a4 a5 a6 a7 a8 a9 a10 (ix3 b i (0 : Fin 3)) := by
  unfold v67 v66; rw [shapeCast_ab1_ab_apply]; exact slice3_axis2_apply 0 _ _ b i 0 0 rfl

theorem v69_apply (b : Fin 1048576) (i : Fin 8) : v69 a0 a1 a2 a3 a4 a5 a6 a7 a8 a9 a10 (ix2 b i) = v65 a0 a1 a2 a3 a4 a5 a6 a7 a8 a9 a10 (ix3 b i (1 : Fin 3)) := by
  unfold v69 v68; rw [shapeCast_ab1_ab_apply]; exact slice3_axis2_apply 1 _ _ b i 0 1 rfl

theorem v74_apply (b : Fin 1048576) (i : Fin 8) : v74 a0 a1 a2 a3 a4 a5 a6 a7 a8 a9 a10 (ix2 b i) = v65 a0 a1 a2 a3 a4 a5 a6 a7 a8 a9 a10 (ix3 b i (2 : Fin 3)) := by
  unfold v74 v73; rw [shapeCast_ab1_ab_apply]; exact slice3_axis2_apply 2 _ _ b i 0 2 rfl

/-- The eight outputs of row b. -/
abbrev orow (b : Fin 1048576) (i : Fin 8) : EReal :=
  Cert.Spec.rowOut (fun k => a0 (ix2 b k)) (fun j k => a1 (ix2 j k)) (fun j => a2 (ix1 j)) (fun j => a3 (ix1 j))
    (fun j => a4 (ix1 j)) (fun j s => a5 (ix2 j s)) (fun j s => a6 (ix2 j s)) i

/-- Output i of row b is the common form's. -/
theorem v77_apply (b : Fin 1048576) (i : Fin 8) : v77 a0 a1 a2 a3 a4 a5 a6 a7 a8 a9 a10 (ix2 b i) = orow a0 a1 a2 a3 a4 a5 a6 b i := by
  unfold v77 v76 v75 v72 v71 v70 cst_11 cst_12
  rw [mulf_apply, mulf_apply, subf_apply, subf_apply, inDimConst_apply, v67_apply, v69_apply,
    v74_apply]
  simp only [v65_apply]
  rfl

end Cert.ReferenceIdeal.RefVal

end
-- ==== Proof.Ref.Read5.lean ====
/-
  The normalisation of the eight output columns over the batch, read at an entry: the column's mean is the sum down
  the column over N = 2²⁰, its variance the sum of squared deviations over N, and each entry is its deviation times the
  reciprocal root of the variance plus ε, scaled and shifted — the common form's two-pass statistics.
-/
import proofs.«142976_j49512382988410_2_alg».proof.Proof.Ref.Read4

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

/-- Column i of the outputs over the batch. -/
abbrev ocol (i : Fin 8) : Fin 1048576 → EReal := fun b' => orow a0 a1 a2 a3 a4 a5 a6 b' i

theorem v80_apply (i : Fin 8) : v80 a0 a1 a2 a3 a4 a5 a6 a7 a8 a9 a10 (ix1 i) = Cert.Spec.meanR (ocol a0 a1 a2 a3 a4 a5 a6 i) := by
  unfold v80 v79 v78 cst_13 cst_14
  rw [hdivf_apply, inDimConst_apply, hostColSum _ _ (by decide)]
  unfold Cert.Spec.meanR
  exact congrArg (fun t => Ideal.div t Cert.Spec.cN) (Finset.sum_congr rfl fun k _ => v77_apply a0 a1 a2 a3 a4 a5 a6 a7 a8 a9 a10 k i)

theorem v82_apply (b : Fin 1048576) (i : Fin 8) :
    v82 a0 a1 a2 a3 a4 a5 a6 a7 a8 a9 a10 (ix2 b i) = Cert.Spec.meanR (ocol a0 a1 a2 a3 a4 a5 a6 i) := by
  unfold v82 v81; rw [inDimRowRep_apply, inDimRow_apply, v80_apply]

theorem v87_apply (i : Fin 8) : v87 a0 a1 a2 a3 a4 a5 a6 a7 a8 a9 a10 (ix1 i) = Cert.Spec.varR (ocol a0 a1 a2 a3 a4 a5 a6 i) := by
  unfold v87 v86 v85 v84 v83 cst_15 cst_16
  rw [hdivf_apply, inDimConst_apply, hostColSum _ _ (by decide)]
  unfold Cert.Spec.varR
  exact congrArg (fun t => Ideal.div t Cert.Spec.cN)
    (Finset.sum_congr rfl fun k _ => by rw [mulf_apply, subf_apply, v77_apply, v82_apply])

theorem v90_apply (b : Fin 1048576) (i : Fin 8) :
    v90 a0 a1 a2 a3 a4 a5 a6 a7 a8 a9 a10 (ix2 b i) = orow a0 a1 a2 a3 a4 a5 a6 b i - Cert.Spec.meanR (ocol a0 a1 a2 a3 a4 a5 a6 i) := by
  unfold v90 v89 v88; rw [subf_apply, inDimRowRep_apply, inDimRow_apply, v77_apply, v80_apply]

theorem v95_apply (b : Fin 1048576) (i : Fin 8) :
    v95 a0 a1 a2 a3 a4 a5 a6 a7 a8 a9 a10 (ix2 b i) = Ideal.rsqrt (Cert.Spec.varR (ocol a0 a1 a2 a3 a4 a5 a6 i) + Cert.Spec.ceps) := by
  unfold v95 v94 v93 v92 v91 cst_17
  rw [inDimRowRep_apply, inDimRow_apply, hrsqrt_apply, addf_apply, inDimConst_apply, v87_apply]

theorem v98_apply (b : Fin 1048576) (i : Fin 8) : v98 a0 a1 a2 a3 a4 a5 a6 a7 a8 a9 a10 (ix2 b i) = a7 (ix1 i) := by
  unfold v98 v97; rw [inDimRowRep_apply, inDimRow_apply]

theorem v101_apply (b : Fin 1048576) (i : Fin 8) : v101 a0 a1 a2 a3 a4 a5 a6 a7 a8 a9 a10 (ix2 b i) = a8 (ix1 i) := by
  unfold v101 v100; rw [inDimRowRep_apply, inDimRow_apply]

/-- Entry (b, i) normalised by the batch statistics of column i is the common form's. -/
theorem v102_apply (b : Fin 1048576) (i : Fin 8) :
    v102 a0 a1 a2 a3 a4 a5 a6 a7 a8 a9 a10 (ix2 b i)
      = Cert.Spec.bn (orow a0 a1 a2 a3 a4 a5 a6 b i) (Cert.Spec.meanR (ocol a0 a1 a2 a3 a4 a5 a6 i))
          (Cert.Spec.varR (ocol a0 a1 a2 a3 a4 a5 a6 i)) (a7 (ix1 i)) (a8 (ix1 i)) := by
  unfold v102 v99 v96
  rw [addf_apply, mulf_apply, mulf_apply, v90_apply, v95_apply, v98_apply, v101_apply]
  rfl

end Cert.ReferenceIdeal.RefVal

end
-- ==== Proof.Ref.Read6.lean ====
/-
  The last stretch of the second program read at an entry: the 8 → 10 product with the second weight matrix and its
  bias, of which the first three columns are the logits; sin²(l/2) of each; the three products of sin² and 1 − sin²;
  and the three result columns side by side. The whole program's value at (b, j) is the common form's final value of
  row b from its eight outputs and the batch's two-pass mean and variance.
-/
import proofs.«142976_j49512382988410_2_alg».proof.Proof.Ref.Read5

noncomputable section

open scoped BigOperators

namespace Cert.ReferenceIdeal.RefVal

open Idealize.ShloMosaic Idealize.ShloMosaic.ValueIdx Idealize.ShloMosaic.ValueKeepdims
open Cert.Lib.RowNorm Idealize.ShloMosaic.ValueColumnVector
open Cert.ReferenceIdeal Cert.ReferenceIdeal.Facts₀ Cert.ReferenceIdeal.Facts

variable [Facts]
variable (a0 : FVec Ideal S1048576x10 .f32) (a1 : FVec Ideal S3x10 .f32) (a2 : FVec Ideal S3 .f32) (a3 : FVec Ideal S3 .f32) (a4 : FVec Ideal S3 .f32) (a5 : FVec Ideal S3x2 .f32) (a6 : FVec Ideal S3x2 .f32) (a7 : FVec Ideal S8 .f32) (a8 : FVec Ideal S8 .f32) (a9 : FVec Ideal S10x8 .f32) (a10 : FVec Ideal S10 .f32)

/-- Row b's eight outputs normalised by the batch statistics. -/
abbrev bnrow (b : Fin 1048576) : Fin 8 → EReal := fun i =>
  Cert.Spec.bn (orow a0 a1 a2 a3 a4 a5 a6 b i) (Cert.Spec.meanR (ocol a0 a1 a2 a3 a4 a5 a6 i)) (Cert.Spec.varR (ocol a0 a1 a2 a3 a4 a5 a6 i)) (a7 (ix1 i)) (a8 (ix1 i))

/-- Row b's three logits. -/
abbrev lrow (b : Fin 1048576) : Fin 3 → EReal :=
  Cert.Spec.logit (bnrow a0 a1 a2 a3 a4 a5 a6 a7 a8 b) (fun q i => a9 (ix2 q i)) (fun q => a10 (ix1 q))

theorem v103_apply (i : Fin 8) (q : Fin 10) : v103 a0 a1 a2 a3 a4 a5 a6 a7 a8 a9 a10 (ix2 i q) = a9 (ix2 q i) := by
  unfold v103; exact transpose_ix2_apply a9 _ i q

theorem v107_apply (b : Fin 1048576) (q : Fin 10) :
    v107 a0 a1 a2 a3 a4 a5 a6 a7 a8 a9 a10 (ix2 b q) = (∑ i : Fin 8, v102 a0 a1 a2 a3 a4 a5 a6 a7 a8 a9 a10 (ix2 b i) * a9 (ix2 q i)) + a10 (ix1 q) := by
  unfold v107 v106 v105 v104
  rw [addf_apply, inDimRowRep_apply, inDimRow_apply]
  refine congrArg (· + a10 (ix1 q)) ?_
  refine (Cert.Lib.PlainDot.dotGeneral_apply (M := 1048576) (K := 8) (N := 10) none .single (v102 a0 a1 a2 a3 a4 a5 a6 a7 a8 a9 a10) (v103 a0 a1 a2 a3 a4 a5 a6 a7 a8 a9 a10) b q).trans ?_
  exact Finset.sum_congr rfl fun i _ => by rw [v103_apply]

theorem v108_apply (b : Fin 1048576) (j : Fin 3) : v108 a0 a1 a2 a3 a4 a5 a6 a7 a8 a9 a10 (ix2 b j) = lrow a0 a1 a2 a3 a4 a5 a6 a7 a8 a9 a10 b j := by
  unfold v108
  refine (slice2_axis1_apply 0 (v107 a0 a1 a2 a3 a4 a5 a6 a7 a8 a9 a10) _ b j (Fin.castLE (by decide) j) (Nat.zero_add _).symm).trans ?_
  rw [v107_apply]
  simp only [v102_apply]
  rfl

theorem v112_apply (b : Fin 1048576) (j : Fin 3) : v112 a0 a1 a2 a3 a4 a5 a6 a7 a8 a9 a10 (ix2 b j) = Cert.Spec.sn (lrow a0 a1 a2 a3 a4 a5 a6 a7 a8 a9 a10 b j) := by
  unfold v112 v111 v110 v109 cst_18
  rw [mulf_apply, hsin_apply, mulf_apply, inDimConst_apply, v108_apply]
  rfl

theorem v114_apply (b : Fin 1048576) (j : Fin 3) :
    v114 a0 a1 a2 a3 a4 a5 a6 a7 a8 a9 a10 (ix2 b j) = Cert.Spec.c1 - Cert.Spec.sn (lrow a0 a1 a2 a3 a4 a5 a6 a7 a8 a9 a10 b j) := by
  unfold v114 v113 cst_19
  rw [subf_apply, inDimConst_apply, v112_apply]

/-- Column k of a [1048576, 3] array cut out and read as a vector. -/
theorem col_apply (X : FVec Ideal S1048576x3 .f32) (o : ℕ) (h : S1048576x3.Slices ![0, o] S1048576x1) (k : Fin 3)
    (hk : k.val = o) (b : Fin 1048576) :
    shapeCast S1048576 (extractStridedSlice S1048576x1 ![0, o] X h) shapeCasts_S1048576x1_S1048576 (ix1 b)
      = X (ix2 b k) := by
  rw [shapeCast_a1_a_apply]
  exact slice2_axis1_apply o X h b 0 k (by rw [hk]; rfl)

theorem v122_apply (b : Fin 1048576) : v122 a0 a1 a2 a3 a4 a5 a6 a7 a8 a9 a10 (ix1 b) = Cert.Spec.res (lrow a0 a1 a2 a3 a4 a5 a6 a7 a8 a9 a10 b) 0 := by
  unfold v122 v121 v120 v119 v118 v117 v116 v115
  rw [mulf_apply, mulf_apply, col_apply _ 0 _ 0 rfl, col_apply _ 1 _ 1 rfl, col_apply _ 2 _ 2 rfl]
  simp only [v114_apply]
  rfl

theorem v130_apply (b : Fin 1048576) : v130 a0 a1 a2 a3 a4 a5 a6 a7 a8 a9 a10 (ix1 b) = Cert.Spec.res (lrow a0 a1 a2 a3 a4 a5 a6 a7 a8 a9 a10 b) 1 := by
  unfold v130 v129 v128 v127 v126 v125 v124 v123
  rw [mulf_apply, mulf_apply, col_apply _ 0 _ 0 rfl, col_apply _ 1 _ 1 rfl, col_apply _ 2 _ 2 rfl]
  simp only [v114_apply, v112_apply]
  rfl

theorem v138_apply (b : Fin 1048576) : v138 a0 a1 a2 a3 a4 a5 a6 a7 a8 a9 a10 (ix1 b) = Cert.Spec.res (lrow a0 a1 a2 a3 a4 a5 a6 a7 a8 a9 a10 b) 2 := by
  unfold v138 v137 v136 v135 v134 v133 v132 v131
  rw [mulf_apply, mulf_apply, col_apply _ 0 _ 0 rfl, col_apply _ 1 _ 1 rfl, col_apply _ 2 _ 2 rfl]
  simp only [v114_apply, v112_apply]
  rfl

/-- Column k of the result is the k-th of the three columns laid side by side. -/
theorem v142_col (b : Fin 1048576) (k : Fin 3) (x : FVec Ideal S1048576x1 .f32)
    (hx : [(⟨S1048576x1, v139 a0 a1 a2 a3 a4 a5 a6 a7 a8 a9 a10⟩ : (s : Shape) × (s.Idx → Ideal .f32)), ⟨S1048576x1, v140 a0 a1 a2 a3 a4 a5 a6 a7 a8 a9 a10⟩,
        ⟨S1048576x1, v141 a0 a1 a2 a3 a4 a5 a6 a7 a8 a9 a10⟩][k.val]'(by have := k.isLt; simpa using this) = ⟨S1048576x1, x⟩) :
    v142 a0 a1 a2 a3 a4 a5 a6 a7 a8 a9 a10 (ix2 b k) = x (ix2 b (0 : Fin 1)) := by
  unfold v142
  refine concatenate_apply_piece _ _ _ (ix2 b k) k.val (by have := k.isLt; simpa using this) S1048576x1 x hx rfl k.val ?_
    (ix2 b (0 : Fin 1)) (fun c hc => ?_) rfl
  · fin_cases k <;> rfl
  · match c with
    | ⟨0, _⟩ => rfl
    | ⟨1, _⟩ => exact absurd rfl hc

/-- The second program's value at (b, j) is the common form's final value of row b, from the row's eight outputs and
    the batch's two-pass mean and variance of each output column. -/
theorem val_apply (b : Fin 1048576) (j : Fin 3) :
    val a0 a1 a2 a3 a4 a5 a6 a7 a8 a9 a10 (ix2 b j)
      = Cert.Spec.fin (orow a0 a1 a2 a3 a4 a5 a6 b) (fun i => Cert.Spec.meanR (fun b' => orow a0 a1 a2 a3 a4 a5 a6 b' i))
          (fun i => Cert.Spec.varR (fun b' => orow a0 a1 a2 a3 a4 a5 a6 b' i))
          (fun i => a7 (ix1 i)) (fun i => a8 (ix1 i)) (fun q i => a9 (ix2 q i)) (fun q => a10 (ix1 q)) j := by
  unfold val
  match j with
  | 0 =>
    refine (v142_col a0 a1 a2 a3 a4 a5 a6 a7 a8 a9 a10 b 0 (v139 a0 a1 a2 a3 a4 a5 a6 a7 a8 a9 a10) rfl).trans ?_
    unfold v139; rw [inDimCol_apply, v122_apply]; rfl
  | 1 =>
    refine (v142_col a0 a1 a2 a3 a4 a5 a6 a7 a8 a9 a10 b 1 (v140 a0 a1 a2 a3 a4 a5 a6 a7 a8 a9 a10) rfl).trans ?_
    unfold v140; rw [inDimCol_apply, v130_apply]; rfl
  | 2 =>
    refine (v142_col a0 a1 a2 a3 a4 a5 a6 a7 a8 a9 a10 b 2 (v141 a0 a1 a2 a3 a4 a5 a6 a7 a8 a9 a10) rfl).trans ?_
    unfold v141; rw [inDimCol_apply, v138_apply]; rfl

end Cert.ReferenceIdeal.RefVal

end
-- ==== Proof.lean ====
/-
  The certificate. The kernel program computes, for every input row, eight "fuzzy rule" outputs — a 10 → 3 linear map,
  a normalisation over the three channels, two Gaussian memberships per channel, and for each of the eight bit patterns
  the product p₀ (1 − p₁)(1 − p₂) of clamped memberships — then normalises the eight columns by their mean and variance
  over the whole batch of 1048576 rows and reads three values out of an 8 → 3 linear map through sin². It does so in two
  passes over x in tiles of 2048 rows: the first pass accumulates ∑ o and ∑ o² over the 512 tiles and ends with
  mean = ∑o · 2⁻²⁰ and var = max(∑o² · 2⁻²⁰ − mean², 0); the second recomputes the rows and finishes. The reference
  computes the same rows once and takes mean = ∑o / 2²⁰ and var = ∑ (o − mean)² / 2²⁰.

  At the ideal instance every step of the row chain is the same extended-real operation on both sides, a change of tiling
  or of the order of a sum changes nothing, and the one law that joins the two is the identity between the one-pass and
  the two-pass variance of REAL numbers — which the row outputs are, whatever the inputs, because each membership passes
  through min(√(q + 1e-16), 0.99999) before it is used. So no precondition is opened.

  The frames: each kernel region's body is run symbolically once per control case (the statistics pass has three: first
  grid point, a middle one, the last), the accumulators being carried by the region's invariant; the reference is a
  straight line of host operations.
-/
import proofs.«142976_j49512382988410_2_alg».proof.Defs
import proofs.«142976_j49512382988410_2_alg».proof.Proof.Gen.Kernel
import proofs.«142976_j49512382988410_2_alg».proof.Proof.Gen.KernelIdeal
import proofs.«142976_j49512382988410_2_alg».proof.Proof.Gen.ReferenceIdeal
import proofs.«142976_j49512382988410_2_alg».proof.Proof.Gen.Pre_finite_inputs
import proofs.«142976_j49512382988410_2_alg».proof.Proof.K.Frame
import proofs.«142976_j49512382988410_2_alg».proof.Proof.KI.ValRun
import proofs.«142976_j49512382988410_2_alg».proof.Proof.Ref.Run
import proofs.«142976_j49512382988410_2_alg».proof.Proof.Ref.Read6
import proofs.«142976_j49512382988410_2_alg».proof.Proof.Alg
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Frame.frame (F := Bits) m ρ

theorem frame_pi : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.RefRun.run m ρ)

/-- The ideal pass rewrote nothing: the idealization is the program's own text read on the extended reals. -/
theorem preserves : Cert.preserves_Kernel_KernelIdeal := trivial

/-- The reference's result, over the kernel program's arguments, is the kernel program's result: the same rows, the same
    read-out, and the batch statistics the one-pass way against the two-pass way — equal because the rows' outputs are
    real numbers. -/
theorem value_eq (m : (ℓ : Loc Cert.KernelIdeal.nD Cert.KernelIdeal.τ Cert.KernelIdeal.sig) → Buf (Elt Ideal) ℓ) (c : Dev Cert.KernelIdeal.nD) :
    Cert.ReferenceIdeal.RefVal.val (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = Cert.KernelIdeal.ValRun.KRes m c := by
  funext y
  obtain ⟨b, j, rfl⟩ : ∃ (b : Fin 1048576) (j : Fin 3), y = ix2 b j := ⟨y 0, y 1, eq_ix2 y⟩
  refine (Cert.ReferenceIdeal.RefVal.val_apply _ _ _ _ _ _ _ _ _ _ _ b j).trans ?_
  unfold Cert.KernelIdeal.ValRun.KRes
  have hM : ∀ i, Cert.Spec.meanK (fun b => Cert.KernelIdeal.ValRun.OK m c b i) = Cert.Spec.meanR (fun b => Cert.KernelIdeal.ValRun.OK m c b i) :=
    fun i => Cert.Alg.meanK_eq _
  have hV : ∀ i, Cert.Spec.varK (fun b => Cert.KernelIdeal.ValRun.OK m c b i) = Cert.Spec.varR (fun b => Cert.KernelIdeal.ValRun.OK m c b i) :=
    fun i => Cert.Alg.varK_eq _ (fun b => Cert.Alg.rowOut_real _ _ _ _ _ _ _ _)
  simp only [hM, hV]
  rfl

theorem algebraic : Cert.algebraic_KernelIdeal_ReferenceIdeal := by
  intro m ρ m' ρ' _ hagree
  refine ⟨fun c => Cert.KernelIdeal.ValRun.KRes m c, Cert.KernelIdeal.ValRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact value_eq m c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
